-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x16 : Shape := ⟨2, ![1000000, 16]⟩
abbrev S2x1000000 : Shape := ⟨2, ![2, 1000000]⟩
abbrev S100000 : Shape := ⟨1, ![100000]⟩
abbrev S80x64 : Shape := ⟨2, ![80, 64]⟩
abbrev S64 : Shape := ⟨1, ![64]⟩
abbrev S64x64 : Shape := ⟨2, ![64, 64]⟩
abbrev S128x64 : Shape := ⟨2, ![128, 64]⟩
abbrev S64x8 : Shape := ⟨2, ![64, 8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64x8 : S_.BroadcastsInDim S64x8 (![] : Fin 0 → Fin S64x8.rank)
  reducesTo_S64x8_S_d0_1 : S64x8.ReducesTo [0, 1] S_

variable [Facts]

def fn_part3 {F : FTy → Type} [FloatOps F] (main_arg13 : FVec F S64 .f32) (main_arg14 : FVec F S64x8 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x8 .f32 := Host.absf main_arg14
  let main_cst_22 : FVec F S_ .f32 := constant S_ .f32 0x7F800000#32
  let main_v60 : FVec F S64x8 .f32 := broadcastInDim S64x8 ![] bcast_S_S64x8 main_cst_22
  let main_v61 : IVec S64x8 1 := cmpf .olt main_v59 main_v60
  let main_c_23 : IVec S_ 1 := constantI S_ 1 1#1
  let main_v62 : IVec S_ 1 := (fun x v => Host.reduce IntOp.andi x v reducesTo_S64x8_S_d0_1 h_S_) main_v61 main_c_23
  let main_v63 : IVec S_ 1 := andi main_v58 main_v62
  main_v63

def fn_part2 {F : FTy → Type} [FloatOps F] (main_arg9 : FVec F S64 .f32) (main_arg10 : FVec F S128x64 .f32) (main_arg11 : FVec F S64 .f32) (main_arg12 : FVec F S64 .f32) (main_arg13 : FVec F S64 .f32) (main_arg14 : FVec F S64x8 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S128x64 .f32) (main_arg11 : FVec F S64 .f32) (main_arg12 : FVec F S64 .f32) (main_arg13 : FVec F S64 .f32) (main_arg14 : FVec F S64x8 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : FVec F S1000000x16 .f32) (main_arg2 : IVec S2x1000000 32) (main_arg3 : IVec S100000 32) (main_arg4 : FVec F S80x64 .f32) (main_arg5 : FVec F S64 .f32) (main_arg6 : FVec F S64x64 .f32) (main_arg7 : FVec F S64 .f32) (main_arg8 : FVec F S64x64 .f32) (main_arg9 : FVec F S64 .f32) (main_arg10 : FVec F S128x64 .f32) (main_arg11 : FVec F S64 .f32) (main_arg12 : FVec F S64 .f32) (main_arg13 : FVec F S64 .f32) (main_arg14 : FVec F S64x8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x16 .f32 := Host.absf main_arg1
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S80x64 .f32 := Host.absf main_arg4
  let main_cst_2 : FVec F S_ .f32 := constant S_ .f32 0x7F800000#32
  let main_v10 : FVec F S80x64 .f32 := broadcastInDim S80x64 ![] bcast_S_S80x64 main_cst_2
  let main_v11 : IVec S80x64 1 := cmpf .olt main_v9 main_v10
  let main_c_3 : IVec S_ 1 := constantI S_ 1 1#1
  let main_v12 : IVec S_ 1 := (fun x v => Host.reduce IntOp.andi x v reducesTo_S80x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S1000000x16 : Shape := ⟨2, ![1000000, 16]⟩
abbrev S2x1000000 : Shape := ⟨2, ![2, 1000000]⟩
abbrev S100000 : Shape := ⟨1, ![100000]⟩
abbrev S80x64 : Shape := ⟨2, ![80, 64]⟩
abbrev S64 : Shape := ⟨1, ![64]⟩
abbrev S64x64 : Shape := ⟨2, ![64, 64]⟩
abbrev S128x64 : Shape := ⟨2, ![128, 64]⟩
abbrev S64x8 : Shape := ⟨2, ![64, 8]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S16x64 : Shape := ⟨2, ![16, 64]⟩
abbrev S1x64 : Shape := ⟨2, ![1, 64]⟩
abbrev S10000x64 : Shape := ⟨2, ![10000, 64]⟩
abbrev S10000x16 : Shape := ⟨2, ![10000, 16]⟩
abbrev S5000x64 : Shape := ⟨2, ![5000, 64]⟩
abbrev S10000 : Shape := ⟨1, ![10000]⟩
abbrev S10000x1 : Shape := ⟨2, ![10000, 1]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1024x8 : Shape := ⟨2, ![1024, 8]⟩

abbrev nBuf : Space → Nat
  | .hbm => 117
  | .vmem => 68
  | .smem => 0
  | _ => 0

abbrev bufTy : (tb : Table) → Fin (tcTables nBuf tb) → BufTy
  | .hbm, ⟨0, _⟩ => ⟨S100000x64, .f32⟩
  | .hbm, ⟨1, _⟩ => ⟨S1000000x16, .f32⟩
  | .hbm, ⟨2, _⟩ => ⟨S2x1000000, .i32⟩
  | .hbm, ⟨3, _⟩ => ⟨S100000, .i32⟩
  | .hbm, ⟨4, _⟩ => ⟨S80x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x8, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x64, .f32⟩
  | .hbm, ⟨28, _⟩ => ⟨S64x64, .f32⟩
  | .hbm, ⟨29, _⟩ => ⟨S16x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1000000x64, .f32⟩
  | .hbm, ⟨34, _⟩ => ⟨S_, .f32⟩
  | .hbm, ⟨35, _⟩ => ⟨S100000x64, .f32⟩
  | .hbm, ⟨36, _⟩ => ⟨S1000000x1, .i32⟩
  | .hbm, ⟨37, _⟩ => ⟨S100000x64, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x64, .f32⟩
  | .hbm, ⟨47, _⟩ => ⟨S1000000x64, .f32⟩
  | .hbm, ⟨48, _⟩ => ⟨S_, .f32⟩
  | .hbm, ⟨49, _⟩ => ⟨S100000x64, .f32⟩
  | .hbm, ⟨50, _⟩ => ⟨S1000000x1, .i32⟩
  | .hbm, ⟨51, _⟩ => ⟨S100000x64, .f32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x64, .f32⟩
  | .hbm, ⟨61, _⟩ => ⟨S1000000x64, .f32⟩
  | .hbm, ⟨62, _⟩ => ⟨S_, .f32⟩
  | .hbm, ⟨63, _⟩ => ⟨S100000x64, .f32⟩
  | .hbm, ⟨64, _⟩ => ⟨S1000000x1, .i32⟩
  | .hbm, ⟨65, _⟩ => ⟨S100000x64, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x64, .f32⟩
  | .hbm, ⟨75, _⟩ => ⟨S1000000x64, .f32⟩
  | .hbm, ⟨76, _⟩ => ⟨S_, .f32⟩
  | .hbm, ⟨77, _⟩ => ⟨S100000x64, .f32⟩
  | .hbm, ⟨78, _⟩ => ⟨S1000000x1, .i32⟩
  | .hbm, ⟨79, _⟩ => ⟨S100000x64, .f32⟩
  | .hbm, ⟨80, _⟩ => ⟨S_, .i32⟩
  | .hbm, ⟨81, _⟩ => ⟨S1000000, .i32⟩
  | .hbm, ⟨82, _⟩ => ⟨S1000000, .i1⟩
  | .hbm, ⟨83, _⟩ => ⟨S_, .i32⟩
  | .hbm, ⟨84, _⟩ => ⟨S1000000, .i32⟩
  | .hbm, ⟨85, _⟩ => ⟨S1000000, .i32⟩
  | .hbm, ⟨86, _⟩ => ⟨S1000000, .i32⟩
  | .hbm, ⟨87, _⟩ => ⟨S1000000x1, .i32⟩
  | .hbm, ⟨88, _⟩ => ⟨S1000000x64, .f32⟩
  | .hbm, ⟨89, _⟩ => ⟨S1000000x64, .f32⟩
  | .hbm, ⟨90, _⟩ => ⟨S_, .f32⟩
  | .hbm, ⟨91, _⟩ => ⟨S100000x64, .f32⟩
  | .hbm, ⟨92, _⟩ => ⟨S1000000x1, .i32⟩
  | .hbm, ⟨93, _⟩ => ⟨S100000x64, .f32⟩
  | .hbm, ⟨94, _⟩ => ⟨S64x64, .f32⟩
  | .hbm, ⟨95, _⟩ => ⟨S64x64, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S100000x64, .f32⟩
  | .hbm, ⟨100, _⟩ => ⟨S_, .f32⟩
  | .hbm, ⟨101, _⟩ => ⟨S1024x64, .f32⟩
  | .hbm, ⟨102, _⟩ => ⟨S100000x1, .i32⟩
  | .hbm, ⟨103, _⟩ => ⟨S1024x64, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S1024, .f32⟩
  | .hbm, ⟨108, _⟩ => ⟨S100000x1, .i32⟩
  | .hbm, ⟨109, _⟩ => ⟨S1024, .f32⟩
  | .hbm, ⟨110, _⟩ => ⟨S_, .f32⟩
  | .hbm, ⟨111, _⟩ => ⟨S1024, .f32⟩
  | .hbm, ⟨112, _⟩ => ⟨S1024, .f32⟩
  | .hbm, ⟨113, _⟩ => ⟨S1024x1, .f32⟩
  | .hbm, ⟨114, _⟩ => ⟨S1024x64, .f32⟩
  | .hbm, ⟨115, _⟩ => ⟨S1024x64, .f32⟩
  | .hbm, ⟨116, _⟩ => ⟨S1024x8, .f32⟩
  | .local _ .vmem, ⟨0, _⟩ => ⟨S10000x64, .f32⟩
  | .local _ .vmem, ⟨1, _⟩ => ⟨S10000x64, .f32⟩
  | .local _ .vmem, ⟨2, _⟩ => ⟨S10000x16, .f32⟩
  | .local _ .vmem, ⟨3, _⟩ => ⟨S10000x16, .f32⟩
  | .local _ .vmem, ⟨4, _⟩ => ⟨S64x64, .f32⟩
  | .local _ .vmem, ⟨5, _⟩ => ⟨S16x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64x64, .f32⟩
  | .local _ .vmem, ⟨28, _⟩ => ⟨S1x64, .f32⟩
  | .local _ .vmem, ⟨29, _⟩ => ⟨S64x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S64x64, .f32⟩
  | .local _ .vmem, ⟨40, _⟩ => ⟨S1x64, .f32⟩
  | .local _ .vmem, ⟨41, _⟩ => ⟨S64x64, .f32⟩
  | .local _ .vmem, ⟨42, _⟩ => ⟨S1x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S64x64, .f32⟩
  | .local _ .vmem, ⟨52, _⟩ => ⟨S1x64, .f32⟩
  | .local _ .vmem, ⟨53, _⟩ => ⟨S64x64, .f32⟩
  | .local _ .vmem, ⟨54, _⟩ => ⟨S1x64, .f32⟩
  | .local _ .vmem, ⟨55, _⟩ => ⟨S5000x64, .f32⟩
  | .local _ .vmem, ⟨56, _⟩ => ⟨S5000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S64x64, .f32⟩
  | .local _ .vmem, ⟨62, _⟩ => ⟨S64x64, .f32⟩
  | .local _ .vmem, ⟨63, _⟩ => ⟨S1x64, .f32⟩
  | .local _ .vmem, ⟨64, _⟩ => ⟨S1x64, .f32⟩
  | .local _ .vmem, ⟨65, _⟩ => ⟨S1x64, .f32⟩
  | .local _ .vmem, ⟨66, _⟩ => ⟨S10000x64, .f32⟩
  | .local _ .vmem, ⟨67, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_7 : Ref sig .tc := ⟨.hbm, 66, rfl⟩
abbrev main_v42 : Ref sig .tc := ⟨.hbm, 67, rfl⟩
abbrev main_v43 : Ref sig .tc := ⟨.hbm, 68, rfl⟩
abbrev main_c_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg7_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg7_1 : Ref sig .tc := ⟨.vmem, 56, rfl⟩
abbrev cc5_stg0_0 : Ref sig .tc := ⟨.vmem, 57, rfl⟩
abbrev cc5_stg0_1 : Ref sig .tc := ⟨.vmem, 58, rfl⟩
abbrev cc5_stg1_0 : Ref sig .tc := ⟨.vmem, 59, rfl⟩
abbrev cc5_stg1_1 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg6_0 : Ref sig .tc := ⟨.vmem, 65, rfl⟩
abbrev cc5_stg7_0 : Ref sig .tc := ⟨.vmem, 66, rfl⟩
abbrev cc5_stg7_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem7_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem2_1 : DmaSem sig := 50
abbrev cc4_sem3_0 : DmaSem sig := 51
abbrev cc4_sem4_0 : DmaSem sig := 52
abbrev cc4_sem5_0 : DmaSem sig := 53
abbrev cc4_sem6_0 : DmaSem sig := 54
abbrev cc4_sem7_0 : DmaSem sig := 55
abbrev cc4_sem7_1 : DmaSem sig := 56
abbrev cc5_sem0_0 : DmaSem sig := 57
abbrev cc5_sem0_1 : DmaSem sig := 58
abbrev cc5_sem1_0 : DmaSem sig := 59
abbrev cc5_sem1_1 : DmaSem sig := 60
abbrev cc5_sem2_0 : DmaSem sig := 61
abbrev cc5_sem3_0 : DmaSem sig := 62
abbrev cc5_sem4_0 : DmaSem sig := 63
abbrev cc5_sem5_0 : DmaSem sig := 64
abbrev cc5_sem6_0 : DmaSem sig := 65
abbrev cc5_sem7_0 : DmaSem sig := 66
abbrev cc5_sem7_1 : DmaSem sig := 67

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S10000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S80x64_S64x64_0_0 : S80x64.Slices ![0, 0] S64x64
  slices_S80x64_S16x64_64_0 : S80x64.Slices ![64, 0] S16x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  slices_S128x64_S64x64_0_0 : S128x64.Slices ![0, 0] S64x64
  slices_S128x64_S64x64_64_0 : S128x64.Slices ![64, 0] S64x64
  reduces_S10000x64_S10000 : S10000x64.Reduces [1] S10000
  shapeCasts_S10000_S10000x1 : S10000.ShapeCasts S10000x1
  broadcasts_S10000x1_S10000x64 : S10000x1.Broadcasts S10000x64
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  gather_S100000x64_S1000000x1_S1000000x64_1_0_n_n_0_1_164_wf : GatherDims.WF S100000x64 S1000000x1 S1000000x64 [1] [0] [] [0] [] 1 ![1, 64]
  dot_S10000x64_S64x64_S10000x64_1_0_0_1_n_n_wf : DotDims.WF S10000x64 S64x64 S10000x64 [1] [0] [0] [1] [] []
  dot_S10000x16_S16x64_S10000x64_1_0_0_1_n_n_wf : DotDims.WF S10000x16 S16x64 S10000x64 [1] [0] [0] [1] [] []
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x8_S1024x8_1_0_0_1_n_n_wf : DotDims.WF S1024x64 S64x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S1000000x16.size a
  hwx0_1 : ∀ i : grid0.Coords, EltTy.bits .f32 = 32 ∨ (Rect.block (s := S1000000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1000000x64.size a
  hwx0_5 : ∀ i : grid0.Coords, EltTy.bits .f32 = 32 ∨ (Rect.block (s := S1000000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1000000x64.size a
  hwx1_0 : ∀ i : grid1.Coords, EltTy.bits .f32 = 32 ∨ (Rect.block (s := S1000000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1000000x64.size a
  hwx1_1 : ∀ i : grid1.Coords, EltTy.bits .f32 = 32 ∨ (Rect.block (s := S1000000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S1000000x64.size a
  hwx1_2 : ∀ i : grid1.Coords, EltTy.bits .f32 = 32 ∨ (Rect.block (s := S1000000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S1000000x64.size a
  hwx1_7 : ∀ i : grid1.Coords, EltTy.bits .f32 = 32 ∨ (Rect.block (s := S1000000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S1000000x64.size a
  hwx2_0 : ∀ i : grid2.Coords, EltTy.bits .f32 = 32 ∨ (Rect.block (s := S1000000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S1000000x64.size a
  hwx2_1 : ∀ i : grid2.Coords, EltTy.bits .f32 = 32 ∨ (Rect.block (s := S1000000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S1000000x64.size a
  hwx2_2 : ∀ i : grid2.Coords, EltTy.bits .f32 = 32 ∨ (Rect.block (s := S1000000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S1000000x64.size a
  hwx2_7 : ∀ i : grid2.Coords, EltTy.bits .f32 = 32 ∨ (Rect.block (s := S1000000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S1000000x64.size a
  hwx3_0 : ∀ i : grid3.Coords, EltTy.bits .f32 = 32 ∨ (Rect.block (s := S1000000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S1000000x64.size a
  hwx3_1 : ∀ i : grid3.Coords, EltTy.bits .f32 = 32 ∨ (Rect.block (s := S1000000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S1000000x64.size a
  hwx3_2 : ∀ i : grid3.Coords, EltTy.bits .f32 = 32 ∨ (Rect.block (s := S1000000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S1000000x64.size a
  hwx3_7 : ∀ i : grid3.Coords, EltTy.bits .f32 = 32 ∨ (Rect.block (s := S1000000x64) S5000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S1000000x64.size a
  hwx4_0 : ∀ i : grid4.Coords, EltTy.bits .f32 = 32 ∨ (Rect.block (s := S1000000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S1000000x64.size a
  hwx4_1 : ∀ i : grid4.Coords, EltTy.bits .f32 = 32 ∨ (Rect.block (s := S1000000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S1000000x64.size a
  hwx4_2 : ∀ i : grid4.Coords, EltTy.bits .f32 = 32 ∨ (Rect.block (s := S1000000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S1000000x64.size a
  hwx4_7 : ∀ i : grid4.Coords, EltTy.bits .f32 = 32 ∨ (Rect.block (s := S1000000x64) S5000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S10000x64.size a ≤ S100000x64.size a
  hwx5_7 : ∀ i : grid5.Coords, EltTy.bits .f32 = 32 ∨ (Rect.block (s := S100000x64) S10000x64.size (cc5_transform_7 i) (hinb5_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf

abbrev win0_0 : Pipeline.Window sig grid0 :=
  Pipeline.Window.ofSpec (Memref.whole main_v10) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v16) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v38) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v16) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v14) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v15) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v49) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v16) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg6) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v14) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg8) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v15) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v60) S5000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_arg0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v64) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v65) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v66) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v67) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v68) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v69) S10000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x64 : Shape := ⟨2, ![100000, 64]⟩
abbrev S1000000x16 : Shape := ⟨2, ![1000000, 16]⟩
abbrev S2x1000000 : Shape := ⟨2, ![2, 1000000]⟩
abbrev S100000 : Shape := ⟨1, ![100000]⟩
abbrev S80x64 : Shape := ⟨2, ![80, 64]⟩
abbrev S64 : Shape := ⟨1, ![64]⟩
abbrev S64x64 : Shape := ⟨2, ![64, 64]⟩
abbrev S128x64 : Shape := ⟨2, ![128, 64]⟩
abbrev S64x8 : Shape := ⟨2, ![64, 8]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x80 : Shape := ⟨2, ![1000000, 80]⟩
abbrev S1x64 : Shape := ⟨2, ![1, 64]⟩
abbrev S100000x128 : Shape := ⟨2, ![100000, 128]⟩
abbrev S100000x1 : Shape := ⟨2, ![100000, 1]⟩
abbrev S1024x64 : Shape := ⟨2, ![1024, 64]⟩
abbrev S1024 : Shape := ⟨1, ![1024]⟩
abbrev S1024x1 : Shape := ⟨2, ![1024, 1]⟩
abbrev S1024x8 : Shape := ⟨2, ![1024, 8]⟩

abbrev nBuf : Space → Nat
  | .hbm => 228
  | .vmem => 0
  | .smem => 0
  | _ => 0

abbrev hbmTy0_0 (i : Nat) : BufTy := match i % 128 with
  | 0 => ⟨S100000x64, .f32⟩
  | 1 => ⟨S1000000x16, .f32⟩
  | 2 => ⟨S2x1000000, .i32⟩
  | 3 => ⟨S100000, .i32⟩
  | 4 => ⟨S80x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S64, .f32⟩
  | 13 => ⟨S64, .f32⟩
  | 14 => ⟨S64x8, .f32⟩
  | 15 => ⟨S1x1000000, .i32⟩
  | 16 => ⟨S1000000, .i32⟩
  | 17 => ⟨S1x1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x64, .f32⟩
  | 28 => ⟨S1000000x80, .f32⟩
  | 29 => ⟨S1000000x64, .f32⟩
  | 30 => ⟨S1x64, .f32⟩
  | 31 => ⟨S1000000x64, .f32⟩
  | 32 => ⟨S1000000x64, .f32⟩
  | 33 => ⟨S_, .f32⟩
  | 34 => ⟨S1000000x64, .f32⟩
  | 35 => ⟨S1000000x64, .f32⟩
  | 36 => ⟨S_, .f32⟩
  | 37 => ⟨S100000x64, .f32⟩
  | 38 => ⟨S1000000x1, .i32⟩
  | 39 => ⟨S100000x64, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000x64, .f32⟩
  | 49 => ⟨S1000000x64, .f32⟩
  | 50 => ⟨S1000000x64, .f32⟩
  | 51 => ⟨S1x64, .f32⟩
  | 52 => ⟨S1000000x64, .f32⟩
  | 53 => ⟨S1000000x64, .f32⟩
  | 54 => ⟨S_, .f32⟩
  | 55 => ⟨S1000000x64, .f32⟩
  | 56 => ⟨S1000000x64, .f32⟩
  | 57 => ⟨S1000000x64, .f32⟩
  | 58 => ⟨S1000000x64, .f32⟩
  | 59 => ⟨S1x64, .f32⟩
  | 60 => ⟨S1000000x64, .f32⟩
  | 61 => ⟨S1000000x64, .f32⟩
  | 62 => ⟨S_, .f32⟩
  | 63 => ⟨S1000000x64, .f32⟩
  | 64 => ⟨S1000000x64, .f32⟩
  | 65 => ⟨S_, .f32⟩
  | 66 => ⟨S100000x64, .f32⟩
  | 67 => ⟨S1000000x1, .i32⟩
  | 68 => ⟨S100000x64, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000x64, .f32⟩
  | 78 => ⟨S1000000x64, .f32⟩
  | 79 => ⟨S1000000x64, .f32⟩
  | 80 => ⟨S1x64, .f32⟩
  | 81 => ⟨S1000000x64, .f32⟩
  | 82 => ⟨S1000000x64, .f32⟩
  | 83 => ⟨S_, .f32⟩
  | 84 => ⟨S1000000x64, .f32⟩
  | 85 => ⟨S1000000x64, .f32⟩
  | 86 => ⟨S1000000x64, .f32⟩
  | 87 => ⟨S1000000x64, .f32⟩
  | 88 => ⟨S1x64, .f32⟩
  | 89 => ⟨S1000000x64, .f32⟩
  | 90 => ⟨S1000000x64, .f32⟩
  | 91 => ⟨S_, .f32⟩
  | 92 => ⟨S1000000x64, .f32⟩
  | 93 => ⟨S1000000x64, .f32⟩
  | 94 => ⟨S_, .f32⟩
  | 95 => ⟨S100000x64, .f32⟩
  | 96 => ⟨S1000000x1, .i32⟩
  | 97 => ⟨S100000x64, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x64, .f32⟩
  | 107 => ⟨S1000000x64, .f32⟩
  | 108 => ⟨S1000000x64, .f32⟩
  | 109 => ⟨S1x64, .f32⟩
  | 110 => ⟨S1000000x64, .f32⟩
  | 111 => ⟨S1000000x64, .f32⟩
  | 112 => ⟨S_, .f32⟩
  | 113 => ⟨S1000000x64, .f32⟩
  | 114 => ⟨S1000000x64, .f32⟩
  | 115 => ⟨S1000000x64, .f32⟩
  | 116 => ⟨S1000000x64, .f32⟩
  | 117 => ⟨S1x64, .f32⟩
  | 118 => ⟨S1000000x64, .f32⟩
  | 119 => ⟨S1000000x64, .f32⟩
  | 120 => ⟨S_, .f32⟩
  | 121 => ⟨S1000000x64, .f32⟩
  | 122 => ⟨S1000000x64, .f32⟩
  | 123 => ⟨S_, .f32⟩
  | 124 => ⟨S100000x64, .f32⟩
  | 125 => ⟨S1000000x1, .i32⟩
  | 126 => ⟨S100000x64, .f32⟩
  | 127 => ⟨S_, .i32⟩
  | _ => ⟨S100000x64, .f32⟩

abbrev hbmTy0_1 (i : Nat) : BufTy := match i % 128 with
  | 0 => ⟨S1000000, .i32⟩
  | 1 => ⟨S1000000, .i1⟩
  | 2 => ⟨S_, .i32⟩
  | 3 => ⟨S1000000, .i32⟩
  | 4 => ⟨S1000000, .i32⟩
  | 5 => ⟨S1000000, .i32⟩
  | 6 => ⟨S1000000x1, .i32⟩
  | 7 => ⟨S1000000x64, .f32⟩
  | 8 => ⟨S1000000x64, .f32⟩
  | 9 => ⟨S1000000x64, .f32⟩
  | 10 => ⟨S1x64, .f32⟩
  | 11 => ⟨S1000000x64, .f32⟩
  | 12 => ⟨S1000000x64, .f32⟩
  | 13 => ⟨S_, .f32⟩
  | 14 => ⟨S1000000x64, .f32⟩
  | 15 => ⟨S1000000x64, .f32⟩
  | 16 => ⟨S1000000x64, .f32⟩
  | 17 => ⟨S1000000x64, .f32⟩
  | 18 => ⟨S1x64, .f32⟩
  | 19 => ⟨S1000000x64, .f32⟩
  | 20 => ⟨S1000000x64, .f32⟩
  | 21 => ⟨S_, .f32⟩
  | 22 => ⟨S1000000x64, .f32⟩
  | 23 => ⟨S1000000x64, .f32⟩
  | 24 => ⟨S_, .f32⟩
  | 25 => ⟨S100000x64, .f32⟩
  | 26 => ⟨S1000000x1, .i32⟩
  | 27 => ⟨S100000x64, .f32⟩
  | 28 => ⟨S100000x128, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S_, .f32⟩
  | 37 => ⟨S100000, .f32⟩
  | 38 => ⟨S100000x1, .f32⟩
  | 39 => ⟨S_, .f32⟩
  | 40 => ⟨S100000x1, .f32⟩
  | 41 => ⟨S100000x1, .f32⟩
  | 42 => ⟨S_, .i32⟩
  | 43 => ⟨S_, .f32⟩
  | 44 => ⟨S100000, .f32⟩
  | 45 => ⟨S100000x1, .f32⟩
  | 46 => ⟨S_, .f32⟩
  | 47 => ⟨S100000x1, .f32⟩
  | 48 => ⟨S100000x1, .f32⟩
  | 49 => ⟨S100000x64, .f32⟩
  | 50 => ⟨S100000x64, .f32⟩
  | 51 => ⟨S100000x64, .f32⟩
  | 52 => ⟨S_, .f32⟩
  | 53 => ⟨S_, .f32⟩
  | 54 => ⟨S_, .f32⟩
  | 55 => ⟨S_, .f32⟩
  | 56 => ⟨S100000, .f32⟩
  | 57 => ⟨S100000x1, .f32⟩
  | 58 => ⟨S100000x1, .f32⟩
  | 59 => ⟨S100000x1, .f32⟩
  | 60 => ⟨S_, .f32⟩
  | 61 => ⟨S_, .i1⟩
  | 62 => ⟨S_, .f32⟩
  | 63 => ⟨S_, .f32⟩
  | 64 => ⟨S100000x1, .f32⟩
  | 65 => ⟨S100000x1, .f32⟩
  | 66 => ⟨S100000x64, .f32⟩
  | 67 => ⟨S100000x64, .f32⟩
  | 68 => ⟨S_, .f32⟩
  | 69 => ⟨S100000x1, .f32⟩
  | 70 => ⟨S100000x1, .f32⟩
  | 71 => ⟨S100000x1, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S_, .f32⟩
  | 84 => ⟨S1024x64, .f32⟩
  | 85 => ⟨S100000x1, .i32⟩
  | 86 => ⟨S1024x64, .f32⟩
  | 87 => ⟨S_, .f32⟩
  | 88 => ⟨S100000, .f32⟩
  | 89 => ⟨S_, .f32⟩
  | 90 => ⟨S1024, .f32⟩
  | 91 => ⟨S100000x1, .i32⟩
  | 92 => ⟨S1024, .f32⟩
  | 93 => ⟨S_, .f32⟩
  | 94 => ⟨S1024, .f32⟩
  | 95 => ⟨S1024, .f32⟩
  | 96 => ⟨S1024x1, .f32⟩
  | 97 => ⟨S1024x64, .f32⟩
  | 98 => ⟨S1024x64, .f32⟩
  | 99 => ⟨S1024x8, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call0_cst : Ref sig .tc := ⟨.hbm, 33, rfl⟩
abbrev main_call0_v0 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_1 : Ref sig .tc := ⟨.hbm, 40, rfl⟩
abbrev main_v20 : Ref sig .tc := ⟨.hbm, 41, rfl⟩
abbrev main_v21 : Ref sig .tc := ⟨.hbm, 42, rfl⟩
abbrev main_c_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_cst : Ref sig .tc := ⟨.hbm, 54, rfl⟩
abbrev main_call1_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call2_cst : Ref sig .tc := ⟨.hbm, 62, rfl⟩
abbrev main_call2_v0 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_4 : Ref sig .tc := ⟨.hbm, 69, rfl⟩
abbrev main_v42 : Ref sig .tc := ⟨.hbm, 70, rfl⟩
abbrev main_v43 : Ref sig .tc := ⟨.hbm, 71, rfl⟩
abbrev main_c_5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call3_cst : Ref sig .tc := ⟨.hbm, 83, rfl⟩
abbrev main_call3_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call4_cst : Ref sig .tc := ⟨.hbm, 91, rfl⟩
abbrev main_call4_v0 : Ref sig .tc := ⟨.hbm, 92, rfl⟩
abbrev main_v60 : Ref sig .tc := ⟨.hbm, 93, rfl⟩
abbrev main_cst_6 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_7 : Ref sig .tc := ⟨.hbm, 98, rfl⟩
abbrev main_v64 : Ref sig .tc := ⟨.hbm, 99, rfl⟩
abbrev main_v65 : Ref sig .tc := ⟨.hbm, 100, rfl⟩
abbrev main_c_8 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_call5_cst : Ref sig .tc := ⟨.hbm, 112, rfl⟩
abbrev main_call5_v0 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_call6_cst : Ref sig .tc := ⟨.hbm, 120, rfl⟩
abbrev main_call6_v0 : Ref sig .tc := ⟨.hbm, 121, rfl⟩
abbrev main_v82 : Ref sig .tc := ⟨.hbm, 122, rfl⟩
abbrev main_cst_9 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_10 : Ref sig .tc := ⟨.hbm, 127, rfl⟩
abbrev main_v86 : Ref sig .tc := ⟨.hbm, 128, rfl⟩
abbrev main_v87 : Ref sig .tc := ⟨.hbm, 129, rfl⟩
abbrev main_c_11 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_call7_cst : Ref sig .tc := ⟨.hbm, 141, rfl⟩
abbrev main_call7_v0 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_call8_cst : Ref sig .tc := ⟨.hbm, 149, rfl⟩
abbrev main_call8_v0 : Ref sig .tc := ⟨.hbm, 150, rfl⟩
abbrev main_v104 : Ref sig .tc := ⟨.hbm, 151, rfl⟩
abbrev main_cst_12 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_call9_cst : Ref sig .tc := ⟨.hbm, 161, rfl⟩
abbrev main_call9_v0 : Ref sig .tc := ⟨.hbm, 162, rfl⟩
abbrev main_v113 : Ref sig .tc := ⟨.hbm, 163, rfl⟩
abbrev main_cst_13 : Ref sig .tc := ⟨.hbm, 164, rfl⟩
abbrev main_v114 : Ref sig .tc := ⟨.hbm, 165, rfl⟩
abbrev main_v115 : Ref sig .tc := ⟨.hbm, 166, rfl⟩
abbrev main_cst_14 : Ref sig .tc := ⟨.hbm, 167, rfl⟩
abbrev main_v116 : Ref sig .tc := ⟨.hbm, 168, rfl⟩
abbrev main_v117 : Ref sig .tc := ⟨.hbm, 169, rfl⟩
abbrev main_c_15 : Ref sig .tc := ⟨.hbm, 170, rfl⟩
abbrev main_call10_cst : Ref sig .tc := ⟨.hbm, 171, rfl⟩
abbrev main_call10_v0 : Ref sig .tc := ⟨.hbm, 172, rfl⟩
abbrev main_call10_v1 : Ref sig .tc := ⟨.hbm, 173, rfl⟩
abbrev main_call10_cst_0 : Ref sig .tc := ⟨.hbm, 174, rfl⟩
abbrev main_call10_v2 : Ref sig .tc := ⟨.hbm, 175, rfl⟩
abbrev main_call10_v3 : Ref sig .tc := ⟨.hbm, 176, rfl⟩
abbrev main_call10_v4 : Ref sig .tc := ⟨.hbm, 177, rfl⟩
abbrev main_call10_v5 : Ref sig .tc := ⟨.hbm, 178, rfl⟩
abbrev main_call10_v6 : Ref sig .tc := ⟨.hbm, 179, rfl⟩
abbrev main_call10_v7 : Ref sig .tc := ⟨.hbm, 180, rfl⟩
abbrev main_call10_cst_1 : Ref sig .tc := ⟨.hbm, 181, rfl⟩
abbrev main_call10_v8 : Ref sig .tc := ⟨.hbm, 182, rfl⟩
abbrev main_call10_cst_2 : Ref sig .tc := ⟨.hbm, 183, rfl⟩
abbrev main_call10_v9 : Ref sig .tc := ⟨.hbm, 184, rfl⟩
abbrev main_call10_v10 : Ref sig .tc := ⟨.hbm, 185, rfl⟩
abbrev main_call10_v11 : Ref sig .tc := ⟨.hbm, 186, rfl⟩
abbrev main_call10_v12 : Ref sig .tc := ⟨.hbm, 187, rfl⟩
abbrev main_call10_cst_3 : Ref sig .tc := ⟨.hbm, 188, rfl⟩
abbrev main_call10_v13 : Ref sig .tc := ⟨.hbm, 189, rfl⟩
abbrev main_call10_cst_4 : Ref sig .tc := ⟨.hbm, 190, rfl⟩
abbrev main_call10_call0_v0 : Ref sig .tc := ⟨.hbm, 191, rfl⟩
abbrev main_call10_call0_v1 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_cst_16 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_call11_cst : Ref sig .tc := ⟨.hbm, 208, rfl⟩
abbrev main_call11_v0 : Ref sig .tc := ⟨.hbm, 209, rfl⟩
abbrev main_v132 : Ref sig .tc := ⟨.hbm, 210, rfl⟩
abbrev main_cst_17 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_18 : Ref sig .tc := ⟨.hbm, 215, rfl⟩
abbrev main_v136 : Ref sig .tc := ⟨.hbm, 216, rfl⟩
abbrev main_cst_19 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_cst_20 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x16_S1000000x80_d1 : Shape.Concatenates [S1000000x64, S1000000x16] S1000000x80 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S1024x64 : S_.BroadcastsInDim S1024x64 (![] : Fin 0 → Fin S1024x64.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  gather_S100000x64_S1000000x1_S1000000x64_1_0_n_n_0_1_164_wf : GatherDims.WF S100000x64 S1000000x1 S1000000x64 [1] [0] [] [0] [] 1 ![1, 64]
  dot_S1000000x80_S80x64_S1000000x64_1_0_0_1_n_n_wf : DotDims.WF S1000000x80 S80x64 S1000000x64 [1] [0] [0] [1] [] []
  scatter_S100000x64_S1000000x1_S1000000x64_1_0_0_1_wf : ScatterDims.WF S100000x64 S1000000x1 S1000000x64 [1] [0] [0] 1
  dot_S1000000x64_S64x64_S1000000x64_1_0_0_1_n_n_wf : DotDims.WF S1000000x64 S64x64 S1000000x64 [1] [0] [0] [1] [] []
  dot_S100000x128_S128x64_S100000x64_1_0_0_1_n_n_wf : DotDims.WF S100000x128 S128x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x8_S1024x8_1_0_0_1_n_n_wf : DotDims.WF S1024x64 S64x8 S1024x8 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x80_S80x64_S1000000x64_1_0_0_1_n_n : DotDims S1000000x80 S80x64 S1000000x64 where
  lhsContracting := [1]
  rhsContracting := [0]
  lhsNonContracting := [0]
  rhsNonContracting := [1]
  lhsBatch := []
  rhsBatch := []
  wf := dot_S1000000x80_S80x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf

class Facts : Prop extends Facts₀ where

variable [Facts]
-- ==== Proof.K.Region0.lean ====
import proofs.«120260_j56453050139301_2_alg».proof.Proof.Gen.Kernel.Launch
import proofs.«120260_j56453050139301_2_alg».proof.Proof.Gen.Kernel.Skeleton
import proofs.«120260_j56453050139301_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 of the program: the kernel `cc0__edge_init_kernel` on the staged blocks, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched window's block index has not
    moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: an unfetched window's block index has not
    moved since the point that fetched it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: an unfetched window's block index has not
    moved since the point that fetched it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: an unfetched window's block index has not
    moved since the point that fetched it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: an unfetched window's block index has not
    moved since the point that fetched it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole block -/

abbrev r0_0 : Rect S10000x64 := Rect.unit (s := S10000x64) ![0, 0] S10000x64.size inb_S10000x64_S10000x64_0_0
abbrev r0_1 : Rect S10000x16 := Rect.unit (s := S10000x16) ![0, 0] S10000x16.size inb_S10000x16_S10000x16_0_0
abbrev r0_2 : Rect S64x64 := Rect.unit (s := S64x64) ![0, 0] S64x64.size inb_S64x64_S64x64_0_0
abbrev r0_3 : Rect S16x64 := Rect.unit (s := S16x64) ![0, 0] S16x64.size inb_S16x64_S16x64_0_0
abbrev r0_4 : Rect S1x64 := Rect.unit (s := S1x64) ![0, 0] S1x64.size inb_S1x64_S1x64_0_0

/-! ## What the body leaves in the output window's buffer -/

/-- Window 5's staging buffer after the body, from the input windows' blocks: the one whole-block store of the
    kernel's payload over the loaded blocks. -/
def out0_5 (x0 : Vec F S10000x64 .f32) (x1 : Vec F S10000x16 .f32) (x2 : Vec F S64x64 .f32) (x3 : Vec F S16x64 .f32) (x4 : Vec F S1x64 .f32) : Vec F S10000x64 .f32 :=
  View.canon [⟨r0_0, k0_pay1 (View.ld x0 r0_0) (View.ld x1 r0_1) (View.ld x2 r0_2) (View.ld x3 r0_3) (View.ld x4 r0_4)⟩]

/-- The one store is the whole block, so it covers the buffer. -/
theorem cover0_5 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel0 (c : Dev nD) (E : Set ℕ) (i : grid0.Coords) (arg1 : Memref sig .tc .vmem S10000x64 .f32) (harg1 : arg1.IsWhole) (arg2 : Memref sig .tc .vmem S10000x16 .f32) (harg2 : arg2.IsWhole) (arg3 : Memref sig .tc .vmem S64x64 .f32) (harg3 : arg3.IsWhole) (arg4 : Memref sig .tc .vmem S16x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x16 .f32) (x2 : Vec F S64x64 .f32) (x3 : Vec F S16x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__edge_init_kernel i arg1 harg1 arg2 harg2 arg3 harg3 arg4 harg4 arg5 harg5 arg6 harg6) K := by
  simp only [cc0__edge_init_kernel_eq_skeleton]; unfold cc0__edge_init_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them (`V`); after the body at point
    `t` each input's buffer at its block and the output's at `out0_5` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- The class-A half of region 1 of @main (custom_call 1, the kernel function `cc1__step_kernel`, pipeline 1),
   at a parameter `V`: the TensorCore's buffer contents when the region is entered. Each window's block at a grid
   point, what the body's one whole-block store leaves in the output window's staging buffer, the body's triple, the
   pipeline's proof data, and the body obligation at every point. -/
import proofs.«120260_j56453050139301_2_alg».proof.Proof.Gen.Kernel.Launch
import proofs.«120260_j56453050139301_2_alg».proof.Proof.Gen.Kernel.Skeleton
import proofs.«120260_j56453050139301_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_a : Rect S5000x64 := Rect.unit (s := S5000x64) ![0, 0] S5000x64.size inb_S5000x64_S5000x64_0_0
abbrev r1_b : Rect S64x64 := Rect.unit (s := S64x64) ![0, 0] S64x64.size inb_S64x64_S64x64_0_0
abbrev r1_c : Rect S1x64 := Rect.unit (s := S1x64) ![0, 0] S1x64.size inb_S1x64_S1x64_0_0

/-! ## What the body leaves in the output window's buffer -/

/-- Window 7's staging buffer after the body, from the input windows' blocks: its one store as a piece over the whole
    block, the payload the residual update `max (h + (relu ((hnode_g - h)·W₁ + b₁))·W₂ + b₂) 0` of the loaded blocks. -/
def out1_7 (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) : Vec F S5000x64 .f32 :=
  View.canon [⟨r1_a, k1_pay1 (View.ld x0 r1_a) (View.ld x1 r1_a) (View.ld x2 r1_a) (View.ld x3 r1_b) (View.ld x4 r1_c) (View.ld x5 r1_b) (View.ld x6 r1_c)⟩]

/-- The one store tiles the buffer, so it covers it. -/
theorem cover1_7 (p0 : Vec F S5000x64 .f32) (y : S5000x64.Idx) :
    ∃ pc ∈ ([⟨r1_a, p0⟩] : List (View.Piece (Elt F) S5000x64 .f32)), y ∈ pc.1.set :=
  View.cover_of_tiled [⟨r1_a, p0⟩] S5000x64.size (by rfl) y

/-! ## The body's triple -/

set_option maxHeartbeats 1000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__step_kernel i arg0 harg0 arg1 harg1 arg2 harg2 arg3 harg3 arg4 harg4 arg5 harg5 arg6 harg6 arg7 harg7) K := by
  simp only [cc1__step_kernel_eq_skeleton]; unfold cc1__step_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point
    `t` each input's buffer at its block and the output's at `out1_7` of the input blocks; the invariant the scoped
    rest and the generator register, untouched; nothing owed. Windows 0 and 1 read the SAME array, so
    each holds one half of its share; every other window holds its array at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand
-- ==== Proof.K.Region2.lean ====
/- The class-A half of region 2 of @main (custom_call 2, the kernel function `cc2__step_kernel`, pipeline 2),
   at a parameter `V`: the TensorCore's buffer contents when the region is entered. Each window's block at a grid
   point, what the body's one whole-block store leaves in the output window's staging buffer, the body's triple, the
   pipeline's proof data, and the body obligation at every point. -/
import proofs.«120260_j56453050139301_2_alg».proof.Proof.Gen.Kernel.Launch
import proofs.«120260_j56453050139301_2_alg».proof.Proof.Gen.Kernel.Skeleton
import proofs.«120260_j56453050139301_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place: unfetched, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole block -/

abbrev r2_a : Rect S5000x64 := Rect.unit (s := S5000x64) ![0, 0] S5000x64.size inb_S5000x64_S5000x64_0_0
abbrev r2_b : Rect S64x64 := Rect.unit (s := S64x64) ![0, 0] S64x64.size inb_S64x64_S64x64_0_0
abbrev r2_c : Rect S1x64 := Rect.unit (s := S1x64) ![0, 0] S1x64.size inb_S1x64_S1x64_0_0

/-! ## What the body leaves in the output window's buffer -/

/-- Window 7's staging buffer after the body, from the input windows' blocks: its one store as a piece over the whole
    block, the payload the residual update `max (h + (relu ((hnode_g - h)·W₁ + b₁))·W₂ + b₂) 0` of the loaded blocks. -/
def out2_7 (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) : Vec F S5000x64 .f32 :=
  View.canon [⟨r2_a, k2_pay1 (View.ld x0 r2_a) (View.ld x1 r2_a) (View.ld x2 r2_a) (View.ld x3 r2_b) (View.ld x4 r2_c) (View.ld x5 r2_b) (View.ld x6 r2_c)⟩]

/-- The one store tiles the buffer, so it covers it. -/
theorem cover2_7 (p0 : Vec F S5000x64 .f32) (y : S5000x64.Idx) :
    ∃ pc ∈ ([⟨r2_a, p0⟩] : List (View.Piece (Elt F) S5000x64 .f32)), y ∈ pc.1.set :=
  View.cover_of_tiled [⟨r2_a, p0⟩] S5000x64.size (by rfl) y

/-! ## The body's triple -/

set_option maxHeartbeats 1000000 in
/-- The kernel body on whole staging memrefs, the inputs' at read contents `xW` and the output's at anything, runs to
    the continuation holding the inputs' as they were and the output's at `out2_7` of the inputs'. -/
theorem sound_kernel2 (c : Dev nD) (E : Set ℕ) (i : grid2.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__step_kernel i arg0 harg0 arg1 harg1 arg2 harg2 arg3 harg3 arg4 harg4 arg5 harg5 arg6 harg6 arg7 harg7) K := by
  simp only [cc2__step_kernel_eq_skeleton]; unfold cc2__step_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them (`V`); after the body at point
    `t` each input's buffer at its block and the output's at `out2_7` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand
-- ==== Proof.K.Region3.lean ====
/- The class-A half of region 3 of @main (custom_call 3, the kernel function `cc3__step_kernel`, pipeline 3),
   at a parameter `V`: the TensorCore's buffer contents when the region is entered. Each window's block at a grid
   point, what the body's one whole-block store leaves in the output window's staging buffer, the body's triple, the
   pipeline's proof data, and the body obligation at every point. -/
import proofs.«120260_j56453050139301_2_alg».proof.Proof.Gen.Kernel.Launch
import proofs.«120260_j56453050139301_2_alg».proof.Proof.Gen.Kernel.Skeleton
import proofs.«120260_j56453050139301_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole block -/

abbrev r3_a : Rect S5000x64 := Rect.unit (s := S5000x64) ![0, 0] S5000x64.size inb_S5000x64_S5000x64_0_0
abbrev r3_b : Rect S64x64 := Rect.unit (s := S64x64) ![0, 0] S64x64.size inb_S64x64_S64x64_0_0
abbrev r3_c : Rect S1x64 := Rect.unit (s := S1x64) ![0, 0] S1x64.size inb_S1x64_S1x64_0_0

/-! ## What the body leaves in the output window's buffer -/

/-- Window 7's staging buffer after the body, from the input windows' blocks: its one store as a piece over the whole
    block, the payload the residual update `max (h + (relu ((hnode_g - h)·W₁ + b₁))·W₂ + b₂) 0` of the loaded blocks. -/
def out3_7 (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) : Vec F S5000x64 .f32 :=
  View.canon [⟨r3_a, k3_pay1 (View.ld x0 r3_a) (View.ld x1 r3_a) (View.ld x2 r3_a) (View.ld x3 r3_b) (View.ld x4 r3_c) (View.ld x5 r3_b) (View.ld x6 r3_c)⟩]

/-- The one store tiles the buffer, so it covers it. -/
theorem cover3_7 (p0 : Vec F S5000x64 .f32) (y : S5000x64.Idx) :
    ∃ pc ∈ ([⟨r3_a, p0⟩] : List (View.Piece (Elt F) S5000x64 .f32)), y ∈ pc.1.set :=
  View.cover_of_tiled [⟨r3_a, p0⟩] S5000x64.size (by rfl) y

/-! ## The body's triple -/

set_option maxHeartbeats 1000000 in
/-- The kernel body on whole staging memrefs, the inputs' at read contents `xW` and the output's at anything, runs to
    the continuation holding the inputs' as they were and the output's at `out3_7` of the inputs'. -/
theorem sound_kernel3 (c : Dev nD) (E : Set ℕ) (i : grid3.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out3_7 x0 x1 x2 x3 x4 x5 x6)) -∗ K ⟨⟩))
      ⊢ wp frame (wpE (defs₀ (F := F)) Variants.none c none) E (cc3__step_kernel i arg0 harg0 arg1 harg1 arg2 harg2 arg3 harg3 arg4 harg4 arg5 harg5 arg6 harg6 arg7 harg7) K := by
  simp only [cc3__step_kernel_eq_skeleton]; unfold cc3__step_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at point
    `t` each input's buffer at its block and the output's at `out3_7` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand
-- ==== Proof.K.Region4.lean ====
/- The class-A half of region 4 of @main (custom_call 4, the kernel function `cc4__step_kernel`, pipeline 4),
   at a parameter `V`: the TensorCore's buffer contents when the region is entered. Each window's block at a grid
   point, what the body's one whole-block store leaves in the output window's staging buffer, the body's triple, the
   pipeline's proof data, and the body obligation at every point. -/
import proofs.«120260_j56453050139301_2_alg».proof.Proof.Gen.Kernel.Launch
import proofs.«120260_j56453050139301_2_alg».proof.Proof.Gen.Kernel.Skeleton
import proofs.«120260_j56453050139301_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place: unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place: unfetched, the block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s and whose body leaves the block in place: unfetched, the block index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s and whose body leaves the block in place: unfetched, the block index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s and whose body leaves the block in place: unfetched, the block index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s and whose body leaves the block in place: unfetched, the block index has not moved. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each a whole block -/

abbrev r4_a : Rect S5000x64 := Rect.unit (s := S5000x64) ![0, 0] S5000x64.size inb_S5000x64_S5000x64_0_0
abbrev r4_b : Rect S64x64 := Rect.unit (s := S64x64) ![0, 0] S64x64.size inb_S64x64_S64x64_0_0
abbrev r4_c : Rect S1x64 := Rect.unit (s := S1x64) ![0, 0] S1x64.size inb_S1x64_S1x64_0_0

/-! ## What the body leaves in the output window's buffer -/

/-- Window 7's staging buffer after the body, from the input windows' blocks: its one store as a piece over the whole
    block, the payload the residual update `max (h + (relu ((hnode_g - h)·W₁ + b₁))·W₂ + b₂) 0` of the loaded blocks. -/
def out4_7 (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) : Vec F S5000x64 .f32 :=
  View.canon [⟨r4_a, k4_pay1 (View.ld x0 r4_a) (View.ld x1 r4_a) (View.ld x2 r4_a) (View.ld x3 r4_b) (View.ld x4 r4_c) (View.ld x5 r4_b) (View.ld x6 r4_c)⟩]

/-- The one store tiles the buffer, so it covers it. -/
theorem cover4_7 (p0 : Vec F S5000x64 .f32) (y : S5000x64.Idx) :
    ∃ pc ∈ ([⟨r4_a, p0⟩] : List (View.Piece (Elt F) S5000x64 .f32)), y ∈ pc.1.set :=
  View.cover_of_tiled [⟨r4_a, p0⟩] S5000x64.size (by rfl) y

/-! ## The body's triple -/

set_option maxHeartbeats 1000000 in
/-- The kernel body on whole staging memrefs, the inputs' at read contents `xW` and the output's at anything, runs to
    the continuation holding the inputs' as they were and the output's at `out4_7` of the inputs'. -/
theorem sound_kernel4 (c : Dev nD) (E : Set ℕ) (i : grid4.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out4_7 x0 x1 x2 x3 x4 x5 x6)) -∗ K ⟨⟩))
      ⊢ wp frame (wpE (defs₀ (F := F)) Variants.none c none) E (cc4__step_kernel i arg0 harg0 arg1 harg1 arg2 harg2 arg3 harg3 arg4 harg4 arg5 harg5 arg6 harg6 arg7 harg7) K := by
  simp only [cc4__step_kernel_eq_skeleton]; unfold cc4__step_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at point
    `t` each input's buffer at its block and the output's at `out4_7` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in
/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand
-- ==== Proof.K.Region5.lean ====
import proofs.«120260_j56453050139301_2_alg».proof.Proof.Gen.Kernel.Launch
import proofs.«120260_j56453050139301_2_alg».proof.Proof.Gen.Kernel.Skeleton
import proofs.«120260_j56453050139301_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5 of the program: the kernel `cc5__final_kernel` on the staged blocks, at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: an unfetched window's block index has not
    moved since the point that fetched it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: an unfetched window's block index has not
    moved since the point that fetched it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: an unfetched window's block index has not
    moved since the point that fetched it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: an unfetched window's block index has not
    moved since the point that fetched it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: an unfetched window's block index has not
    moved since the point that fetched it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s and whose body leaves the block in place: an unfetched window's block index has not
    moved since the point that fetched it. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s and whose body leaves the block in place: an unfetched window's block index has not
    moved since the point that fetched it. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take the whole block -/

abbrev r5_0 : Rect S10000x64 := Rect.unit (s := S10000x64) ![0, 0] S10000x64.size inb_S10000x64_S10000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0

/-! ## What the body leaves in the output window's buffer -/

/-- Window 7's staging buffer after the body, from the input windows' blocks: the one whole-block store of the
    kernel's payload over the loaded blocks. -/
def out5_7 (x0 : Vec F S10000x64 .f32) (x1 : Vec F S10000x64 .f32) (x2 : Vec F S64x64 .f32) (x3 : Vec F S64x64 .f32) (x4 : Vec F S1x64 .f32) (x5 : Vec F S1x64 .f32) (x6 : Vec F S1x64 .f32) : Vec F S10000x64 .f32 :=
  View.canon [⟨r5_0, k5_pay1 (k5_pay2 (View.ld x0 r5_0) (View.ld x1 r5_0) (View.ld x2 r5_1) (View.ld x3 r5_1) (View.ld x4 r5_2)) (View.ld x5 r5_2) (View.ld x6 r5_2)⟩]

/-- The one store is the whole block, so it covers the buffer. -/
theorem cover5_7 (p0 : Vec F S10000x64 .f32) (y : S10000x64.Idx) :
    ∃ pc ∈ ([⟨r5_0, p0⟩] : List (View.Piece (Elt F) S10000x64 .f32)), y ∈ pc.1.set :=
  View.cover_of_tiled [⟨r5_0, p0⟩] S10000x64.size (by rfl) y

/-! ## The body's triple -/

set_option maxHeartbeats 1000000 in
/-- The kernel body on whole staging memrefs, the inputs' at read contents `xW` and the output's at anything, runs to
    the continuation holding the inputs' as they were and the output's at `out5_7` of the inputs'. -/
theorem sound_kernel5 (c : Dev nD) (E : Set ℕ) (i : grid5.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S10000x64 .f32) (x2 : Vec F S64x64 .f32) (x3 : Vec F S64x64 .f32) (x4 : Vec F S1x64 .f32) (x5 : Vec F S1x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__final_kernel i arg1 harg1 arg2 harg2 arg3 harg3 arg4 harg4 arg5 harg5 arg6 harg6 arg7 harg7 arg8 harg8) K := by
  simp only [cc5__final_kernel_eq_skeleton]; unfold cc5__final_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover5_7 _)

/-! ## The pipeline's proof data -/

/-- The proof data of this pipeline on core `c`: the arrays as the region finds them (`V`); after the body at point
    `t` each input's buffer at its block and the output's at `out5_7` of the input blocks; the invariant is the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks, so the kernel's triple applies; the invariant and
    the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Region1Arr.lean ====
/- Region 1 of @main reads ONE array, `main_v16`, through two input windows (0 and 1). A core owns that buffer once,
   so the two windows cannot both hold it whole: the proof data gives window 0 the left half of the full share and
   window 1 the right half, and every other window its own array at the full share. Here: a core's unscoped buffers
   split into the pipeline's arrays at those shares and the rest (region entry), and back (region exit) — the two
   halves of `main_v16` rejoin because both windows hold it at the same contents. -/
import proofs.«120260_j56453050139301_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' arrays: seven buffers behind eight windows -/

/-- Windows 1 … 7: one window per distinct array (window 0's array is window 1's). -/
abbrev J1 : Finset (Fin cfg1.W) := Finset.univ.erase 0

/-- The buffers behind all eight windows are those behind windows 1 … 7. -/
theorem arrRef1_image : Finset.univ.image (Pipeline.arrRef spec1) = J1.image (Pipeline.arrRef spec1) := by
  decide

/-- Windows 1 … 7 are on pairwise distinct arrays. -/
theorem arrRef1_injOn : Set.InjOn (Pipeline.arrRef spec1) (J1 : Finset (Fin cfg1.W)) := by
  have h : ∀ a b : Fin cfg1.W, a ≠ 0 → b ≠ 0 → Pipeline.arrRef spec1 a = Pipeline.arrRef spec1 b → a = b := by decide
  intro a ha b hb e
  exact h a b (Finset.ne_of_mem_erase (Finset.mem_coe.mp ha)) (Finset.ne_of_mem_erase (Finset.mem_coe.mp hb)) e

theorem one_mem_J1 : (1 : Fin cfg1.W) ∈ J1 := by decide

/-- A window other than 0 and 1 is among windows 1 … 7 less window 1, and conversely. -/
theorem mem_J1_erase {w : Fin cfg1.W} (hw : w ∈ J1.erase 1) : w ≠ 0 ∧ w ≠ 1 :=
  ⟨Finset.ne_of_mem_erase (Finset.mem_of_mem_erase hw), Finset.ne_of_mem_erase hw⟩

section Arr
variable (V : (c : Dev nD) → (b : Ref sig .tc) → Buf (Elt F) ((c : Thread nD τ).loc b))

/-! ## The shares the proof data hold the arrays at -/

theorem share1_0 (c : Dev nD) : (dat1 V c).share 0 = fullShare.left := by
  unfold Dat.share; rw [if_neg (by decide)]; rfl
theorem share1_1 (c : Dev nD) : (dat1 V c).share 1 = fullShare.right := by
  unfold Dat.share; rw [if_neg (by decide)]; rfl
theorem share1_rest (c : Dev nD) : ∀ w : Fin cfg1.W, w ≠ 0 → w ≠ 1 → (dat1 V c).share w = fullShare
  | ⟨0, _⟩, h, _ => absurd rfl h
  | ⟨1, _⟩, _, h => absurd rfl h
  | ⟨2, _⟩, _, _ => by unfold Dat.share; split <;> rfl
  | ⟨3, _⟩, _, _ => by unfold Dat.share; split <;> rfl
  | ⟨4, _⟩, _, _ => by unfold Dat.share; split <;> rfl
  | ⟨5, _⟩, _, _ => by unfold Dat.share; split <;> rfl
  | ⟨6, _⟩, _, _ => by unfold Dat.share; split <;> rfl
  | ⟨7, _⟩, _, _ => by unfold Dat.share; split <;> rfl

/-! ## The arrays against the buffers behind them -/

/-- The buffers behind the windows' arrays, each whole at the full share at `V'`, window by window over 1 … 7. -/
theorem arrBufs1_eq (c : Dev nD) (V' : (b : Ref sig .tc) → Buf (Elt F) ((c : Thread nD τ).loc b)) :
    (Pipeline.arrBufs spec1 c V' : sProp 𝕄)
      = bigSep J1 fun w => (((c : Thread nD τ).loc (Pipeline.arrRef spec1 w)) ↦{fullShare} V' (Pipeline.arrRef spec1 w) : sProp 𝕄) := by
  unfold Pipeline.arrBufs
  rw [arrRef1_image, bigSep_image_of_injOn arrRef1_injOn]

/-- The pipeline's arrays at contents read off a valuation `V'` ARE the seven buffers behind them whole at the full
    share at `V'`: windows 0 and 1 hold the two halves of `main_v16`'s share at one contents, every other window its
    array whole. -/
theorem arrays1_iff (c : Dev nD) (V' : (b : Ref sig .tc) → Buf (Elt F) ((c : Thread nD τ).loc b))
    (Fv : (w : Fin cfg1.W) → Buf (Elt F) ((cfg1.win w).arr.view.loc (c : Thread nD τ)))
    (hF : ∀ w, Fv w = V' (Pipeline.arrRef spec1 w)) :
    (dat1 V c).arrays Fv ⊣⊢ (Pipeline.arrBufs spec1 c V' : sProp 𝕄) := by
  rw [arrBufs1_eq]
  unfold Dat.arrays
  rw [bigSep_univ_split (0 : Fin cfg1.W), bigSep_erase one_mem_J1, bigSep_erase one_mem_J1]
  have hrest : (bigSep (J1.erase 1) fun w : Fin cfg1.W =>
        ((cfg1.win w).arr.view.loc (c : Thread nD τ) ↦[(cfg1.win w).arr.view.set]{(dat1 V c).share w} Fv w : sProp 𝕄))
      = bigSep (J1.erase 1) fun w => (((c : Thread nD τ).loc (Pipeline.arrRef spec1 w)) ↦{fullShare} V' (Pipeline.arrRef spec1 w) : sProp 𝕄) :=
    bigSep_congr fun w hw => by
      rw [(arr_whole1 w).set_eq_univ, share1_rest V c w (mem_J1_erase hw).1 (mem_J1_erase hw).2, hF w]
  rw [hrest, (arr_whole1 0).set_eq_univ, share1_0, share1_1, hF 0, hF 1]
  have hsh : ((((c : Thread nD τ).loc (Pipeline.arrRef spec1 1)) ↦{fullShare} V' (Pipeline.arrRef spec1 1) : sProp 𝕄))
      ⊣⊢ iprop((((c : Thread nD τ).loc (Pipeline.arrRef spec1 1)) ↦{fullShare.left} V' (Pipeline.arrRef spec1 1))
          ∗ (((c : Thread nD τ).loc (Pipeline.arrRef spec1 1)) ↦{fullShare.right} V' (Pipeline.arrRef spec1 1))) :=
    pointsTo_share (PosShare.mem_left_op_right fullShare)
  exact ⟨sep_assoc.2.trans (sep_mono hsh.2 .rfl), (sep_mono hsh.1 .rfl).trans sep_assoc.1⟩

/-! ## Region entry and region exit -/

/-- ENTRY, the arrays' part: a core's unscoped buffers at `V c` are pipeline 1's arrays at the proof data's entry
    contents, at the proof data's shares, and the unscoped rest. -/
theorem arrays_of_unscopedBufs1 (c : Dev nD) :
    (unscopedBufs c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  exact sep_mono (arrays1_iff V c (V c) _ fun w => A_eq1 V c w).2 .rfl

/-- EXIT, the arrays' part: pipeline 1's arrays at contents `Fv` and the unscoped rest at `V c` are the core's unscoped
    buffers at any valuation `V'` that has the arrays at `Fv` and agrees with `V c` off them. -/
theorem unscopedBufs_of_arrays1 (c : Dev nD) (V' : (b : Ref sig .tc) → Buf (Elt F) ((c : Thread nD τ).loc b))
    (Fv : (w : Fin cfg1.W) → Buf (Elt F) ((cfg1.win w).arr.view.loc (c : Thread nD τ)))
    (hF : ∀ w, Fv w = V' (Pipeline.arrRef spec1 w))
    (hrest : ∀ b, b ∉ Finset.univ.image (Pipeline.arrRef spec1) → V' b = V c b) :
    iprop((dat1 V c).arrays Fv ∗ Pipeline.unscopedRest spec1 c (V c)) ⊢ (unscopedBufs c V' : sProp 𝕄) := by
  rw [Pipeline.unscopedBufs_split₀ cfgs 1 winFacts₀1.arr_unscoped c V']
  refine sep_mono (arrays1_iff V c V' Fv hF).1 (Entails.of_eq ?_)
  unfold Pipeline.unscopedRest
  exact bigSep_congr fun b hb => by rw [hrest b (Finset.mem_sdiff.mp hb).2]

end Arr

end Cert.Kernel.Hand
-- ==== Proof.K.Frame.lean ====
/- The assembly of the frame of `Kernel`: @main is seven stretches of host operations around six kernel regions.
   The buffer contents at every boundary between two items are a fold from the launch memory: a host stretch takes them
   to `StableHlo.after` of itself, a region changes its output window's array only, to the write-backs of that window
   folded over the grid. Every region's proof data are taken at its entry contents; each region is a segment over the
   thread state "every unscoped buffer at the boundary's contents, the generator register at some state, nothing owed";
   and the run of the segments gives the frame claim, and beside it the contents of the result buffer. -/
import proofs.«120260_j56453050139301_2_alg».proof.Proof.K.Region0
import proofs.«120260_j56453050139301_2_alg».proof.Proof.K.Region1
import proofs.«120260_j56453050139301_2_alg».proof.Proof.K.Region2
import proofs.«120260_j56453050139301_2_alg».proof.Proof.K.Region3
import proofs.«120260_j56453050139301_2_alg».proof.Proof.K.Region4
import proofs.«120260_j56453050139301_2_alg».proof.Proof.K.Region5
import proofs.«120260_j56453050139301_2_alg».proof.Proof.K.Region1Arr
import proofs.«120260_j56453050139301_2_alg».proof.Proof.Gen.Kernel.Regions
import proofs.«120260_j56453050139301_2_alg».proof.Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships among the program's 185 references recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary -/

/-- A core's valuation read at the TensorCore's references (what a region's proof data take). -/
abbrev Vt (W : Dev nD → Valuation τ sig (Elt F)) : (c : Dev nD) → (b : Ref sig .tc) → Buf (Elt F) ((c : Thread nD τ).loc b) :=
  fun c b => W c b

/-- Core `c`'s unscoped buffers when region 0 is entered: the launch contents after the first host stretch. -/
abbrev W1 (c : Dev nD) : Valuation τ sig (Elt F) := V1 m c

/-- What region 0 leaves in its output array `main_v16`: the write-backs of its output window folded over the grid,
    from the contents the region is entered at. -/
def o2 (c : Dev nD) : Buf (Elt F) ((c : Thread nD τ).loc main_v16) := (dat0 (Vt (W1 m)) c).arrAt 5 cfg0.N
/-- Core `c`'s unscoped buffers when region 0 is left: `main_v16` at what the region leaves, every other buffer as entered. -/
def W2 (c : Dev nD) : Valuation τ sig (Elt F) := Function.update (W1 m c) main_v16 (o2 m c)
theorem W2_out (c : Dev nD) : Vt (W2 m) c main_v16 = o2 m c := by
  unfold W2; exact Function.update_self _ _ _
theorem W2_of (c : Dev nD) (b : Ref sig .tc) (h : b ≠ main_v16) : Vt (W2 m) c b = Vt (W1 m) c b := by
  unfold W2; exact Function.update_of_ne (StableHlo.devRef_ne_of_ne h) _ _
/-- After the host stretch `hostOps1` (region 1's entry). -/
abbrev W3 (c : Dev nD) : Valuation τ sig (Elt F) := StableHlo.after hostOps1 (W2 m c)

/-- What region 1 leaves in its output array `main_v27`: the write-backs of its output window folded over the grid,
    from the contents the region is entered at. -/
def o4 (c : Dev nD) : Buf (Elt F) ((c : Thread nD τ).loc main_v27) := (dat1 (Vt (W3 m)) c).arrAt 7 cfg1.N
/-- Core `c`'s unscoped buffers when region 1 is left: `main_v27` at what the region leaves, every other buffer as entered. -/
def W4 (c : Dev nD) : Valuation τ sig (Elt F) := Function.update (W3 m c) main_v27 (o4 m c)
theorem W4_out (c : Dev nD) : Vt (W4 m) c main_v27 = o4 m c := by
  unfold W4; exact Function.update_self _ _ _
theorem W4_of (c : Dev nD) (b : Ref sig .tc) (h : b ≠ main_v27) : Vt (W4 m) c b = Vt (W3 m) c b := by
  unfold W4; exact Function.update_of_ne (StableHlo.devRef_ne_of_ne h) _ _
/-- After the host stretch `hostOps2` (region 2's entry). -/
abbrev W5 (c : Dev nD) : Valuation τ sig (Elt F) := StableHlo.after hostOps2 (W4 m c)

/-- What region 2 leaves in its output array `main_v38`: the write-backs of its output window folded over the grid,
    from the contents the region is entered at. -/
def o6 (c : Dev nD) : Buf (Elt F) ((c : Thread nD τ).loc main_v38) := (dat2 (Vt (W5 m)) c).arrAt 7 cfg2.N
/-- Core `c`'s unscoped buffers when region 2 is left: `main_v38` at what the region leaves, every other buffer as entered. -/
def W6 (c : Dev nD) : Valuation τ sig (Elt F) := Function.update (W5 m c) main_v38 (o6 m c)
theorem W6_out (c : Dev nD) : Vt (W6 m) c main_v38 = o6 m c := by
  unfold W6; exact Function.update_self _ _ _
theorem W6_of (c : Dev nD) (b : Ref sig .tc) (h : b ≠ main_v38) : Vt (W6 m) c b = Vt (W5 m) c b := by
  unfold W6; exact Function.update_of_ne (StableHlo.devRef_ne_of_ne h) _ _
/-- After the host stretch `hostOps3` (region 3's entry). -/
abbrev W7 (c : Dev nD) : Valuation τ sig (Elt F) := StableHlo.after hostOps3 (W6 m c)

/-- What region 3 leaves in its output array `main_v49`: the write-backs of its output window folded over the grid,
    from the contents the region is entered at. -/
def o8 (c : Dev nD) : Buf (Elt F) ((c : Thread nD τ).loc main_v49) := (dat3 (Vt (W7 m)) c).arrAt 7 cfg3.N
/-- Core `c`'s unscoped buffers when region 3 is left: `main_v49` at what the region leaves, every other buffer as entered. -/
def W8 (c : Dev nD) : Valuation τ sig (Elt F) := Function.update (W7 m c) main_v49 (o8 m c)
theorem W8_out (c : Dev nD) : Vt (W8 m) c main_v49 = o8 m c := by
  unfold W8; exact Function.update_self _ _ _
theorem W8_of (c : Dev nD) (b : Ref sig .tc) (h : b ≠ main_v49) : Vt (W8 m) c b = Vt (W7 m) c b := by
  unfold W8; exact Function.update_of_ne (StableHlo.devRef_ne_of_ne h) _ _
/-- After the host stretch `hostOps4` (region 4's entry). -/
abbrev W9 (c : Dev nD) : Valuation τ sig (Elt F) := StableHlo.after hostOps4 (W8 m c)

/-- What region 4 leaves in its output array `main_v60`: the write-backs of its output window folded over the grid,
    from the contents the region is entered at. -/
def o10 (c : Dev nD) : Buf (Elt F) ((c : Thread nD τ).loc main_v60) := (dat4 (Vt (W9 m)) c).arrAt 7 cfg4.N
/-- Core `c`'s unscoped buffers when region 4 is left: `main_v60` at what the region leaves, every other buffer as entered. -/
def W10 (c : Dev nD) : Valuation τ sig (Elt F) := Function.update (W9 m c) main_v60 (o10 m c)
theorem W10_out (c : Dev nD) : Vt (W10 m) c main_v60 = o10 m c := by
  unfold W10; exact Function.update_self _ _ _
theorem W10_of (c : Dev nD) (b : Ref sig .tc) (h : b ≠ main_v60) : Vt (W10 m) c b = Vt (W9 m) c b := by
  unfold W10; exact Function.update_of_ne (StableHlo.devRef_ne_of_ne h) _ _
/-- After the host stretch `hostOps5` (region 5's entry). -/
abbrev W11 (c : Dev nD) : Valuation τ sig (Elt F) := StableHlo.after hostOps5 (W10 m c)

/-- What region 5 leaves in its output array `main_v69`: the write-backs of its output window folded over the grid,
    from the contents the region is entered at. -/
def o12 (c : Dev nD) : Buf (Elt F) ((c : Thread nD τ).loc main_v69) := (dat5 (Vt (W11 m)) c).arrAt 7 cfg5.N
/-- Core `c`'s unscoped buffers when region 5 is left: `main_v69` at what the region leaves, every other buffer as entered. -/
def W12 (c : Dev nD) : Valuation τ sig (Elt F) := Function.update (W11 m c) main_v69 (o12 m c)
theorem W12_out (c : Dev nD) : Vt (W12 m) c main_v69 = o12 m c := by
  unfold W12; exact Function.update_self _ _ _
theorem W12_of (c : Dev nD) (b : Ref sig .tc) (h : b ≠ main_v69) : Vt (W12 m) c b = Vt (W11 m) c b := by
  unfold W12; exact Function.update_of_ne (StableHlo.devRef_ne_of_ne h) _ _
/-- After the host stretch `hostOps6` (the return). -/
abbrev W13 (c : Dev nD) : Valuation τ sig (Elt F) := StableHlo.after hostOps6 (W12 m c)

/-- What the regions leave, as the unknowns the generated valuations are written over: read only at each region's
    output array, where it is that region's `o`; the launch contents anywhere else. -/
def outs : Outs (F := F) := fun _ r c =>
  if h : r = main_v16 then h ▸ o2 m c else
  if h : r = main_v27 then h ▸ o4 m c else
  if h : r = main_v38 then h ▸ o6 m c else
  if h : r = main_v49 then h ▸ o8 m c else
  if h : r = main_v60 then h ▸ o10 m c else
  if h : r = main_v69 then h ▸ o12 m c else
  m ((c : Thread nD τ).loc r)
theorem outs_2 (c : Dev nD) : outs m 2 main_v16 c = o2 m c := by
  unfold outs
  rw [dif_pos rfl]
theorem outs_4 (c : Dev nD) : outs m 4 main_v27 c = o4 m c := by
  unfold outs
  rw [dif_neg (by decide : main_v27 ≠ main_v16)]
  rw [dif_pos rfl]
theorem outs_6 (c : Dev nD) : outs m 6 main_v38 c = o6 m c := by
  unfold outs
  rw [dif_neg (by decide : main_v38 ≠ main_v16)]
  rw [dif_neg (by decide : main_v38 ≠ main_v27)]
  rw [dif_pos rfl]
theorem outs_8 (c : Dev nD) : outs m 8 main_v49 c = o8 m c := by
  unfold outs
  rw [dif_neg (by decide : main_v49 ≠ main_v16)]
  rw [dif_neg (by decide : main_v49 ≠ main_v27)]
  rw [dif_neg (by decide : main_v49 ≠ main_v38)]
  rw [dif_pos rfl]
theorem outs_10 (c : Dev nD) : outs m 10 main_v60 c = o10 m c := by
  unfold outs
  rw [dif_neg (by decide : main_v60 ≠ main_v16)]
  rw [dif_neg (by decide : main_v60 ≠ main_v27)]
  rw [dif_neg (by decide : main_v60 ≠ main_v38)]
  rw [dif_neg (by decide : main_v60 ≠ main_v49)]
  rw [dif_pos rfl]
theorem outs_12 (c : Dev nD) : outs m 12 main_v69 c = o12 m c := by
  unfold outs
  rw [dif_neg (by decide : main_v69 ≠ main_v16)]
  rw [dif_neg (by decide : main_v69 ≠ main_v27)]
  rw [dif_neg (by decide : main_v69 ≠ main_v38)]
  rw [dif_neg (by decide : main_v69 ≠ main_v49)]
  rw [dif_neg (by decide : main_v69 ≠ main_v60)]
  rw [dif_pos rfl]

/-! ### The generated valuations at these unknowns are the fold above -/
theorem V2_eq (c : Dev nD) : V2 m (outs m) c = W2 m c := by
  show Function.update (V1 m c) main_v16 (outs m 2 main_v16 c) = _
  rw [outs_2]; rfl
theorem V3_eq (c : Dev nD) : V3 m (outs m) c = W3 m c := by
  show StableHlo.after hostOps1 (V2 m (outs m) c) = _
  rw [V2_eq]
theorem V4_eq (c : Dev nD) : V4 m (outs m) c = W4 m c := by
  show Function.update (V3 m (outs m) c) main_v27 (outs m 4 main_v27 c) = _
  rw [outs_4, V3_eq]; rfl
theorem V5_eq (c : Dev nD) : V5 m (outs m) c = W5 m c := by
  show StableHlo.after hostOps2 (V4 m (outs m) c) = _
  rw [V4_eq]
theorem V6_eq (c : Dev nD) : V6 m (outs m) c = W6 m c := by
  show Function.update (V5 m (outs m) c) main_v38 (outs m 6 main_v38 c) = _
  rw [outs_6, V5_eq]; rfl
theorem V7_eq (c : Dev nD) : V7 m (outs m) c = W7 m c := by
  show StableHlo.after hostOps3 (V6 m (outs m) c) = _
  rw [V6_eq]
theorem V8_eq (c : Dev nD) : V8 m (outs m) c = W8 m c := by
  show Function.update (V7 m (outs m) c) main_v49 (outs m 8 main_v49 c) = _
  rw [outs_8, V7_eq]; rfl
theorem V9_eq (c : Dev nD) : V9 m (outs m) c = W9 m c := by
  show StableHlo.after hostOps4 (V8 m (outs m) c) = _
  rw [V8_eq]
theorem V10_eq (c : Dev nD) : V10 m (outs m) c = W10 m c := by
  show Function.update (V9 m (outs m) c) main_v60 (outs m 10 main_v60 c) = _
  rw [outs_10, V9_eq]; rfl
theorem V11_eq (c : Dev nD) : V11 m (outs m) c = W11 m c := by
  show StableHlo.after hostOps5 (V10 m (outs m) c) = _
  rw [V10_eq]
theorem V12_eq (c : Dev nD) : V12 m (outs m) c = W12 m c := by
  show Function.update (V11 m (outs m) c) main_v69 (outs m 12 main_v69 c) = _
  rw [outs_12, V11_eq]; rfl
theorem V13_eq (c : Dev nD) : V13 m (outs m) c = W13 m c := by
  show StableHlo.after hostOps6 (V12 m (outs m) c) = _
  rw [V12_eq]

/-! # The proof data family and the thread state -/

/-- Every pipeline's proof data, each at its region's entry contents: a literal match on the pipeline. -/
def pdats : (p : Fin 6) → (c : Dev nD) → Dat τ (Elt F) Unit ℕ (UR sig nD τ) ℕ (cfgs p) c
  | ⟨0, _⟩ => fun c => dat0 (Vt (W1 m)) c
  | ⟨1, _⟩ => fun c => dat1 (Vt (W3 m)) c
  | ⟨2, _⟩ => fun c => dat2 (Vt (W5 m)) c
  | ⟨3, _⟩ => fun c => dat3 (Vt (W7 m)) c
  | ⟨4, _⟩ => fun c => dat4 (Vt (W9 m)) c
  | ⟨5, _⟩ => fun c => dat5 (Vt (W11 m)) c

/-! ### The unknowns and the proof data read at the generated valuations -/
/-- Region 0's entry contents, read at the TensorCore's references, are the generated valuation's. -/
theorem Vt_V1 : (fun (c : Dev nD) (b : Ref sig .tc) => (V1 m c b : Buf (Elt F) ((c : Thread nD τ).loc b))) = Vt (W1 m) := by
  funext c b; rfl
/-- What region 0 leaves in `main_v16`, over the generated valuation it is entered at. -/
theorem outs_2_eq (c : Dev nD) : outs m 2 main_v16 c = (dat0 (fun c b => V1 m c b) c).arrAt 5 cfg0.N := by
  rw [outs_2, Vt_V1]; rfl
/-- Pipeline 0's proof data, over the generated valuation its region is entered at. -/
theorem pdats_0 (c : Dev nD) : pdats m 0 c = dat0 (fun c b => V1 m c b) c := by
  rw [Vt_V1]; rfl
/-- Region 1's entry contents, read at the TensorCore's references, are the generated valuation's. -/
theorem Vt_V3 : (fun (c : Dev nD) (b : Ref sig .tc) => (V3 m (outs m) c b : Buf (Elt F) ((c : Thread nD τ).loc b))) = Vt (W3 m) := by
  funext c b; rw [V3_eq]
/-- What region 1 leaves in `main_v27`, over the generated valuation it is entered at. -/
theorem outs_4_eq (c : Dev nD) : outs m 4 main_v27 c = (dat1 (fun c b => V3 m (outs m) c b) c).arrAt 7 cfg1.N := by
  rw [outs_4, Vt_V3]; rfl
/-- Pipeline 1's proof data, over the generated valuation its region is entered at. -/
theorem pdats_1 (c : Dev nD) : pdats m 1 c = dat1 (fun c b => V3 m (outs m) c b) c := by
  rw [Vt_V3]; rfl
/-- Region 2's entry contents, read at the TensorCore's references, are the generated valuation's. -/
theorem Vt_V5 : (fun (c : Dev nD) (b : Ref sig .tc) => (V5 m (outs m) c b : Buf (Elt F) ((c : Thread nD τ).loc b))) = Vt (W5 m) := by
  funext c b; rw [V5_eq]
/-- What region 2 leaves in `main_v38`, over the generated valuation it is entered at. -/
theorem outs_6_eq (c : Dev nD) : outs m 6 main_v38 c = (dat2 (fun c b => V5 m (outs m) c b) c).arrAt 7 cfg2.N := by
  rw [outs_6, Vt_V5]; rfl
/-- Pipeline 2's proof data, over the generated valuation its region is entered at. -/
theorem pdats_2 (c : Dev nD) : pdats m 2 c = dat2 (fun c b => V5 m (outs m) c b) c := by
  rw [Vt_V5]; rfl
/-- Region 3's entry contents, read at the TensorCore's references, are the generated valuation's. -/
theorem Vt_V7 : (fun (c : Dev nD) (b : Ref sig .tc) => (V7 m (outs m) c b : Buf (Elt F) ((c : Thread nD τ).loc b))) = Vt (W7 m) := by
  funext c b; rw [V7_eq]
/-- What region 3 leaves in `main_v49`, over the generated valuation it is entered at. -/
theorem outs_8_eq (c : Dev nD) : outs m 8 main_v49 c = (dat3 (fun c b => V7 m (outs m) c b) c).arrAt 7 cfg3.N := by
  rw [outs_8, Vt_V7]; rfl
/-- Pipeline 3's proof data, over the generated valuation its region is entered at. -/
theorem pdats_3 (c : Dev nD) : pdats m 3 c = dat3 (fun c b => V7 m (outs m) c b) c := by
  rw [Vt_V7]; rfl
/-- Region 4's entry contents, read at the TensorCore's references, are the generated valuation's. -/
theorem Vt_V9 : (fun (c : Dev nD) (b : Ref sig .tc) => (V9 m (outs m) c b : Buf (Elt F) ((c : Thread nD τ).loc b))) = Vt (W9 m) := by
  funext c b; rw [V9_eq]
/-- What region 4 leaves in `main_v60`, over the generated valuation it is entered at. -/
theorem outs_10_eq (c : Dev nD) : outs m 10 main_v60 c = (dat4 (fun c b => V9 m (outs m) c b) c).arrAt 7 cfg4.N := by
  rw [outs_10, Vt_V9]; rfl
/-- Pipeline 4's proof data, over the generated valuation its region is entered at. -/
theorem pdats_4 (c : Dev nD) : pdats m 4 c = dat4 (fun c b => V9 m (outs m) c b) c := by
  rw [Vt_V9]; rfl
/-- Region 5's entry contents, read at the TensorCore's references, are the generated valuation's. -/
theorem Vt_V11 : (fun (c : Dev nD) (b : Ref sig .tc) => (V11 m (outs m) c b : Buf (Elt F) ((c : Thread nD τ).loc b))) = Vt (W11 m) := by
  funext c b; rw [V11_eq]
/-- What region 5 leaves in `main_v69`, over the generated valuation it is entered at. -/
theorem outs_12_eq (c : Dev nD) : outs m 12 main_v69 c = (dat5 (fun c b => V11 m (outs m) c b) c).arrAt 7 cfg5.N := by
  rw [outs_12, Vt_V11]; rfl
/-- Pipeline 5's proof data, over the generated valuation its region is entered at. -/
theorem pdats_5 (c : Dev nD) : pdats m 5 c = dat5 (fun c b => V11 m (outs m) c b) c := by
  rw [Vt_V11]; rfl

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

/-! ## Region 0 (custom_call 0) -/

/-- Every window of region 0 but the last is an input window, -/
theorem in0_isOut : ∀ w : Fin cfg0.W, w ≠ 5 → (cfg0.win w).isOut = false := by decide
/-- and its array is not the output window's. -/
theorem in0_ne : ∀ w : Fin cfg0.W, w ≠ 5 → Pipeline.arrRef spec0 w ≠ main_v16 := by decide
/-- At region 0's exit each of its arrays holds what the pipeline leaves: an input window's array is never written
    and is not the output's, the output window's is `main_v16`. -/
theorem hF0 (c : Dev nD) (w : Fin cfg0.W) : (dat0 (Vt (W1 m)) c).arrAt w cfg0.N = (Vt (W2 m)) c (Pipeline.arrRef spec0 w) := by
  by_cases hw : w = 5
  · subst hw; exact (W2_out m c).symm
  · exact ((dat0 (Vt (W1 m)) c).arrAt_in w (in0_isOut w hw) _).trans ((A_eq0 (Vt (W1 m)) c w).trans (W2_of m c _ (in0_ne w hw)).symm)
/-- Every buffer that is none of region 0's arrays is left as entered. -/
theorem hrest0 (c : Dev nD) : ∀ b, b ∉ Finset.univ.image (Pipeline.arrRef spec0) → (Vt (W2 m)) c b = (Vt (W1 m)) c b :=
  fun b hb => W2_of m c b fun e => hb (Finset.mem_image.mpr ⟨5, Finset.mem_univ _, e.symm⟩)

/-! ## Region 2 (custom_call 2) -/

/-- Every window of region 2 but the last is an input window, -/
theorem in2_isOut : ∀ w : Fin cfg2.W, w ≠ 7 → (cfg2.win w).isOut = false := by decide
/-- and its array is not the output window's. -/
theorem in2_ne : ∀ w : Fin cfg2.W, w ≠ 7 → Pipeline.arrRef spec2 w ≠ main_v38 := by decide
/-- At region 2's exit each of its arrays holds what the pipeline leaves: an input window's array is never written
    and is not the output's, the output window's is `main_v38`. -/
theorem hF2 (c : Dev nD) (w : Fin cfg2.W) : (dat2 (Vt (W5 m)) c).arrAt w cfg2.N = (Vt (W6 m)) c (Pipeline.arrRef spec2 w) := by
  by_cases hw : w = 7
  · subst hw; exact (W6_out m c).symm
  · exact ((dat2 (Vt (W5 m)) c).arrAt_in w (in2_isOut w hw) _).trans ((A_eq2 (Vt (W5 m)) c w).trans (W6_of m c _ (in2_ne w hw)).symm)
/-- Every buffer that is none of region 2's arrays is left as entered. -/
theorem hrest2 (c : Dev nD) : ∀ b, b ∉ Finset.univ.image (Pipeline.arrRef spec2) → (Vt (W6 m)) c b = (Vt (W5 m)) c b :=
  fun b hb => W6_of m c b fun e => hb (Finset.mem_image.mpr ⟨7, Finset.mem_univ _, e.symm⟩)

/-! ## Region 3 (custom_call 3) -/

/-- Every window of region 3 but the last is an input window, -/
theorem in3_isOut : ∀ w : Fin cfg3.W, w ≠ 7 → (cfg3.win w).isOut = false := by decide
/-- and its array is not the output window's. -/
theorem in3_ne : ∀ w : Fin cfg3.W, w ≠ 7 → Pipeline.arrRef spec3 w ≠ main_v49 := by decide
/-- At region 3's exit each of its arrays holds what the pipeline leaves: an input window's array is never written
    and is not the output's, the output window's is `main_v49`. -/
theorem hF3 (c : Dev nD) (w : Fin cfg3.W) : (dat3 (Vt (W7 m)) c).arrAt w cfg3.N = (Vt (W8 m)) c (Pipeline.arrRef spec3 w) := by
  by_cases hw : w = 7
  · subst hw; exact (W8_out m c).symm
  · exact ((dat3 (Vt (W7 m)) c).arrAt_in w (in3_isOut w hw) _).trans ((A_eq3 (Vt (W7 m)) c w).trans (W8_of m c _ (in3_ne w hw)).symm)
/-- Every buffer that is none of region 3's arrays is left as entered. -/
theorem hrest3 (c : Dev nD) : ∀ b, b ∉ Finset.univ.image (Pipeline.arrRef spec3) → (Vt (W8 m)) c b = (Vt (W7 m)) c b :=
  fun b hb => W8_of m c b fun e => hb (Finset.mem_image.mpr ⟨7, Finset.mem_univ _, e.symm⟩)

/-! ## Region 4 (custom_call 4) -/

/-- Every window of region 4 but the last is an input window, -/
theorem in4_isOut : ∀ w : Fin cfg4.W, w ≠ 7 → (cfg4.win w).isOut = false := by decide
/-- and its array is not the output window's. -/
theorem in4_ne : ∀ w : Fin cfg4.W, w ≠ 7 → Pipeline.arrRef spec4 w ≠ main_v60 := by decide
/-- At region 4's exit each of its arrays holds what the pipeline leaves: an input window's array is never written
    and is not the output's, the output window's is `main_v60`. -/
theorem hF4 (c : Dev nD) (w : Fin cfg4.W) : (dat4 (Vt (W9 m)) c).arrAt w cfg4.N = (Vt (W10 m)) c (Pipeline.arrRef spec4 w) := by
  by_cases hw : w = 7
  · subst hw; exact (W10_out m c).symm
  · exact ((dat4 (Vt (W9 m)) c).arrAt_in w (in4_isOut w hw) _).trans ((A_eq4 (Vt (W9 m)) c w).trans (W10_of m c _ (in4_ne w hw)).symm)
/-- Every buffer that is none of region 4's arrays is left as entered. -/
theorem hrest4 (c : Dev nD) : ∀ b, b ∉ Finset.univ.image (Pipeline.arrRef spec4) → (Vt (W10 m)) c b = (Vt (W9 m)) c b :=
  fun b hb => W10_of m c b fun e => hb (Finset.mem_image.mpr ⟨7, Finset.mem_univ _, e.symm⟩)

/-! ## Region 5 (custom_call 5) -/

/-- Every window of region 5 but the last is an input window, -/
theorem in5_isOut : ∀ w : Fin cfg5.W, w ≠ 7 → (cfg5.win w).isOut = false := by decide
/-- and its array is not the output window's. -/
theorem in5_ne : ∀ w : Fin cfg5.W, w ≠ 7 → Pipeline.arrRef spec5 w ≠ main_v69 := by decide
/-- At region 5's exit each of its arrays holds what the pipeline leaves: an input window's array is never written
    and is not the output's, the output window's is `main_v69`. -/
theorem hF5 (c : Dev nD) (w : Fin cfg5.W) : (dat5 (Vt (W11 m)) c).arrAt w cfg5.N = (Vt (W12 m)) c (Pipeline.arrRef spec5 w) := by
  by_cases hw : w = 7
  · subst hw; exact (W12_out m c).symm
  · exact ((dat5 (Vt (W11 m)) c).arrAt_in w (in5_isOut w hw) _).trans ((A_eq5 (Vt (W11 m)) c w).trans (W12_of m c _ (in5_ne w hw)).symm)
/-- Every buffer that is none of region 5's arrays is left as entered. -/
theorem hrest5 (c : Dev nD) : ∀ b, b ∉ Finset.univ.image (Pipeline.arrRef spec5) → (Vt (W12 m)) c b = (Vt (W11 m)) c b :=
  fun b hb => W12_of m c b fun e => hb (Finset.mem_image.mpr ⟨7, Finset.mem_univ _, e.symm⟩)

/-! ## Region 1 (custom_call 1) -/

/-- Every window of region 1 but the last is an input window, -/
theorem in1_isOut : ∀ w : Fin cfg1.W, w ≠ 7 → (cfg1.win w).isOut = false := by decide
/-- and its array is not the output window's. -/
theorem in1_ne : ∀ w : Fin cfg1.W, w ≠ 7 → Pipeline.arrRef spec1 w ≠ main_v27 := by decide
/-- At region 1's exit each of its arrays holds what the pipeline leaves: an input window's array is never written
    and is not the output's, the output window's is `main_v27`. -/
theorem hF1 (c : Dev nD) (w : Fin cfg1.W) : (dat1 (Vt (W3 m)) c).arrAt w cfg1.N = (Vt (W4 m)) c (Pipeline.arrRef spec1 w) := by
  by_cases hw : w = 7
  · subst hw; exact (W4_out m c).symm
  · exact ((dat1 (Vt (W3 m)) c).arrAt_in w (in1_isOut w hw) _).trans ((A_eq1 (Vt (W3 m)) c w).trans (W4_of m c _ (in1_ne w hw)).symm)
/-- Every buffer that is none of region 1's arrays is left as entered. -/
theorem hrest1 (c : Dev nD) : ∀ b, b ∉ Finset.univ.image (Pipeline.arrRef spec1) → (Vt (W4 m)) c b = (Vt (W3 m)) c b :=
  fun b hb => W4_of m c b fun e => hb (Finset.mem_image.mpr ⟨7, Finset.mem_univ _, e.symm⟩)

/-! # The regions as segments -/

-- a library lemma stated over `pin pcs a p` unifies with the pinned configuration only when unification may
-- unfold plain definitions in a metavariable's type
set_option backward.isDefEq.respectTransparency.types false in
/-- REGION 0 over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c ((Vt (W1 m)) c)
  hentry c := by
    rw [Pipeline.ownSems0_none]
    have hsplit := Pipeline.arrays_of_unscopedBufs (p := 0) (pcfgs (F := F)) adm (pdats m) launch0.win launch0.arr_whole c
      ((pdats m 0 c).share_full fun _ => rfl) ((Vt (W1 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      ((Vt (W1 m)) c) ((Vt (W2 m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 2 over the thread state: entered from every unscoped buffer at `W5`, left at `W6`. Its arrays are
    split out of the unscoped buffers and put back at the exit contents; the generator register goes into the class
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c ((Vt (W5 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) ((Vt (W5 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      ((Vt (W5 m)) c) ((Vt (W6 m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 3 over the thread state: entered from every unscoped buffer at `W7`, left at `W8`. Its arrays are
    split out of the unscoped buffers and put back at the exit contents; the generator register goes into the class
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt (W7 m)) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c ((Vt (W7 m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) ((Vt (W7 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      ((Vt (W7 m)) c) ((Vt (W8 m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 4 over the thread state: entered from every unscoped buffer at `W9`, left at `W10`. Its arrays are
    split out of the unscoped buffers and put back at the exit contents; the generator register goes into the class
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vt (W9 m)) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c ((Vt (W9 m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) ((Vt (W9 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      ((Vt (W9 m)) c) ((Vt (W10 m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 5 over the thread state: entered from every unscoped buffer at `W11`, left at `W12`. Its arrays are
    split out of the unscoped buffers and put back at the exit contents; the generator register goes into the class
    invariant and comes out; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vt (W11 m)) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c ((Vt (W11 m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) ((Vt (W11 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      ((Vt (W11 m)) c) ((Vt (W12 m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 1 over the thread state: entered from every unscoped buffer at `W3`, left at `W4`. Two of its input windows
    stage one array, `main_v16`: at entry that buffer's full share is split in two halves, one per window, and at the
    exit the halves are joined again; otherwise as the other regions. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vt (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c ((Vt (W3 m)) c)
  hentry c := by
    rw [Pipeline.ownSems0_none]
    have hsplit := arrays_of_unscopedBufs1 (Vt (W3 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (Vt (W3 m)) c ((Vt (W4 m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! # The launch and the run -/

/-- The launch's ghost element is the pipeline library's at every pipeline's staging cells; no other ghost resource is made. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the rest `R`: the generator register at its launch state,
    the `owes` at nothing. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-- The rest ends owing nothing. -/
theorem hE6 (c : Dev nD) : R c ⊢ (iprop(∃ W, owes (c : Thread nD τ) (0 : CellTallies nD τ sig Unit) W) : sProp 𝕄) := by
  iintro ⟨-, HO⟩; iexact HO

/-- A region's thread states read at the generated valuations. -/
theorem held_of_eq {c : Dev nD} {W W' : Valuation τ sig (Elt F)} (h : W = W') :
    iprop(StableHlo.held (c : Thread nD τ) (Pipeline.ucRefs τ sig) W ∗ R c) ⊢ (iprop(StableHlo.held (c : Thread nD τ) (Pipeline.ucRefs τ sig) W' ∗ R c) : sProp 𝕄) := by
  subst h; exact .rfl

-- the conditional frame's implicit arguments are found by unifying its conclusion with this one, which takes unfolding
-- plain definitions in a metavariable's type
set_option backward.isDefEq.respectTransparency.types false in
/-- THE FRAME at any `F`: at the compiled mesh, from any memory with zero counters, every weakly fair execution of @main
    on the TensorCores terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m emb₁ () 𝒱₀ L lv (fun _ _ => rfl) ρ (outs m) (pdats m) 0 (fun _ => iprop(emp)) _ hu₀
    (fun _ c => R c) (hE0 ρ) hE6
    (reg0 m) (fun c => held_of_eq (c := c) (rfl)) (fun c => held_of_eq (c := c) (V2_eq m c).symm)
    (reg1 m) (fun c => held_of_eq (c := c) (V3_eq m c)) (fun c => held_of_eq (c := c) (V4_eq m c).symm)
    (reg2 m) (fun c => held_of_eq (c := c) (V5_eq m c)) (fun c => held_of_eq (c := c) (V6_eq m c).symm)
    (reg3 m) (fun c => held_of_eq (c := c) (V7_eq m c)) (fun c => held_of_eq (c := c) (V8_eq m c).symm)
    (reg4 m) (fun c => held_of_eq (c := c) (V9_eq m c)) (fun c => held_of_eq (c := c) (V10_eq m c).symm)
    (reg5 m) (fun c => held_of_eq (c := c) (V11_eq m c)) (fun c => held_of_eq (c := c) (V12_eq m c).symm)

/-! # The run with the result buffer -/

/-- Region 0's thread states are the generated ones at these unknowns. -/
theorem hpre0 (c : Dev nD) : iprop(StableHlo.held (c : Thread nD τ) (Pipeline.ucRefs τ sig) (V1 m c) ∗ R c) ⊢ (reg0 m).pre c :=
  held_of_eq (c := c) (rfl)
theorem hpost0 (c : Dev nD) : (reg0 m).post c ⊢ iprop(StableHlo.held (c : Thread nD τ) (Pipeline.ucRefs τ sig) (V2 m (outs m) c) ∗ R c) :=
  held_of_eq (c := c) (V2_eq m c).symm
/-- Region 1's thread states are the generated ones at these unknowns. -/
theorem hpre1 (c : Dev nD) : iprop(StableHlo.held (c : Thread nD τ) (Pipeline.ucRefs τ sig) (V3 m (outs m) c) ∗ R c) ⊢ (reg1 m).pre c :=
  held_of_eq (c := c) (V3_eq m c)
theorem hpost1 (c : Dev nD) : (reg1 m).post c ⊢ iprop(StableHlo.held (c : Thread nD τ) (Pipeline.ucRefs τ sig) (V4 m (outs m) c) ∗ R c) :=
  held_of_eq (c := c) (V4_eq m c).symm
/-- Region 2's thread states are the generated ones at these unknowns. -/
theorem hpre2 (c : Dev nD) : iprop(StableHlo.held (c : Thread nD τ) (Pipeline.ucRefs τ sig) (V5 m (outs m) c) ∗ R c) ⊢ (reg2 m).pre c :=
  held_of_eq (c := c) (V5_eq m c)
theorem hpost2 (c : Dev nD) : (reg2 m).post c ⊢ iprop(StableHlo.held (c : Thread nD τ) (Pipeline.ucRefs τ sig) (V6 m (outs m) c) ∗ R c) :=
  held_of_eq (c := c) (V6_eq m c).symm
/-- Region 3's thread states are the generated ones at these unknowns. -/
theorem hpre3 (c : Dev nD) : iprop(StableHlo.held (c : Thread nD τ) (Pipeline.ucRefs τ sig) (V7 m (outs m) c) ∗ R c) ⊢ (reg3 m).pre c :=
  held_of_eq (c := c) (V7_eq m c)
theorem hpost3 (c : Dev nD) : (reg3 m).post c ⊢ iprop(StableHlo.held (c : Thread nD τ) (Pipeline.ucRefs τ sig) (V8 m (outs m) c) ∗ R c) :=
  held_of_eq (c := c) (V8_eq m c).symm
/-- Region 4's thread states are the generated ones at these unknowns. -/
theorem hpre4 (c : Dev nD) : iprop(StableHlo.held (c : Thread nD τ) (Pipeline.ucRefs τ sig) (V9 m (outs m) c) ∗ R c) ⊢ (reg4 m).pre c :=
  held_of_eq (c := c) (V9_eq m c)
theorem hpost4 (c : Dev nD) : (reg4 m).post c ⊢ iprop(StableHlo.held (c : Thread nD τ) (Pipeline.ucRefs τ sig) (V10 m (outs m) c) ∗ R c) :=
  held_of_eq (c := c) (V10_eq m c).symm
/-- Region 5's thread states are the generated ones at these unknowns. -/
theorem hpre5 (c : Dev nD) : iprop(StableHlo.held (c : Thread nD τ) (Pipeline.ucRefs τ sig) (V11 m (outs m) c) ∗ R c) ⊢ (reg5 m).pre c :=
  held_of_eq (c := c) (V11_eq m c)
theorem hpost5 (c : Dev nD) : (reg5 m).post c ⊢ iprop(StableHlo.held (c : Thread nD τ) (Pipeline.ucRefs τ sig) (V12 m (outs m) c) ∗ R c) :=
  held_of_eq (c := c) (V12_eq m c).symm

-- the launch theorem's implicit arguments are found by unifying its conclusion with this one, which takes unfolding plain
-- definitions in a metavariable's type
set_option backward.isDefEq.respectTransparency.types false in
/-- THE RUN WITH ITS VALUE: as the frame, and moreover every final state holds, in the result buffer `main_v82`, the last
    valuation's contents — the launch memory taken through every host stretch and every region's output. The same launch
    over the same segments as the conditional frame, the last thread state read at one more buffer. -/
theorem run_value : θ_run defs (onTc (τ := τ) (main (F := F))) ⟨m, fun _ => 0, ρ⟩ (fun r => ∀ c : Dev nD,
      r.2.mem ((c.tc : Thread nD τ).loc main_v82) = V13 m (outs m) c main_v82
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m))
    (fun c Q => by
      rewrite [main_chain c, Seg.run_eq_chain,
        show ((segs m (outs m) 𝒱₀ L lv (fun _ c => R c) () (pdats m) (reg0 m) (reg1 m) (reg2 m) (reg3 m) (reg4 m) (reg5 m)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide) 0 (fun _ _ => rfl) (fun _ => iprop(emp)) _ hu₀
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, hpre0 m c, hpost0 m c, hpre1 m c, hpost1 m c, hpre2 m c, hpost2 m c, hpre3 m c, hpost3 m c, hpre4 m c, hpost4 m c, hpre5 m c, hpost5 m c, sep_mono .rfl (hE6 c)⟩)
    (hinit := ?_) (QY := fun c s => s.mem ((c.tc : Thread nD τ).loc main_v82) = V13 m (outs m) c main_v82
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14))
    (hfin := fun c s' => ?_) (hQ := fun _ h => h)
  · -- the launch: the unscoped buffers are held at the launch contents; the rest makes `R` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    have hjoin : ∀ Rr : Dev nD → sProp 𝕄, iprop((bigSep Finset.univ fun c : Dev nD => StableHlo.held (c : Thread nD τ) (Pipeline.ucRefs τ sig) (V0 m c))
        ∗ bigSep Finset.univ Rr) ⊢ bigSep Finset.univ fun c : Dev nD => iprop(StableHlo.held (c : Thread nD τ) (Pipeline.ucRefs τ sig) (V0 m c) ∗ Rr c) :=
      fun Rr => by rw [bigSep_sep']
    iapply (hjoin fun c => R c)
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨h (Proc.devRef .tc main_v82) (Finset.mem_filter.mpr ⟨StableHlo.devRef_mem_tcRefs main_v82, by decide⟩),
        (h (Proc.devRef .tc main_arg0) (Finset.mem_filter.mpr ⟨StableHlo.devRef_mem_tcRefs main_arg0, by decide⟩)).trans (V13_main_arg0 m (outs m) c),
        (h (Proc.devRef .tc main_arg1) (Finset.mem_filter.mpr ⟨StableHlo.devRef_mem_tcRefs main_arg1, by decide⟩)).trans (V13_main_arg1 m (outs m) c),
        (h (Proc.devRef .tc main_arg2) (Finset.mem_filter.mpr ⟨StableHlo.devRef_mem_tcRefs main_arg2, by decide⟩)).trans (V13_main_arg2 m (outs m) c),
        (h (Proc.devRef .tc main_arg3) (Finset.mem_filter.mpr ⟨StableHlo.devRef_mem_tcRefs main_arg3, by decide⟩)).trans (V13_main_arg3 m (outs m) c),
        (h (Proc.devRef .tc main_arg4) (Finset.mem_filter.mpr ⟨StableHlo.devRef_mem_tcRefs main_arg4, by decide⟩)).trans (V13_main_arg4 m (outs m) c),
        (h (Proc.devRef .tc main_arg5) (Finset.mem_filter.mpr ⟨StableHlo.devRef_mem_tcRefs main_arg5, by decide⟩)).trans (V13_main_arg5 m (outs m) c),
        (h (Proc.devRef .tc main_arg6) (Finset.mem_filter.mpr ⟨StableHlo.devRef_mem_tcRefs main_arg6, by decide⟩)).trans (V13_main_arg6 m (outs m) c),
        (h (Proc.devRef .tc main_arg7) (Finset.mem_filter.mpr ⟨StableHlo.devRef_mem_tcRefs main_arg7, by decide⟩)).trans (V13_main_arg7 m (outs m) c),
        (h (Proc.devRef .tc main_arg8) (Finset.mem_filter.mpr ⟨StableHlo.devRef_mem_tcRefs main_arg8, by decide⟩)).trans (V13_main_arg8 m (outs m) c),
        (h (Proc.devRef .tc main_arg9) (Finset.mem_filter.mpr ⟨StableHlo.devRef_mem_tcRefs main_arg9, by decide⟩)).trans (V13_main_arg9 m (outs m) c),
        (h (Proc.devRef .tc main_arg10) (Finset.mem_filter.mpr ⟨StableHlo.devRef_mem_tcRefs main_arg10, by decide⟩)).trans (V13_main_arg10 m (outs m) c),
        (h (Proc.devRef .tc main_arg11) (Finset.mem_filter.mpr ⟨StableHlo.devRef_mem_tcRefs main_arg11, by decide⟩)).trans (V13_main_arg11 m (outs m) c),
        (h (Proc.devRef .tc main_arg12) (Finset.mem_filter.mpr ⟨StableHlo.devRef_mem_tcRefs main_arg12, by decide⟩)).trans (V13_main_arg12 m (outs m) c),
        (h (Proc.devRef .tc main_arg13) (Finset.mem_filter.mpr ⟨StableHlo.devRef_mem_tcRefs main_arg13, by decide⟩)).trans (V13_main_arg13 m (outs m) c),
        (h (Proc.devRef .tc main_arg14) (Finset.mem_filter.mpr ⟨StableHlo.devRef_mem_tcRefs main_arg14, by decide⟩)).trans (V13_main_arg14 m (outs m) c)⟩
    · iexact HSI

/-- The frame claim of `Kernel` as the certificate states it (at `F := Bits`, under its precondition, which the frame does not use). -/
theorem frame_Kernel [hPre_finite_inputs : Cert.Pre_finite_inputs.Facts] : Cert.frame_Kernel (hKernel := Gen.facts) :=
  fun m ρ _ => frame m ρ

end Cert.Kernel.Hand

end
-- ==== Proof.KI.Region0.lean ====
import proofs.«120260_j56453050139301_2_alg».proof.Proof.Gen.KernelIdeal.Launch
import proofs.«120260_j56453050139301_2_alg».proof.Proof.Gen.KernelIdeal.Skeleton
import proofs.«120260_j56453050139301_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 of the program: the kernel `cc0__edge_init_kernel` on the staged blocks, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched window's block index has not
    moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: an unfetched window's block index has not
    moved since the point that fetched it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: an unfetched window's block index has not
    moved since the point that fetched it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: an unfetched window's block index has not
    moved since the point that fetched it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: an unfetched window's block index has not
    moved since the point that fetched it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole block -/

abbrev r0_0 : Rect S10000x64 := Rect.unit (s := S10000x64) ![0, 0] S10000x64.size inb_S10000x64_S10000x64_0_0
abbrev r0_1 : Rect S10000x16 := Rect.unit (s := S10000x16) ![0, 0] S10000x16.size inb_S10000x16_S10000x16_0_0
abbrev r0_2 : Rect S64x64 := Rect.unit (s := S64x64) ![0, 0] S64x64.size inb_S64x64_S64x64_0_0
abbrev r0_3 : Rect S16x64 := Rect.unit (s := S16x64) ![0, 0] S16x64.size inb_S16x64_S16x64_0_0
abbrev r0_4 : Rect S1x64 := Rect.unit (s := S1x64) ![0, 0] S1x64.size inb_S1x64_S1x64_0_0

/-! ## What the body leaves in the output window's buffer -/

/-- Window 5's staging buffer after the body, from the input windows' blocks: the one whole-block store of the
    kernel's payload over the loaded blocks. -/
def out0_5 (x0 : Vec F S10000x64 .f32) (x1 : Vec F S10000x16 .f32) (x2 : Vec F S64x64 .f32) (x3 : Vec F S16x64 .f32) (x4 : Vec F S1x64 .f32) : Vec F S10000x64 .f32 :=
  View.canon [⟨r0_0, k0_pay1 (View.ld x0 r0_0) (View.ld x1 r0_1) (View.ld x2 r0_2) (View.ld x3 r0_3) (View.ld x4 r0_4)⟩]

/-- The one store is the whole block, so it covers the buffer. -/
theorem cover0_5 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel0 (c : Dev nD) (E : Set ℕ) (i : grid0.Coords) (arg1 : Memref sig .tc .vmem S10000x64 .f32) (harg1 : arg1.IsWhole) (arg2 : Memref sig .tc .vmem S10000x16 .f32) (harg2 : arg2.IsWhole) (arg3 : Memref sig .tc .vmem S64x64 .f32) (harg3 : arg3.IsWhole) (arg4 : Memref sig .tc .vmem S16x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x16 .f32) (x2 : Vec F S64x64 .f32) (x3 : Vec F S16x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__edge_init_kernel i arg1 harg1 arg2 harg2 arg3 harg3 arg4 harg4 arg5 harg5 arg6 harg6) K := by
  simp only [cc0__edge_init_kernel_eq_skeleton]; unfold cc0__edge_init_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them (`V`); after the body at point
    `t` each input's buffer at its block and the output's at `out0_5` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- The class-A half of region 1 of @main (custom_call 1, the kernel function `cc1__step_kernel`, pipeline 1),
   at a parameter `V`: the TensorCore's buffer contents when the region is entered. Each window's block at a grid
   point, what the body's one whole-block store leaves in the output window's staging buffer, the body's triple, the
   pipeline's proof data, and the body obligation at every point. -/
import proofs.«120260_j56453050139301_2_alg».proof.Proof.Gen.KernelIdeal.Launch
import proofs.«120260_j56453050139301_2_alg».proof.Proof.Gen.KernelIdeal.Skeleton
import proofs.«120260_j56453050139301_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_a : Rect S5000x64 := Rect.unit (s := S5000x64) ![0, 0] S5000x64.size inb_S5000x64_S5000x64_0_0
abbrev r1_b : Rect S64x64 := Rect.unit (s := S64x64) ![0, 0] S64x64.size inb_S64x64_S64x64_0_0
abbrev r1_c : Rect S1x64 := Rect.unit (s := S1x64) ![0, 0] S1x64.size inb_S1x64_S1x64_0_0

/-! ## What the body leaves in the output window's buffer -/

/-- Window 7's staging buffer after the body, from the input windows' blocks: its one store as a piece over the whole
    block, the payload the residual update `max (h + (relu ((hnode_g - h)·W₁ + b₁))·W₂ + b₂) 0` of the loaded blocks. -/
def out1_7 (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) : Vec F S5000x64 .f32 :=
  View.canon [⟨r1_a, k1_pay1 (View.ld x0 r1_a) (View.ld x1 r1_a) (View.ld x2 r1_a) (View.ld x3 r1_b) (View.ld x4 r1_c) (View.ld x5 r1_b) (View.ld x6 r1_c)⟩]

/-- The one store tiles the buffer, so it covers it. -/
theorem cover1_7 (p0 : Vec F S5000x64 .f32) (y : S5000x64.Idx) :
    ∃ pc ∈ ([⟨r1_a, p0⟩] : List (View.Piece (Elt F) S5000x64 .f32)), y ∈ pc.1.set :=
  View.cover_of_tiled [⟨r1_a, p0⟩] S5000x64.size (by rfl) y

/-! ## The body's triple -/

set_option maxHeartbeats 1000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__step_kernel i arg0 harg0 arg1 harg1 arg2 harg2 arg3 harg3 arg4 harg4 arg5 harg5 arg6 harg6 arg7 harg7) K := by
  simp only [cc1__step_kernel_eq_skeleton]; unfold cc1__step_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point
    `t` each input's buffer at its block and the output's at `out1_7` of the input blocks; the invariant the scoped
    rest and the generator register, untouched; nothing owed. Windows 0 and 1 read the SAME array, so
    each holds one half of its share; every other window holds its array at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.KI.Region2.lean ====
/- The class-A half of region 2 of @main (custom_call 2, the kernel function `cc2__step_kernel`, pipeline 2),
   at a parameter `V`: the TensorCore's buffer contents when the region is entered. Each window's block at a grid
   point, what the body's one whole-block store leaves in the output window's staging buffer, the body's triple, the
   pipeline's proof data, and the body obligation at every point. -/
import proofs.«120260_j56453050139301_2_alg».proof.Proof.Gen.KernelIdeal.Launch
import proofs.«120260_j56453050139301_2_alg».proof.Proof.Gen.KernelIdeal.Skeleton
import proofs.«120260_j56453050139301_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place: unfetched, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole block -/

abbrev r2_a : Rect S5000x64 := Rect.unit (s := S5000x64) ![0, 0] S5000x64.size inb_S5000x64_S5000x64_0_0
abbrev r2_b : Rect S64x64 := Rect.unit (s := S64x64) ![0, 0] S64x64.size inb_S64x64_S64x64_0_0
abbrev r2_c : Rect S1x64 := Rect.unit (s := S1x64) ![0, 0] S1x64.size inb_S1x64_S1x64_0_0

/-! ## What the body leaves in the output window's buffer -/

/-- Window 7's staging buffer after the body, from the input windows' blocks: its one store as a piece over the whole
    block, the payload the residual update `max (h + (relu ((hnode_g - h)·W₁ + b₁))·W₂ + b₂) 0` of the loaded blocks. -/
def out2_7 (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) : Vec F S5000x64 .f32 :=
  View.canon [⟨r2_a, k2_pay1 (View.ld x0 r2_a) (View.ld x1 r2_a) (View.ld x2 r2_a) (View.ld x3 r2_b) (View.ld x4 r2_c) (View.ld x5 r2_b) (View.ld x6 r2_c)⟩]

/-- The one store tiles the buffer, so it covers it. -/
theorem cover2_7 (p0 : Vec F S5000x64 .f32) (y : S5000x64.Idx) :
    ∃ pc ∈ ([⟨r2_a, p0⟩] : List (View.Piece (Elt F) S5000x64 .f32)), y ∈ pc.1.set :=
  View.cover_of_tiled [⟨r2_a, p0⟩] S5000x64.size (by rfl) y

/-! ## The body's triple -/

set_option maxHeartbeats 1000000 in
/-- The kernel body on whole staging memrefs, the inputs' at read contents `xW` and the output's at anything, runs to
    the continuation holding the inputs' as they were and the output's at `out2_7` of the inputs'. -/
theorem sound_kernel2 (c : Dev nD) (E : Set ℕ) (i : grid2.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__step_kernel i arg0 harg0 arg1 harg1 arg2 harg2 arg3 harg3 arg4 harg4 arg5 harg5 arg6 harg6 arg7 harg7) K := by
  simp only [cc2__step_kernel_eq_skeleton]; unfold cc2__step_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them (`V`); after the body at point
    `t` each input's buffer at its block and the output's at `out2_7` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand
-- ==== Proof.KI.Region3.lean ====
/- The class-A half of region 3 of @main (custom_call 3, the kernel function `cc3__step_kernel`, pipeline 3),
   at a parameter `V`: the TensorCore's buffer contents when the region is entered. Each window's block at a grid
   point, what the body's one whole-block store leaves in the output window's staging buffer, the body's triple, the
   pipeline's proof data, and the body obligation at every point. -/
import proofs.«120260_j56453050139301_2_alg».proof.Proof.Gen.KernelIdeal.Launch
import proofs.«120260_j56453050139301_2_alg».proof.Proof.Gen.KernelIdeal.Skeleton
import proofs.«120260_j56453050139301_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole block -/

abbrev r3_a : Rect S5000x64 := Rect.unit (s := S5000x64) ![0, 0] S5000x64.size inb_S5000x64_S5000x64_0_0
abbrev r3_b : Rect S64x64 := Rect.unit (s := S64x64) ![0, 0] S64x64.size inb_S64x64_S64x64_0_0
abbrev r3_c : Rect S1x64 := Rect.unit (s := S1x64) ![0, 0] S1x64.size inb_S1x64_S1x64_0_0

/-! ## What the body leaves in the output window's buffer -/

/-- Window 7's staging buffer after the body, from the input windows' blocks: its one store as a piece over the whole
    block, the payload the residual update `max (h + (relu ((hnode_g - h)·W₁ + b₁))·W₂ + b₂) 0` of the loaded blocks. -/
def out3_7 (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) : Vec F S5000x64 .f32 :=
  View.canon [⟨r3_a, k3_pay1 (View.ld x0 r3_a) (View.ld x1 r3_a) (View.ld x2 r3_a) (View.ld x3 r3_b) (View.ld x4 r3_c) (View.ld x5 r3_b) (View.ld x6 r3_c)⟩]

/-- The one store tiles the buffer, so it covers it. -/
theorem cover3_7 (p0 : Vec F S5000x64 .f32) (y : S5000x64.Idx) :
    ∃ pc ∈ ([⟨r3_a, p0⟩] : List (View.Piece (Elt F) S5000x64 .f32)), y ∈ pc.1.set :=
  View.cover_of_tiled [⟨r3_a, p0⟩] S5000x64.size (by rfl) y

/-! ## The body's triple -/

set_option maxHeartbeats 1000000 in
/-- The kernel body on whole staging memrefs, the inputs' at read contents `xW` and the output's at anything, runs to
    the continuation holding the inputs' as they were and the output's at `out3_7` of the inputs'. -/
theorem sound_kernel3 (c : Dev nD) (E : Set ℕ) (i : grid3.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out3_7 x0 x1 x2 x3 x4 x5 x6)) -∗ K ⟨⟩))
      ⊢ wp frame (wpE (defs₀ (F := F)) Variants.none c none) E (cc3__step_kernel i arg0 harg0 arg1 harg1 arg2 harg2 arg3 harg3 arg4 harg4 arg5 harg5 arg6 harg6 arg7 harg7) K := by
  simp only [cc3__step_kernel_eq_skeleton]; unfold cc3__step_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at point
    `t` each input's buffer at its block and the output's at `out3_7` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand
-- ==== Proof.KI.Region4.lean ====
/- The class-A half of region 4 of @main (custom_call 4, the kernel function `cc4__step_kernel`, pipeline 4),
   at a parameter `V`: the TensorCore's buffer contents when the region is entered. Each window's block at a grid
   point, what the body's one whole-block store leaves in the output window's staging buffer, the body's triple, the
   pipeline's proof data, and the body obligation at every point. -/
import proofs.«120260_j56453050139301_2_alg».proof.Proof.Gen.KernelIdeal.Launch
import proofs.«120260_j56453050139301_2_alg».proof.Proof.Gen.KernelIdeal.Skeleton
import proofs.«120260_j56453050139301_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place: unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place: unfetched, the block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s and whose body leaves the block in place: unfetched, the block index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s and whose body leaves the block in place: unfetched, the block index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s and whose body leaves the block in place: unfetched, the block index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s and whose body leaves the block in place: unfetched, the block index has not moved. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each a whole block -/

abbrev r4_a : Rect S5000x64 := Rect.unit (s := S5000x64) ![0, 0] S5000x64.size inb_S5000x64_S5000x64_0_0
abbrev r4_b : Rect S64x64 := Rect.unit (s := S64x64) ![0, 0] S64x64.size inb_S64x64_S64x64_0_0
abbrev r4_c : Rect S1x64 := Rect.unit (s := S1x64) ![0, 0] S1x64.size inb_S1x64_S1x64_0_0

/-! ## What the body leaves in the output window's buffer -/

/-- Window 7's staging buffer after the body, from the input windows' blocks: its one store as a piece over the whole
    block, the payload the residual update `max (h + (relu ((hnode_g - h)·W₁ + b₁))·W₂ + b₂) 0` of the loaded blocks. -/
def out4_7 (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) : Vec F S5000x64 .f32 :=
  View.canon [⟨r4_a, k4_pay1 (View.ld x0 r4_a) (View.ld x1 r4_a) (View.ld x2 r4_a) (View.ld x3 r4_b) (View.ld x4 r4_c) (View.ld x5 r4_b) (View.ld x6 r4_c)⟩]

/-- The one store tiles the buffer, so it covers it. -/
theorem cover4_7 (p0 : Vec F S5000x64 .f32) (y : S5000x64.Idx) :
    ∃ pc ∈ ([⟨r4_a, p0⟩] : List (View.Piece (Elt F) S5000x64 .f32)), y ∈ pc.1.set :=
  View.cover_of_tiled [⟨r4_a, p0⟩] S5000x64.size (by rfl) y

/-! ## The body's triple -/

set_option maxHeartbeats 1000000 in
/-- The kernel body on whole staging memrefs, the inputs' at read contents `xW` and the output's at anything, runs to
    the continuation holding the inputs' as they were and the output's at `out4_7` of the inputs'. -/
theorem sound_kernel4 (c : Dev nD) (E : Set ℕ) (i : grid4.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out4_7 x0 x1 x2 x3 x4 x5 x6)) -∗ K ⟨⟩))
      ⊢ wp frame (wpE (defs₀ (F := F)) Variants.none c none) E (cc4__step_kernel i arg0 harg0 arg1 harg1 arg2 harg2 arg3 harg3 arg4 harg4 arg5 harg5 arg6 harg6 arg7 harg7) K := by
  simp only [cc4__step_kernel_eq_skeleton]; unfold cc4__step_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at point
    `t` each input's buffer at its block and the output's at `out4_7` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in
/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand
-- ==== Proof.KI.Region5.lean ====
import proofs.«120260_j56453050139301_2_alg».proof.Proof.Gen.KernelIdeal.Launch
import proofs.«120260_j56453050139301_2_alg».proof.Proof.Gen.KernelIdeal.Skeleton
import proofs.«120260_j56453050139301_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5 of the program: the kernel `cc5__final_kernel` on the staged blocks, at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: an unfetched window's block index has not
    moved since the point that fetched it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: an unfetched window's block index has not
    moved since the point that fetched it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: an unfetched window's block index has not
    moved since the point that fetched it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: an unfetched window's block index has not
    moved since the point that fetched it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: an unfetched window's block index has not
    moved since the point that fetched it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s and whose body leaves the block in place: an unfetched window's block index has not
    moved since the point that fetched it. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s and whose body leaves the block in place: an unfetched window's block index has not
    moved since the point that fetched it. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take the whole block -/

abbrev r5_0 : Rect S10000x64 := Rect.unit (s := S10000x64) ![0, 0] S10000x64.size inb_S10000x64_S10000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0

/-! ## What the body leaves in the output window's buffer -/

/-- Window 7's staging buffer after the body, from the input windows' blocks: the one whole-block store of the
    kernel's payload over the loaded blocks. -/
def out5_7 (x0 : Vec F S10000x64 .f32) (x1 : Vec F S10000x64 .f32) (x2 : Vec F S64x64 .f32) (x3 : Vec F S64x64 .f32) (x4 : Vec F S1x64 .f32) (x5 : Vec F S1x64 .f32) (x6 : Vec F S1x64 .f32) : Vec F S10000x64 .f32 :=
  View.canon [⟨r5_0, k5_pay1 (k5_pay2 (View.ld x0 r5_0) (View.ld x1 r5_0) (View.ld x2 r5_1) (View.ld x3 r5_1) (View.ld x4 r5_2)) (View.ld x5 r5_2) (View.ld x6 r5_2)⟩]

/-- The one store is the whole block, so it covers the buffer. -/
theorem cover5_7 (p0 : Vec F S10000x64 .f32) (y : S10000x64.Idx) :
    ∃ pc ∈ ([⟨r5_0, p0⟩] : List (View.Piece (Elt F) S10000x64 .f32)), y ∈ pc.1.set :=
  View.cover_of_tiled [⟨r5_0, p0⟩] S10000x64.size (by rfl) y

/-! ## The body's triple -/

set_option maxHeartbeats 1000000 in
/-- The kernel body on whole staging memrefs, the inputs' at read contents `xW` and the output's at anything, runs to
    the continuation holding the inputs' as they were and the output's at `out5_7` of the inputs'. -/
theorem sound_kernel5 (c : Dev nD) (E : Set ℕ) (i : grid5.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S10000x64 .f32) (harg8 : arg8.IsWhole)
    (x0 : Vec F S10000x64 .f32) (x1 : Vec F S10000x64 .f32) (x2 : Vec F S64x64 .f32) (x3 : Vec F S64x64 .f32) (x4 : Vec F S1x64 .f32) (x5 : Vec F S1x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__final_kernel i arg1 harg1 arg2 harg2 arg3 harg3 arg4 harg4 arg5 harg5 arg6 harg6 arg7 harg7 arg8 harg8) K := by
  simp only [cc5__final_kernel_eq_skeleton]; unfold cc5__final_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover5_7 _)

/-! ## The pipeline's proof data -/

/-- The proof data of this pipeline on core `c`: the arrays as the region finds them (`V`); after the body at point
    `t` each input's buffer at its block and the output's at `out5_7` of the input blocks; the invariant is the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks, so the kernel's triple applies; the invariant and
    the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Region1Arr.lean ====
/- Region 1 of @main reads ONE array, `main_v16`, through two input windows (0 and 1). A core owns that buffer once,
   so the two windows cannot both hold it whole: the proof data gives window 0 the left half of the full share and
   window 1 the right half, and every other window its own array at the full share. Here: a core's unscoped buffers
   split into the pipeline's arrays at those shares and the rest (region entry), and back (region exit) — the two
   halves of `main_v16` rejoin because both windows hold it at the same contents. -/
import proofs.«120260_j56453050139301_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' arrays: seven buffers behind eight windows -/

/-- Windows 1 … 7: one window per distinct array (window 0's array is window 1's). -/
abbrev J1 : Finset (Fin cfg1.W) := Finset.univ.erase 0

/-- The buffers behind all eight windows are those behind windows 1 … 7. -/
theorem arrRef1_image : Finset.univ.image (Pipeline.arrRef spec1) = J1.image (Pipeline.arrRef spec1) := by
  decide

/-- Windows 1 … 7 are on pairwise distinct arrays. -/
theorem arrRef1_injOn : Set.InjOn (Pipeline.arrRef spec1) (J1 : Finset (Fin cfg1.W)) := by
  have h : ∀ a b : Fin cfg1.W, a ≠ 0 → b ≠ 0 → Pipeline.arrRef spec1 a = Pipeline.arrRef spec1 b → a = b := by decide
  intro a ha b hb e
  exact h a b (Finset.ne_of_mem_erase (Finset.mem_coe.mp ha)) (Finset.ne_of_mem_erase (Finset.mem_coe.mp hb)) e

theorem one_mem_J1 : (1 : Fin cfg1.W) ∈ J1 := by decide

/-- A window other than 0 and 1 is among windows 1 … 7 less window 1, and conversely. -/
theorem mem_J1_erase {w : Fin cfg1.W} (hw : w ∈ J1.erase 1) : w ≠ 0 ∧ w ≠ 1 :=
  ⟨Finset.ne_of_mem_erase (Finset.mem_of_mem_erase hw), Finset.ne_of_mem_erase hw⟩

section Arr
variable (V : (c : Dev nD) → (b : Ref sig .tc) → Buf (Elt F) ((c : Thread nD τ).loc b))

/-! ## The shares the proof data hold the arrays at -/

theorem share1_0 (c : Dev nD) : (dat1 V c).share 0 = fullShare.left := by
  unfold Dat.share; rw [if_neg (by decide)]; rfl
theorem share1_1 (c : Dev nD) : (dat1 V c).share 1 = fullShare.right := by
  unfold Dat.share; rw [if_neg (by decide)]; rfl
theorem share1_rest (c : Dev nD) : ∀ w : Fin cfg1.W, w ≠ 0 → w ≠ 1 → (dat1 V c).share w = fullShare
  | ⟨0, _⟩, h, _ => absurd rfl h
  | ⟨1, _⟩, _, h => absurd rfl h
  | ⟨2, _⟩, _, _ => by unfold Dat.share; split <;> rfl
  | ⟨3, _⟩, _, _ => by unfold Dat.share; split <;> rfl
  | ⟨4, _⟩, _, _ => by unfold Dat.share; split <;> rfl
  | ⟨5, _⟩, _, _ => by unfold Dat.share; split <;> rfl
  | ⟨6, _⟩, _, _ => by unfold Dat.share; split <;> rfl
  | ⟨7, _⟩, _, _ => by unfold Dat.share; split <;> rfl

/-! ## The arrays against the buffers behind them -/

/-- The buffers behind the windows' arrays, each whole at the full share at `V'`, window by window over 1 … 7. -/
theorem arrBufs1_eq (c : Dev nD) (V' : (b : Ref sig .tc) → Buf (Elt F) ((c : Thread nD τ).loc b)) :
    (Pipeline.arrBufs spec1 c V' : sProp 𝕄)
      = bigSep J1 fun w => (((c : Thread nD τ).loc (Pipeline.arrRef spec1 w)) ↦{fullShare} V' (Pipeline.arrRef spec1 w) : sProp 𝕄) := by
  unfold Pipeline.arrBufs
  rw [arrRef1_image, bigSep_image_of_injOn arrRef1_injOn]

/-- The pipeline's arrays at contents read off a valuation `V'` ARE the seven buffers behind them whole at the full
    share at `V'`: windows 0 and 1 hold the two halves of `main_v16`'s share at one contents, every other window its
    array whole. -/
theorem arrays1_iff (c : Dev nD) (V' : (b : Ref sig .tc) → Buf (Elt F) ((c : Thread nD τ).loc b))
    (Fv : (w : Fin cfg1.W) → Buf (Elt F) ((cfg1.win w).arr.view.loc (c : Thread nD τ)))
    (hF : ∀ w, Fv w = V' (Pipeline.arrRef spec1 w)) :
    (dat1 V c).arrays Fv ⊣⊢ (Pipeline.arrBufs spec1 c V' : sProp 𝕄) := by
  rw [arrBufs1_eq]
  unfold Dat.arrays
  rw [bigSep_univ_split (0 : Fin cfg1.W), bigSep_erase one_mem_J1, bigSep_erase one_mem_J1]
  have hrest : (bigSep (J1.erase 1) fun w : Fin cfg1.W =>
        ((cfg1.win w).arr.view.loc (c : Thread nD τ) ↦[(cfg1.win w).arr.view.set]{(dat1 V c).share w} Fv w : sProp 𝕄))
      = bigSep (J1.erase 1) fun w => (((c : Thread nD τ).loc (Pipeline.arrRef spec1 w)) ↦{fullShare} V' (Pipeline.arrRef spec1 w) : sProp 𝕄) :=
    bigSep_congr fun w hw => by
      rw [(arr_whole1 w).set_eq_univ, share1_rest V c w (mem_J1_erase hw).1 (mem_J1_erase hw).2, hF w]
  rw [hrest, (arr_whole1 0).set_eq_univ, share1_0, share1_1, hF 0, hF 1]
  have hsh : ((((c : Thread nD τ).loc (Pipeline.arrRef spec1 1)) ↦{fullShare} V' (Pipeline.arrRef spec1 1) : sProp 𝕄))
      ⊣⊢ iprop((((c : Thread nD τ).loc (Pipeline.arrRef spec1 1)) ↦{fullShare.left} V' (Pipeline.arrRef spec1 1))
          ∗ (((c : Thread nD τ).loc (Pipeline.arrRef spec1 1)) ↦{fullShare.right} V' (Pipeline.arrRef spec1 1))) :=
    pointsTo_share (PosShare.mem_left_op_right fullShare)
  exact ⟨sep_assoc.2.trans (sep_mono hsh.2 .rfl), (sep_mono hsh.1 .rfl).trans sep_assoc.1⟩

/-! ## Region entry and region exit -/

/-- ENTRY, the arrays' part: a core's unscoped buffers at `V c` are pipeline 1's arrays at the proof data's entry
    contents, at the proof data's shares, and the unscoped rest. -/
theorem arrays_of_unscopedBufs1 (c : Dev nD) :
    (unscopedBufs c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  exact sep_mono (arrays1_iff V c (V c) _ fun w => A_eq1 V c w).2 .rfl

/-- EXIT, the arrays' part: pipeline 1's arrays at contents `Fv` and the unscoped rest at `V c` are the core's unscoped
    buffers at any valuation `V'` that has the arrays at `Fv` and agrees with `V c` off them. -/
theorem unscopedBufs_of_arrays1 (c : Dev nD) (V' : (b : Ref sig .tc) → Buf (Elt F) ((c : Thread nD τ).loc b))
    (Fv : (w : Fin cfg1.W) → Buf (Elt F) ((cfg1.win w).arr.view.loc (c : Thread nD τ)))
    (hF : ∀ w, Fv w = V' (Pipeline.arrRef spec1 w))
    (hrest : ∀ b, b ∉ Finset.univ.image (Pipeline.arrRef spec1) → V' b = V c b) :
    iprop((dat1 V c).arrays Fv ∗ Pipeline.unscopedRest spec1 c (V c)) ⊢ (unscopedBufs c V' : sProp 𝕄) := by
  rw [Pipeline.unscopedBufs_split₀ cfgs 1 winFacts₀1.arr_unscoped c V']
  refine sep_mono (arrays1_iff V c V' Fv hF).1 (Entails.of_eq ?_)
  unfold Pipeline.unscopedRest
  exact bigSep_congr fun b hb => by rw [hrest b (Finset.mem_sdiff.mp hb).2]

end Arr

end Cert.KernelIdeal.Hand
-- ==== Proof.KI.Frame.lean ====
/- The assembly of the frame of `KernelIdeal`: @main is seven stretches of host operations around six kernel regions.
   The buffer contents at every boundary between two items are a fold from the launch memory: a host stretch takes them
   to `StableHlo.after` of itself, a region changes its output window's array only, to the write-backs of that window
   folded over the grid. Every region's proof data are taken at its entry contents; each region is a segment over the
   thread state "every unscoped buffer at the boundary's contents, the generator register at some state, nothing owed";
   and the run of the segments gives the frame claim, and beside it the contents of the result buffer. -/
import proofs.«120260_j56453050139301_2_alg».proof.Proof.KI.Region0
import proofs.«120260_j56453050139301_2_alg».proof.Proof.KI.Region1
import proofs.«120260_j56453050139301_2_alg».proof.Proof.KI.Region2
import proofs.«120260_j56453050139301_2_alg».proof.Proof.KI.Region3
import proofs.«120260_j56453050139301_2_alg».proof.Proof.KI.Region4
import proofs.«120260_j56453050139301_2_alg».proof.Proof.KI.Region5
import proofs.«120260_j56453050139301_2_alg».proof.Proof.KI.Region1Arr
import proofs.«120260_j56453050139301_2_alg».proof.Proof.Gen.KernelIdeal.Regions
import proofs.«120260_j56453050139301_2_alg».proof.Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships among the program's 185 references recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary -/

/-- A core's valuation read at the TensorCore's references (what a region's proof data take). -/
abbrev Vt (W : Dev nD → Valuation τ sig (Elt F)) : (c : Dev nD) → (b : Ref sig .tc) → Buf (Elt F) ((c : Thread nD τ).loc b) :=
  fun c b => W c b

/-- Core `c`'s unscoped buffers when region 0 is entered: the launch contents after the first host stretch. -/
abbrev W1 (c : Dev nD) : Valuation τ sig (Elt F) := V1 m c

/-- What region 0 leaves in its output array `main_v16`: the write-backs of its output window folded over the grid,
    from the contents the region is entered at. -/
def o2 (c : Dev nD) : Buf (Elt F) ((c : Thread nD τ).loc main_v16) := (dat0 (Vt (W1 m)) c).arrAt 5 cfg0.N
/-- Core `c`'s unscoped buffers when region 0 is left: `main_v16` at what the region leaves, every other buffer as entered. -/
def W2 (c : Dev nD) : Valuation τ sig (Elt F) := Function.update (W1 m c) main_v16 (o2 m c)
theorem W2_out (c : Dev nD) : Vt (W2 m) c main_v16 = o2 m c := by
  unfold W2; exact Function.update_self _ _ _
theorem W2_of (c : Dev nD) (b : Ref sig .tc) (h : b ≠ main_v16) : Vt (W2 m) c b = Vt (W1 m) c b := by
  unfold W2; exact Function.update_of_ne (StableHlo.devRef_ne_of_ne h) _ _
/-- After the host stretch `hostOps1` (region 1's entry). -/
abbrev W3 (c : Dev nD) : Valuation τ sig (Elt F) := StableHlo.after hostOps1 (W2 m c)

/-- What region 1 leaves in its output array `main_v27`: the write-backs of its output window folded over the grid,
    from the contents the region is entered at. -/
def o4 (c : Dev nD) : Buf (Elt F) ((c : Thread nD τ).loc main_v27) := (dat1 (Vt (W3 m)) c).arrAt 7 cfg1.N
/-- Core `c`'s unscoped buffers when region 1 is left: `main_v27` at what the region leaves, every other buffer as entered. -/
def W4 (c : Dev nD) : Valuation τ sig (Elt F) := Function.update (W3 m c) main_v27 (o4 m c)
theorem W4_out (c : Dev nD) : Vt (W4 m) c main_v27 = o4 m c := by
  unfold W4; exact Function.update_self _ _ _
theorem W4_of (c : Dev nD) (b : Ref sig .tc) (h : b ≠ main_v27) : Vt (W4 m) c b = Vt (W3 m) c b := by
  unfold W4; exact Function.update_of_ne (StableHlo.devRef_ne_of_ne h) _ _
/-- After the host stretch `hostOps2` (region 2's entry). -/
abbrev W5 (c : Dev nD) : Valuation τ sig (Elt F) := StableHlo.after hostOps2 (W4 m c)

/-- What region 2 leaves in its output array `main_v38`: the write-backs of its output window folded over the grid,
    from the contents the region is entered at. -/
def o6 (c : Dev nD) : Buf (Elt F) ((c : Thread nD τ).loc main_v38) := (dat2 (Vt (W5 m)) c).arrAt 7 cfg2.N
/-- Core `c`'s unscoped buffers when region 2 is left: `main_v38` at what the region leaves, every other buffer as entered. -/
def W6 (c : Dev nD) : Valuation τ sig (Elt F) := Function.update (W5 m c) main_v38 (o6 m c)
theorem W6_out (c : Dev nD) : Vt (W6 m) c main_v38 = o6 m c := by
  unfold W6; exact Function.update_self _ _ _
theorem W6_of (c : Dev nD) (b : Ref sig .tc) (h : b ≠ main_v38) : Vt (W6 m) c b = Vt (W5 m) c b := by
  unfold W6; exact Function.update_of_ne (StableHlo.devRef_ne_of_ne h) _ _
/-- After the host stretch `hostOps3` (region 3's entry). -/
abbrev W7 (c : Dev nD) : Valuation τ sig (Elt F) := StableHlo.after hostOps3 (W6 m c)

/-- What region 3 leaves in its output array `main_v49`: the write-backs of its output window folded over the grid,
    from the contents the region is entered at. -/
def o8 (c : Dev nD) : Buf (Elt F) ((c : Thread nD τ).loc main_v49) := (dat3 (Vt (W7 m)) c).arrAt 7 cfg3.N
/-- Core `c`'s unscoped buffers when region 3 is left: `main_v49` at what the region leaves, every other buffer as entered. -/
def W8 (c : Dev nD) : Valuation τ sig (Elt F) := Function.update (W7 m c) main_v49 (o8 m c)
theorem W8_out (c : Dev nD) : Vt (W8 m) c main_v49 = o8 m c := by
  unfold W8; exact Function.update_self _ _ _
theorem W8_of (c : Dev nD) (b : Ref sig .tc) (h : b ≠ main_v49) : Vt (W8 m) c b = Vt (W7 m) c b := by
  unfold W8; exact Function.update_of_ne (StableHlo.devRef_ne_of_ne h) _ _
/-- After the host stretch `hostOps4` (region 4's entry). -/
abbrev W9 (c : Dev nD) : Valuation τ sig (Elt F) := StableHlo.after hostOps4 (W8 m c)

/-- What region 4 leaves in its output array `main_v60`: the write-backs of its output window folded over the grid,
    from the contents the region is entered at. -/
def o10 (c : Dev nD) : Buf (Elt F) ((c : Thread nD τ).loc main_v60) := (dat4 (Vt (W9 m)) c).arrAt 7 cfg4.N
/-- Core `c`'s unscoped buffers when region 4 is left: `main_v60` at what the region leaves, every other buffer as entered. -/
def W10 (c : Dev nD) : Valuation τ sig (Elt F) := Function.update (W9 m c) main_v60 (o10 m c)
theorem W10_out (c : Dev nD) : Vt (W10 m) c main_v60 = o10 m c := by
  unfold W10; exact Function.update_self _ _ _
theorem W10_of (c : Dev nD) (b : Ref sig .tc) (h : b ≠ main_v60) : Vt (W10 m) c b = Vt (W9 m) c b := by
  unfold W10; exact Function.update_of_ne (StableHlo.devRef_ne_of_ne h) _ _
/-- After the host stretch `hostOps5` (region 5's entry). -/
abbrev W11 (c : Dev nD) : Valuation τ sig (Elt F) := StableHlo.after hostOps5 (W10 m c)

/-- What region 5 leaves in its output array `main_v69`: the write-backs of its output window folded over the grid,
    from the contents the region is entered at. -/
def o12 (c : Dev nD) : Buf (Elt F) ((c : Thread nD τ).loc main_v69) := (dat5 (Vt (W11 m)) c).arrAt 7 cfg5.N
/-- Core `c`'s unscoped buffers when region 5 is left: `main_v69` at what the region leaves, every other buffer as entered. -/
def W12 (c : Dev nD) : Valuation τ sig (Elt F) := Function.update (W11 m c) main_v69 (o12 m c)
theorem W12_out (c : Dev nD) : Vt (W12 m) c main_v69 = o12 m c := by
  unfold W12; exact Function.update_self _ _ _
theorem W12_of (c : Dev nD) (b : Ref sig .tc) (h : b ≠ main_v69) : Vt (W12 m) c b = Vt (W11 m) c b := by
  unfold W12; exact Function.update_of_ne (StableHlo.devRef_ne_of_ne h) _ _
/-- After the host stretch `hostOps6` (the return). -/
abbrev W13 (c : Dev nD) : Valuation τ sig (Elt F) := StableHlo.after hostOps6 (W12 m c)

/-- What the regions leave, as the unknowns the generated valuations are written over: read only at each region's
    output array, where it is that region's `o`; the launch contents anywhere else. -/
def outs : Outs (F := F) := fun _ r c =>
  if h : r = main_v16 then h ▸ o2 m c else
  if h : r = main_v27 then h ▸ o4 m c else
  if h : r = main_v38 then h ▸ o6 m c else
  if h : r = main_v49 then h ▸ o8 m c else
  if h : r = main_v60 then h ▸ o10 m c else
  if h : r = main_v69 then h ▸ o12 m c else
  m ((c : Thread nD τ).loc r)
theorem outs_2 (c : Dev nD) : outs m 2 main_v16 c = o2 m c := by
  unfold outs
  rw [dif_pos rfl]
theorem outs_4 (c : Dev nD) : outs m 4 main_v27 c = o4 m c := by
  unfold outs
  rw [dif_neg (by decide : main_v27 ≠ main_v16)]
  rw [dif_pos rfl]
theorem outs_6 (c : Dev nD) : outs m 6 main_v38 c = o6 m c := by
  unfold outs
  rw [dif_neg (by decide : main_v38 ≠ main_v16)]
  rw [dif_neg (by decide : main_v38 ≠ main_v27)]
  rw [dif_pos rfl]
theorem outs_8 (c : Dev nD) : outs m 8 main_v49 c = o8 m c := by
  unfold outs
  rw [dif_neg (by decide : main_v49 ≠ main_v16)]
  rw [dif_neg (by decide : main_v49 ≠ main_v27)]
  rw [dif_neg (by decide : main_v49 ≠ main_v38)]
  rw [dif_pos rfl]
theorem outs_10 (c : Dev nD) : outs m 10 main_v60 c = o10 m c := by
  unfold outs
  rw [dif_neg (by decide : main_v60 ≠ main_v16)]
  rw [dif_neg (by decide : main_v60 ≠ main_v27)]
  rw [dif_neg (by decide : main_v60 ≠ main_v38)]
  rw [dif_neg (by decide : main_v60 ≠ main_v49)]
  rw [dif_pos rfl]
theorem outs_12 (c : Dev nD) : outs m 12 main_v69 c = o12 m c := by
  unfold outs
  rw [dif_neg (by decide : main_v69 ≠ main_v16)]
  rw [dif_neg (by decide : main_v69 ≠ main_v27)]
  rw [dif_neg (by decide : main_v69 ≠ main_v38)]
  rw [dif_neg (by decide : main_v69 ≠ main_v49)]
  rw [dif_neg (by decide : main_v69 ≠ main_v60)]
  rw [dif_pos rfl]

/-! ### The generated valuations at these unknowns are the fold above -/
theorem V2_eq (c : Dev nD) : V2 m (outs m) c = W2 m c := by
  show Function.update (V1 m c) main_v16 (outs m 2 main_v16 c) = _
  rw [outs_2]; rfl
theorem V3_eq (c : Dev nD) : V3 m (outs m) c = W3 m c := by
  show StableHlo.after hostOps1 (V2 m (outs m) c) = _
  rw [V2_eq]
theorem V4_eq (c : Dev nD) : V4 m (outs m) c = W4 m c := by
  show Function.update (V3 m (outs m) c) main_v27 (outs m 4 main_v27 c) = _
  rw [outs_4, V3_eq]; rfl
theorem V5_eq (c : Dev nD) : V5 m (outs m) c = W5 m c := by
  show StableHlo.after hostOps2 (V4 m (outs m) c) = _
  rw [V4_eq]
theorem V6_eq (c : Dev nD) : V6 m (outs m) c = W6 m c := by
  show Function.update (V5 m (outs m) c) main_v38 (outs m 6 main_v38 c) = _
  rw [outs_6, V5_eq]; rfl
theorem V7_eq (c : Dev nD) : V7 m (outs m) c = W7 m c := by
  show StableHlo.after hostOps3 (V6 m (outs m) c) = _
  rw [V6_eq]
theorem V8_eq (c : Dev nD) : V8 m (outs m) c = W8 m c := by
  show Function.update (V7 m (outs m) c) main_v49 (outs m 8 main_v49 c) = _
  rw [outs_8, V7_eq]; rfl
theorem V9_eq (c : Dev nD) : V9 m (outs m) c = W9 m c := by
  show StableHlo.after hostOps4 (V8 m (outs m) c) = _
  rw [V8_eq]
theorem V10_eq (c : Dev nD) : V10 m (outs m) c = W10 m c := by
  show Function.update (V9 m (outs m) c) main_v60 (outs m 10 main_v60 c) = _
  rw [outs_10, V9_eq]; rfl
theorem V11_eq (c : Dev nD) : V11 m (outs m) c = W11 m c := by
  show StableHlo.after hostOps5 (V10 m (outs m) c) = _
  rw [V10_eq]
theorem V12_eq (c : Dev nD) : V12 m (outs m) c = W12 m c := by
  show Function.update (V11 m (outs m) c) main_v69 (outs m 12 main_v69 c) = _
  rw [outs_12, V11_eq]; rfl
theorem V13_eq (c : Dev nD) : V13 m (outs m) c = W13 m c := by
  show StableHlo.after hostOps6 (V12 m (outs m) c) = _
  rw [V12_eq]

/-! # The proof data family and the thread state -/

/-- Every pipeline's proof data, each at its region's entry contents: a literal match on the pipeline. -/
def pdats : (p : Fin 6) → (c : Dev nD) → Dat τ (Elt F) Unit ℕ (UR sig nD τ) ℕ (cfgs p) c
  | ⟨0, _⟩ => fun c => dat0 (Vt (W1 m)) c
  | ⟨1, _⟩ => fun c => dat1 (Vt (W3 m)) c
  | ⟨2, _⟩ => fun c => dat2 (Vt (W5 m)) c
  | ⟨3, _⟩ => fun c => dat3 (Vt (W7 m)) c
  | ⟨4, _⟩ => fun c => dat4 (Vt (W9 m)) c
  | ⟨5, _⟩ => fun c => dat5 (Vt (W11 m)) c

/-! ### The unknowns and the proof data read at the generated valuations -/
/-- Region 0's entry contents, read at the TensorCore's references, are the generated valuation's. -/
theorem Vt_V1 : (fun (c : Dev nD) (b : Ref sig .tc) => (V1 m c b : Buf (Elt F) ((c : Thread nD τ).loc b))) = Vt (W1 m) := by
  funext c b; rfl
/-- What region 0 leaves in `main_v16`, over the generated valuation it is entered at. -/
theorem outs_2_eq (c : Dev nD) : outs m 2 main_v16 c = (dat0 (fun c b => V1 m c b) c).arrAt 5 cfg0.N := by
  rw [outs_2, Vt_V1]; rfl
/-- Pipeline 0's proof data, over the generated valuation its region is entered at. -/
theorem pdats_0 (c : Dev nD) : pdats m 0 c = dat0 (fun c b => V1 m c b) c := by
  rw [Vt_V1]; rfl
/-- Region 1's entry contents, read at the TensorCore's references, are the generated valuation's. -/
theorem Vt_V3 : (fun (c : Dev nD) (b : Ref sig .tc) => (V3 m (outs m) c b : Buf (Elt F) ((c : Thread nD τ).loc b))) = Vt (W3 m) := by
  funext c b; rw [V3_eq]
/-- What region 1 leaves in `main_v27`, over the generated valuation it is entered at. -/
theorem outs_4_eq (c : Dev nD) : outs m 4 main_v27 c = (dat1 (fun c b => V3 m (outs m) c b) c).arrAt 7 cfg1.N := by
  rw [outs_4, Vt_V3]; rfl
/-- Pipeline 1's proof data, over the generated valuation its region is entered at. -/
theorem pdats_1 (c : Dev nD) : pdats m 1 c = dat1 (fun c b => V3 m (outs m) c b) c := by
  rw [Vt_V3]; rfl
/-- Region 2's entry contents, read at the TensorCore's references, are the generated valuation's. -/
theorem Vt_V5 : (fun (c : Dev nD) (b : Ref sig .tc) => (V5 m (outs m) c b : Buf (Elt F) ((c : Thread nD τ).loc b))) = Vt (W5 m) := by
  funext c b; rw [V5_eq]
/-- What region 2 leaves in `main_v38`, over the generated valuation it is entered at. -/
theorem outs_6_eq (c : Dev nD) : outs m 6 main_v38 c = (dat2 (fun c b => V5 m (outs m) c b) c).arrAt 7 cfg2.N := by
  rw [outs_6, Vt_V5]; rfl
/-- Pipeline 2's proof data, over the generated valuation its region is entered at. -/
theorem pdats_2 (c : Dev nD) : pdats m 2 c = dat2 (fun c b => V5 m (outs m) c b) c := by
  rw [Vt_V5]; rfl
/-- Region 3's entry contents, read at the TensorCore's references, are the generated valuation's. -/
theorem Vt_V7 : (fun (c : Dev nD) (b : Ref sig .tc) => (V7 m (outs m) c b : Buf (Elt F) ((c : Thread nD τ).loc b))) = Vt (W7 m) := by
  funext c b; rw [V7_eq]
/-- What region 3 leaves in `main_v49`, over the generated valuation it is entered at. -/
theorem outs_8_eq (c : Dev nD) : outs m 8 main_v49 c = (dat3 (fun c b => V7 m (outs m) c b) c).arrAt 7 cfg3.N := by
  rw [outs_8, Vt_V7]; rfl
/-- Pipeline 3's proof data, over the generated valuation its region is entered at. -/
theorem pdats_3 (c : Dev nD) : pdats m 3 c = dat3 (fun c b => V7 m (outs m) c b) c := by
  rw [Vt_V7]; rfl
/-- Region 4's entry contents, read at the TensorCore's references, are the generated valuation's. -/
theorem Vt_V9 : (fun (c : Dev nD) (b : Ref sig .tc) => (V9 m (outs m) c b : Buf (Elt F) ((c : Thread nD τ).loc b))) = Vt (W9 m) := by
  funext c b; rw [V9_eq]
/-- What region 4 leaves in `main_v60`, over the generated valuation it is entered at. -/
theorem outs_10_eq (c : Dev nD) : outs m 10 main_v60 c = (dat4 (fun c b => V9 m (outs m) c b) c).arrAt 7 cfg4.N := by
  rw [outs_10, Vt_V9]; rfl
/-- Pipeline 4's proof data, over the generated valuation its region is entered at. -/
theorem pdats_4 (c : Dev nD) : pdats m 4 c = dat4 (fun c b => V9 m (outs m) c b) c := by
  rw [Vt_V9]; rfl
/-- Region 5's entry contents, read at the TensorCore's references, are the generated valuation's. -/
theorem Vt_V11 : (fun (c : Dev nD) (b : Ref sig .tc) => (V11 m (outs m) c b : Buf (Elt F) ((c : Thread nD τ).loc b))) = Vt (W11 m) := by
  funext c b; rw [V11_eq]
/-- What region 5 leaves in `main_v69`, over the generated valuation it is entered at. -/
theorem outs_12_eq (c : Dev nD) : outs m 12 main_v69 c = (dat5 (fun c b => V11 m (outs m) c b) c).arrAt 7 cfg5.N := by
  rw [outs_12, Vt_V11]; rfl
/-- Pipeline 5's proof data, over the generated valuation its region is entered at. -/
theorem pdats_5 (c : Dev nD) : pdats m 5 c = dat5 (fun c b => V11 m (outs m) c b) c := by
  rw [Vt_V11]; rfl

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

/-! ## Region 0 (custom_call 0) -/

/-- Every window of region 0 but the last is an input window, -/
theorem in0_isOut : ∀ w : Fin cfg0.W, w ≠ 5 → (cfg0.win w).isOut = false := by decide
/-- and its array is not the output window's. -/
theorem in0_ne : ∀ w : Fin cfg0.W, w ≠ 5 → Pipeline.arrRef spec0 w ≠ main_v16 := by decide
/-- At region 0's exit each of its arrays holds what the pipeline leaves: an input window's array is never written
    and is not the output's, the output window's is `main_v16`. -/
theorem hF0 (c : Dev nD) (w : Fin cfg0.W) : (dat0 (Vt (W1 m)) c).arrAt w cfg0.N = (Vt (W2 m)) c (Pipeline.arrRef spec0 w) := by
  by_cases hw : w = 5
  · subst hw; exact (W2_out m c).symm
  · exact ((dat0 (Vt (W1 m)) c).arrAt_in w (in0_isOut w hw) _).trans ((A_eq0 (Vt (W1 m)) c w).trans (W2_of m c _ (in0_ne w hw)).symm)
/-- Every buffer that is none of region 0's arrays is left as entered. -/
theorem hrest0 (c : Dev nD) : ∀ b, b ∉ Finset.univ.image (Pipeline.arrRef spec0) → (Vt (W2 m)) c b = (Vt (W1 m)) c b :=
  fun b hb => W2_of m c b fun e => hb (Finset.mem_image.mpr ⟨5, Finset.mem_univ _, e.symm⟩)

/-! ## Region 2 (custom_call 2) -/

/-- Every window of region 2 but the last is an input window, -/
theorem in2_isOut : ∀ w : Fin cfg2.W, w ≠ 7 → (cfg2.win w).isOut = false := by decide
/-- and its array is not the output window's. -/
theorem in2_ne : ∀ w : Fin cfg2.W, w ≠ 7 → Pipeline.arrRef spec2 w ≠ main_v38 := by decide
/-- At region 2's exit each of its arrays holds what the pipeline leaves: an input window's array is never written
    and is not the output's, the output window's is `main_v38`. -/
theorem hF2 (c : Dev nD) (w : Fin cfg2.W) : (dat2 (Vt (W5 m)) c).arrAt w cfg2.N = (Vt (W6 m)) c (Pipeline.arrRef spec2 w) := by
  by_cases hw : w = 7
  · subst hw; exact (W6_out m c).symm
  · exact ((dat2 (Vt (W5 m)) c).arrAt_in w (in2_isOut w hw) _).trans ((A_eq2 (Vt (W5 m)) c w).trans (W6_of m c _ (in2_ne w hw)).symm)
/-- Every buffer that is none of region 2's arrays is left as entered. -/
theorem hrest2 (c : Dev nD) : ∀ b, b ∉ Finset.univ.image (Pipeline.arrRef spec2) → (Vt (W6 m)) c b = (Vt (W5 m)) c b :=
  fun b hb => W6_of m c b fun e => hb (Finset.mem_image.mpr ⟨7, Finset.mem_univ _, e.symm⟩)

/-! ## Region 3 (custom_call 3) -/

/-- Every window of region 3 but the last is an input window, -/
theorem in3_isOut : ∀ w : Fin cfg3.W, w ≠ 7 → (cfg3.win w).isOut = false := by decide
/-- and its array is not the output window's. -/
theorem in3_ne : ∀ w : Fin cfg3.W, w ≠ 7 → Pipeline.arrRef spec3 w ≠ main_v49 := by decide
/-- At region 3's exit each of its arrays holds what the pipeline leaves: an input window's array is never written
    and is not the output's, the output window's is `main_v49`. -/
theorem hF3 (c : Dev nD) (w : Fin cfg3.W) : (dat3 (Vt (W7 m)) c).arrAt w cfg3.N = (Vt (W8 m)) c (Pipeline.arrRef spec3 w) := by
  by_cases hw : w = 7
  · subst hw; exact (W8_out m c).symm
  · exact ((dat3 (Vt (W7 m)) c).arrAt_in w (in3_isOut w hw) _).trans ((A_eq3 (Vt (W7 m)) c w).trans (W8_of m c _ (in3_ne w hw)).symm)
/-- Every buffer that is none of region 3's arrays is left as entered. -/
theorem hrest3 (c : Dev nD) : ∀ b, b ∉ Finset.univ.image (Pipeline.arrRef spec3) → (Vt (W8 m)) c b = (Vt (W7 m)) c b :=
  fun b hb => W8_of m c b fun e => hb (Finset.mem_image.mpr ⟨7, Finset.mem_univ _, e.symm⟩)

/-! ## Region 4 (custom_call 4) -/

/-- Every window of region 4 but the last is an input window, -/
theorem in4_isOut : ∀ w : Fin cfg4.W, w ≠ 7 → (cfg4.win w).isOut = false := by decide
/-- and its array is not the output window's. -/
theorem in4_ne : ∀ w : Fin cfg4.W, w ≠ 7 → Pipeline.arrRef spec4 w ≠ main_v60 := by decide
/-- At region 4's exit each of its arrays holds what the pipeline leaves: an input window's array is never written
    and is not the output's, the output window's is `main_v60`. -/
theorem hF4 (c : Dev nD) (w : Fin cfg4.W) : (dat4 (Vt (W9 m)) c).arrAt w cfg4.N = (Vt (W10 m)) c (Pipeline.arrRef spec4 w) := by
  by_cases hw : w = 7
  · subst hw; exact (W10_out m c).symm
  · exact ((dat4 (Vt (W9 m)) c).arrAt_in w (in4_isOut w hw) _).trans ((A_eq4 (Vt (W9 m)) c w).trans (W10_of m c _ (in4_ne w hw)).symm)
/-- Every buffer that is none of region 4's arrays is left as entered. -/
theorem hrest4 (c : Dev nD) : ∀ b, b ∉ Finset.univ.image (Pipeline.arrRef spec4) → (Vt (W10 m)) c b = (Vt (W9 m)) c b :=
  fun b hb => W10_of m c b fun e => hb (Finset.mem_image.mpr ⟨7, Finset.mem_univ _, e.symm⟩)

/-! ## Region 5 (custom_call 5) -/

/-- Every window of region 5 but the last is an input window, -/
theorem in5_isOut : ∀ w : Fin cfg5.W, w ≠ 7 → (cfg5.win w).isOut = false := by decide
/-- and its array is not the output window's. -/
theorem in5_ne : ∀ w : Fin cfg5.W, w ≠ 7 → Pipeline.arrRef spec5 w ≠ main_v69 := by decide
/-- At region 5's exit each of its arrays holds what the pipeline leaves: an input window's array is never written
    and is not the output's, the output window's is `main_v69`. -/
theorem hF5 (c : Dev nD) (w : Fin cfg5.W) : (dat5 (Vt (W11 m)) c).arrAt w cfg5.N = (Vt (W12 m)) c (Pipeline.arrRef spec5 w) := by
  by_cases hw : w = 7
  · subst hw; exact (W12_out m c).symm
  · exact ((dat5 (Vt (W11 m)) c).arrAt_in w (in5_isOut w hw) _).trans ((A_eq5 (Vt (W11 m)) c w).trans (W12_of m c _ (in5_ne w hw)).symm)
/-- Every buffer that is none of region 5's arrays is left as entered. -/
theorem hrest5 (c : Dev nD) : ∀ b, b ∉ Finset.univ.image (Pipeline.arrRef spec5) → (Vt (W12 m)) c b = (Vt (W11 m)) c b :=
  fun b hb => W12_of m c b fun e => hb (Finset.mem_image.mpr ⟨7, Finset.mem_univ _, e.symm⟩)

/-! ## Region 1 (custom_call 1) -/

/-- Every window of region 1 but the last is an input window, -/
theorem in1_isOut : ∀ w : Fin cfg1.W, w ≠ 7 → (cfg1.win w).isOut = false := by decide
/-- and its array is not the output window's. -/
theorem in1_ne : ∀ w : Fin cfg1.W, w ≠ 7 → Pipeline.arrRef spec1 w ≠ main_v27 := by decide
/-- At region 1's exit each of its arrays holds what the pipeline leaves: an input window's array is never written
    and is not the output's, the output window's is `main_v27`. -/
theorem hF1 (c : Dev nD) (w : Fin cfg1.W) : (dat1 (Vt (W3 m)) c).arrAt w cfg1.N = (Vt (W4 m)) c (Pipeline.arrRef spec1 w) := by
  by_cases hw : w = 7
  · subst hw; exact (W4_out m c).symm
  · exact ((dat1 (Vt (W3 m)) c).arrAt_in w (in1_isOut w hw) _).trans ((A_eq1 (Vt (W3 m)) c w).trans (W4_of m c _ (in1_ne w hw)).symm)
/-- Every buffer that is none of region 1's arrays is left as entered. -/
theorem hrest1 (c : Dev nD) : ∀ b, b ∉ Finset.univ.image (Pipeline.arrRef spec1) → (Vt (W4 m)) c b = (Vt (W3 m)) c b :=
  fun b hb => W4_of m c b fun e => hb (Finset.mem_image.mpr ⟨7, Finset.mem_univ _, e.symm⟩)

/-! # The regions as segments -/

-- a library lemma stated over `pin pcs a p` unifies with the pinned configuration only when unification may
-- unfold plain definitions in a metavariable's type
set_option backward.isDefEq.respectTransparency.types false in
/-- REGION 0 over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c ((Vt (W1 m)) c)
  hentry c := by
    rw [Pipeline.ownSems0_none]
    have hsplit := Pipeline.arrays_of_unscopedBufs (p := 0) (pcfgs (F := F)) adm (pdats m) launch0.win launch0.arr_whole c
      ((pdats m 0 c).share_full fun _ => rfl) ((Vt (W1 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      ((Vt (W1 m)) c) ((Vt (W2 m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 2 over the thread state: entered from every unscoped buffer at `W5`, left at `W6`. Its arrays are
    split out of the unscoped buffers and put back at the exit contents; the generator register goes into the class
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c ((Vt (W5 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) ((Vt (W5 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      ((Vt (W5 m)) c) ((Vt (W6 m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 3 over the thread state: entered from every unscoped buffer at `W7`, left at `W8`. Its arrays are
    split out of the unscoped buffers and put back at the exit contents; the generator register goes into the class
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt (W7 m)) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c ((Vt (W7 m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) ((Vt (W7 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      ((Vt (W7 m)) c) ((Vt (W8 m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 4 over the thread state: entered from every unscoped buffer at `W9`, left at `W10`. Its arrays are
    split out of the unscoped buffers and put back at the exit contents; the generator register goes into the class
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vt (W9 m)) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c ((Vt (W9 m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) ((Vt (W9 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      ((Vt (W9 m)) c) ((Vt (W10 m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 5 over the thread state: entered from every unscoped buffer at `W11`, left at `W12`. Its arrays are
    split out of the unscoped buffers and put back at the exit contents; the generator register goes into the class
    invariant and comes out; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vt (W11 m)) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c ((Vt (W11 m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) ((Vt (W11 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      ((Vt (W11 m)) c) ((Vt (W12 m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 1 over the thread state: entered from every unscoped buffer at `W3`, left at `W4`. Two of its input windows
    stage one array, `main_v16`: at entry that buffer's full share is split in two halves, one per window, and at the
    exit the halves are joined again; otherwise as the other regions. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vt (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c ((Vt (W3 m)) c)
  hentry c := by
    rw [Pipeline.ownSems0_none]
    have hsplit := arrays_of_unscopedBufs1 (Vt (W3 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (Vt (W3 m)) c ((Vt (W4 m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! # The launch and the run -/

/-- The launch's ghost element is the pipeline library's at every pipeline's staging cells; no other ghost resource is made. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the rest `R`: the generator register at its launch state,
    the `owes` at nothing. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-- The rest ends owing nothing. -/
theorem hE6 (c : Dev nD) : R c ⊢ (iprop(∃ W, owes (c : Thread nD τ) (0 : CellTallies nD τ sig Unit) W) : sProp 𝕄) := by
  iintro ⟨-, HO⟩; iexact HO

/-- A region's thread states read at the generated valuations. -/
theorem held_of_eq {c : Dev nD} {W W' : Valuation τ sig (Elt F)} (h : W = W') :
    iprop(StableHlo.held (c : Thread nD τ) (Pipeline.ucRefs τ sig) W ∗ R c) ⊢ (iprop(StableHlo.held (c : Thread nD τ) (Pipeline.ucRefs τ sig) W' ∗ R c) : sProp 𝕄) := by
  subst h; exact .rfl

-- the conditional frame's implicit arguments are found by unifying its conclusion with this one, which takes unfolding
-- plain definitions in a metavariable's type
set_option backward.isDefEq.respectTransparency.types false in
/-- THE FRAME at any `F`: at the compiled mesh, from any memory with zero counters, every weakly fair execution of @main
    on the TensorCores terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m emb₁ () 𝒱₀ L lv (fun _ _ => rfl) ρ (outs m) (pdats m) 0 (fun _ => iprop(emp)) _ hu₀
    (fun _ c => R c) (hE0 ρ) hE6
    (reg0 m) (fun c => held_of_eq (c := c) (rfl)) (fun c => held_of_eq (c := c) (V2_eq m c).symm)
    (reg1 m) (fun c => held_of_eq (c := c) (V3_eq m c)) (fun c => held_of_eq (c := c) (V4_eq m c).symm)
    (reg2 m) (fun c => held_of_eq (c := c) (V5_eq m c)) (fun c => held_of_eq (c := c) (V6_eq m c).symm)
    (reg3 m) (fun c => held_of_eq (c := c) (V7_eq m c)) (fun c => held_of_eq (c := c) (V8_eq m c).symm)
    (reg4 m) (fun c => held_of_eq (c := c) (V9_eq m c)) (fun c => held_of_eq (c := c) (V10_eq m c).symm)
    (reg5 m) (fun c => held_of_eq (c := c) (V11_eq m c)) (fun c => held_of_eq (c := c) (V12_eq m c).symm)

/-! # The run with the result buffer -/

/-- Region 0's thread states are the generated ones at these unknowns. -/
theorem hpre0 (c : Dev nD) : iprop(StableHlo.held (c : Thread nD τ) (Pipeline.ucRefs τ sig) (V1 m c) ∗ R c) ⊢ (reg0 m).pre c :=
  held_of_eq (c := c) (rfl)
theorem hpost0 (c : Dev nD) : (reg0 m).post c ⊢ iprop(StableHlo.held (c : Thread nD τ) (Pipeline.ucRefs τ sig) (V2 m (outs m) c) ∗ R c) :=
  held_of_eq (c := c) (V2_eq m c).symm
/-- Region 1's thread states are the generated ones at these unknowns. -/
theorem hpre1 (c : Dev nD) : iprop(StableHlo.held (c : Thread nD τ) (Pipeline.ucRefs τ sig) (V3 m (outs m) c) ∗ R c) ⊢ (reg1 m).pre c :=
  held_of_eq (c := c) (V3_eq m c)
theorem hpost1 (c : Dev nD) : (reg1 m).post c ⊢ iprop(StableHlo.held (c : Thread nD τ) (Pipeline.ucRefs τ sig) (V4 m (outs m) c) ∗ R c) :=
  held_of_eq (c := c) (V4_eq m c).symm
/-- Region 2's thread states are the generated ones at these unknowns. -/
theorem hpre2 (c : Dev nD) : iprop(StableHlo.held (c : Thread nD τ) (Pipeline.ucRefs τ sig) (V5 m (outs m) c) ∗ R c) ⊢ (reg2 m).pre c :=
  held_of_eq (c := c) (V5_eq m c)
theorem hpost2 (c : Dev nD) : (reg2 m).post c ⊢ iprop(StableHlo.held (c : Thread nD τ) (Pipeline.ucRefs τ sig) (V6 m (outs m) c) ∗ R c) :=
  held_of_eq (c := c) (V6_eq m c).symm
/-- Region 3's thread states are the generated ones at these unknowns. -/
theorem hpre3 (c : Dev nD) : iprop(StableHlo.held (c : Thread nD τ) (Pipeline.ucRefs τ sig) (V7 m (outs m) c) ∗ R c) ⊢ (reg3 m).pre c :=
  held_of_eq (c := c) (V7_eq m c)
theorem hpost3 (c : Dev nD) : (reg3 m).post c ⊢ iprop(StableHlo.held (c : Thread nD τ) (Pipeline.ucRefs τ sig) (V8 m (outs m) c) ∗ R c) :=
  held_of_eq (c := c) (V8_eq m c).symm
/-- Region 4's thread states are the generated ones at these unknowns. -/
theorem hpre4 (c : Dev nD) : iprop(StableHlo.held (c : Thread nD τ) (Pipeline.ucRefs τ sig) (V9 m (outs m) c) ∗ R c) ⊢ (reg4 m).pre c :=
  held_of_eq (c := c) (V9_eq m c)
theorem hpost4 (c : Dev nD) : (reg4 m).post c ⊢ iprop(StableHlo.held (c : Thread nD τ) (Pipeline.ucRefs τ sig) (V10 m (outs m) c) ∗ R c) :=
  held_of_eq (c := c) (V10_eq m c).symm
/-- Region 5's thread states are the generated ones at these unknowns. -/
theorem hpre5 (c : Dev nD) : iprop(StableHlo.held (c : Thread nD τ) (Pipeline.ucRefs τ sig) (V11 m (outs m) c) ∗ R c) ⊢ (reg5 m).pre c :=
  held_of_eq (c := c) (V11_eq m c)
theorem hpost5 (c : Dev nD) : (reg5 m).post c ⊢ iprop(StableHlo.held (c : Thread nD τ) (Pipeline.ucRefs τ sig) (V12 m (outs m) c) ∗ R c) :=
  held_of_eq (c := c) (V12_eq m c).symm

-- the launch theorem's implicit arguments are found by unifying its conclusion with this one, which takes unfolding plain
-- definitions in a metavariable's type
set_option backward.isDefEq.respectTransparency.types false in
/-- THE RUN WITH ITS VALUE: as the frame, and moreover every final state holds, in the result buffer `main_v82`, the last
    valuation's contents — the launch memory taken through every host stretch and every region's output. The same launch
    over the same segments as the conditional frame, the last thread state read at one more buffer. -/
theorem run_value : θ_run defs (onTc (τ := τ) (main (F := F))) ⟨m, fun _ => 0, ρ⟩ (fun r => ∀ c : Dev nD,
      r.2.mem ((c.tc : Thread nD τ).loc main_v82) = V13 m (outs m) c main_v82
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m))
    (fun c Q => by
      rewrite [main_chain c, Seg.run_eq_chain,
        show ((segs m (outs m) 𝒱₀ L lv (fun _ c => R c) () (pdats m) (reg0 m) (reg1 m) (reg2 m) (reg3 m) (reg4 m) (reg5 m)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide) 0 (fun _ _ => rfl) (fun _ => iprop(emp)) _ hu₀
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, hpre0 m c, hpost0 m c, hpre1 m c, hpost1 m c, hpre2 m c, hpost2 m c, hpre3 m c, hpost3 m c, hpre4 m c, hpost4 m c, hpre5 m c, hpost5 m c, sep_mono .rfl (hE6 c)⟩)
    (hinit := ?_) (QY := fun c s => s.mem ((c.tc : Thread nD τ).loc main_v82) = V13 m (outs m) c main_v82
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14))
    (hfin := fun c s' => ?_) (hQ := fun _ h => h)
  · -- the launch: the unscoped buffers are held at the launch contents; the rest makes `R` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    have hjoin : ∀ Rr : Dev nD → sProp 𝕄, iprop((bigSep Finset.univ fun c : Dev nD => StableHlo.held (c : Thread nD τ) (Pipeline.ucRefs τ sig) (V0 m c))
        ∗ bigSep Finset.univ Rr) ⊢ bigSep Finset.univ fun c : Dev nD => iprop(StableHlo.held (c : Thread nD τ) (Pipeline.ucRefs τ sig) (V0 m c) ∗ Rr c) :=
      fun Rr => by rw [bigSep_sep']
    iapply (hjoin fun c => R c)
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨h (Proc.devRef .tc main_v82) (Finset.mem_filter.mpr ⟨StableHlo.devRef_mem_tcRefs main_v82, by decide⟩),
        (h (Proc.devRef .tc main_arg0) (Finset.mem_filter.mpr ⟨StableHlo.devRef_mem_tcRefs main_arg0, by decide⟩)).trans (V13_main_arg0 m (outs m) c),
        (h (Proc.devRef .tc main_arg1) (Finset.mem_filter.mpr ⟨StableHlo.devRef_mem_tcRefs main_arg1, by decide⟩)).trans (V13_main_arg1 m (outs m) c),
        (h (Proc.devRef .tc main_arg2) (Finset.mem_filter.mpr ⟨StableHlo.devRef_mem_tcRefs main_arg2, by decide⟩)).trans (V13_main_arg2 m (outs m) c),
        (h (Proc.devRef .tc main_arg3) (Finset.mem_filter.mpr ⟨StableHlo.devRef_mem_tcRefs main_arg3, by decide⟩)).trans (V13_main_arg3 m (outs m) c),
        (h (Proc.devRef .tc main_arg4) (Finset.mem_filter.mpr ⟨StableHlo.devRef_mem_tcRefs main_arg4, by decide⟩)).trans (V13_main_arg4 m (outs m) c),
        (h (Proc.devRef .tc main_arg5) (Finset.mem_filter.mpr ⟨StableHlo.devRef_mem_tcRefs main_arg5, by decide⟩)).trans (V13_main_arg5 m (outs m) c),
        (h (Proc.devRef .tc main_arg6) (Finset.mem_filter.mpr ⟨StableHlo.devRef_mem_tcRefs main_arg6, by decide⟩)).trans (V13_main_arg6 m (outs m) c),
        (h (Proc.devRef .tc main_arg7) (Finset.mem_filter.mpr ⟨StableHlo.devRef_mem_tcRefs main_arg7, by decide⟩)).trans (V13_main_arg7 m (outs m) c),
        (h (Proc.devRef .tc main_arg8) (Finset.mem_filter.mpr ⟨StableHlo.devRef_mem_tcRefs main_arg8, by decide⟩)).trans (V13_main_arg8 m (outs m) c),
        (h (Proc.devRef .tc main_arg9) (Finset.mem_filter.mpr ⟨StableHlo.devRef_mem_tcRefs main_arg9, by decide⟩)).trans (V13_main_arg9 m (outs m) c),
        (h (Proc.devRef .tc main_arg10) (Finset.mem_filter.mpr ⟨StableHlo.devRef_mem_tcRefs main_arg10, by decide⟩)).trans (V13_main_arg10 m (outs m) c),
        (h (Proc.devRef .tc main_arg11) (Finset.mem_filter.mpr ⟨StableHlo.devRef_mem_tcRefs main_arg11, by decide⟩)).trans (V13_main_arg11 m (outs m) c),
        (h (Proc.devRef .tc main_arg12) (Finset.mem_filter.mpr ⟨StableHlo.devRef_mem_tcRefs main_arg12, by decide⟩)).trans (V13_main_arg12 m (outs m) c),
        (h (Proc.devRef .tc main_arg13) (Finset.mem_filter.mpr ⟨StableHlo.devRef_mem_tcRefs main_arg13, by decide⟩)).trans (V13_main_arg13 m (outs m) c),
        (h (Proc.devRef .tc main_arg14) (Finset.mem_filter.mpr ⟨StableHlo.devRef_mem_tcRefs main_arg14, by decide⟩)).trans (V13_main_arg14 m (outs m) c)⟩
    · iexact HSI

/-- The frame claim of `KernelIdeal` as the certificate states it (at `F := Ideal`, under its precondition, which the frame does not use). -/
theorem frame_KernelIdeal [hPre_finite_inputs : Cert.Pre_finite_inputs.Facts] : Cert.frame_KernelIdeal (hKernelIdeal := Gen.facts) :=
  fun m ρ _ => frame m ρ

end Cert.KernelIdeal.Hand

end
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.Spec.lean ====
/-
  The three dense stages of the message-passing network, as functions of whole arrays read entry by entry on the
  extended reals. Every array is a function of its index; a matrix entry is read at `ix2 row column`.

  * `edgeInit`: the initial edge message. Row `e` of the result is `relu (x_e · Wx + f_e · We + b)`: entry `(e, j)` is
    `max (∑ₖ x (e, k) · Wx (k, j) + ∑ₖ f (e, k) · We (k, j) + b (0, j)) 0`.
  * `step`: one message-passing update. With `m_e = g_e - h_e` (the gathered node sum less the edge's own message) and the
    hidden row `a_e = relu (m_e · W₁ + b₁)`, row `e` of the result is `relu (h⁰_e + (a_e · W₂ + b₂))`.
  * `final`: the node update with layer normalisation. With `r_n = relu (x_n · Wx + s_n · Wm + b)`, its row mean
    `μ_n = (∑ⱼ r (n, j)) / 64` and row variance `v_n = (∑ⱼ (r (n, j) - μ_n)²) / 64`, entry `(n, j)` of the result is
    `max ((r (n, j) - μ_n) · rsqrt (v_n + ε) · γ (0, j) + β (0, j)) 0`.
  The divisor 64 and the stabiliser ε are kept as the 32-bit words both programs carry (64 is `0x42800000`, ε is
  `0x3727C5AC`): the same word denotes the same extended real on both sides and is never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A real matrix of `n` rows and `k` columns, as a function of its index. -/
abbrev Mat (n k : Nat) : Type := (⟨2, ![n, k]⟩ : Shape).Idx → EReal

/-- The divisor of the row mean and the row variance: the word of `64.0`. -/
abbrev c64 : EReal := Ideal.ofBits .f32 0x42800000#32
/-- The stabiliser added to the variance: the word both programs carry for `1e-5`. -/
abbrev cEps : EReal := Ideal.ofBits .f32 0x3727C5AC#32

/-! ## The initial edge message -/

def edgeInitAt (x : Mat 1000000 64) (f : Mat 1000000 16) (wx : Mat 64 64) (we : Mat 16 64) (b : Mat 1 64)
    (e : Fin 1000000) (j : Fin 64) : EReal :=
  max (((∑ k : Fin 64, x (ix2 e k) * wx (ix2 k j)) + (∑ k : Fin 16, f (ix2 e k) * we (ix2 k j))) + b (ix2 (0 : Fin 1) j)) 0

def edgeInit (x : Mat 1000000 64) (f : Mat 1000000 16) (wx : Mat 64 64) (we : Mat 16 64) (b : Mat 1 64) : Mat 1000000 64 :=
  fun i => edgeInitAt x f wx we b (i 0) (i 1)

/-! ## One message-passing step -/

/-- The hidden row of the step's two-layer map: `relu ((g - h) · W₁ + b₁)` at `(e, k)`. -/
def stepHiddenAt (h g : Mat 1000000 64) (w1 : Mat 64 64) (b1 : Mat 1 64) (e : Fin 1000000) (k : Fin 64) : EReal :=
  max ((∑ l : Fin 64, (g (ix2 e l) - h (ix2 e l)) * w1 (ix2 l k)) + b1 (ix2 (0 : Fin 1) k)) 0

def stepAt (h0 h g : Mat 1000000 64) (w1 : Mat 64 64) (b1 : Mat 1 64) (w2 : Mat 64 64) (b2 : Mat 1 64)
    (e : Fin 1000000) (j : Fin 64) : EReal :=
  max (h0 (ix2 e j) + ((∑ k : Fin 64, stepHiddenAt h g w1 b1 e k * w2 (ix2 k j)) + b2 (ix2 (0 : Fin 1) j))) 0

def step (h0 h g : Mat 1000000 64) (w1 : Mat 64 64) (b1 : Mat 1 64) (w2 : Mat 64 64) (b2 : Mat 1 64) : Mat 1000000 64 :=
  fun i => stepAt h0 h g w1 b1 w2 b2 (i 0) (i 1)

/-! ## The node update with layer normalisation -/

/-- The node's row before normalisation: `relu (x · Wx + s · Wm + b)` at `(n, j)`. -/
def finalRowAt (x s : Mat 100000 64) (wx wm : Mat 64 64) (b : Mat 1 64) (n : Fin 100000) (j : Fin 64) : EReal :=
  max (((∑ k : Fin 64, x (ix2 n k) * wx (ix2 k j)) + (∑ k : Fin 64, s (ix2 n k) * wm (ix2 k j))) + b (ix2 (0 : Fin 1) j)) 0

/-- The row mean. -/
def finalMeanAt (x s : Mat 100000 64) (wx wm : Mat 64 64) (b : Mat 1 64) (n : Fin 100000) : EReal :=
  Ideal.div (∑ j : Fin 64, finalRowAt x s wx wm b n j) c64

/-- The row variance (the mean of the squared deviations). -/
def finalVarAt (x s : Mat 100000 64) (wx wm : Mat 64 64) (b : Mat 1 64) (n : Fin 100000) : EReal :=
  Ideal.div (∑ j : Fin 64, (finalRowAt x s wx wm b n j - finalMeanAt x s wx wm b n)
      * (finalRowAt x s wx wm b n j - finalMeanAt x s wx wm b n)) c64

def finalAt (x s : Mat 100000 64) (wx wm : Mat 64 64) (b γ β : Mat 1 64) (n : Fin 100000) (j : Fin 64) : EReal :=
  max (((finalRowAt x s wx wm b n j - finalMeanAt x s wx wm b n) * Ideal.rsqrt (finalVarAt x s wx wm b n + cEps))
      * γ (ix2 (0 : Fin 1) j) + β (ix2 (0 : Fin 1) j)) 0

def final (x s : Mat 100000 64) (wx wm : Mat 64 64) (b γ β : Mat 1 64) : Mat 100000 64 :=
  fun i => finalAt x s wx wm b γ β (i 0) (i 1)

end Cert.Spec

end
-- ==== Proof.KI.PayEdge.lean ====
/-
  The edge-initialisation kernel's stored block, read entry by entry on the extended reals: with the loaded blocks `x` (rows of
  the gathered node features), `f` (rows of the edge features), the two weight matrices and the bias row, the entry at row
  `p` and column `q` is `max (∑ₖ x (p, k) · Wx (k, q) + ∑ₖ f (p, k) · We (k, q) + b (0, q)) 0`. Every narrowing to the 16-bit format
  is the identity on the extended reals, each matrix product into the zero matrix is the plain sum of products, and the bias
  row broadcast over the rows reads the row at the column.
-/
import proofs.«120260_j56453050139301_2_alg».proof.Proof.Gen.KernelIdeal.Skeleton
import proofs.«120260_j56453050139301_2_alg».proof.Proof.LibPlainProduct
import proofs.«120260_j56453050139301_2_alg».proof.Proof.Spec
import Idealize.ShloMosaic.Lib.ValueLayout
import Idealize.ShloMosaic.Lib.ValueIdx
import Idealize.ShloMosaic.PureOps.Ideal.Laws

noncomputable section

namespace Cert.KernelIdeal.HandValue

open Cert.KernelIdeal Cert.KernelIdeal.Gen
open Idealize.ShloMosaic Idealize.ShloMosaic.ValueIdx

/-- The kernel's first contraction is the plain product of a 10000×64 by a 64×64 matrix, -/
theorem dot_edge_x_eq : dot_S10000x64_S64x64_S10000x64_1_0_0_1_n_n = DotDims.plain 10000 64 64 := rfl
/-- and its second the plain product of a 10000×16 by a 16×64 matrix. -/
theorem dot_edge_f_eq : dot_S10000x16_S16x64_S10000x64_1_0_0_1_n_n = DotDims.plain 10000 16 64 := rfl

/-- The edge-initialisation kernel's payload at row `p`, column `q`. -/
theorem k0_pay1_apply (x0 : Vec Ideal S10000x64 .f32) (x1 : Vec Ideal S10000x16 .f32) (x2 : Vec Ideal S64x64 .f32)
    (x3 : Vec Ideal S16x64 .f32) (x4 : Vec Ideal S1x64 .f32) (p : Fin 10000) (q : Fin 64) :
    k0_pay1 (F := Ideal) x0 x1 x2 x3 x4 (ix2 p q)
      = max (((∑ k : Fin 64, x0 (ix2 p k) * x2 (ix2 k q)) + (∑ k : Fin 16, x1 (ix2 p k) * x3 (ix2 k q))) + x4 (ix2 (0 : Fin 1) q)) 0 := by
  unfold k0_pay1
  have hz : (FloatOps.ofBits (F := Ideal) FTy.f32 0x00000000#32) = 0 := Ideal.ofBits_zero_f32
  rw [maximumf_apply, addf_apply, addf_apply, broadcast_apply, broadcastTo_1b_ab_apply, dot_edge_x_eq, dot_edge_f_eq,
    LibPlainProduct.matmul_plain_zero_apply, LibPlainProduct.matmul_plain_zero_apply]
  simp only [truncf_apply, shapeCast_self, hz]

/-- The payload on blocks that are rows of whole arrays: with row `p` of each edge block row `e` of its array and the
    parameter blocks the parameter arrays, the entry at `(p, q)` is the initial edge message of the arrays at `(e, q)`. -/
theorem edge_point (x0 : Vec Ideal S10000x64 .f32) (x1 : Vec Ideal S10000x16 .f32) (x2 : Vec Ideal S64x64 .f32)
    (x3 : Vec Ideal S16x64 .f32) (x4 : Vec Ideal S1x64 .f32)
    (X : Spec.Mat 1000000 64) (E : Spec.Mat 1000000 16) (Wx : Spec.Mat 64 64) (We : Spec.Mat 16 64) (B : Spec.Mat 1 64)
    (p : Fin 10000) (q : Fin 64) (e : Fin 1000000)
    (h0 : ∀ l : Fin 64, x0 (ix2 p l) = X (ix2 e l)) (h1 : ∀ l : Fin 16, x1 (ix2 p l) = E (ix2 e l))
    (h2 : x2 = Wx) (h3 : x3 = We) (h4 : x4 = B) :
    k0_pay1 (F := Ideal) x0 x1 x2 x3 x4 (ix2 p q) = Spec.edgeInitAt X E Wx We B e q := by
  rw [k0_pay1_apply]
  subst h2 h3 h4
  unfold Spec.edgeInitAt
  simp only [h0, h1]

end Cert.KernelIdeal.HandValue

end
-- ==== Proof.KI.Value0.lean ====
/-
  What region 0 of the program leaves in its output array: the initial edge message of the whole arrays.

  The region's grid has 100 points; at point `t` the two edge windows and the output window hold rows
  `10000 t … 10000 t + 9999` of their arrays and the three parameter windows hold their whole arrays. The body's one store is
  the kernel's payload of the loaded blocks, so what point `t` writes back is rows `10000 t …` of `Spec.edgeInit` of the
  whole arrays; the 100 row blocks tile the output array, so after the run the array is `Spec.edgeInit` of the arrays.
-/
import proofs.«120260_j56453050139301_2_alg».proof.Proof.KI.Region0
import proofs.«120260_j56453050139301_2_alg».proof.Proof.KI.PayEdge
import proofs.«120260_j56453050139301_2_alg».proof.Proof.Spec
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin0 : (![0, 0] : Fin 2 → Nat) = fun _ => 0 := funext fun a => by fin_cases a <;> rfl

/-- The printed index maps, decided over the grid: at point `t` the two edge windows and the output window take row
    block `t`, and the three parameter windows take their whole array. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Edge window 0's block at point `t` is rows `10000 t … 10000 t + 9999` of its array. -/
theorem iblk0_0_apply (c : Dev nD) (t : Fin cfg0.N) (x : S10000x64.Idx) (k : S1000000x64.Idx)
    (hk0 : (k 0).val = 10000 * t.val + (x 0).val) (hk1 : (k 1).val = (x 1).val) :
    (iblk0 V c 0 t : Vec Ideal S10000x64 .f32) x = (V c main_v10 : S1000000x64.Idx → EReal) k := by
  have e0 : win0_0.index t (0 : Fin 2) = t.val := (idx0 t).1
  have e1 : win0_0.index t (1 : Fin 2) = 0 := (idx0 t).2.1
  unfold iblk0
  rw [View.read_apply]
  show V c main_v10 _ = V c main_v10 _
  congr 1
  funext a
  apply Fin.ext
  match a with
  | ⟨0, _⟩ => show win0_0.index t 0 * 10000 + 1 * (x 0).val = (k 0).val; rw [e0, hk0]; omega
  | ⟨1, _⟩ => show win0_0.index t 1 * 64 + 1 * (x 1).val = (k 1).val; rw [e1, hk1]; omega

/-- Edge window 1's block at point `t` is rows `10000 t … 10000 t + 9999` of its array. -/
theorem iblk0_1_apply (c : Dev nD) (t : Fin cfg0.N) (x : S10000x16.Idx) (k : S1000000x16.Idx)
    (hk0 : (k 0).val = 10000 * t.val + (x 0).val) (hk1 : (k 1).val = (x 1).val) :
    (iblk0 V c 1 t : Vec Ideal S10000x16 .f32) x = (V c main_arg1 : S1000000x16.Idx → EReal) k := by
  have e0 : win0_1.index t (0 : Fin 2) = t.val := (idx0 t).2.2.1
  have e1 : win0_1.index t (1 : Fin 2) = 0 := (idx0 t).2.2.2.1
  unfold iblk0
  rw [View.read_apply]
  show V c main_arg1 _ = V c main_arg1 _
  congr 1
  funext a
  apply Fin.ext
  match a with
  | ⟨0, _⟩ => show win0_1.index t 0 * 10000 + 1 * (x 0).val = (k 0).val; rw [e0, hk0]; omega
  | ⟨1, _⟩ => show win0_1.index t 1 * 16 + 1 * (x 1).val = (k 1).val; rw [e1, hk1]; omega

/-- Parameter window 2's block at every point is its whole array. -/
theorem iblk0_2_eq (c : Dev nD) (t : Fin cfg0.N) :
    (iblk0 V c 2 t : Vec Ideal S64x64 .f32) = (V c main_v11 : S64x64.Idx → EReal) := by
  have e0 : win0_2.index t (0 : Fin 2) = 0 := (idx0 t).2.2.2.2.1
  have e1 : win0_2.index t (1 : Fin 2) = 0 := (idx0 t).2.2.2.2.2.1
  funext x
  unfold iblk0
  rw [View.read_apply]
  show V c main_v11 _ = V c main_v11 _
  congr 1
  funext a
  apply Fin.ext
  match a with
  | ⟨0, _⟩ => show win0_2.index t 0 * 64 + 1 * (x 0).val = (x 0).val; rw [e0]; omega
  | ⟨1, _⟩ => show win0_2.index t 1 * 64 + 1 * (x 1).val = (x 1).val; rw [e1]; omega

/-- Parameter window 3's block at every point is its whole array. -/
theorem iblk0_3_eq (c : Dev nD) (t : Fin cfg0.N) :
    (iblk0 V c 3 t : Vec Ideal S16x64 .f32) = (V c main_v12 : S16x64.Idx → EReal) := by
  have e0 : win0_3.index t (0 : Fin 2) = 0 := (idx0 t).2.2.2.2.2.2.1
  have e1 : win0_3.index t (1 : Fin 2) = 0 := (idx0 t).2.2.2.2.2.2.2.1
  funext x
  unfold iblk0
  rw [View.read_apply]
  show V c main_v12 _ = V c main_v12 _
  congr 1
  funext a
  apply Fin.ext
  match a with
  | ⟨0, _⟩ => show win0_3.index t 0 * 16 + 1 * (x 0).val = (x 0).val; rw [e0]; omega
  | ⟨1, _⟩ => show win0_3.index t 1 * 64 + 1 * (x 1).val = (x 1).val; rw [e1]; omega

/-- Parameter window 4's block at every point is its whole array. -/
theorem iblk0_4_eq (c : Dev nD) (t : Fin cfg0.N) :
    (iblk0 V c 4 t : Vec Ideal S1x64 .f32) = (V c main_v13 : S1x64.Idx → EReal) := by
  have e0 : win0_4.index t (0 : Fin 2) = 0 := (idx0 t).2.2.2.2.2.2.2.2.1
  have e1 : win0_4.index t (1 : Fin 2) = 0 := (idx0 t).2.2.2.2.2.2.2.2.2.1
  funext x
  unfold iblk0
  rw [View.read_apply]
  show V c main_v13 _ = V c main_v13 _
  congr 1
  funext a
  apply Fin.ext
  match a with
  | ⟨0, _⟩ => show win0_4.index t 0 * 1 + 1 * (x 0).val = (x 0).val; rw [e0]; omega
  | ⟨1, _⟩ => show win0_4.index t 1 * 64 + 1 * (x 1).val = (x 1).val; rw [e1]; omega

/-- What point `t` writes back is rows `10000 t … 10000 t + 9999` of the initial edge message of the whole arrays. -/
theorem flushed0_eq (c : Dev nD) (t : Fin cfg0.N) :
    (dat0 V c).flushed 5 t = ((cfg0.win 5).blk t).view.read (Elt Ideal)
      (Spec.edgeInit (V c main_v10) (V c main_arg1) (V c main_v11) (V c main_v12) (V c main_v13)) := by
  show (cfg0.win 5).cut (grid0.coords t) ((dat0 V c).after 5 t) = _
  rw [after0_5]
  unfold out0_5
  rw [View.canon_unit_zero origin0]
  simp only [View.ld_unit_zero (S := S10000x64) origin0, View.ld_unit_zero (S := S10000x16) origin0, View.ld_unit_zero (S := S64x64) origin0,
    View.ld_unit_zero (S := S16x64) origin0, View.ld_unit_zero (S := S1x64) origin0]
  funext j
  have e0 : win0_5.index t (0 : Fin 2) = t.val := (idx0 t).2.2.2.2.2.2.2.2.2.2.1
  have e1 : win0_5.index t (1 : Fin 2) = 0 := (idx0 t).2.2.2.2.2.2.2.2.2.2.2
  have ht : t.val < 100 := t.isLt
  have hj0 : (j 0).val < 10000 := (j 0).isLt
  have hj1 : (j 1).val < 64 := (j 1).isLt
  have hlt : 10000 * t.val + (j 0).val < 1000000 := by omega
  have hr : (((cfg0.win 5).blk t).view.emb j) 0 = (⟨10000 * t.val + (j 0).val, hlt⟩ : Fin 1000000) :=
    Fin.ext (by show win0_5.index t 0 * 10000 + 1 * (j 0).val = 10000 * t.val + (j 0).val; rw [e0]; omega)
  have hc : (((cfg0.win 5).blk t).view.emb j) 1 = (j 1 : Fin 64) :=
    Fin.ext (by show win0_5.index t 1 * 64 + 1 * (j 1).val = (j 1).val; rw [e1]; omega)
  have hp := edge_point (iblk0 V c 0 t) (iblk0 V c 1 t) (iblk0 V c 2 t) (iblk0 V c 3 t) (iblk0 V c 4 t)
    (V c main_v10) (V c main_arg1) (V c main_v11) (V c main_v12) (V c main_v13)
    (j 0) (j 1) ⟨10000 * t.val + (j 0).val, hlt⟩
    (fun l => iblk0_0_apply V c t (ix2 (j 0) l) (ix2 ⟨10000 * t.val + (j 0).val, hlt⟩ l) rfl rfl)
    (fun l => iblk0_1_apply V c t (ix2 (j 0) l) (ix2 ⟨10000 * t.val + (j 0).val, hlt⟩ l) rfl rfl)
    (iblk0_2_eq V c t) (iblk0_3_eq V c t) (iblk0_4_eq V c t)
  refine ((congrArg (k0_pay1 (F := Ideal) (iblk0 V c 0 t) (iblk0 V c 1 t) (iblk0 V c 2 t) (iblk0 V c 3 t) (iblk0 V c 4 t)) (eq_ix2 (n0 := 10000) (n1 := 64) j)).trans hp).trans ?_
  exact congrArg₂ (Spec.edgeInitAt (V c main_v10) (V c main_arg1) (V c main_v11) (V c main_v12) (V c main_v13)) hr.symm hc.symm

/-- An index of the output array is in point `t`'s block iff its row is among the block's 10000 rows. -/
theorem mem_blk0 (t : Fin cfg0.N) (i : S1000000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v16).slice (win0_5.rect t)).set ↔ _
  rw [View.set_slice_whole, Rect.mem_set_unit]
  exact Iff.rfl

/-- Every index of the output array is in some point's block: row `r` is in block `r / 10000`. -/
theorem cover0 (i : S1000000x64.Idx) : ∃ t : Fin cfg0.N, (cfg0.win 5).flush t = true ∧ i ∈ ((cfg0.win 5).blk t).view.set := by
  have hi0 : (i 0).val < 1000000 := (i 0).isLt
  have hi1 : (i 1).val < 64 := (i 1).isLt
  have hq : (i 0).val / 10000 < 100 := by omega
  refine ⟨⟨(i 0).val / 10000, hq⟩, flush0_5 _, ?_⟩
  rw [mem_blk0]
  have e0 : win0_5.index ⟨(i 0).val / 10000, hq⟩ (0 : Fin 2) = (i 0).val / 10000 := (idx0 ⟨(i 0).val / 10000, hq⟩).2.2.2.2.2.2.2.2.2.2.1
  have e1 : win0_5.index ⟨(i 0).val / 10000, hq⟩ (1 : Fin 2) = 0 := (idx0 ⟨(i 0).val / 10000, hq⟩).2.2.2.2.2.2.2.2.2.2.2
  intro a
  match a with
  | ⟨0, _⟩ => show win0_5.index ⟨(i 0).val / 10000, hq⟩ (0 : Fin 2) * 10000 ≤ (i 0).val ∧ (i 0).val < win0_5.index ⟨(i 0).val / 10000, hq⟩ (0 : Fin 2) * 10000 + 10000; rw [e0]; omega
  | ⟨1, _⟩ => show win0_5.index ⟨(i 0).val / 10000, hq⟩ (1 : Fin 2) * 64 ≤ (i 1).val ∧ (i 1).val < win0_5.index ⟨(i 0).val / 10000, hq⟩ (1 : Fin 2) * 64 + 64; rw [e1]; omega

/-- THE ARRAY after region 0: the initial edge message of the arrays its windows stage, as the region finds them. -/
theorem arr0 (c : Dev nD) : (dat0 (F := Ideal) V c).arrAt 5 cfg0.N
    = (Spec.edgeInit (V c main_v10) (V c main_arg1) (V c main_v11) (V c main_v12) (V c main_v13)) :=
  (dat0 V c).arrAt_eq_of_cover 5 _ (fun t _ => flushed0_eq V c t) (cover0)

end Cert.KernelIdeal.HandValue

end
-- ==== Proof.KI.PayStep.lean ====
/-
  The step kernel's stored block, read entry by entry on the extended reals: with the loaded blocks `h0`, `h`, `g` (rows of
  the edge arrays), the two weight matrices and the two bias rows, the entry at row `p` and column `q` is
  `max (h0 (p, q) + (∑ₖ max (∑ₗ (g (p, l) - h (p, l)) · W₁ (l, k) + b₁ (0, k)) 0 · W₂ (k, q) + b₂ (0, q))) 0`.
  Every narrowing to the 16-bit format is the identity on the extended reals, each matrix product into the zero matrix is
  the plain sum of products, and a bias row broadcast over the rows reads the row at the column.
-/
import proofs.«120260_j56453050139301_2_alg».proof.Proof.Gen.KernelIdeal.Skeleton
import proofs.«120260_j56453050139301_2_alg».proof.Proof.LibPlainProduct
import proofs.«120260_j56453050139301_2_alg».proof.Proof.Spec
import Idealize.ShloMosaic.Lib.ValueLayout
import Idealize.ShloMosaic.Lib.ValueIdx
import Idealize.ShloMosaic.PureOps.Ideal.Laws

noncomputable section

namespace Cert.KernelIdeal.HandValue

open Cert.KernelIdeal Cert.KernelIdeal.Gen
open Idealize.ShloMosaic Idealize.ShloMosaic.ValueIdx

/-- The step kernel's contraction is the plain product of a 5000×64 by a 64×64 matrix. -/
theorem dot_step_eq : dot_S5000x64_S64x64_S5000x64_1_0_0_1_n_n = DotDims.plain 5000 64 64 := rfl

/-- The step kernel's payload at row `p`, column `q`. -/
theorem k2_pay1_apply (x0 x1 x2 : Vec Ideal S5000x64 .f32) (x3 : Vec Ideal S64x64 .f32) (x4 : Vec Ideal S1x64 .f32)
    (x5 : Vec Ideal S64x64 .f32) (x6 : Vec Ideal S1x64 .f32) (p : Fin 5000) (q : Fin 64) :
    k2_pay1 (F := Ideal) x0 x1 x2 x3 x4 x5 x6 (ix2 p q)
      = max (x0 (ix2 p q) + ((∑ k : Fin 64, max ((∑ l : Fin 64, (x2 (ix2 p l) - x1 (ix2 p l)) * x3 (ix2 l k)) + x4 (ix2 (0 : Fin 1) k)) 0
            * x5 (ix2 k q)) + x6 (ix2 (0 : Fin 1) q))) 0 := by
  unfold k2_pay1
  rw [maximumf_apply, addf_apply, addf_apply, broadcast_apply, shapeCast_self, broadcastTo_1b_ab_apply, shapeCast_self, dot_step_eq,
    LibPlainProduct.matmul_plain_zero_apply]
  simp only [truncf_apply, maximumf_apply, addf_apply, broadcast_apply, subf_apply, shapeCast_self, broadcastTo_1b_ab_apply,
    LibPlainProduct.matmul_plain_zero_apply]
  have hz : (FloatOps.ofBits (F := Ideal) FTy.f32 0x00000000#32) = 0 := Ideal.ofBits_zero_f32
  simp only [hz]

/-- The four step kernels are one text: each of the other three payloads is this one. -/
theorem k1_pay1_apply (x0 x1 x2 : Vec Ideal S5000x64 .f32) (x3 : Vec Ideal S64x64 .f32) (x4 : Vec Ideal S1x64 .f32)
    (x5 : Vec Ideal S64x64 .f32) (x6 : Vec Ideal S1x64 .f32) (p : Fin 5000) (q : Fin 64) :
    k1_pay1 (F := Ideal) x0 x1 x2 x3 x4 x5 x6 (ix2 p q)
      = max (x0 (ix2 p q) + ((∑ k : Fin 64, max ((∑ l : Fin 64, (x2 (ix2 p l) - x1 (ix2 p l)) * x3 (ix2 l k)) + x4 (ix2 (0 : Fin 1) k)) 0
            * x5 (ix2 k q)) + x6 (ix2 (0 : Fin 1) q))) 0 :=
  k2_pay1_apply x0 x1 x2 x3 x4 x5 x6 p q

theorem k3_pay1_apply (x0 x1 x2 : Vec Ideal S5000x64 .f32) (x3 : Vec Ideal S64x64 .f32) (x4 : Vec Ideal S1x64 .f32)
    (x5 : Vec Ideal S64x64 .f32) (x6 : Vec Ideal S1x64 .f32) (p : Fin 5000) (q : Fin 64) :
    k3_pay1 (F := Ideal) x0 x1 x2 x3 x4 x5 x6 (ix2 p q)
      = max (x0 (ix2 p q) + ((∑ k : Fin 64, max ((∑ l : Fin 64, (x2 (ix2 p l) - x1 (ix2 p l)) * x3 (ix2 l k)) + x4 (ix2 (0 : Fin 1) k)) 0
            * x5 (ix2 k q)) + x6 (ix2 (0 : Fin 1) q))) 0 :=
  k2_pay1_apply x0 x1 x2 x3 x4 x5 x6 p q

theorem k4_pay1_apply (x0 x1 x2 : Vec Ideal S5000x64 .f32) (x3 : Vec Ideal S64x64 .f32) (x4 : Vec Ideal S1x64 .f32)
    (x5 : Vec Ideal S64x64 .f32) (x6 : Vec Ideal S1x64 .f32) (p : Fin 5000) (q : Fin 64) :
    k4_pay1 (F := Ideal) x0 x1 x2 x3 x4 x5 x6 (ix2 p q)
      = max (x0 (ix2 p q) + ((∑ k : Fin 64, max ((∑ l : Fin 64, (x2 (ix2 p l) - x1 (ix2 p l)) * x3 (ix2 l k)) + x4 (ix2 (0 : Fin 1) k)) 0
            * x5 (ix2 k q)) + x6 (ix2 (0 : Fin 1) q))) 0 :=
  k2_pay1_apply x0 x1 x2 x3 x4 x5 x6 p q

/-- The payload of step kernel 1 on blocks that are rows of whole arrays: with row `p` of each edge block row `e` of its
    array and the parameter blocks the parameter arrays, the entry at `(p, q)` is the step of the arrays at `(e, q)`. -/
theorem step_point1 (x0 x1 x2 : Vec Ideal S5000x64 .f32) (x3 : Vec Ideal S64x64 .f32) (x4 : Vec Ideal S1x64 .f32)
    (x5 : Vec Ideal S64x64 .f32) (x6 : Vec Ideal S1x64 .f32)
    (H0 H G : Spec.Mat 1000000 64) (W1 : Spec.Mat 64 64) (B1 : Spec.Mat 1 64) (W2 : Spec.Mat 64 64) (B2 : Spec.Mat 1 64)
    (p : Fin 5000) (q : Fin 64) (e : Fin 1000000)
    (h0 : ∀ l : Fin 64, x0 (ix2 p l) = H0 (ix2 e l)) (h1 : ∀ l : Fin 64, x1 (ix2 p l) = H (ix2 e l))
    (h2 : ∀ l : Fin 64, x2 (ix2 p l) = G (ix2 e l))
    (h3 : x3 = W1) (h4 : x4 = B1) (h5 : x5 = W2) (h6 : x6 = B2) :
    k1_pay1 (F := Ideal) x0 x1 x2 x3 x4 x5 x6 (ix2 p q) = Spec.stepAt H0 H G W1 B1 W2 B2 e q := by
  rw [k1_pay1_apply, h0 q]
  subst h3 h4 h5 h6
  unfold Spec.stepAt Spec.stepHiddenAt
  simp only [h1, h2]

/-- The payload of step kernel 2 on blocks that are rows of whole arrays: with row `p` of each edge block row `e` of its
    array and the parameter blocks the parameter arrays, the entry at `(p, q)` is the step of the arrays at `(e, q)`. -/
theorem step_point2 (x0 x1 x2 : Vec Ideal S5000x64 .f32) (x3 : Vec Ideal S64x64 .f32) (x4 : Vec Ideal S1x64 .f32)
    (x5 : Vec Ideal S64x64 .f32) (x6 : Vec Ideal S1x64 .f32)
    (H0 H G : Spec.Mat 1000000 64) (W1 : Spec.Mat 64 64) (B1 : Spec.Mat 1 64) (W2 : Spec.Mat 64 64) (B2 : Spec.Mat 1 64)
    (p : Fin 5000) (q : Fin 64) (e : Fin 1000000)
    (h0 : ∀ l : Fin 64, x0 (ix2 p l) = H0 (ix2 e l)) (h1 : ∀ l : Fin 64, x1 (ix2 p l) = H (ix2 e l))
    (h2 : ∀ l : Fin 64, x2 (ix2 p l) = G (ix2 e l))
    (h3 : x3 = W1) (h4 : x4 = B1) (h5 : x5 = W2) (h6 : x6 = B2) :
    k2_pay1 (F := Ideal) x0 x1 x2 x3 x4 x5 x6 (ix2 p q) = Spec.stepAt H0 H G W1 B1 W2 B2 e q := by
  rw [k2_pay1_apply, h0 q]
  subst h3 h4 h5 h6
  unfold Spec.stepAt Spec.stepHiddenAt
  simp only [h1, h2]

/-- The payload of step kernel 3 on blocks that are rows of whole arrays: with row `p` of each edge block row `e` of its
    array and the parameter blocks the parameter arrays, the entry at `(p, q)` is the step of the arrays at `(e, q)`. -/
theorem step_point3 (x0 x1 x2 : Vec Ideal S5000x64 .f32) (x3 : Vec Ideal S64x64 .f32) (x4 : Vec Ideal S1x64 .f32)
    (x5 : Vec Ideal S64x64 .f32) (x6 : Vec Ideal S1x64 .f32)
    (H0 H G : Spec.Mat 1000000 64) (W1 : Spec.Mat 64 64) (B1 : Spec.Mat 1 64) (W2 : Spec.Mat 64 64) (B2 : Spec.Mat 1 64)
    (p : Fin 5000) (q : Fin 64) (e : Fin 1000000)
    (h0 : ∀ l : Fin 64, x0 (ix2 p l) = H0 (ix2 e l)) (h1 : ∀ l : Fin 64, x1 (ix2 p l) = H (ix2 e l))
    (h2 : ∀ l : Fin 64, x2 (ix2 p l) = G (ix2 e l))
    (h3 : x3 = W1) (h4 : x4 = B1) (h5 : x5 = W2) (h6 : x6 = B2) :
    k3_pay1 (F := Ideal) x0 x1 x2 x3 x4 x5 x6 (ix2 p q) = Spec.stepAt H0 H G W1 B1 W2 B2 e q := by
  rw [k3_pay1_apply, h0 q]
  subst h3 h4 h5 h6
  unfold Spec.stepAt Spec.stepHiddenAt
  simp only [h1, h2]

/-- The payload of step kernel 4 on blocks that are rows of whole arrays: with row `p` of each edge block row `e` of its
    array and the parameter blocks the parameter arrays, the entry at `(p, q)` is the step of the arrays at `(e, q)`. -/
theorem step_point4 (x0 x1 x2 : Vec Ideal S5000x64 .f32) (x3 : Vec Ideal S64x64 .f32) (x4 : Vec Ideal S1x64 .f32)
    (x5 : Vec Ideal S64x64 .f32) (x6 : Vec Ideal S1x64 .f32)
    (H0 H G : Spec.Mat 1000000 64) (W1 : Spec.Mat 64 64) (B1 : Spec.Mat 1 64) (W2 : Spec.Mat 64 64) (B2 : Spec.Mat 1 64)
    (p : Fin 5000) (q : Fin 64) (e : Fin 1000000)
    (h0 : ∀ l : Fin 64, x0 (ix2 p l) = H0 (ix2 e l)) (h1 : ∀ l : Fin 64, x1 (ix2 p l) = H (ix2 e l))
    (h2 : ∀ l : Fin 64, x2 (ix2 p l) = G (ix2 e l))
    (h3 : x3 = W1) (h4 : x4 = B1) (h5 : x5 = W2) (h6 : x6 = B2) :
    k4_pay1 (F := Ideal) x0 x1 x2 x3 x4 x5 x6 (ix2 p q) = Spec.stepAt H0 H G W1 B1 W2 B2 e q := by
  rw [k4_pay1_apply, h0 q]
  subst h3 h4 h5 h6
  unfold Spec.stepAt Spec.stepHiddenAt
  simp only [h1, h2]

end Cert.KernelIdeal.HandValue

end
-- ==== Proof.KI.Value1.lean ====
/-
  What region 1 of the program leaves in its output array: one message-passing step of the whole edge arrays.

  The region's grid has 200 points; at point `t` the three edge windows and the output window hold rows
  `5000 t … 5000 t + 4999` of their arrays and the four parameter windows hold their whole arrays. The body's one store is
  the step kernel's payload of the loaded blocks, so what point `t` writes back is rows `5000 t …` of `Spec.step` of the
  whole arrays; the 200 row blocks tile the output array, so after the run the array is `Spec.step` of the arrays.
-/
import proofs.«120260_j56453050139301_2_alg».proof.Proof.KI.Region1
import proofs.«120260_j56453050139301_2_alg».proof.Proof.KI.PayStep
import proofs.«120260_j56453050139301_2_alg».proof.Proof.Spec
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin1 : (![0, 0] : Fin 2 → Nat) = fun _ => 0 := funext fun a => by fin_cases a <;> rfl

/-- The printed index maps, decided over the grid: at point `t` the three edge windows and the output window take row
    block `t`, and the four parameter windows take their whole array. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Edge window 0's block at point `t` is rows `5000 t … 5000 t + 4999` of its array. -/
theorem iblk1_0_apply (c : Dev nD) (t : Fin cfg1.N) (x : S5000x64.Idx) (k : S1000000x64.Idx)
    (hk0 : (k 0).val = 5000 * t.val + (x 0).val) (hk1 : (k 1).val = (x 1).val) :
    (iblk1 V c 0 t : Vec Ideal S5000x64 .f32) x = (V c main_v16 : S1000000x64.Idx → EReal) k := by
  have e0 : win1_0.index t (0 : Fin 2) = t.val := (idx1 t).1
  have e1 : win1_0.index t (1 : Fin 2) = 0 := (idx1 t).2.1
  unfold iblk1
  rw [View.read_apply]
  show V c main_v16 _ = V c main_v16 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- Edge window 1's block at point `t` is rows `5000 t … 5000 t + 4999` of its array. -/
theorem iblk1_1_apply (c : Dev nD) (t : Fin cfg1.N) (x : S5000x64.Idx) (k : S1000000x64.Idx)
    (hk0 : (k 0).val = 5000 * t.val + (x 0).val) (hk1 : (k 1).val = (x 1).val) :
    (iblk1 V c 1 t : Vec Ideal S5000x64 .f32) x = (V c main_v16 : S1000000x64.Idx → EReal) k := by
  have e0 : win1_1.index t (0 : Fin 2) = t.val := (idx1 t).2.2.1
  have e1 : win1_1.index t (1 : Fin 2) = 0 := (idx1 t).2.2.2.1
  unfold iblk1
  rw [View.read_apply]
  show V c main_v16 _ = V c main_v16 _
  congr 1
  funext a
  apply Fin.ext
  match a with
  | ⟨0, _⟩ => show win1_1.index t 0 * 5000 + 1 * (x 0).val = (k 0).val; rw [e0, hk0]; omega
  | ⟨1, _⟩ => show win1_1.index t 1 * 64 + 1 * (x 1).val = (k 1).val; rw [e1, hk1]; omega

/-- Edge window 2's block at point `t` is rows `5000 t … 5000 t + 4999` of its array. -/
theorem iblk1_2_apply (c : Dev nD) (t : Fin cfg1.N) (x : S5000x64.Idx) (k : S1000000x64.Idx)
    (hk0 : (k 0).val = 5000 * t.val + (x 0).val) (hk1 : (k 1).val = (x 1).val) :
    (iblk1 V c 2 t : Vec Ideal S5000x64 .f32) x = (V c main_v26 : S1000000x64.Idx → EReal) k := by
  have e0 : win1_2.index t (0 : Fin 2) = t.val := (idx1 t).2.2.2.2.1
  have e1 : win1_2.index t (1 : Fin 2) = 0 := (idx1 t).2.2.2.2.2.1
  unfold iblk1
  rw [View.read_apply]
  show V c main_v26 _ = V c main_v26 _
  congr 1
  funext a
  apply Fin.ext
  match a with
  | ⟨0, _⟩ => show win1_2.index t 0 * 5000 + 1 * (x 0).val = (k 0).val; rw [e0, hk0]; omega
  | ⟨1, _⟩ => show win1_2.index t 1 * 64 + 1 * (x 1).val = (k 1).val; rw [e1, hk1]; omega

/-- Parameter window 3's block at every point is its whole array. -/
theorem iblk1_3_eq (c : Dev nD) (t : Fin cfg1.N) :
    (iblk1 V c 3 t : Vec Ideal S64x64 .f32) = (V c main_arg6 : S64x64.Idx → EReal) := by
  have e0 : win1_3.index t (0 : Fin 2) = 0 := (idx1 t).2.2.2.2.2.2.1
  have e1 : win1_3.index t (1 : Fin 2) = 0 := (idx1 t).2.2.2.2.2.2.2.1
  funext x
  unfold iblk1
  rw [View.read_apply]
  show V c main_arg6 _ = V c main_arg6 _
  congr 1
  funext a
  apply Fin.ext
  match a with
  | ⟨0, _⟩ => show win1_3.index t 0 * 64 + 1 * (x 0).val = (x 0).val; rw [e0]; omega
  | ⟨1, _⟩ => show win1_3.index t 1 * 64 + 1 * (x 1).val = (x 1).val; rw [e1]; omega

/-- Parameter window 4's block at every point is its whole array. -/
theorem iblk1_4_eq (c : Dev nD) (t : Fin cfg1.N) :
    (iblk1 V c 4 t : Vec Ideal S1x64 .f32) = (V c main_v14 : S1x64.Idx → EReal) := by
  have e0 : win1_4.index t (0 : Fin 2) = 0 := (idx1 t).2.2.2.2.2.2.2.2.1
  have e1 : win1_4.index t (1 : Fin 2) = 0 := (idx1 t).2.2.2.2.2.2.2.2.2.1
  funext x
  unfold iblk1
  rw [View.read_apply]
  show V c main_v14 _ = V c main_v14 _
  congr 1
  funext a
  apply Fin.ext
  match a with
  | ⟨0, _⟩ => show win1_4.index t 0 * 1 + 1 * (x 0).val = (x 0).val; rw [e0]; omega
  | ⟨1, _⟩ => show win1_4.index t 1 * 64 + 1 * (x 1).val = (x 1).val; rw [e1]; omega

/-- Parameter window 5's block at every point is its whole array. -/
theorem iblk1_5_eq (c : Dev nD) (t : Fin cfg1.N) :
    (iblk1 V c 5 t : Vec Ideal S64x64 .f32) = (V c main_arg8 : S64x64.Idx → EReal) := by
  have e0 : win1_5.index t (0 : Fin 2) = 0 := (idx1 t).2.2.2.2.2.2.2.2.2.2.1
  have e1 : win1_5.index t (1 : Fin 2) = 0 := (idx1 t).2.2.2.2.2.2.2.2.2.2.2.1
  funext x
  unfold iblk1
  rw [View.read_apply]
  show V c main_arg8 _ = V c main_arg8 _
  congr 1
  funext a
  apply Fin.ext
  match a with
  | ⟨0, _⟩ => show win1_5.index t 0 * 64 + 1 * (x 0).val = (x 0).val; rw [e0]; omega
  | ⟨1, _⟩ => show win1_5.index t 1 * 64 + 1 * (x 1).val = (x 1).val; rw [e1]; omega

/-- Parameter window 6's block at every point is its whole array. -/
theorem iblk1_6_eq (c : Dev nD) (t : Fin cfg1.N) :
    (iblk1 V c 6 t : Vec Ideal S1x64 .f32) = (V c main_v15 : S1x64.Idx → EReal) := by
  have e0 : win1_6.index t (0 : Fin 2) = 0 := (idx1 t).2.2.2.2.2.2.2.2.2.2.2.2.1
  have e1 : win1_6.index t (1 : Fin 2) = 0 := (idx1 t).2.2.2.2.2.2.2.2.2.2.2.2.2.1
  funext x
  unfold iblk1
  rw [View.read_apply]
  show V c main_v15 _ = V c main_v15 _
  congr 1
  funext a
  apply Fin.ext
  match a with
  | ⟨0, _⟩ => show win1_6.index t 0 * 1 + 1 * (x 0).val = (x 0).val; rw [e0]; omega
  | ⟨1, _⟩ => show win1_6.index t 1 * 64 + 1 * (x 1).val = (x 1).val; rw [e1]; omega

/-- What point `t` writes back is rows `5000 t … 5000 t + 4999` of the step of the whole arrays. -/
theorem flushed1_eq (c : Dev nD) (t : Fin cfg1.N) :
    (dat1 V c).flushed 7 t = ((cfg1.win 7).blk t).view.read (Elt Ideal)
      (Spec.step (V c main_v16) (V c main_v16) (V c main_v26) (V c main_arg6) (V c main_v14) (V c main_arg8) (V c main_v15)) := by
  show (cfg1.win 7).cut (grid1.coords t) ((dat1 V c).after 7 t) = _
  rw [after1_7]
  unfold out1_7
  rw [View.canon_unit_zero origin1]
  simp only [View.ld_unit_zero (S := S5000x64) origin1, View.ld_unit_zero (S := S64x64) origin1, View.ld_unit_zero (S := S1x64) origin1]
  funext j
  have e0 : win1_7.index t (0 : Fin 2) = t.val := (idx1 t).2.2.2.2.2.2.2.2.2.2.2.2.2.2.1
  have e1 : win1_7.index t (1 : Fin 2) = 0 := (idx1 t).2.2.2.2.2.2.2.2.2.2.2.2.2.2.2
  have ht : t.val < 200 := t.isLt
  have hj0 : (j 0).val < 5000 := (j 0).isLt
  have hj1 : (j 1).val < 64 := (j 1).isLt
  have hlt : 5000 * t.val + (j 0).val < 1000000 := by omega
  have hr : (((cfg1.win 7).blk t).view.emb j) 0 = (⟨5000 * t.val + (j 0).val, hlt⟩ : Fin 1000000) :=
    Fin.ext (by show win1_7.index t 0 * 5000 + 1 * (j 0).val = 5000 * t.val + (j 0).val; rw [e0]; omega)
  have hc : (((cfg1.win 7).blk t).view.emb j) 1 = (j 1 : Fin 64) :=
    Fin.ext (by show win1_7.index t 1 * 64 + 1 * (j 1).val = (j 1).val; rw [e1]; omega)
  have hp := step_point1 (iblk1 V c 0 t) (iblk1 V c 1 t) (iblk1 V c 2 t) (iblk1 V c 3 t) (iblk1 V c 4 t) (iblk1 V c 5 t) (iblk1 V c 6 t)
    (V c main_v16) (V c main_v16) (V c main_v26) (V c main_arg6) (V c main_v14) (V c main_arg8) (V c main_v15)
    (j 0) (j 1) ⟨5000 * t.val + (j 0).val, hlt⟩
    (fun l => iblk1_0_apply V c t (ix2 (j 0) l) (ix2 ⟨5000 * t.val + (j 0).val, hlt⟩ l) rfl rfl)
    (fun l => iblk1_1_apply V c t (ix2 (j 0) l) (ix2 ⟨5000 * t.val + (j 0).val, hlt⟩ l) rfl rfl)
    (fun l => iblk1_2_apply V c t (ix2 (j 0) l) (ix2 ⟨5000 * t.val + (j 0).val, hlt⟩ l) rfl rfl)
    (iblk1_3_eq V c t) (iblk1_4_eq V c t) (iblk1_5_eq V c t) (iblk1_6_eq V c t)
  refine ((congrArg (k1_pay1 (F := Ideal) (iblk1 V c 0 t) (iblk1 V c 1 t) (iblk1 V c 2 t) (iblk1 V c 3 t) (iblk1 V c 4 t) (iblk1 V c 5 t) (iblk1 V c 6 t)) (eq_ix2 (n0 := 5000) (n1 := 64) j)).trans hp).trans ?_
  exact congrArg₂ (Spec.stepAt (V c main_v16) (V c main_v16) (V c main_v26) (V c main_arg6) (V c main_v14) (V c main_arg8) (V c main_v15)) hr.symm hc.symm

/-- An index of the output array is in point `t`'s block iff its row is among the block's 5000 rows. -/
theorem mem_blk1 (t : Fin cfg1.N) (i : S1000000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v27).slice (win1_7.rect t)).set ↔ _
  rw [View.set_slice_whole, Rect.mem_set_unit]
  exact Iff.rfl

/-- Every index of the output array is in some point's block: row `r` is in block `r / 5000`. -/
theorem cover1 (i : S1000000x64.Idx) : ∃ t : Fin cfg1.N, (cfg1.win 7).flush t = true ∧ i ∈ ((cfg1.win 7).blk t).view.set := by
  have hi0 : (i 0).val < 1000000 := (i 0).isLt
  have hi1 : (i 1).val < 64 := (i 1).isLt
  have hq : (i 0).val / 5000 < 200 := by omega
  refine ⟨⟨(i 0).val / 5000, hq⟩, flush1_7 _, ?_⟩
  rw [mem_blk1]
  have e0 : win1_7.index ⟨(i 0).val / 5000, hq⟩ (0 : Fin 2) = (i 0).val / 5000 := (idx1 ⟨(i 0).val / 5000, hq⟩).2.2.2.2.2.2.2.2.2.2.2.2.2.2.1
  have e1 : win1_7.index ⟨(i 0).val / 5000, hq⟩ (1 : Fin 2) = 0 := (idx1 ⟨(i 0).val / 5000, hq⟩).2.2.2.2.2.2.2.2.2.2.2.2.2.2.2
  intro a
  match a with
  | ⟨0, _⟩ => show win1_7.index ⟨(i 0).val / 5000, hq⟩ (0 : Fin 2) * 5000 ≤ (i 0).val ∧ (i 0).val < win1_7.index ⟨(i 0).val / 5000, hq⟩ (0 : Fin 2) * 5000 + 5000; rw [e0]; omega
  | ⟨1, _⟩ => show win1_7.index ⟨(i 0).val / 5000, hq⟩ (1 : Fin 2) * 64 ≤ (i 1).val ∧ (i 1).val < win1_7.index ⟨(i 0).val / 5000, hq⟩ (1 : Fin 2) * 64 + 64; rw [e1]; omega

/-- THE ARRAY after region 1: the step of the arrays its windows stage, as the region finds them. -/
theorem arr1 (c : Dev nD) : (dat1 (F := Ideal) V c).arrAt 7 cfg1.N
    = (Spec.step (V c main_v16) (V c main_v16) (V c main_v26) (V c main_arg6) (V c main_v14) (V c main_arg8) (V c main_v15)) :=
  (dat1 V c).arrAt_eq_of_cover 7 _ (fun t _ => flushed1_eq V c t) (cover1)

end Cert.KernelIdeal.HandValue

end
-- ==== Proof.KI.Value2.lean ====
/-
  What region 2 of the program leaves in its output array: one message-passing step of the whole edge arrays.

  The region's grid has 200 points; at point `t` the three edge windows and the output window hold rows
  `5000 t … 5000 t + 4999` of their arrays and the four parameter windows hold their whole arrays. The body's one store is
  the step kernel's payload of the loaded blocks, so what point `t` writes back is rows `5000 t …` of `Spec.step` of the
  whole arrays; the 200 row blocks tile the output array, so after the run the array is `Spec.step` of the arrays.
-/
import proofs.«120260_j56453050139301_2_alg».proof.Proof.KI.Region2
import proofs.«120260_j56453050139301_2_alg».proof.Proof.KI.PayStep
import proofs.«120260_j56453050139301_2_alg».proof.Proof.Spec
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The printed index maps, decided over the grid: at point `t` the three edge windows and the output window take row
    block `t`, and the four parameter windows take their whole array. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Edge window 0's block at point `t` is rows `5000 t … 5000 t + 4999` of its array. -/
theorem iblk2_0_apply (c : Dev nD) (t : Fin cfg2.N) (x : S5000x64.Idx) (k : S1000000x64.Idx)
    (hk0 : (k 0).val = 5000 * t.val + (x 0).val) (hk1 : (k 1).val = (x 1).val) :
    (iblk2 V c 0 t : Vec Ideal S5000x64 .f32) x = (V c main_v16 : S1000000x64.Idx → EReal) k := by
  have e0 : win2_0.index t (0 : Fin 2) = t.val := (idx2 t).1
  have e1 : win2_0.index t (1 : Fin 2) = 0 := (idx2 t).2.1
  unfold iblk2
  rw [View.read_apply]
  show V c main_v16 _ = V c main_v16 _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- Edge window 1's block at point `t` is rows `5000 t … 5000 t + 4999` of its array. -/
theorem iblk2_1_apply (c : Dev nD) (t : Fin cfg2.N) (x : S5000x64.Idx) (k : S1000000x64.Idx)
    (hk0 : (k 0).val = 5000 * t.val + (x 0).val) (hk1 : (k 1).val = (x 1).val) :
    (iblk2 V c 1 t : Vec Ideal S5000x64 .f32) x = (V c main_v27 : S1000000x64.Idx → EReal) k := by
  have e0 : win2_1.index t (0 : Fin 2) = t.val := (idx2 t).2.2.1
  have e1 : win2_1.index t (1 : Fin 2) = 0 := (idx2 t).2.2.2.1
  unfold iblk2
  rw [View.read_apply]
  show V c main_v27 _ = V c main_v27 _
  congr 1
  funext a
  apply Fin.ext
  match a with
  | ⟨0, _⟩ => show win2_1.index t 0 * 5000 + 1 * (x 0).val = (k 0).val; rw [e0, hk0]; omega
  | ⟨1, _⟩ => show win2_1.index t 1 * 64 + 1 * (x 1).val = (k 1).val; rw [e1, hk1]; omega

/-- Edge window 2's block at point `t` is rows `5000 t … 5000 t + 4999` of its array. -/
theorem iblk2_2_apply (c : Dev nD) (t : Fin cfg2.N) (x : S5000x64.Idx) (k : S1000000x64.Idx)
    (hk0 : (k 0).val = 5000 * t.val + (x 0).val) (hk1 : (k 1).val = (x 1).val) :
    (iblk2 V c 2 t : Vec Ideal S5000x64 .f32) x = (V c main_v37 : S1000000x64.Idx → EReal) k := by
  have e0 : win2_2.index t (0 : Fin 2) = t.val := (idx2 t).2.2.2.2.1
  have e1 : win2_2.index t (1 : Fin 2) = 0 := (idx2 t).2.2.2.2.2.1
  unfold iblk2
  rw [View.read_apply]
  show V c main_v37 _ = V c main_v37 _
  congr 1
  funext a
  apply Fin.ext
  match a with
  | ⟨0, _⟩ => show win2_2.index t 0 * 5000 + 1 * (x 0).val = (k 0).val; rw [e0, hk0]; omega
  | ⟨1, _⟩ => show win2_2.index t 1 * 64 + 1 * (x 1).val = (k 1).val; rw [e1, hk1]; omega

/-- Parameter window 3's block at every point is its whole array. -/
theorem iblk2_3_eq (c : Dev nD) (t : Fin cfg2.N) :
    (iblk2 V c 3 t : Vec Ideal S64x64 .f32) = (V c main_arg6 : S64x64.Idx → EReal) := by
  have e0 : win2_3.index t (0 : Fin 2) = 0 := (idx2 t).2.2.2.2.2.2.1
  have e1 : win2_3.index t (1 : Fin 2) = 0 := (idx2 t).2.2.2.2.2.2.2.1
  funext x
  unfold iblk2
  rw [View.read_apply]
  show V c main_arg6 _ = V c main_arg6 _
  congr 1
  funext a
  apply Fin.ext
  match a with
  | ⟨0, _⟩ => show win2_3.index t 0 * 64 + 1 * (x 0).val = (x 0).val; rw [e0]; omega
  | ⟨1, _⟩ => show win2_3.index t 1 * 64 + 1 * (x 1).val = (x 1).val; rw [e1]; omega

/-- Parameter window 4's block at every point is its whole array. -/
theorem iblk2_4_eq (c : Dev nD) (t : Fin cfg2.N) :
    (iblk2 V c 4 t : Vec Ideal S1x64 .f32) = (V c main_v14 : S1x64.Idx → EReal) := by
  have e0 : win2_4.index t (0 : Fin 2) = 0 := (idx2 t).2.2.2.2.2.2.2.2.1
  have e1 : win2_4.index t (1 : Fin 2) = 0 := (idx2 t).2.2.2.2.2.2.2.2.2.1
  funext x
  unfold iblk2
  rw [View.read_apply]
  show V c main_v14 _ = V c main_v14 _
  congr 1
  funext a
  apply Fin.ext
  match a with
  | ⟨0, _⟩ => show win2_4.index t 0 * 1 + 1 * (x 0).val = (x 0).val; rw [e0]; omega
  | ⟨1, _⟩ => show win2_4.index t 1 * 64 + 1 * (x 1).val = (x 1).val; rw [e1]; omega

/-- Parameter window 5's block at every point is its whole array. -/
theorem iblk2_5_eq (c : Dev nD) (t : Fin cfg2.N) :
    (iblk2 V c 5 t : Vec Ideal S64x64 .f32) = (V c main_arg8 : S64x64.Idx → EReal) := by
  have e0 : win2_5.index t (0 : Fin 2) = 0 := (idx2 t).2.2.2.2.2.2.2.2.2.2.1
  have e1 : win2_5.index t (1 : Fin 2) = 0 := (idx2 t).2.2.2.2.2.2.2.2.2.2.2.1
  funext x
  unfold iblk2
  rw [View.read_apply]
  show V c main_arg8 _ = V c main_arg8 _
  congr 1
  funext a
  apply Fin.ext
  match a with
  | ⟨0, _⟩ => show win2_5.index t 0 * 64 + 1 * (x 0).val = (x 0).val; rw [e0]; omega
  | ⟨1, _⟩ => show win2_5.index t 1 * 64 + 1 * (x 1).val = (x 1).val; rw [e1]; omega

/-- Parameter window 6's block at every point is its whole array. -/
theorem iblk2_6_eq (c : Dev nD) (t : Fin cfg2.N) :
    (iblk2 V c 6 t : Vec Ideal S1x64 .f32) = (V c main_v15 : S1x64.Idx → EReal) := by
  have e0 : win2_6.index t (0 : Fin 2) = 0 := (idx2 t).2.2.2.2.2.2.2.2.2.2.2.2.1
  have e1 : win2_6.index t (1 : Fin 2) = 0 := (idx2 t).2.2.2.2.2.2.2.2.2.2.2.2.2.1
  funext x
  unfold iblk2
  rw [View.read_apply]
  show V c main_v15 _ = V c main_v15 _
  congr 1
  funext a
  apply Fin.ext
  match a with
  | ⟨0, _⟩ => show win2_6.index t 0 * 1 + 1 * (x 0).val = (x 0).val; rw [e0]; omega
  | ⟨1, _⟩ => show win2_6.index t 1 * 64 + 1 * (x 1).val = (x 1).val; rw [e1]; omega

/-- What point `t` writes back is rows `5000 t … 5000 t + 4999` of the step of the whole arrays. -/
theorem flushed2_eq (c : Dev nD) (t : Fin cfg2.N) :
    (dat2 V c).flushed 7 t = ((cfg2.win 7).blk t).view.read (Elt Ideal)
      (Spec.step (V c main_v16) (V c main_v27) (V c main_v37) (V c main_arg6) (V c main_v14) (V c main_arg8) (V c main_v15)) := by
  show (cfg2.win 7).cut (grid2.coords t) ((dat2 V c).after 7 t) = _
  rw [after2_7]
  unfold out2_7
  rw [View.canon_unit_zero origin2]
  simp only [View.ld_unit_zero (S := S5000x64) origin2, View.ld_unit_zero (S := S64x64) origin2, View.ld_unit_zero (S := S1x64) origin2]
  funext j
  have e0 : win2_7.index t (0 : Fin 2) = t.val := (idx2 t).2.2.2.2.2.2.2.2.2.2.2.2.2.2.1
  have e1 : win2_7.index t (1 : Fin 2) = 0 := (idx2 t).2.2.2.2.2.2.2.2.2.2.2.2.2.2.2
  have ht : t.val < 200 := t.isLt
  have hj0 : (j 0).val < 5000 := (j 0).isLt
  have hj1 : (j 1).val < 64 := (j 1).isLt
  have hlt : 5000 * t.val + (j 0).val < 1000000 := by omega
  have hr : (((cfg2.win 7).blk t).view.emb j) 0 = (⟨5000 * t.val + (j 0).val, hlt⟩ : Fin 1000000) :=
    Fin.ext (by show win2_7.index t 0 * 5000 + 1 * (j 0).val = 5000 * t.val + (j 0).val; rw [e0]; omega)
  have hc : (((cfg2.win 7).blk t).view.emb j) 1 = (j 1 : Fin 64) :=
    Fin.ext (by show win2_7.index t 1 * 64 + 1 * (j 1).val = (j 1).val; rw [e1]; omega)
  have hp := step_point2 (iblk2 V c 0 t) (iblk2 V c 1 t) (iblk2 V c 2 t) (iblk2 V c 3 t) (iblk2 V c 4 t) (iblk2 V c 5 t) (iblk2 V c 6 t)
    (V c main_v16) (V c main_v27) (V c main_v37) (V c main_arg6) (V c main_v14) (V c main_arg8) (V c main_v15)
    (j 0) (j 1) ⟨5000 * t.val + (j 0).val, hlt⟩
    (fun l => iblk2_0_apply V c t (ix2 (j 0) l) (ix2 ⟨5000 * t.val + (j 0).val, hlt⟩ l) rfl rfl)
    (fun l => iblk2_1_apply V c t (ix2 (j 0) l) (ix2 ⟨5000 * t.val + (j 0).val, hlt⟩ l) rfl rfl)
    (fun l => iblk2_2_apply V c t (ix2 (j 0) l) (ix2 ⟨5000 * t.val + (j 0).val, hlt⟩ l) rfl rfl)
    (iblk2_3_eq V c t) (iblk2_4_eq V c t) (iblk2_5_eq V c t) (iblk2_6_eq V c t)
  refine ((congrArg (k2_pay1 (F := Ideal) (iblk2 V c 0 t) (iblk2 V c 1 t) (iblk2 V c 2 t) (iblk2 V c 3 t) (iblk2 V c 4 t) (iblk2 V c 5 t) (iblk2 V c 6 t)) (eq_ix2 (n0 := 5000) (n1 := 64) j)).trans hp).trans ?_
  exact congrArg₂ (Spec.stepAt (V c main_v16) (V c main_v27) (V c main_v37) (V c main_arg6) (V c main_v14) (V c main_arg8) (V c main_v15)) hr.symm hc.symm

/-- An index of the output array is in point `t`'s block iff its row is among the block's 5000 rows. -/
theorem mem_blk2 (t : Fin cfg2.N) (i : S1000000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v38).slice (win2_7.rect t)).set ↔ _
  rw [View.set_slice_whole, Rect.mem_set_unit]
  exact Iff.rfl

/-- Every index of the output array is in some point's block: row `r` is in block `r / 5000`. -/
theorem cover2 (i : S1000000x64.Idx) : ∃ t : Fin cfg2.N, (cfg2.win 7).flush t = true ∧ i ∈ ((cfg2.win 7).blk t).view.set := by
  have hi0 : (i 0).val < 1000000 := (i 0).isLt
  have hi1 : (i 1).val < 64 := (i 1).isLt
  have hq : (i 0).val / 5000 < 200 := by omega
  refine ⟨⟨(i 0).val / 5000, hq⟩, flush2_7 _, ?_⟩
  rw [mem_blk2]
  have e0 : win2_7.index ⟨(i 0).val / 5000, hq⟩ (0 : Fin 2) = (i 0).val / 5000 := (idx2 ⟨(i 0).val / 5000, hq⟩).2.2.2.2.2.2.2.2.2.2.2.2.2.2.1
  have e1 : win2_7.index ⟨(i 0).val / 5000, hq⟩ (1 : Fin 2) = 0 := (idx2 ⟨(i 0).val / 5000, hq⟩).2.2.2.2.2.2.2.2.2.2.2.2.2.2.2
  intro a
  match a with
  | ⟨0, _⟩ => show win2_7.index ⟨(i 0).val / 5000, hq⟩ (0 : Fin 2) * 5000 ≤ (i 0).val ∧ (i 0).val < win2_7.index ⟨(i 0).val / 5000, hq⟩ (0 : Fin 2) * 5000 + 5000; rw [e0]; omega
  | ⟨1, _⟩ => show win2_7.index ⟨(i 0).val / 5000, hq⟩ (1 : Fin 2) * 64 ≤ (i 1).val ∧ (i 1).val < win2_7.index ⟨(i 0).val / 5000, hq⟩ (1 : Fin 2) * 64 + 64; rw [e1]; omega

/-- THE ARRAY after region 2: the step of the arrays its windows stage, as the region finds them. -/
theorem arr2 (c : Dev nD) : (dat2 (F := Ideal) V c).arrAt 7 cfg2.N
    = (Spec.step (V c main_v16) (V c main_v27) (V c main_v37) (V c main_arg6) (V c main_v14) (V c main_arg8) (V c main_v15)) :=
  (dat2 V c).arrAt_eq_of_cover 7 _ (fun t _ => flushed2_eq V c t) (cover2)

end Cert.KernelIdeal.HandValue

end
-- ==== Proof.KI.Value3.lean ====
/-
  What region 3 of the program leaves in its output array: one message-passing step of the whole edge arrays.

  The region's grid has 200 points; at point `t` the three edge windows and the output window hold rows
  `5000 t … 5000 t + 4999` of their arrays and the four parameter windows hold their whole arrays. The body's one store is
  the step kernel's payload of the loaded blocks, so what point `t` writes back is rows `5000 t …` of `Spec.step` of the
  whole arrays; the 200 row blocks tile the output array, so after the run the array is `Spec.step` of the arrays.
-/
import proofs.«120260_j56453050139301_2_alg».proof.Proof.KI.Region3
import proofs.«120260_j56453050139301_2_alg».proof.Proof.KI.PayStep
import proofs.«120260_j56453050139301_2_alg».proof.Proof.Spec
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin3 : (![0, 0] : Fin 2 → Nat) = fun _ => 0 := funext fun a => by fin_cases a <;> rfl

/-- The printed index maps, decided over the grid: at point `t` the three edge windows and the output window take row
    block `t`, and the four parameter windows take their whole array. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Edge window 0's block at point `t` is rows `5000 t … 5000 t + 4999` of its array. -/
theorem iblk3_0_apply (c : Dev nD) (t : Fin cfg3.N) (x : S5000x64.Idx) (k : S1000000x64.Idx)
    (hk0 : (k 0).val = 5000 * t.val + (x 0).val) (hk1 : (k 1).val = (x 1).val) :
    (iblk3 V c 0 t : Vec Ideal S5000x64 .f32) x = (V c main_v16 : S1000000x64.Idx → EReal) k := by
  have e0 : win3_0.index t (0 : Fin 2) = t.val := (idx3 t).1
  have e1 : win3_0.index t (1 : Fin 2) = 0 := (idx3 t).2.1
  unfold iblk3
  rw [View.read_apply]
  show V c main_v16 _ = V c main_v16 _
  congr 1
  funext a
  apply Fin.ext
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

/-- Edge window 1's block at point `t` is rows `5000 t … 5000 t + 4999` of its array. -/
theorem iblk3_1_apply (c : Dev nD) (t : Fin cfg3.N) (x : S5000x64.Idx) (k : S1000000x64.Idx)
    (hk0 : (k 0).val = 5000 * t.val + (x 0).val) (hk1 : (k 1).val = (x 1).val) :
    (iblk3 V c 1 t : Vec Ideal S5000x64 .f32) x = (V c main_v38 : S1000000x64.Idx → EReal) k := by
  have e0 : win3_1.index t (0 : Fin 2) = t.val := (idx3 t).2.2.1
  have e1 : win3_1.index t (1 : Fin 2) = 0 := (idx3 t).2.2.2.1
  unfold iblk3
  rw [View.read_apply]
  show V c main_v38 _ = V c main_v38 _
  congr 1
  funext a
  apply Fin.ext
  match a with
  | ⟨0, _⟩ => show win3_1.index t 0 * 5000 + 1 * (x 0).val = (k 0).val; rw [e0, hk0]; omega
  | ⟨1, _⟩ => show win3_1.index t 1 * 64 + 1 * (x 1).val = (k 1).val; rw [e1, hk1]; omega

/-- Edge window 2's block at point `t` is rows `5000 t … 5000 t + 4999` of its array. -/
theorem iblk3_2_apply (c : Dev nD) (t : Fin cfg3.N) (x : S5000x64.Idx) (k : S1000000x64.Idx)
    (hk0 : (k 0).val = 5000 * t.val + (x 0).val) (hk1 : (k 1).val = (x 1).val) :
    (iblk3 V c 2 t : Vec Ideal S5000x64 .f32) x = (V c main_v48 : S1000000x64.Idx → EReal) k := by
  have e0 : win3_2.index t (0 : Fin 2) = t.val := (idx3 t).2.2.2.2.1
  have e1 : win3_2.index t (1 : Fin 2) = 0 := (idx3 t).2.2.2.2.2.1
  unfold iblk3
  rw [View.read_apply]
  show V c main_v48 _ = V c main_v48 _
  congr 1
  funext a
  apply Fin.ext
  match a with
  | ⟨0, _⟩ => show win3_2.index t 0 * 5000 + 1 * (x 0).val = (k 0).val; rw [e0, hk0]; omega
  | ⟨1, _⟩ => show win3_2.index t 1 * 64 + 1 * (x 1).val = (k 1).val; rw [e1, hk1]; omega

/-- Parameter window 3's block at every point is its whole array. -/
theorem iblk3_3_eq (c : Dev nD) (t : Fin cfg3.N) :
    (iblk3 V c 3 t : Vec Ideal S64x64 .f32) = (V c main_arg6 : S64x64.Idx → EReal) := by
  have e0 : win3_3.index t (0 : Fin 2) = 0 := (idx3 t).2.2.2.2.2.2.1
  have e1 : win3_3.index t (1 : Fin 2) = 0 := (idx3 t).2.2.2.2.2.2.2.1
  funext x
  unfold iblk3
  rw [View.read_apply]
  show V c main_arg6 _ = V c main_arg6 _
  congr 1
  funext a
  apply Fin.ext
  match a with
  | ⟨0, _⟩ => show win3_3.index t 0 * 64 + 1 * (x 0).val = (x 0).val; rw [e0]; omega
  | ⟨1, _⟩ => show win3_3.index t 1 * 64 + 1 * (x 1).val = (x 1).val; rw [e1]; omega

/-- Parameter window 4's block at every point is its whole array. -/
theorem iblk3_4_eq (c : Dev nD) (t : Fin cfg3.N) :
    (iblk3 V c 4 t : Vec Ideal S1x64 .f32) = (V c main_v14 : S1x64.Idx → EReal) := by
  have e0 : win3_4.index t (0 : Fin 2) = 0 := (idx3 t).2.2.2.2.2.2.2.2.1
  have e1 : win3_4.index t (1 : Fin 2) = 0 := (idx3 t).2.2.2.2.2.2.2.2.2.1
  funext x
  unfold iblk3
  rw [View.read_apply]
  show V c main_v14 _ = V c main_v14 _
  congr 1
  funext a
  apply Fin.ext
  match a with
  | ⟨0, _⟩ => show win3_4.index t 0 * 1 + 1 * (x 0).val = (x 0).val; rw [e0]; omega
  | ⟨1, _⟩ => show win3_4.index t 1 * 64 + 1 * (x 1).val = (x 1).val; rw [e1]; omega

/-- Parameter window 5's block at every point is its whole array. -/
theorem iblk3_5_eq (c : Dev nD) (t : Fin cfg3.N) :
    (iblk3 V c 5 t : Vec Ideal S64x64 .f32) = (V c main_arg8 : S64x64.Idx → EReal) := by
  have e0 : win3_5.index t (0 : Fin 2) = 0 := (idx3 t).2.2.2.2.2.2.2.2.2.2.1
  have e1 : win3_5.index t (1 : Fin 2) = 0 := (idx3 t).2.2.2.2.2.2.2.2.2.2.2.1
  funext x
  unfold iblk3
  rw [View.read_apply]
  show V c main_arg8 _ = V c main_arg8 _
  congr 1
  funext a
  apply Fin.ext
  match a with
  | ⟨0, _⟩ => show win3_5.index t 0 * 64 + 1 * (x 0).val = (x 0).val; rw [e0]; omega
  | ⟨1, _⟩ => show win3_5.index t 1 * 64 + 1 * (x 1).val = (x 1).val; rw [e1]; omega

/-- Parameter window 6's block at every point is its whole array. -/
theorem iblk3_6_eq (c : Dev nD) (t : Fin cfg3.N) :
    (iblk3 V c 6 t : Vec Ideal S1x64 .f32) = (V c main_v15 : S1x64.Idx → EReal) := by
  have e0 : win3_6.index t (0 : Fin 2) = 0 := (idx3 t).2.2.2.2.2.2.2.2.2.2.2.2.1
  have e1 : win3_6.index t (1 : Fin 2) = 0 := (idx3 t).2.2.2.2.2.2.2.2.2.2.2.2.2.1
  funext x
  unfold iblk3
  rw [View.read_apply]
  show V c main_v15 _ = V c main_v15 _
  congr 1
  funext a
  apply Fin.ext
  match a with
  | ⟨0, _⟩ => show win3_6.index t 0 * 1 + 1 * (x 0).val = (x 0).val; rw [e0]; omega
  | ⟨1, _⟩ => show win3_6.index t 1 * 64 + 1 * (x 1).val = (x 1).val; rw [e1]; omega

/-- What point `t` writes back is rows `5000 t … 5000 t + 4999` of the step of the whole arrays. -/
theorem flushed3_eq (c : Dev nD) (t : Fin cfg3.N) :
    (dat3 V c).flushed 7 t = ((cfg3.win 7).blk t).view.read (Elt Ideal)
      (Spec.step (V c main_v16) (V c main_v38) (V c main_v48) (V c main_arg6) (V c main_v14) (V c main_arg8) (V c main_v15)) := by
  show (cfg3.win 7).cut (grid3.coords t) ((dat3 V c).after 7 t) = _
  rw [after3_7]
  unfold out3_7
  rw [View.canon_unit_zero origin3]
  simp only [View.ld_unit_zero (S := S5000x64) origin3, View.ld_unit_zero (S := S64x64) origin3, View.ld_unit_zero (S := S1x64) origin3]
  funext j
  have e0 : win3_7.index t (0 : Fin 2) = t.val := (idx3 t).2.2.2.2.2.2.2.2.2.2.2.2.2.2.1
  have e1 : win3_7.index t (1 : Fin 2) = 0 := (idx3 t).2.2.2.2.2.2.2.2.2.2.2.2.2.2.2
  have ht : t.val < 200 := t.isLt
  have hj0 : (j 0).val < 5000 := (j 0).isLt
  have hj1 : (j 1).val < 64 := (j 1).isLt
  have hlt : 5000 * t.val + (j 0).val < 1000000 := by omega
  have hr : (((cfg3.win 7).blk t).view.emb j) 0 = (⟨5000 * t.val + (j 0).val, hlt⟩ : Fin 1000000) :=
    Fin.ext (by show win3_7.index t 0 * 5000 + 1 * (j 0).val = 5000 * t.val + (j 0).val; rw [e0]; omega)
  have hc : (((cfg3.win 7).blk t).view.emb j) 1 = (j 1 : Fin 64) :=
    Fin.ext (by show win3_7.index t 1 * 64 + 1 * (j 1).val = (j 1).val; rw [e1]; omega)
  have hp := step_point3 (iblk3 V c 0 t) (iblk3 V c 1 t) (iblk3 V c 2 t) (iblk3 V c 3 t) (iblk3 V c 4 t) (iblk3 V c 5 t) (iblk3 V c 6 t)
    (V c main_v16) (V c main_v38) (V c main_v48) (V c main_arg6) (V c main_v14) (V c main_arg8) (V c main_v15)
    (j 0) (j 1) ⟨5000 * t.val + (j 0).val, hlt⟩
    (fun l => iblk3_0_apply V c t (ix2 (j 0) l) (ix2 ⟨5000 * t.val + (j 0).val, hlt⟩ l) rfl rfl)
    (fun l => iblk3_1_apply V c t (ix2 (j 0) l) (ix2 ⟨5000 * t.val + (j 0).val, hlt⟩ l) rfl rfl)
    (fun l => iblk3_2_apply V c t (ix2 (j 0) l) (ix2 ⟨5000 * t.val + (j 0).val, hlt⟩ l) rfl rfl)
    (iblk3_3_eq V c t) (iblk3_4_eq V c t) (iblk3_5_eq V c t) (iblk3_6_eq V c t)
  refine ((congrArg (k3_pay1 (F := Ideal) (iblk3 V c 0 t) (iblk3 V c 1 t) (iblk3 V c 2 t) (iblk3 V c 3 t) (iblk3 V c 4 t) (iblk3 V c 5 t) (iblk3 V c 6 t)) (eq_ix2 (n0 := 5000) (n1 := 64) j)).trans hp).trans ?_
  exact congrArg₂ (Spec.stepAt (V c main_v16) (V c main_v38) (V c main_v48) (V c main_arg6) (V c main_v14) (V c main_arg8) (V c main_v15)) hr.symm hc.symm

/-- An index of the output array is in point `t`'s block iff its row is among the block's 5000 rows. -/
theorem mem_blk3 (t : Fin cfg3.N) (i : S1000000x64.Idx) :
    i ∈ ((cfg3.win 7).blk t).view.set ↔ ∀ a : Fin 2, win3_7.index t a * S5000x64.size a ≤ (i a).val ∧ (i a).val < win3_7.index t a * S5000x64.size a + S5000x64.size a := by
  show i ∈ ((View.whole main_v49).slice (win3_7.rect t)).set ↔ _
  rw [View.set_slice_whole, Rect.mem_set_unit]
  exact Iff.rfl

/-- Every index of the output array is in some point's block: row `r` is in block `r / 5000`. -/
theorem cover3 (i : S1000000x64.Idx) : ∃ t : Fin cfg3.N, (cfg3.win 7).flush t = true ∧ i ∈ ((cfg3.win 7).blk t).view.set := by
  have hi0 : (i 0).val < 1000000 := (i 0).isLt
  have hi1 : (i 1).val < 64 := (i 1).isLt
  have hq : (i 0).val / 5000 < 200 := by omega
  refine ⟨⟨(i 0).val / 5000, hq⟩, flush3_7 _, ?_⟩
  rw [mem_blk3]
  have e0 : win3_7.index ⟨(i 0).val / 5000, hq⟩ (0 : Fin 2) = (i 0).val / 5000 := (idx3 ⟨(i 0).val / 5000, hq⟩).2.2.2.2.2.2.2.2.2.2.2.2.2.2.1
  have e1 : win3_7.index ⟨(i 0).val / 5000, hq⟩ (1 : Fin 2) = 0 := (idx3 ⟨(i 0).val / 5000, hq⟩).2.2.2.2.2.2.2.2.2.2.2.2.2.2.2
  intro a
  match a with
  | ⟨0, _⟩ => show win3_7.index ⟨(i 0).val / 5000, hq⟩ (0 : Fin 2) * 5000 ≤ (i 0).val ∧ (i 0).val < win3_7.index ⟨(i 0).val / 5000, hq⟩ (0 : Fin 2) * 5000 + 5000; rw [e0]; omega
  | ⟨1, _⟩ => show win3_7.index ⟨(i 0).val / 5000, hq⟩ (1 : Fin 2) * 64 ≤ (i 1).val ∧ (i 1).val < win3_7.index ⟨(i 0).val / 5000, hq⟩ (1 : Fin 2) * 64 + 64; rw [e1]; omega

/-- THE ARRAY after region 3: the step of the arrays its windows stage, as the region finds them. -/
theorem arr3 (c : Dev nD) : (dat3 (F := Ideal) V c).arrAt 7 cfg3.N
    = (Spec.step (V c main_v16) (V c main_v38) (V c main_v48) (V c main_arg6) (V c main_v14) (V c main_arg8) (V c main_v15)) :=
  (dat3 V c).arrAt_eq_of_cover 7 _ (fun t _ => flushed3_eq V c t) (cover3)

end Cert.KernelIdeal.HandValue

end
-- ==== Proof.KI.Value4.lean ====
/-
  What region 4 of the program leaves in its output array: one message-passing step of the whole edge arrays.

  The region's grid has 200 points; at point `t` the three edge windows and the output window hold rows
  `5000 t … 5000 t + 4999` of their arrays and the four parameter windows hold their whole arrays. The body's one store is
  the step kernel's payload of the loaded blocks, so what point `t` writes back is rows `5000 t …` of `Spec.step` of the
  whole arrays; the 200 row blocks tile the output array, so after the run the array is `Spec.step` of the arrays.
-/
import proofs.«120260_j56453050139301_2_alg».proof.Proof.KI.Region4
import proofs.«120260_j56453050139301_2_alg».proof.Proof.KI.PayStep
import proofs.«120260_j56453050139301_2_alg».proof.Proof.Spec
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin4 : (![0, 0] : Fin 2 → Nat) = fun _ => 0 := funext fun a => by fin_cases a <;> rfl

/-- The printed index maps, decided over the grid: at point `t` the three edge windows and the output window take row
    block `t`, and the four parameter windows take their whole array. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Edge window 0's block at point `t` is rows `5000 t … 5000 t + 4999` of its array. -/
theorem iblk4_0_apply (c : Dev nD) (t : Fin cfg4.N) (x : S5000x64.Idx) (k : S1000000x64.Idx)
    (hk0 : (k 0).val = 5000 * t.val + (x 0).val) (hk1 : (k 1).val = (x 1).val) :
    (iblk4 V c 0 t : Vec Ideal S5000x64 .f32) x = (V c main_v16 : S1000000x64.Idx → EReal) k := by
  have e0 : win4_0.index t (0 : Fin 2) = t.val := (idx4 t).1
  have e1 : win4_0.index t (1 : Fin 2) = 0 := (idx4 t).2.1
  unfold iblk4
  rw [View.read_apply]
  show V c main_v16 _ = V c main_v16 _
  congr 1
  funext a
  apply Fin.ext
  match a with
  | ⟨0, _⟩ => show win4_0.index t 0 * 5000 + 1 * (x 0).val = (k 0).val; rw [e0, hk0]; omega
  | ⟨1, _⟩ => show win4_0.index t 1 * 64 + 1 * (x 1).val = (k 1).val; rw [e1, hk1]; omega

/-- Edge window 1's block at point `t` is rows `5000 t … 5000 t + 4999` of its array. -/
theorem iblk4_1_apply (c : Dev nD) (t : Fin cfg4.N) (x : S5000x64.Idx) (k : S1000000x64.Idx)
    (hk0 : (k 0).val = 5000 * t.val + (x 0).val) (hk1 : (k 1).val = (x 1).val) :
    (iblk4 V c 1 t : Vec Ideal S5000x64 .f32) x = (V c main_v49 : S1000000x64.Idx → EReal) k := by
  have e0 : win4_1.index t (0 : Fin 2) = t.val := (idx4 t).2.2.1
  have e1 : win4_1.index t (1 : Fin 2) = 0 := (idx4 t).2.2.2.1
  unfold iblk4
  rw [View.read_apply]
  show V c main_v49 _ = V c main_v49 _
  congr 1
  funext a
  apply Fin.ext
  match a with
  | ⟨0, _⟩ => show win4_1.index t 0 * 5000 + 1 * (x 0).val = (k 0).val; rw [e0, hk0]; omega
  | ⟨1, _⟩ => show win4_1.index t 1 * 64 + 1 * (x 1).val = (k 1).val; rw [e1, hk1]; omega

/-- Edge window 2's block at point `t` is rows `5000 t … 5000 t + 4999` of its array. -/
theorem iblk4_2_apply (c : Dev nD) (t : Fin cfg4.N) (x : S5000x64.Idx) (k : S1000000x64.Idx)
    (hk0 : (k 0).val = 5000 * t.val + (x 0).val) (hk1 : (k 1).val = (x 1).val) :
    (iblk4 V c 2 t : Vec Ideal S5000x64 .f32) x = (V c main_v59 : S1000000x64.Idx → EReal) k := by
  have e0 : win4_2.index t (0 : Fin 2) = t.val := (idx4 t).2.2.2.2.1
  have e1 : win4_2.index t (1 : Fin 2) = 0 := (idx4 t).2.2.2.2.2.1
  unfold iblk4
  rw [View.read_apply]
  show V c main_v59 _ = V c main_v59 _
  congr 1
  funext a
  apply Fin.ext
  match a with
  | ⟨0, _⟩ => show win4_2.index t 0 * 5000 + 1 * (x 0).val = (k 0).val; rw [e0, hk0]; omega
  | ⟨1, _⟩ => show win4_2.index t 1 * 64 + 1 * (x 1).val = (k 1).val; rw [e1, hk1]; omega

/-- Parameter window 3's block at every point is its whole array. -/
theorem iblk4_3_eq (c : Dev nD) (t : Fin cfg4.N) :
    (iblk4 V c 3 t : Vec Ideal S64x64 .f32) = (V c main_arg6 : S64x64.Idx → EReal) := by
  have e0 : win4_3.index t (0 : Fin 2) = 0 := (idx4 t).2.2.2.2.2.2.1
  have e1 : win4_3.index t (1 : Fin 2) = 0 := (idx4 t).2.2.2.2.2.2.2.1
  funext x
  unfold iblk4
  rw [View.read_apply]
  show V c main_arg6 _ = V c main_arg6 _
  congr 1
  funext a
  apply Fin.ext
  match a with
  | ⟨0, _⟩ => show win4_3.index t 0 * 64 + 1 * (x 0).val = (x 0).val; rw [e0]; omega
  | ⟨1, _⟩ => show win4_3.index t 1 * 64 + 1 * (x 1).val = (x 1).val; rw [e1]; omega

/-- Parameter window 4's block at every point is its whole array. -/
theorem iblk4_4_eq (c : Dev nD) (t : Fin cfg4.N) :
    (iblk4 V c 4 t : Vec Ideal S1x64 .f32) = (V c main_v14 : S1x64.Idx → EReal) := by
  have e0 : win4_4.index t (0 : Fin 2) = 0 := (idx4 t).2.2.2.2.2.2.2.2.1
  have e1 : win4_4.index t (1 : Fin 2) = 0 := (idx4 t).2.2.2.2.2.2.2.2.2.1
  funext x
  unfold iblk4
  rw [View.read_apply]
  show V c main_v14 _ = V c main_v14 _
  congr 1
  funext a
  apply Fin.ext
  match a with
  | ⟨0, _⟩ => show win4_4.index t 0 * 1 + 1 * (x 0).val = (x 0).val; rw [e0]; omega
  | ⟨1, _⟩ => show win4_4.index t 1 * 64 + 1 * (x 1).val = (x 1).val; rw [e1]; omega

/-- Parameter window 5's block at every point is its whole array. -/
theorem iblk4_5_eq (c : Dev nD) (t : Fin cfg4.N) :
    (iblk4 V c 5 t : Vec Ideal S64x64 .f32) = (V c main_arg8 : S64x64.Idx → EReal) := by
  have e0 : win4_5.index t (0 : Fin 2) = 0 := (idx4 t).2.2.2.2.2.2.2.2.2.2.1
  have e1 : win4_5.index t (1 : Fin 2) = 0 := (idx4 t).2.2.2.2.2.2.2.2.2.2.2.1
  funext x
  unfold iblk4
  rw [View.read_apply]
  show V c main_arg8 _ = V c main_arg8 _
  congr 1
  funext a
  apply Fin.ext
  match a with
  | ⟨0, _⟩ => show win4_5.index t 0 * 64 + 1 * (x 0).val = (x 0).val; rw [e0]; omega
  | ⟨1, _⟩ => show win4_5.index t 1 * 64 + 1 * (x 1).val = (x 1).val; rw [e1]; omega

/-- Parameter window 6's block at every point is its whole array. -/
theorem iblk4_6_eq (c : Dev nD) (t : Fin cfg4.N) :
    (iblk4 V c 6 t : Vec Ideal S1x64 .f32) = (V c main_v15 : S1x64.Idx → EReal) := by
  have e0 : win4_6.index t (0 : Fin 2) = 0 := (idx4 t).2.2.2.2.2.2.2.2.2.2.2.2.1
  have e1 : win4_6.index t (1 : Fin 2) = 0 := (idx4 t).2.2.2.2.2.2.2.2.2.2.2.2.2.1
  funext x
  unfold iblk4
  rw [View.read_apply]
  show V c main_v15 _ = V c main_v15 _
  congr 1
  funext a
  apply Fin.ext
  match a with
  | ⟨0, _⟩ => show win4_6.index t 0 * 1 + 1 * (x 0).val = (x 0).val; rw [e0]; omega
  | ⟨1, _⟩ => show win4_6.index t 1 * 64 + 1 * (x 1).val = (x 1).val; rw [e1]; omega

/-- What point `t` writes back is rows `5000 t … 5000 t + 4999` of the step of the whole arrays. -/
theorem flushed4_eq (c : Dev nD) (t : Fin cfg4.N) :
    (dat4 V c).flushed 7 t = ((cfg4.win 7).blk t).view.read (Elt Ideal)
      (Spec.step (V c main_v16) (V c main_v49) (V c main_v59) (V c main_arg6) (V c main_v14) (V c main_arg8) (V c main_v15)) := by
  show (cfg4.win 7).cut (grid4.coords t) ((dat4 V c).after 7 t) = _
  rw [after4_7]
  unfold out4_7
  rw [View.canon_unit_zero origin4]
  simp only [View.ld_unit_zero (S := S5000x64) origin4, View.ld_unit_zero (S := S64x64) origin4, View.ld_unit_zero (S := S1x64) origin4]
  funext j
  have e0 : win4_7.index t (0 : Fin 2) = t.val := (idx4 t).2.2.2.2.2.2.2.2.2.2.2.2.2.2.1
  have e1 : win4_7.index t (1 : Fin 2) = 0 := (idx4 t).2.2.2.2.2.2.2.2.2.2.2.2.2.2.2
  have ht : t.val < 200 := t.isLt
  have hj0 : (j 0).val < 5000 := (j 0).isLt
  have hj1 : (j 1).val < 64 := (j 1).isLt
  have hlt : 5000 * t.val + (j 0).val < 1000000 := by omega
  have hr : (((cfg4.win 7).blk t).view.emb j) 0 = (⟨5000 * t.val + (j 0).val, hlt⟩ : Fin 1000000) :=
    Fin.ext (by show win4_7.index t 0 * 5000 + 1 * (j 0).val = 5000 * t.val + (j 0).val; rw [e0]; omega)
  have hc : (((cfg4.win 7).blk t).view.emb j) 1 = (j 1 : Fin 64) :=
    Fin.ext (by show win4_7.index t 1 * 64 + 1 * (j 1).val = (j 1).val; rw [e1]; omega)
  have hp := step_point4 (iblk4 V c 0 t) (iblk4 V c 1 t) (iblk4 V c 2 t) (iblk4 V c 3 t) (iblk4 V c 4 t) (iblk4 V c 5 t) (iblk4 V c 6 t)
    (V c main_v16) (V c main_v49) (V c main_v59) (V c main_arg6) (V c main_v14) (V c main_arg8) (V c main_v15)
    (j 0) (j 1) ⟨5000 * t.val + (j 0).val, hlt⟩
    (fun l => iblk4_0_apply V c t (ix2 (j 0) l) (ix2 ⟨5000 * t.val + (j 0).val, hlt⟩ l) rfl rfl)
    (fun l => iblk4_1_apply V c t (ix2 (j 0) l) (ix2 ⟨5000 * t.val + (j 0).val, hlt⟩ l) rfl rfl)
    (fun l => iblk4_2_apply V c t (ix2 (j 0) l) (ix2 ⟨5000 * t.val + (j 0).val, hlt⟩ l) rfl rfl)
    (iblk4_3_eq V c t) (iblk4_4_eq V c t) (iblk4_5_eq V c t) (iblk4_6_eq V c t)
  refine ((congrArg (k4_pay1 (F := Ideal) (iblk4 V c 0 t) (iblk4 V c 1 t) (iblk4 V c 2 t) (iblk4 V c 3 t) (iblk4 V c 4 t) (iblk4 V c 5 t) (iblk4 V c 6 t)) (eq_ix2 (n0 := 5000) (n1 := 64) j)).trans hp).trans ?_
  exact congrArg₂ (Spec.stepAt (V c main_v16) (V c main_v49) (V c main_v59) (V c main_arg6) (V c main_v14) (V c main_arg8) (V c main_v15)) hr.symm hc.symm

/-- An index of the output array is in point `t`'s block iff its row is among the block's 5000 rows. -/
theorem mem_blk4 (t : Fin cfg4.N) (i : S1000000x64.Idx) :
    i ∈ ((cfg4.win 7).blk t).view.set ↔ ∀ a : Fin 2, win4_7.index t a * S5000x64.size a ≤ (i a).val ∧ (i a).val < win4_7.index t a * S5000x64.size a + S5000x64.size a := by
  show i ∈ ((View.whole main_v60).slice (win4_7.rect t)).set ↔ _
  rw [View.set_slice_whole, Rect.mem_set_unit]
  exact Iff.rfl

/-- Every index of the output array is in some point's block: row `r` is in block `r / 5000`. -/
theorem cover4 (i : S1000000x64.Idx) : ∃ t : Fin cfg4.N, (cfg4.win 7).flush t = true ∧ i ∈ ((cfg4.win 7).blk t).view.set := by
  have hi0 : (i 0).val < 1000000 := (i 0).isLt
  have hi1 : (i 1).val < 64 := (i 1).isLt
  have hq : (i 0).val / 5000 < 200 := by omega
  refine ⟨⟨(i 0).val / 5000, hq⟩, flush4_7 _, ?_⟩
  rw [mem_blk4]
  have e0 : win4_7.index ⟨(i 0).val / 5000, hq⟩ (0 : Fin 2) = (i 0).val / 5000 := (idx4 ⟨(i 0).val / 5000, hq⟩).2.2.2.2.2.2.2.2.2.2.2.2.2.2.1
  have e1 : win4_7.index ⟨(i 0).val / 5000, hq⟩ (1 : Fin 2) = 0 := (idx4 ⟨(i 0).val / 5000, hq⟩).2.2.2.2.2.2.2.2.2.2.2.2.2.2.2
  intro a
  match a with
  | ⟨0, _⟩ => show win4_7.index ⟨(i 0).val / 5000, hq⟩ (0 : Fin 2) * 5000 ≤ (i 0).val ∧ (i 0).val < win4_7.index ⟨(i 0).val / 5000, hq⟩ (0 : Fin 2) * 5000 + 5000; rw [e0]; omega
  | ⟨1, _⟩ => show win4_7.index ⟨(i 0).val / 5000, hq⟩ (1 : Fin 2) * 64 ≤ (i 1).val ∧ (i 1).val < win4_7.index ⟨(i 0).val / 5000, hq⟩ (1 : Fin 2) * 64 + 64; rw [e1]; omega

/-- THE ARRAY after region 4: the step of the arrays its windows stage, as the region finds them. -/
theorem arr4 (c : Dev nD) : (dat4 (F := Ideal) V c).arrAt 7 cfg4.N
    = (Spec.step (V c main_v16) (V c main_v49) (V c main_v59) (V c main_arg6) (V c main_v14) (V c main_arg8) (V c main_v15)) :=
  (dat4 V c).arrAt_eq_of_cover 7 _ (fun t _ => flushed4_eq V c t) (cover4)

end Cert.KernelIdeal.HandValue

end
-- ==== Proof.LibColumn.lean ====
/-
  Column vectors read at an index given by coordinates.

  A column is a matrix with ONE column, shape `[a, 1]`. Three layout operations on columns, each read at an index
  written `ix2 …`: a vector `[a]` cast to a column reads, at `(i, u)`, the vector at `i`; a column cast to a row `[1, a]`
  reads, at `(u, i)`, the column at `(i, 0)` (the same row-major position); a column broadcast to a matrix `[a, b]` reads,
  at `(p, c)`, the column at `(p, 0)`, whatever `c`. They are the column counterparts of the row forms (a vector cast to a
  row, a row broadcast over many rows).
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KI.PayFinal.lean ====
/-
  The node-update kernel's stored block, read entry by entry on the extended reals.

  The kernel first forms the row `r = relu (x · Wx + s · Wm + b)` of each node, then normalises it: the row mean
  `μ = (∑ⱼ r (p, j)) / 64`, the deviations `r - μ`, the row variance `v = (∑ⱼ (r (p, j) - μ)²) / 64`, and the product of the
  deviation with `rsqrt (v + ε)`; the stored value is `max (that · γ (0, q) + β (0, q)) 0`. The mean and the variance are
  columns (one entry per row) broadcast back over the 64 lanes. Every narrowing to the 16-bit format is the identity on
  the extended reals and each matrix product into the zero matrix is the plain sum of products.
-/
import proofs.«120260_j56453050139301_2_alg».proof.Proof.Gen.KernelIdeal.Skeleton
import proofs.«120260_j56453050139301_2_alg».proof.Proof.LibPlainProduct
import proofs.«120260_j56453050139301_2_alg».proof.Proof.LibColumn
import proofs.«120260_j56453050139301_2_alg».proof.Proof.Spec
import Idealize.ShloMosaic.Lib.ValueLayout
import Idealize.ShloMosaic.Lib.ValueIdx
import Idealize.ShloMosaic.PureOps.Ideal.Laws

noncomputable section

namespace Cert.KernelIdeal.HandValue

open Cert.KernelIdeal Cert.KernelIdeal.Gen
open Idealize.ShloMosaic Idealize.ShloMosaic.ValueIdx Idealize.SL.Sem

/-- The kernel's two contractions are the plain product of a 10000×64 by a 64×64 matrix. -/
theorem dot_final_eq : dot_S10000x64_S64x64_S10000x64_1_0_0_1_n_n = DotDims.plain 10000 64 64 := rfl

/-! ## The row before normalisation -/

/-- The node's row before normalisation, as the kernel computes it from its loaded blocks. -/
def preNorm (v0 v1 : Vec Ideal S10000x64 .f32) (v4 v9 : Vec Ideal S64x64 .f32) (v14 : Vec Ideal S1x64 .f32) : FVec Ideal S10000x64 .f32 :=
  maximumf
    (addf
      (addf
        (matmul dot_S10000x64_S64x64_S10000x64_1_0_0_1_n_n none (truncf .bf16 v0 bitsLt_bf16_f32)
          (truncf .bf16 (shapeCast S64x64 v4 shapeCasts_S64x64_S64x64) bitsLt_bf16_f32) (constant S10000x64 .f32 0x00000000#32))
        (matmul dot_S10000x64_S64x64_S10000x64_1_0_0_1_n_n none (truncf .bf16 (shapeCast S10000x64 v1 shapeCasts_S10000x64_S10000x64) bitsLt_bf16_f32)
          (truncf .bf16 (shapeCast S64x64 v9 shapeCasts_S64x64_S64x64) bitsLt_bf16_f32) (constant S10000x64 .f32 0x00000000#32)))
      (broadcastTo S10000x64 (shapeCast S1x64 v14 shapeCasts_S1x64_S1x64) broadcasts_S1x64_S10000x64))
    (broadcast S10000x64 (Scalar.ofBits .f32 0x00000000#32))

theorem preNorm_apply (v0 v1 : Vec Ideal S10000x64 .f32) (v4 v9 : Vec Ideal S64x64 .f32) (v14 : Vec Ideal S1x64 .f32) (p : Fin 10000) (q : Fin 64) :
    preNorm v0 v1 v4 v9 v14 (ix2 p q)
      = max (((∑ k : Fin 64, v0 (ix2 p k) * v4 (ix2 k q)) + (∑ k : Fin 64, v1 (ix2 p k) * v9 (ix2 k q))) + v14 (ix2 (0 : Fin 1) q)) 0 := by
  unfold preNorm
  have hz : (FloatOps.ofBits (F := Ideal) FTy.f32 0x00000000#32) = 0 := Ideal.ofBits_zero_f32
  rw [maximumf_apply, addf_apply, addf_apply, broadcast_apply, broadcastTo_1b_ab_apply, dot_final_eq,
    LibPlainProduct.matmul_plain_zero_apply, LibPlainProduct.matmul_plain_zero_apply]
  simp only [truncf_apply, shapeCast_self, hz]

/-! ## Normalising a row -/

/-- A lane sum at the extended reals: the sum over the 64 columns. -/
theorem laneSum_apply (r : FVec Ideal S10000x64 .f32) (p : Fin 10000) :
    multiReduction (F := Ideal) .add [1] S10000 r 0x00000000#32 reduces_S10000x64_S10000 (.inl rfl) rfl (ix1 p) = ∑ k : Fin 64, r (ix2 p k) := by
  refine (Ideal.multiReduction_add_single r 0x00000000#32 reduces_S10000x64_S10000 (.inl rfl) rfl (ix1 p)).trans ?_
  show ∑ k : Fin 64, r (reduces_S10000x64_S10000.lift (ix1 p) k) = _
  refine Finset.sum_congr rfl fun k _ => congrArg r ?_
  funext a
  apply Fin.ext
  match a with
  | ⟨0, _⟩ => rfl
  | ⟨1, _⟩ => rfl

/-- The column of lane means: the lane sum as a column, divided by the word of `64.0`. -/
def meanCol (r : FVec Ideal S10000x64 .f32) : FVec Ideal S10000x1 .f32 :=
  divf (shapeCast S10000x1 (multiReduction .add [1] S10000 r 0x00000000#32 reduces_S10000x64_S10000 (.inl rfl) rfl) shapeCasts_S10000_S10000x1)
    (broadcast S10000x1 (Scalar.ofBits .f32 0x42800000#32))

theorem meanCol_apply (r : FVec Ideal S10000x64 .f32) (p : Fin 10000) :
    meanCol r (ix2 p (0 : Fin 1)) = Ideal.div (∑ j : Fin 64, r (ix2 p j)) Spec.c64 := by
  unfold meanCol
  rw [divf_apply, broadcast_apply, LibColumn.shapeCast_a_a1_apply, laneSum_apply]
  rfl

/-- The deviations from the lane mean. -/
def devs (r : FVec Ideal S10000x64 .f32) : FVec Ideal S10000x64 .f32 :=
  subf r (broadcastTo S10000x64 (meanCol r) broadcasts_S10000x1_S10000x64)

theorem devs_apply (r : FVec Ideal S10000x64 .f32) (p : Fin 10000) (q : Fin 64) :
    devs r (ix2 p q) = r (ix2 p q) - Ideal.div (∑ j : Fin 64, r (ix2 p j)) Spec.c64 := by
  unfold devs
  rw [subf_apply, LibColumn.broadcastTo_a1_ab_apply, meanCol_apply]

/-- The normalised row: the deviations times the reciprocal square root of the stabilised lane variance. -/
def normalized (r : FVec Ideal S10000x64 .f32) : FVec Ideal S10000x64 .f32 :=
  mulf (devs r)
    (broadcastTo S10000x64
      (rsqrt (addf (meanCol (mulf (devs r) (devs r))) (broadcast S10000x1 (Scalar.ofBits .f32 0x3727C5AC#32))))
      broadcasts_S10000x1_S10000x64)

theorem normalized_apply (r : FVec Ideal S10000x64 .f32) (p : Fin 10000) (q : Fin 64) :
    normalized r (ix2 p q)
      = (r (ix2 p q) - Ideal.div (∑ j : Fin 64, r (ix2 p j)) Spec.c64)
        * Ideal.rsqrt (Ideal.div (∑ j : Fin 64, (r (ix2 p j) - Ideal.div (∑ j : Fin 64, r (ix2 p j)) Spec.c64)
            * (r (ix2 p j) - Ideal.div (∑ j : Fin 64, r (ix2 p j)) Spec.c64)) Spec.c64 + Spec.cEps) := by
  unfold normalized
  rw [mulf_apply, LibColumn.broadcastTo_a1_ab_apply, devs_apply]
  show _ * Ideal.rsqrt (meanCol (mulf (devs r) (devs r)) (ix2 p (0 : Fin 1)) + Spec.cEps) = _
  rw [meanCol_apply]
  simp only [mulf_apply, devs_apply]

/-- The first payload is the normalised row of the loaded blocks. -/
theorem k5_pay2_eq (v0 v1 : Vec Ideal S10000x64 .f32) (v4 v9 : Vec Ideal S64x64 .f32) (v14 : Vec Ideal S1x64 .f32) :
    k5_pay2 (F := Ideal) v0 v1 v4 v9 v14 = normalized (preNorm v0 v1 v4 v9 v14) := rfl

/-- The stored payload at row `p`, column `q`: the scale row times the first payload, plus the shift row, clamped at zero. -/
theorem k5_pay1_apply (v39 : FVec Ideal S10000x64 .f32) (v40 v44 : Vec Ideal S1x64 .f32) (p : Fin 10000) (q : Fin 64) :
    k5_pay1 (F := Ideal) v39 v40 v44 (ix2 p q) = max (v39 (ix2 p q) * v40 (ix2 (0 : Fin 1) q) + v44 (ix2 (0 : Fin 1) q)) 0 := by
  unfold k5_pay1
  have hz : (FloatOps.ofBits (F := Ideal) FTy.f32 0x00000000#32) = 0 := Ideal.ofBits_zero_f32
  rw [maximumf_apply, addf_apply, mulf_apply, broadcast_apply, broadcastTo_1b_ab_apply, broadcastTo_1b_ab_apply]
  simp only [shapeCast_self, hz]

/-- The stored payload on blocks that are rows of whole arrays: with row `p` of each node block row `n` of its array and
    the parameter blocks the parameter arrays, the entry at `(p, q)` is the node update of the arrays at `(n, q)`. -/
theorem final_point (x0 x1 : Vec Ideal S10000x64 .f32) (x2 x3 : Vec Ideal S64x64 .f32) (x4 x5 x6 : Vec Ideal S1x64 .f32)
    (X S : Spec.Mat 100000 64) (Wx Wm : Spec.Mat 64 64) (B Γ Β : Spec.Mat 1 64)
    (p : Fin 10000) (q : Fin 64) (n : Fin 100000)
    (h0 : ∀ l : Fin 64, x0 (ix2 p l) = X (ix2 n l)) (h1 : ∀ l : Fin 64, x1 (ix2 p l) = S (ix2 n l))
    (h2 : x2 = Wx) (h3 : x3 = Wm) (h4 : x4 = B) (h5 : x5 = Γ) (h6 : x6 = Β) :
    k5_pay1 (F := Ideal) (k5_pay2 x0 x1 x2 x3 x4) x5 x6 (ix2 p q) = Spec.finalAt X S Wx Wm B Γ Β n q := by
  rw [k5_pay1_apply, k5_pay2_eq, normalized_apply]
  subst h2 h3 h4 h5 h6
  unfold Spec.finalAt Spec.finalVarAt Spec.finalMeanAt Spec.finalRowAt
  simp only [preNorm_apply, h0, h1]

end Cert.KernelIdeal.HandValue

end
-- ==== Proof.KI.Value5.lean ====
/-
  What region 5 of the program leaves in its output array: the node update with layer normalisation of the whole arrays.

  The region's grid has 10 points; at point `t` the two node windows and the output window hold rows
  `10000 t … 10000 t + 9999` of their arrays and the five parameter windows hold their whole arrays. The body's one store is
  the kernel's payload of the loaded blocks, so what point `t` writes back is rows `10000 t …` of `Spec.final` of the whole
  arrays; the 10 row blocks tile the output array, so after the run the array is `Spec.final` of the arrays.
-/
import proofs.«120260_j56453050139301_2_alg».proof.Proof.KI.Region5
import proofs.«120260_j56453050139301_2_alg».proof.Proof.KI.PayFinal
import proofs.«120260_j56453050139301_2_alg».proof.Proof.Spec
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin5 : (![0, 0] : Fin 2 → Nat) = fun _ => 0 := funext fun a => by fin_cases a <;> rfl

/-- The printed index maps, decided over the grid: at point `t` the two node windows and the output window take row
    block `t`, and the five parameter windows take their whole array. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- Node window 0's block at point `t` is rows `10000 t … 10000 t + 9999` of its array. -/
theorem iblk5_0_apply (c : Dev nD) (t : Fin cfg5.N) (x : S10000x64.Idx) (k : S100000x64.Idx)
    (hk0 : (k 0).val = 10000 * t.val + (x 0).val) (hk1 : (k 1).val = (x 1).val) :
    (iblk5 V c 0 t : Vec Ideal S10000x64 .f32) x = (V c main_arg0 : S100000x64.Idx → EReal) k := by
  have e0 : win5_0.index t (0 : Fin 2) = t.val := (idx5 t).1
  have e1 : win5_0.index t (1 : Fin 2) = 0 := (idx5 t).2.1
  unfold iblk5
  rw [View.read_apply]
  show V c main_arg0 _ = V c main_arg0 _
  congr 1
  funext a
  apply Fin.ext
  match a with
  | ⟨0, _⟩ => show win5_0.index t 0 * 10000 + 1 * (x 0).val = (k 0).val; rw [e0, hk0]; omega
  | ⟨1, _⟩ => show win5_0.index t 1 * 64 + 1 * (x 1).val = (k 1).val; rw [e1, hk1]; omega

/-- Node window 1's block at point `t` is rows `10000 t … 10000 t + 9999` of its array. -/
theorem iblk5_1_apply (c : Dev nD) (t : Fin cfg5.N) (x : S10000x64.Idx) (k : S100000x64.Idx)
    (hk0 : (k 0).val = 10000 * t.val + (x 0).val) (hk1 : (k 1).val = (x 1).val) :
    (iblk5 V c 1 t : Vec Ideal S10000x64 .f32) x = (V c main_v63 : S100000x64.Idx → EReal) k := by
  have e0 : win5_1.index t (0 : Fin 2) = t.val := (idx5 t).2.2.1
  have e1 : win5_1.index t (1 : Fin 2) = 0 := (idx5 t).2.2.2.1
  unfold iblk5
  rw [View.read_apply]
  show V c main_v63 _ = V c main_v63 _
  congr 1
  funext a
  apply Fin.ext
  match a with
  | ⟨0, _⟩ => show win5_1.index t 0 * 10000 + 1 * (x 0).val = (k 0).val; rw [e0, hk0]; omega
  | ⟨1, _⟩ => show win5_1.index t 1 * 64 + 1 * (x 1).val = (k 1).val; rw [e1, hk1]; omega

/-- Parameter window 2's block at every point is its whole array. -/
theorem iblk5_2_eq (c : Dev nD) (t : Fin cfg5.N) :
    (iblk5 V c 2 t : Vec Ideal S64x64 .f32) = (V c main_v64 : S64x64.Idx → EReal) := by
  have e0 : win5_2.index t (0 : Fin 2) = 0 := (idx5 t).2.2.2.2.1
  have e1 : win5_2.index t (1 : Fin 2) = 0 := (idx5 t).2.2.2.2.2.1
  funext x
  unfold iblk5
  rw [View.read_apply]
  show V c main_v64 _ = V c main_v64 _
  congr 1
  funext a
  apply Fin.ext
  match a with
  | ⟨0, _⟩ => show win5_2.index t 0 * 64 + 1 * (x 0).val = (x 0).val; rw [e0]; omega
  | ⟨1, _⟩ => show win5_2.index t 1 * 64 + 1 * (x 1).val = (x 1).val; rw [e1]; omega

/-- Parameter window 3's block at every point is its whole array. -/
theorem iblk5_3_eq (c : Dev nD) (t : Fin cfg5.N) :
    (iblk5 V c 3 t : Vec Ideal S64x64 .f32) = (V c main_v65 : S64x64.Idx → EReal) := by
  have e0 : win5_3.index t (0 : Fin 2) = 0 := (idx5 t).2.2.2.2.2.2.1
  have e1 : win5_3.index t (1 : Fin 2) = 0 := (idx5 t).2.2.2.2.2.2.2.1
  funext x
  unfold iblk5
  rw [View.read_apply]
  show V c main_v65 _ = V c main_v65 _
  congr 1
  funext a
  apply Fin.ext
  match a with
  | ⟨0, _⟩ => show win5_3.index t 0 * 64 + 1 * (x 0).val = (x 0).val; rw [e0]; omega
  | ⟨1, _⟩ => show win5_3.index t 1 * 64 + 1 * (x 1).val = (x 1).val; rw [e1]; omega

/-- Parameter window 4's block at every point is its whole array. -/
theorem iblk5_4_eq (c : Dev nD) (t : Fin cfg5.N) :
    (iblk5 V c 4 t : Vec Ideal S1x64 .f32) = (V c main_v66 : S1x64.Idx → EReal) := by
  have e0 : win5_4.index t (0 : Fin 2) = 0 := (idx5 t).2.2.2.2.2.2.2.2.1
  have e1 : win5_4.index t (1 : Fin 2) = 0 := (idx5 t).2.2.2.2.2.2.2.2.2.1
  funext x
  unfold iblk5
  rw [View.read_apply]
  show V c main_v66 _ = V c main_v66 _
  congr 1
  funext a
  apply Fin.ext
  match a with
  | ⟨0, _⟩ => show win5_4.index t 0 * 1 + 1 * (x 0).val = (x 0).val; rw [e0]; omega
  | ⟨1, _⟩ => show win5_4.index t 1 * 64 + 1 * (x 1).val = (x 1).val; rw [e1]; omega

/-- Parameter window 5's block at every point is its whole array. -/
theorem iblk5_5_eq (c : Dev nD) (t : Fin cfg5.N) :
    (iblk5 V c 5 t : Vec Ideal S1x64 .f32) = (V c main_v67 : S1x64.Idx → EReal) := by
  have e0 : win5_5.index t (0 : Fin 2) = 0 := (idx5 t).2.2.2.2.2.2.2.2.2.2.1
  have e1 : win5_5.index t (1 : Fin 2) = 0 := (idx5 t).2.2.2.2.2.2.2.2.2.2.2.1
  funext x
  unfold iblk5
  rw [View.read_apply]
  show V c main_v67 _ = V c main_v67 _
  congr 1
  funext a
  apply Fin.ext
  match a with
  | ⟨0, _⟩ => show win5_5.index t 0 * 1 + 1 * (x 0).val = (x 0).val; rw [e0]; omega
  | ⟨1, _⟩ => show win5_5.index t 1 * 64 + 1 * (x 1).val = (x 1).val; rw [e1]; omega

/-- Parameter window 6's block at every point is its whole array. -/
theorem iblk5_6_eq (c : Dev nD) (t : Fin cfg5.N) :
    (iblk5 V c 6 t : Vec Ideal S1x64 .f32) = (V c main_v68 : S1x64.Idx → EReal) := by
  have e0 : win5_6.index t (0 : Fin 2) = 0 := (idx5 t).2.2.2.2.2.2.2.2.2.2.2.2.1
  have e1 : win5_6.index t (1 : Fin 2) = 0 := (idx5 t).2.2.2.2.2.2.2.2.2.2.2.2.2.1
  funext x
  unfold iblk5
  rw [View.read_apply]
  show V c main_v68 _ = V c main_v68 _
  congr 1
  funext a
  apply Fin.ext
  match a with
  | ⟨0, _⟩ => show win5_6.index t 0 * 1 + 1 * (x 0).val = (x 0).val; rw [e0]; omega
  | ⟨1, _⟩ => show win5_6.index t 1 * 64 + 1 * (x 1).val = (x 1).val; rw [e1]; omega

/-- What point `t` writes back is rows `10000 t … 10000 t + 9999` of the node update of the whole arrays. -/
theorem flushed5_eq (c : Dev nD) (t : Fin cfg5.N) :
    (dat5 V c).flushed 7 t = ((cfg5.win 7).blk t).view.read (Elt Ideal)
      (Spec.final (V c main_arg0) (V c main_v63) (V c main_v64) (V c main_v65) (V c main_v66) (V c main_v67) (V c main_v68)) := by
  show (cfg5.win 7).cut (grid5.coords t) ((dat5 V c).after 7 t) = _
  rw [after5_7]
  unfold out5_7
  rw [View.canon_unit_zero origin5]
  simp only [View.ld_unit_zero (S := S10000x64) origin5, View.ld_unit_zero (S := S64x64) origin5, View.ld_unit_zero (S := S1x64) origin5]
  funext j
  have e0 : win5_7.index t (0 : Fin 2) = t.val := (idx5 t).2.2.2.2.2.2.2.2.2.2.2.2.2.2.1
  have e1 : win5_7.index t (1 : Fin 2) = 0 := (idx5 t).2.2.2.2.2.2.2.2.2.2.2.2.2.2.2
  have ht : t.val < 10 := t.isLt
  have hj0 : (j 0).val < 10000 := (j 0).isLt
  have hj1 : (j 1).val < 64 := (j 1).isLt
  have hlt : 10000 * t.val + (j 0).val < 100000 := by omega
  have hr : (((cfg5.win 7).blk t).view.emb j) 0 = (⟨10000 * t.val + (j 0).val, hlt⟩ : Fin 100000) :=
    Fin.ext (by show win5_7.index t 0 * 10000 + 1 * (j 0).val = 10000 * t.val + (j 0).val; rw [e0]; omega)
  have hc : (((cfg5.win 7).blk t).view.emb j) 1 = (j 1 : Fin 64) :=
    Fin.ext (by show win5_7.index t 1 * 64 + 1 * (j 1).val = (j 1).val; rw [e1]; omega)
  have hp := final_point (iblk5 V c 0 t) (iblk5 V c 1 t) (iblk5 V c 2 t) (iblk5 V c 3 t) (iblk5 V c 4 t) (iblk5 V c 5 t) (iblk5 V c 6 t)
    (V c main_arg0) (V c main_v63) (V c main_v64) (V c main_v65) (V c main_v66) (V c main_v67) (V c main_v68)
    (j 0) (j 1) ⟨10000 * t.val + (j 0).val, hlt⟩
    (fun l => iblk5_0_apply V c t (ix2 (j 0) l) (ix2 ⟨10000 * t.val + (j 0).val, hlt⟩ l) rfl rfl)
    (fun l => iblk5_1_apply V c t (ix2 (j 0) l) (ix2 ⟨10000 * t.val + (j 0).val, hlt⟩ l) rfl rfl)
    (iblk5_2_eq V c t) (iblk5_3_eq V c t) (iblk5_4_eq V c t) (iblk5_5_eq V c t) (iblk5_6_eq V c t)
  refine ((congrArg (k5_pay1 (F := Ideal) (k5_pay2 (iblk5 V c 0 t) (iblk5 V c 1 t) (iblk5 V c 2 t) (iblk5 V c 3 t) (iblk5 V c 4 t)) (iblk5 V c 5 t) (iblk5 V c 6 t)) (eq_ix2 (n0 := 10000) (n1 := 64) j)).trans hp).trans ?_
  exact congrArg₂ (Spec.finalAt (V c main_arg0) (V c main_v63) (V c main_v64) (V c main_v65) (V c main_v66) (V c main_v67) (V c main_v68)) hr.symm hc.symm

/-- An index of the output array is in point `t`'s block iff its row is among the block's 10000 rows. -/
theorem mem_blk5 (t : Fin cfg5.N) (i : S100000x64.Idx) :
    i ∈ ((cfg5.win 7).blk t).view.set ↔ ∀ a : Fin 2, win5_7.index t a * S10000x64.size a ≤ (i a).val ∧ (i a).val < win5_7.index t a * S10000x64.size a + S10000x64.size a := by
  show i ∈ ((View.whole main_v69).slice (win5_7.rect t)).set ↔ _
  rw [View.set_slice_whole, Rect.mem_set_unit]
  exact Iff.rfl

/-- Every index of the output array is in some point's block: row `r` is in block `r / 10000`. -/
theorem cover5 (i : S100000x64.Idx) : ∃ t : Fin cfg5.N, (cfg5.win 7).flush t = true ∧ i ∈ ((cfg5.win 7).blk t).view.set := by
  have hi0 : (i 0).val < 100000 := (i 0).isLt
  have hi1 : (i 1).val < 64 := (i 1).isLt
  have hq : (i 0).val / 10000 < 10 := by omega
  refine ⟨⟨(i 0).val / 10000, hq⟩, flush5_7 _, ?_⟩
  rw [mem_blk5]
  have e0 : win5_7.index ⟨(i 0).val / 10000, hq⟩ (0 : Fin 2) = (i 0).val / 10000 := (idx5 ⟨(i 0).val / 10000, hq⟩).2.2.2.2.2.2.2.2.2.2.2.2.2.2.1
  have e1 : win5_7.index ⟨(i 0).val / 10000, hq⟩ (1 : Fin 2) = 0 := (idx5 ⟨(i 0).val / 10000, hq⟩).2.2.2.2.2.2.2.2.2.2.2.2.2.2.2
  intro a
  match a with
  | ⟨0, _⟩ => show win5_7.index ⟨(i 0).val / 10000, hq⟩ (0 : Fin 2) * 10000 ≤ (i 0).val ∧ (i 0).val < win5_7.index ⟨(i 0).val / 10000, hq⟩ (0 : Fin 2) * 10000 + 10000; rw [e0]; omega
  | ⟨1, _⟩ => show win5_7.index ⟨(i 0).val / 10000, hq⟩ (1 : Fin 2) * 64 ≤ (i 1).val ∧ (i 1).val < win5_7.index ⟨(i 0).val / 10000, hq⟩ (1 : Fin 2) * 64 + 64; rw [e1]; omega

/-- THE ARRAY after region 5: the node update of the arrays its windows stage, as the region finds them. -/
theorem arr5 (c : Dev nD) : (dat5 (F := Ideal) V c).arrAt 7 cfg5.N
    = (Spec.final (V c main_arg0) (V c main_v63) (V c main_v64) (V c main_v65) (V c main_v66) (V c main_v67) (V c main_v68)) :=
  (dat5 V c).arrAt_eq_of_cover 7 _ (fun t _ => flushed5_eq V c t) (cover5)

end Cert.KernelIdeal.HandValue

end
-- ==== Proof.Chain.lean ====
/-
  The host operations the two programs share, named once per program: the edge endpoints read off the index
  array, the wrap of negative indices, the row gather, the segment sum (a scatter-add into zeros) and the graph
  read-out. Both programs apply the same operations with the same dimension numbers; each program's text names its own
  copies of those numbers, so the functions are written once in each program's vocabulary.
-/
import proofs.«120260_j56453050139301_2_alg».proof.Proof.Gen.KernelIdeal
import proofs.«120260_j56453050139301_2_alg».proof.Proof.Gen.ReferenceIdeal
import Idealize.ShloMosaic.PureOps.Ideal

noncomputable section

namespace Cert.KernelIdeal.Chain
open Idealize.ShloMosaic Cert.KernelIdeal Cert.KernelIdeal.Facts₀

/-- The source node of every edge: row 0 of the 2×E index array, as a vector. -/
def srcIdx (ei : IVec S2x1000000 32) : IVec S1000000 32 :=
  shapeCast S1000000 (extractStridedSlice S1x1000000 ![0, 0] ei slices_S2x1000000_S1x1000000_0_0) shapeCasts_S1x1000000_S1000000
/-- The destination node of every edge: row 1. -/
def dstIdx (ei : IVec S2x1000000 32) : IVec S1000000 32 :=
  shapeCast S1000000 (extractStridedSlice S1x1000000 ![1, 0] ei slices_S2x1000000_S1x1000000_1_0) shapeCasts_S1x1000000_S1000000
/-- A negative index counts from the end: `idx + 100000` where `idx < 0`. -/
def wrap (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 100000#32))) idx
/-- An index vector as a one-column matrix. -/
def col (idx : IVec S1000000 32) : IVec S1000000x1 32 := broadcastInDim S1000000x1 ![0] bcast_S1000000_S1000000x1_0 idx
/-- The rows of a node table picked edge by edge. -/
def gatherRows (tbl : FVec Ideal S100000x64 .f32) (idx : IVec S1000000 32) : FVec Ideal S1000000x64 .f32 :=
  Host.gather gather_S100000x64_S1000000x1_S1000000x64_1_0_n_n_0_1_164 tbl (col (wrap idx))
/-- The edge rows summed into their node's row (a scatter-add into zeros). -/
def segSum (idx : IVec S1000000 32) (upd : FVec Ideal S1000000x64 .f32) : FVec Ideal S100000x64 .f32 :=
  Host.scatterAdd scatter_S100000x64_S1000000x1_S1000000x64_1_0_0_1
    (broadcastInDim S100000x64 ![] bcast_S_S100000x64 (constant (F := Ideal) S_ .f32 0x00000000#32)) (col idx) upd
/-- The graph read-out: the node rows summed per graph, divided by the graph's node count (at least one), times the
    64×8 output matrix. -/
def pool (hf : FVec Ideal S100000x64 .f32) (batch : IVec S100000 32) (wq : FVec Ideal S64x8 .f32) : FVec Ideal S1024x8 .f32 :=
  Host.dotGeneral dot_S1024x64_S64x8_S1024x8_1_0_0_1_n_n none
    (Host.divf
      (Host.scatterAdd scatter_S1024x64_S100000x1_S100000x64_1_0_0_1
        (broadcastInDim S1024x64 ![] bcast_S_S1024x64 (constant (F := Ideal) S_ .f32 0x00000000#32))
        (broadcastInDim S100000x1 ![0] bcast_S100000_S100000x1_0 batch) hf)
      (broadcastInDim S1024x64 ![0, 1] bcast_S1024x1_S1024x64_0_1 (broadcastInDim S1024x1 ![0] bcast_S1024_S1024x1_0
        (maximumf
          (Host.scatterAdd scatter_S1024_S100000x1_S100000_n_0_0_1
            (broadcastInDim S1024 ![] bcast_S_S1024 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S1024 ![] bcast_S_S1024 (constant (F := Ideal) S_ .f32 0x3F800000#32))))))
    wq

end Cert.KernelIdeal.Chain

namespace Cert.ReferenceIdeal.Chain
open Idealize.ShloMosaic Cert.ReferenceIdeal Cert.ReferenceIdeal.Facts₀

/-- The source node of every edge: row 0 of the 2×E index array, as a vector. -/
def srcIdx (ei : IVec S2x1000000 32) : IVec S1000000 32 :=
  shapeCast S1000000 (extractStridedSlice S1x1000000 ![0, 0] ei slices_S2x1000000_S1x1000000_0_0) shapeCasts_S1x1000000_S1000000
/-- The destination node of every edge: row 1. -/
def dstIdx (ei : IVec S2x1000000 32) : IVec S1000000 32 :=
  shapeCast S1000000 (extractStridedSlice S1x1000000 ![1, 0] ei slices_S2x1000000_S1x1000000_1_0) shapeCasts_S1x1000000_S1000000
/-- A negative index counts from the end: `idx + 100000` where `idx < 0`. -/
def wrap (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 100000#32))) idx
/-- An index vector as a one-column matrix. -/
def col (idx : IVec S1000000 32) : IVec S1000000x1 32 := broadcastInDim S1000000x1 ![0] bcast_S1000000_S1000000x1_0 idx
/-- The rows of a node table picked edge by edge. -/
def gatherRows (tbl : FVec Ideal S100000x64 .f32) (idx : IVec S1000000 32) : FVec Ideal S1000000x64 .f32 :=
  Host.gather gather_S100000x64_S1000000x1_S1000000x64_1_0_n_n_0_1_164 tbl (col (wrap idx))
/-- The edge rows summed into their node's row (a scatter-add into zeros). -/
def segSum (idx : IVec S1000000 32) (upd : FVec Ideal S1000000x64 .f32) : FVec Ideal S100000x64 .f32 :=
  Host.scatterAdd scatter_S100000x64_S1000000x1_S1000000x64_1_0_0_1
    (broadcastInDim S100000x64 ![] bcast_S_S100000x64 (constant (F := Ideal) S_ .f32 0x00000000#32)) (col idx) upd
/-- The graph read-out: the node rows summed per graph, divided by the graph's node count (at least one), times the
    64×8 output matrix. -/
def pool (hf : FVec Ideal S100000x64 .f32) (batch : IVec S100000 32) (wq : FVec Ideal S64x8 .f32) : FVec Ideal S1024x8 .f32 :=
  Host.dotGeneral dot_S1024x64_S64x8_S1024x8_1_0_0_1_n_n none
    (Host.divf
      (Host.scatterAdd scatter_S1024x64_S100000x1_S100000x64_1_0_0_1
        (broadcastInDim S1024x64 ![] bcast_S_S1024x64 (constant (F := Ideal) S_ .f32 0x00000000#32))
        (broadcastInDim S100000x1 ![0] bcast_S100000_S100000x1_0 batch) hf)
      (broadcastInDim S1024x64 ![0, 1] bcast_S1024x1_S1024x64_0_1 (broadcastInDim S1024x1 ![0] bcast_S1024_S1024x1_0
        (maximumf
          (Host.scatterAdd scatter_S1024_S100000x1_S100000_n_0_0_1
            (broadcastInDim S1024 ![] bcast_S_S1024 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S1024 ![] bcast_S_S1024 (constant (F := Ideal) S_ .f32 0x3F800000#32))))))
    wq

end Cert.ReferenceIdeal.Chain

end
-- ==== Proof.LibGatherRows.lean ====
/-
  Reading rows out of a table, and two matrices side by side.

  A table t has N rows of W entries; a column i of R row numbers picks, for each s, the row i(s) of t (the row number
  read as a signed integer and clamped into 0 … N − 1, as a gather does). The R×W matrix so obtained has, at (s, j),
  the entry (i(s), j) of t. The row picked depends on the row number and on the table's height N only: not on the width
  W and not on what the table holds. So two tables of the same height, read through the same column of row numbers,
  are read at the same rows.

  Two matrices of R rows, W1 and W2 wide, put side by side give an R×(W1+W2) matrix; its entry at (s, k) for k among
  the first W1 columns is the first matrix's entry at (s, k), and its entry at (s, W1 + k) is the second matrix's entry
  at (s, k).
-/
import Idealize.ShloMosaic.PureOps.Ideal.Laws
import Idealize.ShloMosaic.Lib.ValueIdx
import Idealize.ShloMosaic.Lib.StackMember
import Idealize.ShloMosaic.Lib.Pipeline.Value

set_option maxRecDepth 16384

noncomputable section

namespace Cert.LibGatherRows

open Idealize.ShloMosaic Idealize.ShloMosaic.ValueIdx

section Rows
variable {α : Type}

/-- The dimension numbers of a gather of whole rows: the table is N×W, the row numbers are an R×1 column, the result is R×W;
    result axis 1 runs along the table's row, table axis 0 is collapsed and is the one the row number addresses. -/
abbrev rowsDims (N W R : Nat) (wf : GatherDims.WF ⟨2, ![N, W]⟩ ⟨2, ![R, 1]⟩ ⟨2, ![R, W]⟩ [1] [0] [] [0] [] 1 ![1, W]) :
    GatherDims ⟨2, ![N, W]⟩ ⟨2, ![R, 1]⟩ ⟨2, ![R, W]⟩ where
  offsetDims := [1]
  collapsedSliceDims := [0]
  operandBatchingDims := []
  startIndicesBatchingDims := []
  startIndexMap := [0]
  indexVectorDim := 1
  sliceSizes := ![1, W]
  wf := wf

/-- The row of a table of N rows that the row number v picks: v read as a signed integer, clamped into 0 … N − 1. -/
def pickedRow (N : Nat) (hN : 0 < N) {w : Nat} (v : BitVec w) : Fin N := ⟨min v.toInt.toNat (N - 1), by omega⟩

/-- The gather of rows read at (s, j): entry j of the table's row picked by the s-th row number. The picked row does not
    depend on the table's width W. -/
theorem gather_rows_apply {N W R w : Nat} (hN : 0 < N)
    (wf : GatherDims.WF ⟨2, ![N, W]⟩ ⟨2, ![R, 1]⟩ ⟨2, ![R, W]⟩ [1] [0] [] [0] [] 1 ![1, W])
    (x : (⟨2, ![N, W]⟩ : Shape).Idx → α) (idx : IVec ⟨2, ![R, 1]⟩ w) (s : Fin R) (j : Fin W) :
    Host.gather (rowsDims N W R wf) x idx (ix2 s j) = x (ix2 (pickedRow N hN (idx (ix2 s (0 : Fin 1)))) j) := by
  unfold Host.gather
  refine congrArg x ?_
  funext a
  refine Fin.ext ?_
  match a with
  | ⟨0, _⟩ =>
    show (rowsDims N W R wf).start (ix2 s j) idx 0 + (rowsDims N W R wf).batchCoord (ix2 s j) 0 + (rowsDims N W R wf).offCoord (ix2 s j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N W R wf).startIndexMap from List.mem_singleton.mpr rfl)]
    have hsi : (rowsDims N W R wf).siIdx (ix2 s j) ⟨List.idxOf (0 : Fin 2) (rowsDims N W R wf).startIndexMap,
        List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show (rowsDims N W R wf).start (ix2 s j) idx 1 + (rowsDims N W R wf).batchCoord (ix2 s j) 1 + (rowsDims N W R wf).offCoord (ix2 s j) 1 = j.val
    rw [GatherDims.batchCoord_eq_zero _ _ _ List.not_mem_nil]
    have h1 : (rowsDims N W R wf).start (ix2 s j) idx 1 = 0 := by
      unfold GatherDims.start
      rw [dif_neg (show ¬ (1 : Fin 2) ∈ ([0] : List (Fin 2)) from by decide)]
    rw [h1]
    simp only [Nat.add_zero, Nat.zero_add]
    rfl

end Rows

section Pair
variable {α : Type} {R W1 W2 : Nat}

/-- Two matrices of R rows side by side, read in the first one's columns, -/
theorem cat2_apply_fst (hcat : Shape.Concatenates [(⟨2, ![R, W1]⟩ : Shape), ⟨2, ![R, W2]⟩] ⟨2, ![R, W1 + W2]⟩ 1)
    (x1 : (⟨2, ![R, W1]⟩ : Shape).Idx → α) (x2 : (⟨2, ![R, W2]⟩ : Shape).Idx → α) (s : Fin R) (k : Fin W1) :
    concatenate ⟨2, ![R, W1 + W2]⟩ 1 [⟨⟨2, ![R, W1]⟩, x1⟩, ⟨⟨2, ![R, W2]⟩, x2⟩] hcat (ix2 s (Fin.castAdd W2 k)) = x1 (ix2 s k) := by
  refine concatenate_apply_piece (t := ⟨2, ![R, W1 + W2]⟩) (1 : Fin 2) [⟨⟨2, ![R, W1]⟩, x1⟩, ⟨⟨2, ![R, W2]⟩, x2⟩] hcat _ 0 (Nat.succ_pos _) _ x1 rfl rfl 0 rfl (ix2 s k) (fun b hb => ?_) ?_
  · match b with
    | ⟨0, _⟩ => rfl
    | ⟨1, _⟩ => exact absurd rfl hb
  · show 0 + k.val = k.val
    omega

/-- … and in the second one's columns. -/
theorem cat2_apply_snd (hcat : Shape.Concatenates [(⟨2, ![R, W1]⟩ : Shape), ⟨2, ![R, W2]⟩] ⟨2, ![R, W1 + W2]⟩ 1)
    (x1 : (⟨2, ![R, W1]⟩ : Shape).Idx → α) (x2 : (⟨2, ![R, W2]⟩ : Shape).Idx → α) (s : Fin R) (k : Fin W2) :
    concatenate ⟨2, ![R, W1 + W2]⟩ 1 [⟨⟨2, ![R, W1]⟩, x1⟩, ⟨⟨2, ![R, W2]⟩, x2⟩] hcat (ix2 s (Fin.natAdd W1 k)) = x2 (ix2 s k) := by
  refine concatenate_apply_piece (t := ⟨2, ![R, W1 + W2]⟩) (1 : Fin 2) [⟨⟨2, ![R, W1]⟩, x1⟩, ⟨⟨2, ![R, W2]⟩, x2⟩] hcat _ 1 (Nat.succ_lt_succ (Nat.succ_pos _)) _ x2 rfl rfl W1 rfl (ix2 s k) (fun b hb => ?_) ?_
  · match b with
    | ⟨0, _⟩ => rfl
    | ⟨1, _⟩ => exact absurd rfl hb
  · show W1 + k.val = W1 + k.val
    rfl

end Pair

end Cert.LibGatherRows
end
-- ==== Proof.StageEdge.lean ====
/-
  The reference's initial edge message against the specification. The reference multiplies the row
  `[x_e | f_e]` of 80 entries by the whole 80×64 weight matrix; the specification multiplies `x_e` by the top 64 rows and
  `f_e` by the bottom 16 rows and adds. A sum over 80 = 64 + 16 coordinates splits into the sum over the first 64 and
  the sum over the last 16, and on each part the concatenated row reads its own piece: the two are one number. The
  bias is read through its two broadcasts (a row, then down the million rows) on one side and through its recast as
  a one-row matrix on the other.
-/
import proofs.«120260_j56453050139301_2_alg».proof.Proof.Gen.KernelIdeal
import proofs.«120260_j56453050139301_2_alg».proof.Proof.Gen.ReferenceIdeal
import proofs.«120260_j56453050139301_2_alg».proof.Proof.Spec
import proofs.«120260_j56453050139301_2_alg».proof.Proof.LibGatherRows
import Idealize.ShloMosaic.Lib.StackMember
import Idealize.ShloMosaic.Lib.KernelVsHost
import Idealize.ShloMosaic.Lib.Pipeline.Value
import Idealize.ShloMosaic.Lib.IdealHost

noncomputable section

namespace Cert.ReferenceIdeal.Stage
open Idealize.ShloMosaic Idealize.ShloMosaic.ValueIdx Cert.ReferenceIdeal Cert.ReferenceIdeal.Facts₀

/-- The reference's first stage as one function of its four inputs: the operations of its text, in order. -/
def edge (x : FVec Ideal S1000000x64 .f32) (f : FVec Ideal S1000000x16 .f32) (wi : FVec Ideal S80x64 .f32) (bi : FVec Ideal S64 .f32) :
    FVec Ideal S1000000x64 .f32 :=
  maximumf
    (addf
      (Host.dotGeneral dot_S1000000x80_S80x64_S1000000x64_1_0_0_1_n_n none
        (concatenate S1000000x80 1 [⟨S1000000x64, x⟩, ⟨S1000000x16, f⟩] concatenates_S1000000x64_S1000000x16_S1000000x80_d1) wi)
      (broadcastInDim S1000000x64 ![0, 1] bcast_S1x64_S1000000x64_0_1 (broadcastInDim S1x64 ![1] bcast_S64_S1x64_1 bi)))
    (broadcastInDim S1000000x64 ![] bcast_S_S1000000x64 (constant (F := Ideal) S_ .f32 0x00000000#32))

end Cert.ReferenceIdeal.Stage

namespace Cert.KernelIdeal.Prep
open Idealize.ShloMosaic Idealize.ShloMosaic.ValueIdx Cert.KernelIdeal Cert.KernelIdeal.Facts₀

/-- The top 64 rows of the 80×64 weight matrix. -/
def wTop (wi : FVec Ideal S80x64 .f32) : FVec Ideal S64x64 .f32 := extractStridedSlice S64x64 ![0, 0] wi slices_S80x64_S64x64_0_0
/-- Its bottom 16 rows. -/
def wBot (wi : FVec Ideal S80x64 .f32) : FVec Ideal S16x64 .f32 := extractStridedSlice S16x64 ![64, 0] wi slices_S80x64_S16x64_64_0
/-- A bias vector as a one-row matrix. -/
def row (b : FVec Ideal S64 .f32) : FVec Ideal S1x64 .f32 := shapeCast S1x64 b shapeCasts_S64_S1x64

end Cert.KernelIdeal.Prep

namespace Cert.Bridge
open Idealize.ShloMosaic Idealize.ShloMosaic.ValueIdx

/-- A vector of 64 entries broadcast to a one-row matrix, read at `(0, j)`, is the vector at `j`. -/
theorem bcastRow_apply (h : (⟨1, ![64]⟩ : Shape).BroadcastsInDim ⟨2, ![1, 64]⟩ ![1]) (b : (⟨1, ![64]⟩ : Shape).Idx → EReal) (j : Fin 64) :
    broadcastInDim ⟨2, ![1, 64]⟩ ![1] h b (ix2 (0 : Fin 1) j) = b (ix1 j) := by
  refine broadcastInDim_apply ![1] h b (ix2 (0 : Fin 1) j) (ix1 j) ?_
  intro a
  match a with
  | ⟨0, _⟩ => show j.val = if (64 : ℕ) = 1 then 0 else j.val; simp

/-- A vector of 64 entries recast as a one-row matrix, read at `(0, j)`, is the vector at `j`. -/
theorem castRow_apply (h : (⟨1, ![64]⟩ : Shape).ShapeCasts ⟨2, ![1, 64]⟩) (b : (⟨1, ![64]⟩ : Shape).Idx → EReal) (j : Fin 64) :
    shapeCast ⟨2, ![1, 64]⟩ b h (ix2 (0 : Fin 1) j) = b (ix1 j) := by
  refine shapeCast_apply b h (ix2 (0 : Fin 1) j) (ix1 j) ?_
  rw [Shape.rowMajor_val_one, Shape.rowMajor_val_two]
  show j.val = (0 : ℕ) * 64 + j.val
  omega

/-- A scalar broadcast to every entry of a matrix, read anywhere, is the scalar. -/
theorem bcastScalar_apply {T : Shape} (h : (⟨0, ![]⟩ : Shape).BroadcastsInDim T ![]) (x : (⟨0, ![]⟩ : Shape).Idx → EReal) (i : T.Idx) :
    broadcastInDim T ![] h x i = x ix0 := by
  refine broadcastInDim_apply ![] h x i ix0 ?_
  intro a; exact a.elim0

open Cert.ReferenceIdeal.Stage Cert.KernelIdeal.Prep in
/-- The reference's first stage IS the specification's initial edge message of the same arrays, with the weight
    matrix cut into its top 64 and bottom 16 rows and the bias as a one-row matrix. -/
theorem edge_eq (x : Cert.Spec.Mat 1000000 64) (f : Cert.Spec.Mat 1000000 16) (wi : Cert.Spec.Mat 80 64)
    (bi : (⟨1, ![64]⟩ : Shape).Idx → EReal) :
    edge x f wi bi = Cert.Spec.edgeInit x f (wTop wi) (wBot wi) (row bi) := by
  funext i
  obtain ⟨e, j, rfl⟩ : ∃ (e : Fin 1000000) (j : Fin 64), i = ix2 e j := ⟨i 0, i 1, eq_ix2 i⟩
  unfold edge Cert.Spec.edgeInit Cert.Spec.edgeInitAt
  rw [maximumf_apply, addf_apply]
  have hd : Cert.ReferenceIdeal.dot_S1000000x80_S80x64_S1000000x64_1_0_0_1_n_n = DotDims.plain 1000000 80 64 := rfl
  rw [hd, StackMember.dotGeneral_plain_apply]
  rw [broadcastInDim_oneRow_apply, bcastRow_apply, bcastScalar_apply]
  show _ = max (((∑ k : Fin 64, x (ix2 e k) * wTop wi (ix2 k j)) + (∑ k : Fin 16, f (ix2 e k) * wBot wi (ix2 k j))) + row bi (ix2 (0 : Fin 1) j)) 0
  have hsplit : ∀ g : Fin 80 → EReal, ∑ c, g c = (∑ k : Fin 64, g (Fin.castAdd 16 k)) + ∑ k : Fin 16, g (Fin.natAdd 64 k) :=
    fun g => Fin.sum_univ_add (a := 64) (b := 16) (f := g)
  rw [hsplit]
  have hx : ∀ k : Fin 64, concatenate Cert.ReferenceIdeal.S1000000x80 1 [⟨Cert.ReferenceIdeal.S1000000x64, x⟩, ⟨Cert.ReferenceIdeal.S1000000x16, f⟩]
      Cert.ReferenceIdeal.Facts₀.concatenates_S1000000x64_S1000000x16_S1000000x80_d1 (ix2 e (Fin.castAdd 16 k)) = x (ix2 e k) :=
    fun k => Cert.LibGatherRows.cat2_apply_fst (R := 1000000) (W1 := 64) (W2 := 16) _ x f e k
  have hf : ∀ k : Fin 16, concatenate Cert.ReferenceIdeal.S1000000x80 1 [⟨Cert.ReferenceIdeal.S1000000x64, x⟩, ⟨Cert.ReferenceIdeal.S1000000x16, f⟩]
      Cert.ReferenceIdeal.Facts₀.concatenates_S1000000x64_S1000000x16_S1000000x80_d1 (ix2 e (Fin.natAdd 64 k)) = f (ix2 e k) :=
    fun k => Cert.LibGatherRows.cat2_apply_snd (R := 1000000) (W1 := 64) (W2 := 16) _ x f e k
  have ht : ∀ k : Fin 64, wTop wi (ix2 k j) = wi (ix2 (Fin.castAdd 16 k) j) := fun k => by
    unfold wTop
    refine extractStridedSlice_apply ![0, 0] wi _ (ix2 k j) (ix2 (Fin.castAdd 16 k) j) ?_
    intro a
    match a with
    | ⟨0, _⟩ => show k.val = 0 + k.val; omega
    | ⟨1, _⟩ => show j.val = 0 + j.val; omega
  have hb : ∀ k : Fin 16, wBot wi (ix2 k j) = wi (ix2 (Fin.natAdd 64 k) j) := fun k => by
    unfold wBot
    refine extractStridedSlice_apply ![64, 0] wi _ (ix2 k j) (ix2 (Fin.natAdd 64 k) j) ?_
    intro a
    match a with
    | ⟨0, _⟩ => show 64 + k.val = 64 + k.val; rfl
    | ⟨1, _⟩ => show j.val = 0 + j.val; omega
  have hr : row bi (ix2 (0 : Fin 1) j) = bi (ix1 j) := castRow_apply _ bi j
  rw [hr, constant_apply, Ideal.ofBits_zero_f32]
  simp only [hx, hf, ht, hb]

end Cert.Bridge

end
-- ==== Proof.Terms.lean ====
/-
  Each program's result as ONE function of the fifteen argument arrays.

  Both programs compute: the initial edge messages `h⁰` from the gathered source rows and the edge features; four times
  `h ← step h⁰ h (rows of (segment sum of h by destination) picked by destination)`; the node sums of the last `h` by
  source; the node update with layer normalisation; the per-graph mean read-out times the output matrix. They differ
  only inside the three dense stages: the kernel's program has them as the specification's functions (what its three
  kernels leave in their output arrays), with the weight matrices cut in two and the biases as one-row matrices; the
  reference has them as the host operations of its text.
-/
import proofs.«120260_j56453050139301_2_alg».proof.Proof.Chain
import proofs.«120260_j56453050139301_2_alg».proof.Proof.StageEdge

noncomputable section

namespace Cert.ReferenceIdeal.Stage
open Idealize.ShloMosaic Cert.ReferenceIdeal Cert.ReferenceIdeal.Facts₀

/-- A bias vector read down the million edge rows. -/
def biasE (b : FVec Ideal S64 .f32) : FVec Ideal S1000000x64 .f32 :=
  broadcastInDim S1000000x64 ![0, 1] bcast_S1x64_S1000000x64_0_1 (broadcastInDim S1x64 ![1] bcast_S64_S1x64_1 b)
/-- `relu` over the edge rows. -/
def reluE (v : FVec Ideal S1000000x64 .f32) : FVec Ideal S1000000x64 .f32 :=
  maximumf v (broadcastInDim S1000000x64 ![] bcast_S_S1000000x64 (constant (F := Ideal) S_ .f32 0x00000000#32))

/-- The reference's message-passing step: `relu ((h⁰ + relu ((g - h) · W₁ + b₁) · W₂) + b₂)`, the operations of its text. -/
def step (h0 h g : FVec Ideal S1000000x64 .f32) (w1 : FVec Ideal S64x64 .f32) (b1 : FVec Ideal S64 .f32)
    (w2 : FVec Ideal S64x64 .f32) (b2 : FVec Ideal S64 .f32) : FVec Ideal S1000000x64 .f32 :=
  reluE (addf (addf h0
      (Host.dotGeneral dot_S1000000x64_S64x64_S1000000x64_1_0_0_1_n_n none
        (reluE (addf (Host.dotGeneral dot_S1000000x64_S64x64_S1000000x64_1_0_0_1_n_n none (subf g h) w1) (biasE b1))) w2))
    (biasE b2))

/-- A vector of 64 entries read down the hundred thousand node rows. -/
def biasN (b : FVec Ideal S64 .f32) : FVec Ideal S100000x64 .f32 :=
  broadcastInDim S100000x64 ![0, 1] bcast_S1x64_S100000x64_0_1 (broadcastInDim S1x64 ![1] bcast_S64_S1x64_1 b)
/-- `relu` over the node rows. -/
def reluN (v : FVec Ideal S100000x64 .f32) : FVec Ideal S100000x64 .f32 :=
  maximumf v (broadcastInDim S100000x64 ![] bcast_S_S100000x64 (constant (F := Ideal) S_ .f32 0x00000000#32))
/-- A column of row values read across the 64 columns. -/
def across (v : FVec Ideal S100000x1 .f32) : FVec Ideal S100000x64 .f32 :=
  broadcastInDim S100000x64 ![0, 1] bcast_S100000x1_S100000x64_0_1 v
/-- The row sums as a column. -/
def rowSum (r : FVec Ideal S100000x64 .f32) : FVec Ideal S100000x1 .f32 :=
  broadcastInDim S100000x1 ![0] bcast_S100000_S100000x1_0
    (Host.reduceAdd r (constant (F := Ideal) S_ .f32 0x00000000#32) reducesTo_S100000x64_S100000_d1 h_S_)
/-- The row means: the row sums over 64. -/
def rowMean (r : FVec Ideal S100000x64 .f32) : FVec Ideal S100000x1 .f32 :=
  Host.divf (rowSum r) (broadcastInDim S100000x1 ![] bcast_S_S100000x1 (constant (F := Ideal) S_ .f32 0x42800000#32))
/-- The divisor of the variance: 64 less the degrees of freedom given up. -/
def varDen (ddof : IVec S_ 32) : FVec Ideal S_ .f32 := subf (constant (F := Ideal) S_ .f32 0x42800000#32) (sitofp .f32 ddof)
/-- The reference's row variance: the mean squared deviation over `64 - ddof`, guarded by `64 - ddof > 0`. -/
def rowVar (r : FVec Ideal S100000x64 .f32) (ddof : IVec S_ 32) : FVec Ideal S100000x1 .f32 :=
  select (broadcastInDim S100000x1 ![] bcast_S_S100000x1 (cmpf .ogt (varDen ddof) (constant (F := Ideal) S_ .f32 0x00000000#32)))
    (Host.divf (rowSum (mulf (subf r (across (rowMean r))) (subf r (across (rowMean r)))))
      (broadcastInDim S100000x1 ![] bcast_S_S100000x1 (varDen ddof)))
    (broadcastInDim S100000x1 ![] bcast_S_S100000x1 (id (constant (F := Ideal) S_ .f32 0x7FC00000#32)))

/-- The node's row before normalisation: `relu ([x | s] · W + b)`. -/
def finalRow (x s : FVec Ideal S100000x64 .f32) (wf : FVec Ideal S128x64 .f32) (bf : FVec Ideal S64 .f32) : FVec Ideal S100000x64 .f32 :=
  reluN (addf (Host.dotGeneral dot_S100000x128_S128x64_S100000x64_1_0_0_1_n_n none
    (concatenate S100000x128 1 [⟨S100000x64, x⟩, ⟨S100000x64, s⟩] concatenates_S100000x64_S100000x64_S100000x128_d1) wf) (biasN bf))

/-- The reference's node update with layer normalisation, from the row `r` before normalisation. -/
def normed (r : FVec Ideal S100000x64 .f32) (g b : FVec Ideal S64 .f32) : FVec Ideal S100000x64 .f32 :=
  reluN (addf (mulf (mulf (subf r (across (rowMean r)))
      (across (Host.rsqrt (addf (rowVar r (constantI S_ 32 0#32))
        (broadcastInDim S100000x1 ![] bcast_S_S100000x1 (constant (F := Ideal) S_ .f32 0x3727C5AC#32))))))
    (biasN g)) (biasN b))

def final (x s : FVec Ideal S100000x64 .f32) (wf : FVec Ideal S128x64 .f32) (bf g b : FVec Ideal S64 .f32) : FVec Ideal S100000x64 .f32 :=
  normed (finalRow x s wf bf) g b

end Cert.ReferenceIdeal.Stage

namespace Cert.KernelIdeal.Prep
open Idealize.ShloMosaic Cert.KernelIdeal Cert.KernelIdeal.Facts₀

/-- The top 64 rows of the final layer's 128×64 weight matrix. -/
def wfTop (wf : FVec Ideal S128x64 .f32) : FVec Ideal S64x64 .f32 := extractStridedSlice S64x64 ![0, 0] wf slices_S128x64_S64x64_0_0
/-- Its bottom 64 rows. -/
def wfBot (wf : FVec Ideal S128x64 .f32) : FVec Ideal S64x64 .f32 := extractStridedSlice S64x64 ![64, 0] wf slices_S128x64_S64x64_64_0

end Cert.KernelIdeal.Prep

namespace Cert.Bridge
open Idealize.ShloMosaic

/-- The kernel's program's result: the shared host operations around the three dense stages as the specification
    states them. -/
def kernelTerm (a0 : FVec Ideal Cert.KernelIdeal.S100000x64 .f32) (a1 : FVec Ideal Cert.KernelIdeal.S1000000x16 .f32)
    (a2 : IVec Cert.KernelIdeal.S2x1000000 32) (a3 : IVec Cert.KernelIdeal.S100000 32) (a4 : FVec Ideal Cert.KernelIdeal.S80x64 .f32)
    (a5 : FVec Ideal Cert.KernelIdeal.S64 .f32) (a6 : FVec Ideal Cert.KernelIdeal.S64x64 .f32) (a7 : FVec Ideal Cert.KernelIdeal.S64 .f32)
    (a8 : FVec Ideal Cert.KernelIdeal.S64x64 .f32) (a9 : FVec Ideal Cert.KernelIdeal.S64 .f32) (a10 : FVec Ideal Cert.KernelIdeal.S128x64 .f32)
    (a11 a12 a13 : FVec Ideal Cert.KernelIdeal.S64 .f32) (a14 : FVec Ideal Cert.KernelIdeal.S64x8 .f32) :
    FVec Ideal Cert.KernelIdeal.S1024x8 .f32 :=
  open Cert.KernelIdeal.Chain Cert.KernelIdeal.Prep in
  let src := srcIdx a2
  let dst := dstIdx a2
  let h0 := Cert.Spec.edgeInit (gatherRows a0 src) a1 (wTop a4) (wBot a4) (row a5)
  let h1 := Cert.Spec.step h0 h0 (gatherRows (segSum dst h0) dst) a6 (row a7) a8 (row a9)
  let h2 := Cert.Spec.step h0 h1 (gatherRows (segSum dst h1) dst) a6 (row a7) a8 (row a9)
  let h3 := Cert.Spec.step h0 h2 (gatherRows (segSum dst h2) dst) a6 (row a7) a8 (row a9)
  let h4 := Cert.Spec.step h0 h3 (gatherRows (segSum dst h3) dst) a6 (row a7) a8 (row a9)
  pool (Cert.Spec.final a0 (segSum src h4) (wfTop a10) (wfBot a10) (row a11) (row a12) (row a13)) a3 a14

/-- The reference's result: the same host operations around its own dense stages. -/
def refTerm (a0 : FVec Ideal Cert.ReferenceIdeal.S100000x64 .f32) (a1 : FVec Ideal Cert.ReferenceIdeal.S1000000x16 .f32)
    (a2 : IVec Cert.ReferenceIdeal.S2x1000000 32) (a3 : IVec Cert.ReferenceIdeal.S100000 32) (a4 : FVec Ideal Cert.ReferenceIdeal.S80x64 .f32)
    (a5 : FVec Ideal Cert.ReferenceIdeal.S64 .f32) (a6 : FVec Ideal Cert.ReferenceIdeal.S64x64 .f32) (a7 : FVec Ideal Cert.ReferenceIdeal.S64 .f32)
    (a8 : FVec Ideal Cert.ReferenceIdeal.S64x64 .f32) (a9 : FVec Ideal Cert.ReferenceIdeal.S64 .f32) (a10 : FVec Ideal Cert.ReferenceIdeal.S128x64 .f32)
    (a11 a12 a13 : FVec Ideal Cert.ReferenceIdeal.S64 .f32) (a14 : FVec Ideal Cert.ReferenceIdeal.S64x8 .f32) :
    FVec Ideal Cert.ReferenceIdeal.S1024x8 .f32 :=
  open Cert.ReferenceIdeal.Chain Cert.ReferenceIdeal.Stage in
  let src := srcIdx a2
  let dst := dstIdx a2
  let h0 := edge (gatherRows a0 src) a1 a4 a5
  let h1 := step h0 h0 (gatherRows (segSum dst h0) dst) a6 a7 a8 a9
  let h2 := step h0 h1 (gatherRows (segSum dst h1) dst) a6 a7 a8 a9
  let h3 := step h0 h2 (gatherRows (segSum dst h2) dst) a6 a7 a8 a9
  let h4 := step h0 h3 (gatherRows (segSum dst h3) dst) a6 a7 a8 a9
  pool (final a0 (segSum src h4) a10 a11 a12 a13) a3 a14

end Cert.Bridge

end
-- ==== Proof.KValueTable.lean ====
/-
  What each buffer of the kernel's program holds at each boundary between a stretch of host operations and a kernel
  region, as a function of the argument arrays and of what the regions left (`outs`). Two kinds of fact, one lemma per
  case: a stretch's result buffer is the stretch's operations applied to its operand buffers (the operations read off
  the program text); and a buffer that an item does not write holds after the item what it held before.
-/
import proofs.«120260_j56453050139301_2_alg».proof.Proof.Gen.KernelIdeal.Regions
import proofs.«120260_j56453050139301_2_alg».proof.Proof.Terms
import Idealize.ShloMosaic.Lib.StableHlo.Run

noncomputable section

namespace Cert.KernelIdeal.KValue
open Idealize.ShloMosaic Idealize.ShloMosaic.TcCoe Cert.KernelIdeal Cert.KernelIdeal.Gen Cert.KernelIdeal.Chain Cert.KernelIdeal.Prep StableHlo

/-! ## Each stretch's results, over any contents `W` of the buffers it starts from -/

set_option maxHeartbeats 2000000 in
theorem ops0_v1 (W : Valuation τ sig (Elt Ideal)) :
    StableHlo.after hostOps0 W (Proc.devRef .tc main_v1) = srcIdx (W main_arg2) := by
  after_results_simp
  rfl

set_option maxHeartbeats 2000000 in
theorem ops0_v3 (W : Valuation τ sig (Elt Ideal)) :
    StableHlo.after hostOps0 W (Proc.devRef .tc main_v3) = dstIdx (W main_arg2) := by
  after_results_simp
  rfl

set_option maxHeartbeats 2000000 in
theorem ops0_v10 (W : Valuation τ sig (Elt Ideal)) :
    StableHlo.after hostOps0 W (Proc.devRef .tc main_v10) = gatherRows (W main_arg0) (srcIdx (W main_arg2)) := by
  after_results_simp
  rfl

set_option maxHeartbeats 2000000 in
theorem ops0_v11 (W : Valuation τ sig (Elt Ideal)) :
    StableHlo.after hostOps0 W (Proc.devRef .tc main_v11) = wTop (W main_arg4) := by
  after_results_simp
  rfl

set_option maxHeartbeats 2000000 in
theorem ops0_v12 (W : Valuation τ sig (Elt Ideal)) :
    StableHlo.after hostOps0 W (Proc.devRef .tc main_v12) = wBot (W main_arg4) := by
  after_results_simp
  rfl

set_option maxHeartbeats 2000000 in
theorem ops0_v13 (W : Valuation τ sig (Elt Ideal)) :
    StableHlo.after hostOps0 W (Proc.devRef .tc main_v13) = row (W main_arg5) := by
  after_results_simp
  rfl

set_option maxHeartbeats 2000000 in
theorem ops0_v14 (W : Valuation τ sig (Elt Ideal)) :
    StableHlo.after hostOps0 W (Proc.devRef .tc main_v14) = row (W main_arg7) := by
  after_results_simp
  rfl

set_option maxHeartbeats 2000000 in
theorem ops0_v15 (W : Valuation τ sig (Elt Ideal)) :
    StableHlo.after hostOps0 W (Proc.devRef .tc main_v15) = row (W main_arg9) := by
  after_results_simp
  rfl

set_option maxHeartbeats 2000000 in
theorem ops1_v26 (W : Valuation τ sig (Elt Ideal)) :
    StableHlo.after hostOps1 W (Proc.devRef .tc main_v26) = gatherRows (segSum (W main_v3) (W main_v16)) (W main_v3) := by
  after_results_simp
  rfl

set_option maxHeartbeats 2000000 in
theorem ops2_v37 (W : Valuation τ sig (Elt Ideal)) :
    StableHlo.after hostOps2 W (Proc.devRef .tc main_v37) = gatherRows (segSum (W main_v3) (W main_v27)) (W main_v3) := by
  after_results_simp
  rfl

set_option maxHeartbeats 2000000 in
theorem ops3_v48 (W : Valuation τ sig (Elt Ideal)) :
    StableHlo.after hostOps3 W (Proc.devRef .tc main_v48) = gatherRows (segSum (W main_v3) (W main_v38)) (W main_v3) := by
  after_results_simp
  rfl

set_option maxHeartbeats 2000000 in
theorem ops4_v59 (W : Valuation τ sig (Elt Ideal)) :
    StableHlo.after hostOps4 W (Proc.devRef .tc main_v59) = gatherRows (segSum (W main_v3) (W main_v49)) (W main_v3) := by
  after_results_simp
  rfl

set_option maxHeartbeats 2000000 in
theorem ops5_v63 (W : Valuation τ sig (Elt Ideal)) :
    StableHlo.after hostOps5 W (Proc.devRef .tc main_v63) = segSum (W main_v1) (W main_v60) := by
  after_results_simp
  rfl

set_option maxHeartbeats 2000000 in
theorem ops5_v64 (W : Valuation τ sig (Elt Ideal)) :
    StableHlo.after hostOps5 W (Proc.devRef .tc main_v64) = wfTop (W main_arg10) := by
  after_results_simp
  rfl

set_option maxHeartbeats 2000000 in
theorem ops5_v65 (W : Valuation τ sig (Elt Ideal)) :
    StableHlo.after hostOps5 W (Proc.devRef .tc main_v65) = wfBot (W main_arg10) := by
  after_results_simp
  rfl

set_option maxHeartbeats 2000000 in
theorem ops5_v66 (W : Valuation τ sig (Elt Ideal)) :
    StableHlo.after hostOps5 W (Proc.devRef .tc main_v66) = row (W main_arg11) := by
  after_results_simp
  rfl

set_option maxHeartbeats 2000000 in
theorem ops5_v67 (W : Valuation τ sig (Elt Ideal)) :
    StableHlo.after hostOps5 W (Proc.devRef .tc main_v67) = row (W main_arg12) := by
  after_results_simp
  rfl

set_option maxHeartbeats 2000000 in
theorem ops5_v68 (W : Valuation τ sig (Elt Ideal)) :
    StableHlo.after hostOps5 W (Proc.devRef .tc main_v68) = row (W main_arg13) := by
  after_results_simp
  rfl

set_option maxHeartbeats 2000000 in
theorem ops6_v82 (W : Valuation τ sig (Elt Ideal)) :
    StableHlo.after hostOps6 W (Proc.devRef .tc main_v82) = pool (W main_v69) (W main_arg3) (W main_arg14) := by
  after_results_simp
  rfl

/-! ## The boundaries' contents -/

variable (m : (ℓ : Loc nD τ sig) → Buf (Elt Ideal) ℓ) (outs : Outs (F := Ideal)) (c : Dev nD)

theorem V2_v16 : V2 m outs c main_v16 = outs 2 main_v16 c := by
  simp only [V2, Function.update_self]

theorem V4_v27 : V4 m outs c main_v27 = outs 4 main_v27 c := by
  simp only [V4, Function.update_self]

theorem V6_v38 : V6 m outs c main_v38 = outs 6 main_v38 c := by
  simp only [V6, Function.update_self]

theorem V8_v49 : V8 m outs c main_v49 = outs 8 main_v49 c := by
  simp only [V8, Function.update_self]

theorem V10_v60 : V10 m outs c main_v60 = outs 10 main_v60 c := by
  simp only [V10, Function.update_self]

theorem V12_v69 : V12 m outs c main_v69 = outs 12 main_v69 c := by
  simp only [V12, Function.update_self]

theorem V1_v1 : V1 m c main_v1 = srcIdx (V0 m c main_arg2) :=
  ops0_v1 (V0 m c)

theorem V1_v3 : V1 m c main_v3 = dstIdx (V0 m c main_arg2) :=
  ops0_v3 (V0 m c)

theorem V1_v10 : V1 m c main_v10 = gatherRows (V0 m c main_arg0) (srcIdx (V0 m c main_arg2)) :=
  ops0_v10 (V0 m c)

theorem V1_v11 : V1 m c main_v11 = wTop (V0 m c main_arg4) :=
  ops0_v11 (V0 m c)

theorem V1_v12 : V1 m c main_v12 = wBot (V0 m c main_arg4) :=
  ops0_v12 (V0 m c)

theorem V1_v13 : V1 m c main_v13 = row (V0 m c main_arg5) :=
  ops0_v13 (V0 m c)

theorem V1_v14 : V1 m c main_v14 = row (V0 m c main_arg7) :=
  ops0_v14 (V0 m c)

theorem V1_v15 : V1 m c main_v15 = row (V0 m c main_arg9) :=
  ops0_v15 (V0 m c)

theorem V1_arg1 : V1 m c main_arg1 = V0 m c main_arg1 :=
  (V1_of m c main_arg1 (by decide))

theorem V2_v3 : V2 m outs c main_v3 = dstIdx (V0 m c main_arg2) :=
  ((V2_of m outs c main_v3 (by decide))).trans (V1_v3 m c)

theorem V3_v16 : V3 m outs c main_v16 = outs 2 main_v16 c :=
  ((V3_of m outs c main_v16 (by decide))).trans (V2_v16 m outs c)

theorem V3_v26 : V3 m outs c main_v26 = gatherRows (segSum (dstIdx (V0 m c main_arg2)) (outs 2 main_v16 c)) (dstIdx (V0 m c main_arg2)) := by
  refine (ops1_v26 (V2 m outs c)).trans ?_
  rw [V2_v3, V2_v16]

theorem V3_arg6 : V3 m outs c main_arg6 = V0 m c main_arg6 :=
  (((V3_of m outs c main_arg6 (by decide)).trans (V2_of m outs c main_arg6 (by decide))).trans (V1_of m c main_arg6 (by decide)))

theorem V3_v14 : V3 m outs c main_v14 = row (V0 m c main_arg7) :=
  (((V3_of m outs c main_v14 (by decide)).trans (V2_of m outs c main_v14 (by decide)))).trans (V1_v14 m c)

theorem V3_arg8 : V3 m outs c main_arg8 = V0 m c main_arg8 :=
  (((V3_of m outs c main_arg8 (by decide)).trans (V2_of m outs c main_arg8 (by decide))).trans (V1_of m c main_arg8 (by decide)))

theorem V3_v15 : V3 m outs c main_v15 = row (V0 m c main_arg9) :=
  (((V3_of m outs c main_v15 (by decide)).trans (V2_of m outs c main_v15 (by decide)))).trans (V1_v15 m c)

theorem V4_v3 : V4 m outs c main_v3 = dstIdx (V0 m c main_arg2) :=
  ((((V4_of m outs c main_v3 (by decide)).trans (V3_of m outs c main_v3 (by decide))).trans (V2_of m outs c main_v3 (by decide)))).trans (V1_v3 m c)

theorem V5_v16 : V5 m outs c main_v16 = outs 2 main_v16 c :=
  ((((V5_of m outs c main_v16 (by decide)).trans (V4_of m outs c main_v16 (by decide))).trans (V3_of m outs c main_v16 (by decide)))).trans (V2_v16 m outs c)

theorem V5_v27 : V5 m outs c main_v27 = outs 4 main_v27 c :=
  ((V5_of m outs c main_v27 (by decide))).trans (V4_v27 m outs c)

theorem V5_v37 : V5 m outs c main_v37 = gatherRows (segSum (dstIdx (V0 m c main_arg2)) (outs 4 main_v27 c)) (dstIdx (V0 m c main_arg2)) := by
  refine (ops2_v37 (V4 m outs c)).trans ?_
  rw [V4_v3, V4_v27]

theorem V5_arg6 : V5 m outs c main_arg6 = V0 m c main_arg6 :=
  (((((V5_of m outs c main_arg6 (by decide)).trans (V4_of m outs c main_arg6 (by decide))).trans (V3_of m outs c main_arg6 (by decide))).trans (V2_of m outs c main_arg6 (by decide))).trans (V1_of m c main_arg6 (by decide)))

theorem V5_v14 : V5 m outs c main_v14 = row (V0 m c main_arg7) :=
  (((((V5_of m outs c main_v14 (by decide)).trans (V4_of m outs c main_v14 (by decide))).trans (V3_of m outs c main_v14 (by decide))).trans (V2_of m outs c main_v14 (by decide)))).trans (V1_v14 m c)

theorem V5_arg8 : V5 m outs c main_arg8 = V0 m c main_arg8 :=
  (((((V5_of m outs c main_arg8 (by decide)).trans (V4_of m outs c main_arg8 (by decide))).trans (V3_of m outs c main_arg8 (by decide))).trans (V2_of m outs c main_arg8 (by decide))).trans (V1_of m c main_arg8 (by decide)))

theorem V5_v15 : V5 m outs c main_v15 = row (V0 m c main_arg9) :=
  (((((V5_of m outs c main_v15 (by decide)).trans (V4_of m outs c main_v15 (by decide))).trans (V3_of m outs c main_v15 (by decide))).trans (V2_of m outs c main_v15 (by decide)))).trans (V1_v15 m c)

theorem V6_v3 : V6 m outs c main_v3 = dstIdx (V0 m c main_arg2) :=
  ((((((V6_of m outs c main_v3 (by decide)).trans (V5_of m outs c main_v3 (by decide))).trans (V4_of m outs c main_v3 (by decide))).trans (V3_of m outs c main_v3 (by decide))).trans (V2_of m outs c main_v3 (by decide)))).trans (V1_v3 m c)

theorem V7_v16 : V7 m outs c main_v16 = outs 2 main_v16 c :=
  ((((((V7_of m outs c main_v16 (by decide)).trans (V6_of m outs c main_v16 (by decide))).trans (V5_of m outs c main_v16 (by decide))).trans (V4_of m outs c main_v16 (by decide))).trans (V3_of m outs c main_v16 (by decide)))).trans (V2_v16 m outs c)

theorem V7_v38 : V7 m outs c main_v38 = outs 6 main_v38 c :=
  ((V7_of m outs c main_v38 (by decide))).trans (V6_v38 m outs c)

theorem V7_v48 : V7 m outs c main_v48 = gatherRows (segSum (dstIdx (V0 m c main_arg2)) (outs 6 main_v38 c)) (dstIdx (V0 m c main_arg2)) := by
  refine (ops3_v48 (V6 m outs c)).trans ?_
  rw [V6_v3, V6_v38]

theorem V7_arg6 : V7 m outs c main_arg6 = V0 m c main_arg6 :=
  (((((((V7_of m outs c main_arg6 (by decide)).trans (V6_of m outs c main_arg6 (by decide))).trans (V5_of m outs c main_arg6 (by decide))).trans (V4_of m outs c main_arg6 (by decide))).trans (V3_of m outs c main_arg6 (by decide))).trans (V2_of m outs c main_arg6 (by decide))).trans (V1_of m c main_arg6 (by decide)))

theorem V7_v14 : V7 m outs c main_v14 = row (V0 m c main_arg7) :=
  (((((((V7_of m outs c main_v14 (by decide)).trans (V6_of m outs c main_v14 (by decide))).trans (V5_of m outs c main_v14 (by decide))).trans (V4_of m outs c main_v14 (by decide))).trans (V3_of m outs c main_v14 (by decide))).trans (V2_of m outs c main_v14 (by decide)))).trans (V1_v14 m c)

theorem V7_arg8 : V7 m outs c main_arg8 = V0 m c main_arg8 :=
  (((((((V7_of m outs c main_arg8 (by decide)).trans (V6_of m outs c main_arg8 (by decide))).trans (V5_of m outs c main_arg8 (by decide))).trans (V4_of m outs c main_arg8 (by decide))).trans (V3_of m outs c main_arg8 (by decide))).trans (V2_of m outs c main_arg8 (by decide))).trans (V1_of m c main_arg8 (by decide)))

theorem V7_v15 : V7 m outs c main_v15 = row (V0 m c main_arg9) :=
  (((((((V7_of m outs c main_v15 (by decide)).trans (V6_of m outs c main_v15 (by decide))).trans (V5_of m outs c main_v15 (by decide))).trans (V4_of m outs c main_v15 (by decide))).trans (V3_of m outs c main_v15 (by decide))).trans (V2_of m outs c main_v15 (by decide)))).trans (V1_v15 m c)

theorem V8_v3 : V8 m outs c main_v3 = dstIdx (V0 m c main_arg2) :=
  ((((((((V8_of m outs c main_v3 (by decide)).trans (V7_of m outs c main_v3 (by decide))).trans (V6_of m outs c main_v3 (by decide))).trans (V5_of m outs c main_v3 (by decide))).trans (V4_of m outs c main_v3 (by decide))).trans (V3_of m outs c main_v3 (by decide))).trans (V2_of m outs c main_v3 (by decide)))).trans (V1_v3 m c)

theorem V9_v16 : V9 m outs c main_v16 = outs 2 main_v16 c :=
  ((((((((V9_of m outs c main_v16 (by decide)).trans (V8_of m outs c main_v16 (by decide))).trans (V7_of m outs c main_v16 (by decide))).trans (V6_of m outs c main_v16 (by decide))).trans (V5_of m outs c main_v16 (by decide))).trans (V4_of m outs c main_v16 (by decide))).trans (V3_of m outs c main_v16 (by decide)))).trans (V2_v16 m outs c)

theorem V9_v49 : V9 m outs c main_v49 = outs 8 main_v49 c :=
  ((V9_of m outs c main_v49 (by decide))).trans (V8_v49 m outs c)

theorem V9_v59 : V9 m outs c main_v59 = gatherRows (segSum (dstIdx (V0 m c main_arg2)) (outs 8 main_v49 c)) (dstIdx (V0 m c main_arg2)) := by
  refine (ops4_v59 (V8 m outs c)).trans ?_
  rw [V8_v3, V8_v49]

theorem V9_arg6 : V9 m outs c main_arg6 = V0 m c main_arg6 :=
  (((((((((V9_of m outs c main_arg6 (by decide)).trans (V8_of m outs c main_arg6 (by decide))).trans (V7_of m outs c main_arg6 (by decide))).trans (V6_of m outs c main_arg6 (by decide))).trans (V5_of m outs c main_arg6 (by decide))).trans (V4_of m outs c main_arg6 (by decide))).trans (V3_of m outs c main_arg6 (by decide))).trans (V2_of m outs c main_arg6 (by decide))).trans (V1_of m c main_arg6 (by decide)))

theorem V9_v14 : V9 m outs c main_v14 = row (V0 m c main_arg7) :=
  (((((((((V9_of m outs c main_v14 (by decide)).trans (V8_of m outs c main_v14 (by decide))).trans (V7_of m outs c main_v14 (by decide))).trans (V6_of m outs c main_v14 (by decide))).trans (V5_of m outs c main_v14 (by decide))).trans (V4_of m outs c main_v14 (by decide))).trans (V3_of m outs c main_v14 (by decide))).trans (V2_of m outs c main_v14 (by decide)))).trans (V1_v14 m c)

theorem V9_arg8 : V9 m outs c main_arg8 = V0 m c main_arg8 :=
  (((((((((V9_of m outs c main_arg8 (by decide)).trans (V8_of m outs c main_arg8 (by decide))).trans (V7_of m outs c main_arg8 (by decide))).trans (V6_of m outs c main_arg8 (by decide))).trans (V5_of m outs c main_arg8 (by decide))).trans (V4_of m outs c main_arg8 (by decide))).trans (V3_of m outs c main_arg8 (by decide))).trans (V2_of m outs c main_arg8 (by decide))).trans (V1_of m c main_arg8 (by decide)))

theorem V9_v15 : V9 m outs c main_v15 = row (V0 m c main_arg9) :=
  (((((((((V9_of m outs c main_v15 (by decide)).trans (V8_of m outs c main_v15 (by decide))).trans (V7_of m outs c main_v15 (by decide))).trans (V6_of m outs c main_v15 (by decide))).trans (V5_of m outs c main_v15 (by decide))).trans (V4_of m outs c main_v15 (by decide))).trans (V3_of m outs c main_v15 (by decide))).trans (V2_of m outs c main_v15 (by decide)))).trans (V1_v15 m c)

theorem V11_arg0 : V11 m outs c main_arg0 = V0 m c main_arg0 :=
  (((((((((((V11_of m outs c main_arg0 (by decide)).trans (V10_of m outs c main_arg0 (by decide))).trans (V9_of m outs c main_arg0 (by decide))).trans (V8_of m outs c main_arg0 (by decide))).trans (V7_of m outs c main_arg0 (by decide))).trans (V6_of m outs c main_arg0 (by decide))).trans (V5_of m outs c main_arg0 (by decide))).trans (V4_of m outs c main_arg0 (by decide))).trans (V3_of m outs c main_arg0 (by decide))).trans (V2_of m outs c main_arg0 (by decide))).trans (V1_of m c main_arg0 (by decide)))

theorem V10_v1 : V10 m outs c main_v1 = srcIdx (V0 m c main_arg2) :=
  ((((((((((V10_of m outs c main_v1 (by decide)).trans (V9_of m outs c main_v1 (by decide))).trans (V8_of m outs c main_v1 (by decide))).trans (V7_of m outs c main_v1 (by decide))).trans (V6_of m outs c main_v1 (by decide))).trans (V5_of m outs c main_v1 (by decide))).trans (V4_of m outs c main_v1 (by decide))).trans (V3_of m outs c main_v1 (by decide))).trans (V2_of m outs c main_v1 (by decide)))).trans (V1_v1 m c)

theorem V10_arg10 : V10 m outs c main_arg10 = V0 m c main_arg10 :=
  ((((((((((V10_of m outs c main_arg10 (by decide)).trans (V9_of m outs c main_arg10 (by decide))).trans (V8_of m outs c main_arg10 (by decide))).trans (V7_of m outs c main_arg10 (by decide))).trans (V6_of m outs c main_arg10 (by decide))).trans (V5_of m outs c main_arg10 (by decide))).trans (V4_of m outs c main_arg10 (by decide))).trans (V3_of m outs c main_arg10 (by decide))).trans (V2_of m outs c main_arg10 (by decide))).trans (V1_of m c main_arg10 (by decide)))

theorem V10_arg11 : V10 m outs c main_arg11 = V0 m c main_arg11 :=
  ((((((((((V10_of m outs c main_arg11 (by decide)).trans (V9_of m outs c main_arg11 (by decide))).trans (V8_of m outs c main_arg11 (by decide))).trans (V7_of m outs c main_arg11 (by decide))).trans (V6_of m outs c main_arg11 (by decide))).trans (V5_of m outs c main_arg11 (by decide))).trans (V4_of m outs c main_arg11 (by decide))).trans (V3_of m outs c main_arg11 (by decide))).trans (V2_of m outs c main_arg11 (by decide))).trans (V1_of m c main_arg11 (by decide)))

theorem V10_arg12 : V10 m outs c main_arg12 = V0 m c main_arg12 :=
  ((((((((((V10_of m outs c main_arg12 (by decide)).trans (V9_of m outs c main_arg12 (by decide))).trans (V8_of m outs c main_arg12 (by decide))).trans (V7_of m outs c main_arg12 (by decide))).trans (V6_of m outs c main_arg12 (by decide))).trans (V5_of m outs c main_arg12 (by decide))).trans (V4_of m outs c main_arg12 (by decide))).trans (V3_of m outs c main_arg12 (by decide))).trans (V2_of m outs c main_arg12 (by decide))).trans (V1_of m c main_arg12 (by decide)))

theorem V10_arg13 : V10 m outs c main_arg13 = V0 m c main_arg13 :=
  ((((((((((V10_of m outs c main_arg13 (by decide)).trans (V9_of m outs c main_arg13 (by decide))).trans (V8_of m outs c main_arg13 (by decide))).trans (V7_of m outs c main_arg13 (by decide))).trans (V6_of m outs c main_arg13 (by decide))).trans (V5_of m outs c main_arg13 (by decide))).trans (V4_of m outs c main_arg13 (by decide))).trans (V3_of m outs c main_arg13 (by decide))).trans (V2_of m outs c main_arg13 (by decide))).trans (V1_of m c main_arg13 (by decide)))

theorem V11_v63 : V11 m outs c main_v63 = segSum (srcIdx (V0 m c main_arg2)) (outs 10 main_v60 c) := by
  refine (ops5_v63 (V10 m outs c)).trans ?_
  rw [V10_v1, V10_v60]

theorem V11_v64 : V11 m outs c main_v64 = wfTop (V0 m c main_arg10) := by
  refine (ops5_v64 (V10 m outs c)).trans ?_
  rw [V10_arg10]

theorem V11_v65 : V11 m outs c main_v65 = wfBot (V0 m c main_arg10) := by
  refine (ops5_v65 (V10 m outs c)).trans ?_
  rw [V10_arg10]

theorem V11_v66 : V11 m outs c main_v66 = row (V0 m c main_arg11) := by
  refine (ops5_v66 (V10 m outs c)).trans ?_
  rw [V10_arg11]

theorem V11_v67 : V11 m outs c main_v67 = row (V0 m c main_arg12) := by
  refine (ops5_v67 (V10 m outs c)).trans ?_
  rw [V10_arg12]

theorem V11_v68 : V11 m outs c main_v68 = row (V0 m c main_arg13) := by
  refine (ops5_v68 (V10 m outs c)).trans ?_
  rw [V10_arg13]

theorem V12_arg3 : V12 m outs c main_arg3 = V0 m c main_arg3 :=
  ((((((((((((V12_of m outs c main_arg3 (by decide)).trans (V11_of m outs c main_arg3 (by decide))).trans (V10_of m outs c main_arg3 (by decide))).trans (V9_of m outs c main_arg3 (by decide))).trans (V8_of m outs c main_arg3 (by decide))).trans (V7_of m outs c main_arg3 (by decide))).trans (V6_of m outs c main_arg3 (by decide))).trans (V5_of m outs c main_arg3 (by decide))).trans (V4_of m outs c main_arg3 (by decide))).trans (V3_of m outs c main_arg3 (by decide))).trans (V2_of m outs c main_arg3 (by decide))).trans (V1_of m c main_arg3 (by decide)))

theorem V12_arg14 : V12 m outs c main_arg14 = V0 m c main_arg14 :=
  ((((((((((((V12_of m outs c main_arg14 (by decide)).trans (V11_of m outs c main_arg14 (by decide))).trans (V10_of m outs c main_arg14 (by decide))).trans (V9_of m outs c main_arg14 (by decide))).trans (V8_of m outs c main_arg14 (by decide))).trans (V7_of m outs c main_arg14 (by decide))).trans (V6_of m outs c main_arg14 (by decide))).trans (V5_of m outs c main_arg14 (by decide))).trans (V4_of m outs c main_arg14 (by decide))).trans (V3_of m outs c main_arg14 (by decide))).trans (V2_of m outs c main_arg14 (by decide))).trans (V1_of m c main_arg14 (by decide)))

theorem V13_v82 : V13 m outs c main_v82 = pool (outs 12 main_v69 c) (V0 m c main_arg3) (V0 m c main_arg14) := by
  refine (ops6_v82 (V12 m outs c)).trans ?_
  rw [V12_v69, V12_arg3, V12_arg14]

end Cert.KernelIdeal.KValue

end
-- ==== Proof.KValue.lean ====
/-
  The kernel's program's result buffer as one function of the argument arrays.

  Between its items the program's buffers hold: after the first stretch of host operations, the gathered source
  rows, the cut weight matrices and the biases as rows; after each kernel region, that region's output array; after
  each later stretch, the node sums of the last messages gathered back along the edges. GIVEN that each region leaves
  in its output array the specification's function of the arrays its windows stage (one hypothesis per region), the
  result buffer at the end is `kernelTerm` of the arguments: every hypothesis is rewritten at the boundary's contents,
  innermost region last, and what is left is the definition of `kernelTerm`.
-/
import proofs.«120260_j56453050139301_2_alg».proof.Proof.KValueTable

noncomputable section

namespace Cert.KernelIdeal.KValue
open Idealize.ShloMosaic Idealize.ShloMosaic.TcCoe Cert.KernelIdeal Cert.KernelIdeal.Gen Cert.KernelIdeal.Chain Cert.KernelIdeal.Prep

variable (m : (ℓ : Loc nD τ sig) → Buf (Elt Ideal) ℓ) (outs : Outs (F := Ideal)) (c : Dev nD)

theorem result_eq
    (h0 : outs 2 main_v16 c = Cert.Spec.edgeInit (V1 m c main_v10) (V1 m c main_arg1) (V1 m c main_v11) (V1 m c main_v12) (V1 m c main_v13))
    (h1 : outs 4 main_v27 c = Cert.Spec.step (V3 m outs c main_v16) (V3 m outs c main_v16) (V3 m outs c main_v26) (V3 m outs c main_arg6) (V3 m outs c main_v14) (V3 m outs c main_arg8) (V3 m outs c main_v15))
    (h2 : outs 6 main_v38 c = Cert.Spec.step (V5 m outs c main_v16) (V5 m outs c main_v27) (V5 m outs c main_v37) (V5 m outs c main_arg6) (V5 m outs c main_v14) (V5 m outs c main_arg8) (V5 m outs c main_v15))
    (h3 : outs 8 main_v49 c = Cert.Spec.step (V7 m outs c main_v16) (V7 m outs c main_v38) (V7 m outs c main_v48) (V7 m outs c main_arg6) (V7 m outs c main_v14) (V7 m outs c main_arg8) (V7 m outs c main_v15))
    (h4 : outs 10 main_v60 c = Cert.Spec.step (V9 m outs c main_v16) (V9 m outs c main_v49) (V9 m outs c main_v59) (V9 m outs c main_arg6) (V9 m outs c main_v14) (V9 m outs c main_arg8) (V9 m outs c main_v15))
    (h5 : outs 12 main_v69 c = Cert.Spec.final (V11 m outs c main_arg0) (V11 m outs c main_v63) (V11 m outs c main_v64) (V11 m outs c main_v65) (V11 m outs c main_v66) (V11 m outs c main_v67) (V11 m outs c main_v68)) :
    V13 m outs c main_v82 = Cert.Bridge.kernelTerm (V0 m c main_arg0) (V0 m c main_arg1) (V0 m c main_arg2) (V0 m c main_arg3)
      (V0 m c main_arg4) (V0 m c main_arg5) (V0 m c main_arg6) (V0 m c main_arg7) (V0 m c main_arg8) (V0 m c main_arg9)
      (V0 m c main_arg10) (V0 m c main_arg11) (V0 m c main_arg12) (V0 m c main_arg13) (V0 m c main_arg14) := by
  rw [V13_v82, h5, V11_arg0, V11_v63, V11_v64, V11_v65, V11_v66, V11_v67, V11_v68,
    h4, V9_v16, V9_v49, V9_v59, V9_arg6, V9_v14, V9_arg8, V9_v15,
    h3, V7_v16, V7_v38, V7_v48, V7_arg6, V7_v14, V7_arg8, V7_v15,
    h2, V5_v16, V5_v27, V5_v37, V5_arg6, V5_v14, V5_arg8, V5_v15,
    h1, V3_v16, V3_v26, V3_arg6, V3_v14, V3_arg8, V3_v15,
    h0, V1_v10, V1_arg1, V1_v11, V1_v12, V1_v13]
  rfl

end Cert.KernelIdeal.KValue

end
-- ==== Proof.KI.RunTerm.lean ====
/-
  The kernel's program, run from any launch memory, ends with its result buffer holding `kernelTerm` of the argument
  arrays, every argument array as launched.

  The run with its value says the result buffer ends at the last boundary's contents, written over what each region
  leaves in its output array. Each region leaves there the write-backs of its output window folded over the grid, and
  that fold is the specification's function (the initial edge message, a message-passing step, the normalised node
  update) of the arrays the region's windows stage as the region finds them. With these six facts the last boundary's
  contents at the result buffer are `kernelTerm` of the launch contents of the arguments.
-/
import proofs.«120260_j56453050139301_2_alg».proof.Proof.KI.Frame
import proofs.«120260_j56453050139301_2_alg».proof.Proof.KI.Value0
import proofs.«120260_j56453050139301_2_alg».proof.Proof.KI.Value1
import proofs.«120260_j56453050139301_2_alg».proof.Proof.KI.Value2
import proofs.«120260_j56453050139301_2_alg».proof.Proof.KI.Value3
import proofs.«120260_j56453050139301_2_alg».proof.Proof.KI.Value4
import proofs.«120260_j56453050139301_2_alg».proof.Proof.KI.Value5
import proofs.«120260_j56453050139301_2_alg».proof.Proof.KValue

noncomputable section

namespace Cert.KernelIdeal.HandValue

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-! ## What each region leaves in its output array -/

/-- Region 0 leaves the initial edge message of the arrays it is entered at. -/
theorem left0 (c : Dev nD) : outs m 2 main_v16 c
    = Cert.Spec.edgeInit (V1 m c main_v10) (V1 m c main_arg1) (V1 m c main_v11) (V1 m c main_v12) (V1 m c main_v13) :=
  (outs_2_eq m c).trans (arr0 (fun c b => V1 m c b) c)

/-- Region 1 leaves one message-passing step, the edge's own message being the initial one. -/
theorem left1 (c : Dev nD) : outs m 4 main_v27 c
    = Cert.Spec.step (V3 m (outs m) c main_v16) (V3 m (outs m) c main_v16) (V3 m (outs m) c main_v26) (V3 m (outs m) c main_arg6)
        (V3 m (outs m) c main_v14) (V3 m (outs m) c main_arg8) (V3 m (outs m) c main_v15) :=
  (outs_4_eq m c).trans (arr1 (fun c b => V3 m (outs m) c b) c)

/-- Region 2 leaves the second step. -/
theorem left2 (c : Dev nD) : outs m 6 main_v38 c
    = Cert.Spec.step (V5 m (outs m) c main_v16) (V5 m (outs m) c main_v27) (V5 m (outs m) c main_v37) (V5 m (outs m) c main_arg6)
        (V5 m (outs m) c main_v14) (V5 m (outs m) c main_arg8) (V5 m (outs m) c main_v15) :=
  (outs_6_eq m c).trans (arr2 (fun c b => V5 m (outs m) c b) c)

/-- Region 3 leaves the third step. -/
theorem left3 (c : Dev nD) : outs m 8 main_v49 c
    = Cert.Spec.step (V7 m (outs m) c main_v16) (V7 m (outs m) c main_v38) (V7 m (outs m) c main_v48) (V7 m (outs m) c main_arg6)
        (V7 m (outs m) c main_v14) (V7 m (outs m) c main_arg8) (V7 m (outs m) c main_v15) :=
  (outs_8_eq m c).trans (arr3 (fun c b => V7 m (outs m) c b) c)

/-- Region 4 leaves the fourth step. -/
theorem left4 (c : Dev nD) : outs m 10 main_v60 c
    = Cert.Spec.step (V9 m (outs m) c main_v16) (V9 m (outs m) c main_v49) (V9 m (outs m) c main_v59) (V9 m (outs m) c main_arg6)
        (V9 m (outs m) c main_v14) (V9 m (outs m) c main_arg8) (V9 m (outs m) c main_v15) :=
  (outs_10_eq m c).trans (arr4 (fun c b => V9 m (outs m) c b) c)

/-- Region 5 leaves the normalised node update. -/
theorem left5 (c : Dev nD) : outs m 12 main_v69 c
    = Cert.Spec.final (V11 m (outs m) c main_arg0) (V11 m (outs m) c main_v63) (V11 m (outs m) c main_v64) (V11 m (outs m) c main_v65)
        (V11 m (outs m) c main_v66) (V11 m (outs m) c main_v67) (V11 m (outs m) c main_v68) :=
  (outs_12_eq m c).trans (arr5 (fun c b => V11 m (outs m) c b) c)

/-! ## The run -/

/-- The result buffer at the last boundary is `kernelTerm` of the arguments' launch contents. -/
theorem last_eq (c : Dev nD) : V13 m (outs m) c main_v82
    = Cert.Bridge.kernelTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  KValue.result_eq m (outs m) c (left0 m c) (left1 m c) (left2 m c) (left3 m c) (left4 m c) (left5 m c)

/-- Every weakly fair execution of the program from memory `m` with zero counters terminates, the result buffer holding
    `kernelTerm` of the arguments as launched and every argument array as launched. -/
theorem run_term : θ_run defs (onTc (τ := τ) (main (F := Ideal))) ⟨m, fun _ => 0, ρ⟩ (fun r => ∀ c : Dev nD,
      r.2.mem ((c.tc : Thread nD τ).loc main_v82) = Cert.Bridge.kernelTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (last_eq m c), (h c).2⟩) (run_value m ρ)

end Cert.KernelIdeal.HandValue

end
-- ==== Proof.RefRun.Ops.lean ====
/- The reference program's @main as lists of its host operations, one list per window of the printed program,
   in program order. A call of a module-local function is not an operation of its own: the function's operations
   stand at the call site, over the buffers the call's record names (the record's fields for the values of the
   function's body, the caller's buffers for its parameters), which is what unfolding the call gives. -/
import proofs.«120260_j56453050139301_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of @main, in program order; a called function's operations stand at its call, over the call's buffers. -/
abbrev ops0 : List (HloOp τ sig (Elt F)) :=
  [ StableHlo.unary main_arg2 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg2 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_v1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v6 (broadcastInDim S1000000 ![] bcast_S_S1000000 : (⟨S_, .i32⟩ : BufTy).Contents (Elt F) → (⟨S1000000, .i32⟩ : BufTy).Contents (Elt F)),
    StableHlo.binary main_v1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v10 main_arg1 main_v11 ((fun a b => concatenate S1000000x80 1 [⟨S1000000x64, a⟩, ⟨S1000000x16, b⟩] concatenates_S1000000x64_S1000000x16_S1000000x80_d1) : (⟨S1000000x64, .f32⟩ : BufTy).Contents (Elt F) → (⟨S1000000x16, .f32⟩ : BufTy).Contents (Elt F) → (⟨S1000000x80, .f32⟩ : BufTy).Contents (Elt F)),
    StableHlo.binary main_v11 main_arg4 main_v12 ((fun l r => Host.dotGeneral dot_S1000000x80_S80x64_S1000000x64_1_0_0_1_n_n none l r) : (⟨S1000000x80, .f32⟩ : BufTy).Contents (Elt F) → (⟨S80x64, .f32⟩ : BufTy).Contents (Elt F) → (⟨S1000000x64, .f32⟩ : BufTy).Contents (Elt F)),
    StableHlo.unary main_arg5 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S1000000x64 ![0, 1] bcast_S1x64_S1000000x64_0_1 : (⟨S1x64, .f32⟩ : BufTy).Contents (Elt F) → (⟨S1000000x64, .f32⟩ : BufTy).Contents (Elt F)),
    StableHlo.binary main_v12 main_v14 main_v15 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call0.cst (constant S_ .f32 0x00000000#32),
    StableHlo.TRef.unary main_call0.cst main_call0.v0 (broadcastInDim S1000000x64 ![] bcast_S_S1000000x64),
    StableHlo.TRef.binary (StableHlo.TRef.of (T := ⟨S1000000x64, .f32⟩) main_v15) main_call0.v0 main_call0.v1 maximumf,
    StableHlo.nullary main_cst (constant S_ .f32 0x00000000#32),
    StableHlo.unary main_cst main_v17 (broadcastInDim S100000x64 ![] bcast_S_S100000x64 : (⟨S_, .f32⟩ : BufTy).Contents (Elt F) → (⟨S100000x64, .f32⟩ : BufTy).Contents (Elt F)),
    StableHlo.unary main_v3 main_v18 (broadcastInDim S1000000x1 ![0] bcast_S1000000_S1000000x1_0 : (⟨S1000000, .i32⟩ : BufTy).Contents (Elt F) → (⟨S1000000x1, .i32⟩ : BufTy).Contents (Elt F)),
    StableHlo.ternary main_v17 main_v18 main_v16 main_v19 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_c_1 (constantI S_ 32 0#32),
    StableHlo.unary main_c_1 main_v20 (broadcastInDim S1000000 ![] bcast_S_S1000000 : (⟨S_, .i32⟩ : BufTy).Contents (Elt F) → (⟨S1000000, .i32⟩ : BufTy).Contents (Elt F)),
    StableHlo.binary main_v3 main_v20 main_v21 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 100000#32),
    StableHlo.unary main_c_2 main_v22 (broadcastInDim S1000000 ![] bcast_S_S1000000 : (⟨S_, .i32⟩ : BufTy).Contents (Elt F) → (⟨S1000000, .i32⟩ : BufTy).Contents (Elt F)),
    StableHlo.binary main_v3 main_v22 main_v23 (addi : (⟨S1000000, .i32⟩ : BufTy).Contents (Elt F) → (⟨S1000000, .i32⟩ : BufTy).Contents (Elt F) → (⟨S1000000, .i32⟩ : BufTy).Contents (Elt F)),
    StableHlo.ternary main_v21 main_v23 main_v3 main_v24 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v24 main_v25 (broadcastInDim S1000000x1 ![0] bcast_S1000000_S1000000x1_0 : (⟨S1000000, .i32⟩ : BufTy).Contents (Elt F) → (⟨S1000000x1, .i32⟩ : BufTy).Contents (Elt F)),
    StableHlo.binary main_v19 main_v25 main_v26 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v26 main_v16 main_v27 (subf : (⟨S1000000x64, .f32⟩ : BufTy).Contents (Elt F) → (⟨S1000000x64, .f32⟩ : BufTy).Contents (Elt F) → (⟨S1000000x64, .f32⟩ : BufTy).Contents (Elt F)),
    StableHlo.binary main_v27 main_arg6 main_v28 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S1000000x64 ![0, 1] bcast_S1x64_S1000000x64_0_1 : (⟨S1x64, .f32⟩ : BufTy).Contents (Elt F) → (⟨S1000000x64, .f32⟩ : BufTy).Contents (Elt F)),
    StableHlo.binary main_v28 main_v30 main_v31 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call1.cst (constant S_ .f32 0x00000000#32),
    StableHlo.TRef.unary main_call1.cst main_call1.v0 (broadcastInDim S1000000x64 ![] bcast_S_S1000000x64),
    StableHlo.TRef.binary (StableHlo.TRef.of (T := ⟨S1000000x64, .f32⟩) main_v31) main_call1.v0 main_call1.v1 maximumf,
    StableHlo.binary main_v32 main_arg8 main_v33 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.binary main_v16 main_v33 main_v34 (addf : (⟨S1000000x64, .f32⟩ : BufTy).Contents (Elt F) → (⟨S1000000x64, .f32⟩ : BufTy).Contents (Elt F) → (⟨S1000000x64, .f32⟩ : BufTy).Contents (Elt F)),
    StableHlo.unary main_arg9 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S1000000x64 ![0, 1] bcast_S1x64_S1000000x64_0_1 : (⟨S1x64, .f32⟩ : BufTy).Contents (Elt F) → (⟨S1000000x64, .f32⟩ : BufTy).Contents (Elt F)),
    StableHlo.binary main_v34 main_v36 main_v37 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call2.cst (constant S_ .f32 0x00000000#32),
    StableHlo.TRef.unary main_call2.cst main_call2.v0 (broadcastInDim S1000000x64 ![] bcast_S_S1000000x64),
    StableHlo.TRef.binary (StableHlo.TRef.of (T := ⟨S1000000x64, .f32⟩) main_v37) main_call2.v0 main_call2.v1 maximumf,
    StableHlo.nullary main_cst_3 (constant S_ .f32 0x00000000#32),
    StableHlo.unary main_cst_3 main_v39 (broadcastInDim S100000x64 ![] bcast_S_S100000x64 : (⟨S_, .f32⟩ : BufTy).Contents (Elt F) → (⟨S100000x64, .f32⟩ : BufTy).Contents (Elt F)),
    StableHlo.unary main_v3 main_v40 (broadcastInDim S1000000x1 ![0] bcast_S1000000_S1000000x1_0 : (⟨S1000000, .i32⟩ : BufTy).Contents (Elt F) → (⟨S1000000x1, .i32⟩ : BufTy).Contents (Elt F)),
    StableHlo.ternary main_v39 main_v40 main_v38 main_v41 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_c_4 (constantI S_ 32 0#32),
    StableHlo.unary main_c_4 main_v42 (broadcastInDim S1000000 ![] bcast_S_S1000000 : (⟨S_, .i32⟩ : BufTy).Contents (Elt F) → (⟨S1000000, .i32⟩ : BufTy).Contents (Elt F)),
    StableHlo.binary main_v3 main_v42 main_v43 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 100000#32),
    StableHlo.unary main_c_5 main_v44 (broadcastInDim S1000000 ![] bcast_S_S1000000 : (⟨S_, .i32⟩ : BufTy).Contents (Elt F) → (⟨S1000000, .i32⟩ : BufTy).Contents (Elt F)),
    StableHlo.binary main_v3 main_v44 main_v45 (addi : (⟨S1000000, .i32⟩ : BufTy).Contents (Elt F) → (⟨S1000000, .i32⟩ : BufTy).Contents (Elt F) → (⟨S1000000, .i32⟩ : BufTy).Contents (Elt F)),
    StableHlo.ternary main_v43 main_v45 main_v3 main_v46 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v46 main_v47 (broadcastInDim S1000000x1 ![0] bcast_S1000000_S1000000x1_0 : (⟨S1000000, .i32⟩ : BufTy).Contents (Elt F) → (⟨S1000000x1, .i32⟩ : BufTy).Contents (Elt F)),
    StableHlo.binary main_v41 main_v47 main_v48 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v48 main_v38 main_v49 (subf : (⟨S1000000x64, .f32⟩ : BufTy).Contents (Elt F) → (⟨S1000000x64, .f32⟩ : BufTy).Contents (Elt F) → (⟨S1000000x64, .f32⟩ : BufTy).Contents (Elt F)),
    StableHlo.binary main_v49 main_arg6 main_v50 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v51 (broadcastInDim S1x64 ![1] bcast_S64_S1x64_1 : (⟨S64, .f32⟩ : BufTy).Contents (Elt F) → (⟨S1x64, .f32⟩ : BufTy).Contents (Elt F)) ]

/-- The buffers window 0 writes: one per operation, its result. -/
abbrev ops0_W : List (Ref sig .tc) :=
  [main_v0, main_v1, main_v2, main_v3, main_c, main_v4, main_v5, main_c_0, main_v6, main_v7, main_v8, main_v9, main_v10, main_v11, main_v12, main_v13, main_v14, main_v15, main_call0_cst, main_call0_v0, main_v16, main_cst, main_v17, main_v18, main_v19, main_c_1, main_v20, main_v21, main_c_2, main_v22, main_v23, main_v24, main_v25, main_v26, main_v27, main_v28, main_v29, main_v30, main_v31, main_call1_cst, main_call1_v0, main_v32, main_v33, main_v34, main_v35, main_v36, main_v37, main_call2_cst, main_call2_v0, main_v38, main_cst_3, main_v39, main_v40, main_v41, main_c_4, main_v42, main_v43, main_c_5, main_v44, main_v45, main_v46, main_v47, main_v48, main_v49, main_v50, main_v51]

/-- The operations of window 1 of @main, in program order; a called function's operations stand at its call, over the call's buffers. -/
abbrev ops1 : List (HloOp τ sig (Elt F)) :=
  [ StableHlo.unary main_v51 main_v52 (broadcastInDim S1000000x64 ![0, 1] bcast_S1x64_S1000000x64_0_1 : (⟨S1x64, .f32⟩ : BufTy).Contents (Elt F) → (⟨S1000000x64, .f32⟩ : BufTy).Contents (Elt F)),
    StableHlo.binary main_v50 main_v52 main_v53 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call3.cst (constant S_ .f32 0x00000000#32),
    StableHlo.TRef.unary main_call3.cst main_call3.v0 (broadcastInDim S1000000x64 ![] bcast_S_S1000000x64),
    StableHlo.TRef.binary (StableHlo.TRef.of (T := ⟨S1000000x64, .f32⟩) main_v53) main_call3.v0 main_call3.v1 maximumf,
    StableHlo.binary main_v54 main_arg8 main_v55 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.binary main_v16 main_v55 main_v56 (addf : (⟨S1000000x64, .f32⟩ : BufTy).Contents (Elt F) → (⟨S1000000x64, .f32⟩ : BufTy).Contents (Elt F) → (⟨S1000000x64, .f32⟩ : BufTy).Contents (Elt F)),
    StableHlo.unary main_arg9 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S1000000x64 ![0, 1] bcast_S1x64_S1000000x64_0_1 : (⟨S1x64, .f32⟩ : BufTy).Contents (Elt F) → (⟨S1000000x64, .f32⟩ : BufTy).Contents (Elt F)),
    StableHlo.binary main_v56 main_v58 main_v59 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call4.cst (constant S_ .f32 0x00000000#32),
    StableHlo.TRef.unary main_call4.cst main_call4.v0 (broadcastInDim S1000000x64 ![] bcast_S_S1000000x64),
    StableHlo.TRef.binary (StableHlo.TRef.of (T := ⟨S1000000x64, .f32⟩) main_v59) main_call4.v0 main_call4.v1 maximumf,
    StableHlo.nullary main_cst_6 (constant S_ .f32 0x00000000#32),
    StableHlo.unary main_cst_6 main_v61 (broadcastInDim S100000x64 ![] bcast_S_S100000x64 : (⟨S_, .f32⟩ : BufTy).Contents (Elt F) → (⟨S100000x64, .f32⟩ : BufTy).Contents (Elt F)),
    StableHlo.unary main_v3 main_v62 (broadcastInDim S1000000x1 ![0] bcast_S1000000_S1000000x1_0 : (⟨S1000000, .i32⟩ : BufTy).Contents (Elt F) → (⟨S1000000x1, .i32⟩ : BufTy).Contents (Elt F)),
    StableHlo.ternary main_v61 main_v62 main_v60 main_v63 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_c_7 (constantI S_ 32 0#32),
    StableHlo.unary main_c_7 main_v64 (broadcastInDim S1000000 ![] bcast_S_S1000000 : (⟨S_, .i32⟩ : BufTy).Contents (Elt F) → (⟨S1000000, .i32⟩ : BufTy).Contents (Elt F)),
    StableHlo.binary main_v3 main_v64 main_v65 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 100000#32),
    StableHlo.unary main_c_8 main_v66 (broadcastInDim S1000000 ![] bcast_S_S1000000 : (⟨S_, .i32⟩ : BufTy).Contents (Elt F) → (⟨S1000000, .i32⟩ : BufTy).Contents (Elt F)),
    StableHlo.binary main_v3 main_v66 main_v67 (addi : (⟨S1000000, .i32⟩ : BufTy).Contents (Elt F) → (⟨S1000000, .i32⟩ : BufTy).Contents (Elt F) → (⟨S1000000, .i32⟩ : BufTy).Contents (Elt F)),
    StableHlo.ternary main_v65 main_v67 main_v3 main_v68 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v68 main_v69 (broadcastInDim S1000000x1 ![0] bcast_S1000000_S1000000x1_0 : (⟨S1000000, .i32⟩ : BufTy).Contents (Elt F) → (⟨S1000000x1, .i32⟩ : BufTy).Contents (Elt F)),
    StableHlo.binary main_v63 main_v69 main_v70 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v70 main_v60 main_v71 (subf : (⟨S1000000x64, .f32⟩ : BufTy).Contents (Elt F) → (⟨S1000000x64, .f32⟩ : BufTy).Contents (Elt F) → (⟨S1000000x64, .f32⟩ : BufTy).Contents (Elt F)),
    StableHlo.binary main_v71 main_arg6 main_v72 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S1000000x64 ![0, 1] bcast_S1x64_S1000000x64_0_1 : (⟨S1x64, .f32⟩ : BufTy).Contents (Elt F) → (⟨S1000000x64, .f32⟩ : BufTy).Contents (Elt F)),
    StableHlo.binary main_v72 main_v74 main_v75 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call5.cst (constant S_ .f32 0x00000000#32),
    StableHlo.TRef.unary main_call5.cst main_call5.v0 (broadcastInDim S1000000x64 ![] bcast_S_S1000000x64),
    StableHlo.TRef.binary (StableHlo.TRef.of (T := ⟨S1000000x64, .f32⟩) main_v75) main_call5.v0 main_call5.v1 maximumf,
    StableHlo.binary main_v76 main_arg8 main_v77 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.binary main_v16 main_v77 main_v78 (addf : (⟨S1000000x64, .f32⟩ : BufTy).Contents (Elt F) → (⟨S1000000x64, .f32⟩ : BufTy).Contents (Elt F) → (⟨S1000000x64, .f32⟩ : BufTy).Contents (Elt F)),
    StableHlo.unary main_arg9 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S1000000x64 ![0, 1] bcast_S1x64_S1000000x64_0_1 : (⟨S1x64, .f32⟩ : BufTy).Contents (Elt F) → (⟨S1000000x64, .f32⟩ : BufTy).Contents (Elt F)),
    StableHlo.binary main_v78 main_v80 main_v81 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call6.cst (constant S_ .f32 0x00000000#32),
    StableHlo.TRef.unary main_call6.cst main_call6.v0 (broadcastInDim S1000000x64 ![] bcast_S_S1000000x64),
    StableHlo.TRef.binary (StableHlo.TRef.of (T := ⟨S1000000x64, .f32⟩) main_v81) main_call6.v0 main_call6.v1 maximumf,
    StableHlo.nullary main_cst_9 (constant S_ .f32 0x00000000#32),
    StableHlo.unary main_cst_9 main_v83 (broadcastInDim S100000x64 ![] bcast_S_S100000x64 : (⟨S_, .f32⟩ : BufTy).Contents (Elt F) → (⟨S100000x64, .f32⟩ : BufTy).Contents (Elt F)),
    StableHlo.unary main_v3 main_v84 (broadcastInDim S1000000x1 ![0] bcast_S1000000_S1000000x1_0 : (⟨S1000000, .i32⟩ : BufTy).Contents (Elt F) → (⟨S1000000x1, .i32⟩ : BufTy).Contents (Elt F)),
    StableHlo.ternary main_v83 main_v84 main_v82 main_v85 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_c_10 (constantI S_ 32 0#32),
    StableHlo.unary main_c_10 main_v86 (broadcastInDim S1000000 ![] bcast_S_S1000000 : (⟨S_, .i32⟩ : BufTy).Contents (Elt F) → (⟨S1000000, .i32⟩ : BufTy).Contents (Elt F)),
    StableHlo.binary main_v3 main_v86 main_v87 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 100000#32),
    StableHlo.unary main_c_11 main_v88 (broadcastInDim S1000000 ![] bcast_S_S1000000 : (⟨S_, .i32⟩ : BufTy).Contents (Elt F) → (⟨S1000000, .i32⟩ : BufTy).Contents (Elt F)),
    StableHlo.binary main_v3 main_v88 main_v89 (addi : (⟨S1000000, .i32⟩ : BufTy).Contents (Elt F) → (⟨S1000000, .i32⟩ : BufTy).Contents (Elt F) → (⟨S1000000, .i32⟩ : BufTy).Contents (Elt F)),
    StableHlo.ternary main_v87 main_v89 main_v3 main_v90 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v90 main_v91 (broadcastInDim S1000000x1 ![0] bcast_S1000000_S1000000x1_0 : (⟨S1000000, .i32⟩ : BufTy).Contents (Elt F) → (⟨S1000000x1, .i32⟩ : BufTy).Contents (Elt F)),
    StableHlo.binary main_v85 main_v91 main_v92 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v92 main_v82 main_v93 (subf : (⟨S1000000x64, .f32⟩ : BufTy).Contents (Elt F) → (⟨S1000000x64, .f32⟩ : BufTy).Contents (Elt F) → (⟨S1000000x64, .f32⟩ : BufTy).Contents (Elt F)),
    StableHlo.binary main_v93 main_arg6 main_v94 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S1000000x64 ![0, 1] bcast_S1x64_S1000000x64_0_1 : (⟨S1x64, .f32⟩ : BufTy).Contents (Elt F) → (⟨S1000000x64, .f32⟩ : BufTy).Contents (Elt F)),
    StableHlo.binary main_v94 main_v96 main_v97 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call7.cst (constant S_ .f32 0x00000000#32),
    StableHlo.TRef.unary main_call7.cst main_call7.v0 (broadcastInDim S1000000x64 ![] bcast_S_S1000000x64),
    StableHlo.TRef.binary (StableHlo.TRef.of (T := ⟨S1000000x64, .f32⟩) main_v97) main_call7.v0 main_call7.v1 maximumf,
    StableHlo.binary main_v98 main_arg8 main_v99 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.binary main_v16 main_v99 main_v100 (addf : (⟨S1000000x64, .f32⟩ : BufTy).Contents (Elt F) → (⟨S1000000x64, .f32⟩ : BufTy).Contents (Elt F) → (⟨S1000000x64, .f32⟩ : BufTy).Contents (Elt F)),
    StableHlo.unary main_arg9 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S1000000x64 ![0, 1] bcast_S1x64_S1000000x64_0_1 : (⟨S1x64, .f32⟩ : BufTy).Contents (Elt F) → (⟨S1000000x64, .f32⟩ : BufTy).Contents (Elt F)),
    StableHlo.binary main_v100 main_v102 main_v103 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call8.cst (constant S_ .f32 0x00000000#32),
    StableHlo.TRef.unary main_call8.cst main_call8.v0 (broadcastInDim S1000000x64 ![] bcast_S_S1000000x64),
    StableHlo.TRef.binary (StableHlo.TRef.of (T := ⟨S1000000x64, .f32⟩) main_v103) main_call8.v0 main_call8.v1 maximumf,
    StableHlo.nullary main_cst_12 (constant S_ .f32 0x00000000#32) ]

/-- The buffers window 1 writes: one per operation, its result. -/
abbrev ops1_W : List (Ref sig .tc) :=
  [main_v52, main_v53, main_call3_cst, main_call3_v0, main_v54, main_v55, main_v56, main_v57, main_v58, main_v59, main_call4_cst, main_call4_v0, main_v60, main_cst_6, main_v61, main_v62, main_v63, main_c_7, main_v64, main_v65, main_c_8, main_v66, main_v67, main_v68, main_v69, main_v70, main_v71, main_v72, main_v73, main_v74, main_v75, main_call5_cst, main_call5_v0, main_v76, main_v77, main_v78, main_v79, main_v80, main_v81, main_call6_cst, main_call6_v0, main_v82, main_cst_9, main_v83, main_v84, main_v85, main_c_10, main_v86, main_v87, main_c_11, main_v88, main_v89, main_v90, main_v91, main_v92, main_v93, main_v94, main_v95, main_v96, main_v97, main_call7_cst, main_call7_v0, main_v98, main_v99, main_v100, main_v101, main_v102, main_v103, main_call8_cst, main_call8_v0, main_v104, main_cst_12]

/-- The operations of window 2 of @main, in program order; a called function's operations stand at its call, over the call's buffers. -/
abbrev ops2 : List (HloOp τ sig (Elt F)) :=
  [ StableHlo.unary main_cst_12 main_v105 (broadcastInDim S100000x64 ![] bcast_S_S100000x64 : (⟨S_, .f32⟩ : BufTy).Contents (Elt F) → (⟨S100000x64, .f32⟩ : BufTy).Contents (Elt F)),
    StableHlo.unary main_v1 main_v106 (broadcastInDim S1000000x1 ![0] bcast_S1000000_S1000000x1_0 : (⟨S1000000, .i32⟩ : BufTy).Contents (Elt F) → (⟨S1000000x1, .i32⟩ : BufTy).Contents (Elt F)),
    StableHlo.ternary main_v105 main_v106 main_v104 main_v107 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_arg0 main_v107 main_v108 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v108 main_arg10 main_v109 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg11 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S100000x64 ![0, 1] bcast_S1x64_S100000x64_0_1 : (⟨S1x64, .f32⟩ : BufTy).Contents (Elt F) → (⟨S100000x64, .f32⟩ : BufTy).Contents (Elt F)),
    StableHlo.binary main_v109 main_v111 main_v112 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (StableHlo.TRef.of (T := ⟨S100000x64, .f32⟩) main_v112) main_call9.v0 main_call9.v1 maximumf,
    StableHlo.nullary main_cst_13 (constant S_ .f32 0x00000000#32),
    StableHlo.binary main_v113 main_cst_13 main_v114 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v114 main_v115 (broadcastInDim S100000x1 ![0] bcast_S100000_S100000x1_0 : (⟨S100000, .f32⟩ : BufTy).Contents (Elt F) → (⟨S100000x1, .f32⟩ : BufTy).Contents (Elt F)),
    StableHlo.nullary main_cst_14 (constant S_ .f32 0x42800000#32),
    StableHlo.unary main_cst_14 main_v116 (broadcastInDim S100000x1 ![] bcast_S_S100000x1 : (⟨S_, .f32⟩ : BufTy).Contents (Elt F) → (⟨S100000x1, .f32⟩ : BufTy).Contents (Elt F)),
    StableHlo.binary main_v115 main_v116 main_v117 (Host.divf : (⟨S100000x1, .f32⟩ : BufTy).Contents (Elt F) → (⟨S100000x1, .f32⟩ : BufTy).Contents (Elt F) → (⟨S100000x1, .f32⟩ : BufTy).Contents (Elt F)),
    StableHlo.nullary main_c_15 (constantI S_ 32 0#32),
    StableHlo.TRef.nullary main_call10.cst (constant S_ .f32 0x00000000#32),
    StableHlo.TRef.binary (StableHlo.TRef.of (T := ⟨S100000x64, .f32⟩) main_v113) main_call10.cst main_call10.v0 (fun x v => Host.reduceAdd x v reducesTo_S100000x64_S100000_d1 h_S_),
    StableHlo.TRef.unary main_call10.v0 main_call10.v1 (broadcastInDim S100000x1 ![0] bcast_S100000_S100000x1_0),
    StableHlo.TRef.nullary main_call10.cst_0 (constant S_ .f32 0x42800000#32),
    StableHlo.TRef.unary main_call10.cst_0 main_call10.v2 (broadcastInDim S100000x1 ![] bcast_S_S100000x1),
    StableHlo.TRef.binary main_call10.v1 main_call10.v2 main_call10.v3 Host.divf,
    StableHlo.TRef.unary main_call10.v3 main_call10.v4 (broadcastInDim S100000x64 ![0, 1] bcast_S100000x1_S100000x64_0_1),
    StableHlo.TRef.binary (StableHlo.TRef.of (T := ⟨S100000x64, .f32⟩) main_v113) main_call10.v4 main_call10.v5 subf,
    StableHlo.TRef.binary main_call10.v5 main_call10.v5 main_call10.v6 mulf,
    StableHlo.TRef.unary (StableHlo.TRef.of (T := ⟨S_, .i32⟩) main_c_15) main_call10.v7 (sitofp .f32),
    StableHlo.TRef.nullary main_call10.cst_1 (constant S_ .f32 0x42800000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S100000_d1 h_S_),
    StableHlo.TRef.unary main_call10.v9 main_call10.v10 (broadcastInDim S100000x1 ![0] bcast_S100000_S100000x1_0),
    StableHlo.TRef.unary main_call10.v8 main_call10.v11 (broadcastInDim S100000x1 ![] bcast_S_S100000x1),
    StableHlo.TRef.binary main_call10.v10 main_call10.v11 main_call10.v12 Host.divf,
    StableHlo.TRef.nullary main_call10.cst_3 (constant S_ .f32 0x00000000#32),
    StableHlo.TRef.binary main_call10.v8 main_call10.cst_3 main_call10.v13 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S100000x1 ![] bcast_S_S100000x1),
    StableHlo.TRef.ternary main_call10.v13 main_call10.v12 main_call10.call0.v1 main_call10.call0.v2 (fun p a b => select (broadcastInDim S100000x1 ![] bcast_S_S100000x1 p) a b),
    StableHlo.unary main_v117 main_v119 (broadcastInDim S100000x64 ![0, 1] bcast_S100000x1_S100000x64_0_1 : (⟨S100000x1, .f32⟩ : BufTy).Contents (Elt F) → (⟨S100000x64, .f32⟩ : BufTy).Contents (Elt F)),
    StableHlo.binary main_v113 main_v119 main_v120 (subf : (⟨S100000x64, .f32⟩ : BufTy).Contents (Elt F) → (⟨S100000x64, .f32⟩ : BufTy).Contents (Elt F) → (⟨S100000x64, .f32⟩ : BufTy).Contents (Elt F)),
    StableHlo.nullary main_cst_16 (constant S_ .f32 0x3727C5AC#32),
    StableHlo.unary main_cst_16 main_v121 (broadcastInDim S100000x1 ![] bcast_S_S100000x1 : (⟨S_, .f32⟩ : BufTy).Contents (Elt F) → (⟨S100000x1, .f32⟩ : BufTy).Contents (Elt F)),
    StableHlo.binary main_v118 main_v121 main_v122 (addf : (⟨S100000x1, .f32⟩ : BufTy).Contents (Elt F) → (⟨S100000x1, .f32⟩ : BufTy).Contents (Elt F) → (⟨S100000x1, .f32⟩ : BufTy).Contents (Elt F)),
    StableHlo.unary main_v122 main_v123 (Host.rsqrt : (⟨S100000x1, .f32⟩ : BufTy).Contents (Elt F) → (⟨S100000x1, .f32⟩ : BufTy).Contents (Elt F)),
    StableHlo.unary main_v123 main_v124 (broadcastInDim S100000x64 ![0, 1] bcast_S100000x1_S100000x64_0_1 : (⟨S100000x1, .f32⟩ : BufTy).Contents (Elt F) → (⟨S100000x64, .f32⟩ : BufTy).Contents (Elt F)),
    StableHlo.binary main_v120 main_v124 main_v125 (mulf : (⟨S100000x64, .f32⟩ : BufTy).Contents (Elt F) → (⟨S100000x64, .f32⟩ : BufTy).Contents (Elt F) → (⟨S100000x64, .f32⟩ : BufTy).Contents (Elt F)),
    StableHlo.unary main_arg12 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S100000x64 ![0, 1] bcast_S1x64_S100000x64_0_1 : (⟨S1x64, .f32⟩ : BufTy).Contents (Elt F) → (⟨S100000x64, .f32⟩ : BufTy).Contents (Elt F)),
    StableHlo.binary main_v125 main_v127 main_v128 (mulf : (⟨S100000x64, .f32⟩ : BufTy).Contents (Elt F) → (⟨S100000x64, .f32⟩ : BufTy).Contents (Elt F) → (⟨S100000x64, .f32⟩ : BufTy).Contents (Elt F)),
    StableHlo.unary main_arg13 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S100000x64 ![0, 1] bcast_S1x64_S100000x64_0_1 : (⟨S1x64, .f32⟩ : BufTy).Contents (Elt F) → (⟨S100000x64, .f32⟩ : BufTy).Contents (Elt F)),
    StableHlo.binary main_v128 main_v130 main_v131 (addf : (⟨S100000x64, .f32⟩ : BufTy).Contents (Elt F) → (⟨S100000x64, .f32⟩ : BufTy).Contents (Elt F) → (⟨S100000x64, .f32⟩ : BufTy).Contents (Elt F)),
    StableHlo.TRef.nullary main_call11.cst (constant S_ .f32 0x00000000#32),
    StableHlo.TRef.unary main_call11.cst main_call11.v0 (broadcastInDim S100000x64 ![] bcast_S_S100000x64),
    StableHlo.TRef.binary (StableHlo.TRef.of (T := ⟨S100000x64, .f32⟩) main_v131) main_call11.v0 main_call11.v1 maximumf,
    StableHlo.nullary main_cst_17 (constant S_ .f32 0x00000000#32),
    StableHlo.unary main_cst_17 main_v133 (broadcastInDim S1024x64 ![] bcast_S_S1024x64 : (⟨S_, .f32⟩ : BufTy).Contents (Elt F) → (⟨S1024x64, .f32⟩ : BufTy).Contents (Elt F)),
    StableHlo.unary main_arg3 main_v134 (broadcastInDim S100000x1 ![0] bcast_S100000_S100000x1_0 : (⟨S100000, .i32⟩ : BufTy).Contents (Elt F) → (⟨S100000x1, .i32⟩ : BufTy).Contents (Elt F)),
    StableHlo.ternary main_v133 main_v134 main_v132 main_v135 ((fun x i u => Host.scatterAdd scatter_S1024x64_S100000x1_S100000x64_1_0_0_1 x i u) : (⟨S1024x64, .f32⟩ : BufTy).Contents (Elt F) → (⟨S100000x1, .i32⟩ : BufTy).Contents (Elt F) → (⟨S100000x64, .f32⟩ : BufTy).Contents (Elt F) → (⟨S1024x64, .f32⟩ : BufTy).Contents (Elt F)),
    StableHlo.nullary main_cst_18 (constant S_ .f32 0x3F800000#32),
    StableHlo.unary main_cst_18 main_v136 (broadcastInDim S100000 ![] bcast_S_S100000 : (⟨S_, .f32⟩ : BufTy).Contents (Elt F) → (⟨S100000, .f32⟩ : BufTy).Contents (Elt F)),
    StableHlo.nullary main_cst_19 (constant S_ .f32 0x00000000#32),
    StableHlo.unary main_cst_19 main_v137 (broadcastInDim S1024 ![] bcast_S_S1024 : (⟨S_, .f32⟩ : BufTy).Contents (Elt F) → (⟨S1024, .f32⟩ : BufTy).Contents (Elt F)),
    StableHlo.unary main_arg3 main_v138 (broadcastInDim S100000x1 ![0] bcast_S100000_S100000x1_0 : (⟨S100000, .i32⟩ : BufTy).Contents (Elt F) → (⟨S100000x1, .i32⟩ : BufTy).Contents (Elt F)),
    StableHlo.ternary main_v137 main_v138 main_v136 main_v139 ((fun x i u => Host.scatterAdd scatter_S1024_S100000x1_S100000_n_0_0_1 x i u) : (⟨S1024, .f32⟩ : BufTy).Contents (Elt F) → (⟨S100000x1, .i32⟩ : BufTy).Contents (Elt F) → (⟨S100000, .f32⟩ : BufTy).Contents (Elt F) → (⟨S1024, .f32⟩ : BufTy).Contents (Elt F)),
    StableHlo.nullary main_cst_20 (constant S_ .f32 0x3F800000#32),
    StableHlo.unary main_cst_20 main_v140 (broadcastInDim S1024 ![] bcast_S_S1024 : (⟨S_, .f32⟩ : BufTy).Contents (Elt F) → (⟨S1024, .f32⟩ : BufTy).Contents (Elt F)),
    StableHlo.binary main_v139 main_v140 main_v141 (maximumf : (⟨S1024, .f32⟩ : BufTy).Contents (Elt F) → (⟨S1024, .f32⟩ : BufTy).Contents (Elt F) → (⟨S1024, .f32⟩ : BufTy).Contents (Elt F)),
    StableHlo.unary main_v141 main_v142 (broadcastInDim S1024x1 ![0] bcast_S1024_S1024x1_0 : (⟨S1024, .f32⟩ : BufTy).Contents (Elt F) → (⟨S1024x1, .f32⟩ : BufTy).Contents (Elt F)),
    StableHlo.unary main_v142 main_v143 (broadcastInDim S1024x64 ![0, 1] bcast_S1024x1_S1024x64_0_1 : (⟨S1024x1, .f32⟩ : BufTy).Contents (Elt F) → (⟨S1024x64, .f32⟩ : BufTy).Contents (Elt F)),
    StableHlo.binary main_v135 main_v143 main_v144 (Host.divf : (⟨S1024x64, .f32⟩ : BufTy).Contents (Elt F) → (⟨S1024x64, .f32⟩ : BufTy).Contents (Elt F) → (⟨S1024x64, .f32⟩ : BufTy).Contents (Elt F)),
    StableHlo.binary main_v144 main_arg14 main_v145 ((fun l r => Host.dotGeneral dot_S1024x64_S64x8_S1024x8_1_0_0_1_n_n none l r) : (⟨S1024x64, .f32⟩ : BufTy).Contents (Elt F) → (⟨S64x8, .f32⟩ : BufTy).Contents (Elt F) → (⟨S1024x8, .f32⟩ : BufTy).Contents (Elt F)) ]

/-- The buffers window 2 writes: one per operation, its result. -/
abbrev ops2_W : List (Ref sig .tc) :=
  [main_v105, main_v106, main_v107, main_v108, main_v109, main_v110, main_v111, main_v112, main_call9_cst, main_call9_v0, main_v113, main_cst_13, main_v114, main_v115, main_cst_14, main_v116, main_v117, main_c_15, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_v12, main_call10_cst_3, main_call10_v13, main_call10_cst_4, main_call10_call0_v0, main_call10_call0_v1, main_v118, main_v119, main_v120, main_cst_16, main_v121, main_v122, main_v123, main_v124, main_v125, main_v126, main_v127, main_v128, main_v129, main_v130, main_v131, main_call11_cst, main_call11_v0, main_v132, main_cst_17, main_v133, main_v134, main_v135, main_cst_18, main_v136, main_cst_19, main_v137, main_v138, main_v139, main_cst_20, main_v140, main_v141, main_v142, main_v143, main_v144, main_v145]

/-- @main's operations, in program order: the three windows one after the other. -/
abbrev ops : List (HloOp τ sig (Elt F)) := ops0 ++ (ops1 ++ ops2)

end Cert.ReferenceIdeal.RefRun

end
-- ==== Proof.RefRun.Eq.lean ====
/- @main is the straight line of its operations. Each window of the printed program is a chain of `hlo` steps; a call
   in it is the called function's body applied to the call's record, itself such a chain ending in `pure`, and binding
   a chain that ends in `pure` to a continuation computes to the longer chain. So each window equals `seq` of its
   list by unfolding alone, and @main, the windows run in order, equals `seq` of their concatenation (`seq_append`). -/
import proofs.«120260_j56453050139301_2_alg».proof.Proof.RefRun.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem main_part0_eq (c : Dev nD) : main_part0 (F := F) c = seq ops0 := rfl

set_option maxRecDepth 16384 in
set_option maxHeartbeats 4000000 in
theorem main_part1_eq (c : Dev nD) : main_part1 (F := F) c = seq ops1 := rfl

set_option maxRecDepth 16384 in
set_option maxHeartbeats 4000000 in
theorem main_part2_eq (c : Dev nD) : main_part2 (F := F) c = seq ops2 := rfl

set_option maxRecDepth 16384 in
/-- @main runs its three windows in order; the list is their concatenation. -/
theorem main_eq (c : Dev nD) : main (F := F) c = seq ops := by
  simp only [ops, seq_append, ← main_part0_eq c, ← main_part1_eq c, ← main_part2_eq c]
  rfl

end Cert.ReferenceIdeal.RefRun

end
-- ==== Proof.RefRun.Sub.lean ====
/- Side conditions of the run over the operation lists, one operation at a time. Every operation touches
   TensorCore buffers only; none leaves a result undetermined; and each writes exactly one buffer, its result, so a
   window writes the buffers of its result list and keeps every other buffer. No argument of @main is in a window's
   result list (a decision over the references), so the arguments pass through the whole line unchanged. -/
import proofs.«120260_j56453050139301_2_alg».proof.Proof.RefRun.Ops
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation whose written set is the one buffer `y`, with `y` in the list `W`, writes inside `W`. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

set_option maxRecDepth 16384 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..⟩

set_option maxRecDepth 16384 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

set_option maxRecDepth 16384 in
set_option maxHeartbeats 1000000 in
theorem ops0_writes : (ops0 : List (HloOp τ sig (Elt F))).Forall fun op =>
    op.writes ⊆ (ops0_W.map (Proc.devRef (τ := τ) .tc)).toFinset :=
  ⟨writes_sub_of_mem main_v0 rfl (by decide), writes_sub_of_mem main_v1 rfl (by decide), writes_sub_of_mem main_v2 rfl (by decide),
    writes_sub_of_mem main_v3 rfl (by decide), writes_sub_of_mem main_c rfl (by decide), writes_sub_of_mem main_v4 rfl (by decide),
    writes_sub_of_mem main_v5 rfl (by decide), writes_sub_of_mem main_c_0 rfl (by decide), writes_sub_of_mem main_v6 rfl (by decide),
    writes_sub_of_mem main_v7 rfl (by decide), writes_sub_of_mem main_v8 rfl (by decide), writes_sub_of_mem main_v9 rfl (by decide),
    writes_sub_of_mem main_v10 rfl (by decide), writes_sub_of_mem main_v11 rfl (by decide), writes_sub_of_mem main_v12 rfl (by decide),
    writes_sub_of_mem main_v13 rfl (by decide), writes_sub_of_mem main_v14 rfl (by decide), writes_sub_of_mem main_v15 rfl (by decide),
    writes_sub_of_mem main_call0_cst rfl (by decide), writes_sub_of_mem main_call0_v0 rfl (by decide), writes_sub_of_mem main_v16 rfl (by decide),
    writes_sub_of_mem main_cst rfl (by decide), writes_sub_of_mem main_v17 rfl (by decide), writes_sub_of_mem main_v18 rfl (by decide),
    writes_sub_of_mem main_v19 rfl (by decide), writes_sub_of_mem main_c_1 rfl (by decide), writes_sub_of_mem main_v20 rfl (by decide),
    writes_sub_of_mem main_v21 rfl (by decide), writes_sub_of_mem main_c_2 rfl (by decide), writes_sub_of_mem main_v22 rfl (by decide),
    writes_sub_of_mem main_v23 rfl (by decide), writes_sub_of_mem main_v24 rfl (by decide), writes_sub_of_mem main_v25 rfl (by decide),
    writes_sub_of_mem main_v26 rfl (by decide), writes_sub_of_mem main_v27 rfl (by decide), writes_sub_of_mem main_v28 rfl (by decide),
    writes_sub_of_mem main_v29 rfl (by decide), writes_sub_of_mem main_v30 rfl (by decide), writes_sub_of_mem main_v31 rfl (by decide),
    writes_sub_of_mem main_call1_cst rfl (by decide), writes_sub_of_mem main_call1_v0 rfl (by decide), writes_sub_of_mem main_v32 rfl (by decide),
    writes_sub_of_mem main_v33 rfl (by decide), writes_sub_of_mem main_v34 rfl (by decide), writes_sub_of_mem main_v35 rfl (by decide),
    writes_sub_of_mem main_v36 rfl (by decide), writes_sub_of_mem main_v37 rfl (by decide), writes_sub_of_mem main_call2_cst rfl (by decide),
    writes_sub_of_mem main_call2_v0 rfl (by decide), writes_sub_of_mem main_v38 rfl (by decide), writes_sub_of_mem main_cst_3 rfl (by decide),
    writes_sub_of_mem main_v39 rfl (by decide), writes_sub_of_mem main_v40 rfl (by decide), writes_sub_of_mem main_v41 rfl (by decide),
    writes_sub_of_mem main_c_4 rfl (by decide), writes_sub_of_mem main_v42 rfl (by decide), writes_sub_of_mem main_v43 rfl (by decide),
    writes_sub_of_mem main_c_5 rfl (by decide), writes_sub_of_mem main_v44 rfl (by decide), writes_sub_of_mem main_v45 rfl (by decide),
    writes_sub_of_mem main_v46 rfl (by decide), writes_sub_of_mem main_v47 rfl (by decide), writes_sub_of_mem main_v48 rfl (by decide),
    writes_sub_of_mem main_v49 rfl (by decide), writes_sub_of_mem main_v50 rfl (by decide), writes_sub_of_mem main_v51 rfl (by decide)⟩

set_option maxRecDepth 16384 in
theorem ops1_sub : (ops1 : List (HloOp τ sig (Elt F))).Forall fun op => op.bufs ⊆ tcRefs τ sig :=
  ⟨unary_bufs_sub .., binary_bufs_sub .., nullary_bufs_sub .., unary_bufs_sub .., binary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., binary_bufs_sub .., binary_bufs_sub .., unary_bufs_sub ..,
    unary_bufs_sub .., binary_bufs_sub .., nullary_bufs_sub .., unary_bufs_sub .., binary_bufs_sub .., nullary_bufs_sub ..⟩

set_option maxRecDepth 16384 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩

set_option maxRecDepth 16384 in
set_option maxHeartbeats 1000000 in
theorem ops1_writes : (ops1 : List (HloOp τ sig (Elt F))).Forall fun op =>
    op.writes ⊆ (ops1_W.map (Proc.devRef (τ := τ) .tc)).toFinset :=
  ⟨writes_sub_of_mem main_v52 rfl (by decide), writes_sub_of_mem main_v53 rfl (by decide), writes_sub_of_mem main_call3_cst rfl (by decide),
    writes_sub_of_mem main_call3_v0 rfl (by decide), writes_sub_of_mem main_v54 rfl (by decide), writes_sub_of_mem main_v55 rfl (by decide),
    writes_sub_of_mem main_v56 rfl (by decide), writes_sub_of_mem main_v57 rfl (by decide), writes_sub_of_mem main_v58 rfl (by decide),
    writes_sub_of_mem main_v59 rfl (by decide), writes_sub_of_mem main_call4_cst rfl (by decide), writes_sub_of_mem main_call4_v0 rfl (by decide),
    writes_sub_of_mem main_v60 rfl (by decide), writes_sub_of_mem main_cst_6 rfl (by decide), writes_sub_of_mem main_v61 rfl (by decide),
    writes_sub_of_mem main_v62 rfl (by decide), writes_sub_of_mem main_v63 rfl (by decide), writes_sub_of_mem main_c_7 rfl (by decide),
    writes_sub_of_mem main_v64 rfl (by decide), writes_sub_of_mem main_v65 rfl (by decide), writes_sub_of_mem main_c_8 rfl (by decide),
    writes_sub_of_mem main_v66 rfl (by decide), writes_sub_of_mem main_v67 rfl (by decide), writes_sub_of_mem main_v68 rfl (by decide),
    writes_sub_of_mem main_v69 rfl (by decide), writes_sub_of_mem main_v70 rfl (by decide), writes_sub_of_mem main_v71 rfl (by decide),
    writes_sub_of_mem main_v72 rfl (by decide), writes_sub_of_mem main_v73 rfl (by decide), writes_sub_of_mem main_v74 rfl (by decide),
    writes_sub_of_mem main_v75 rfl (by decide), writes_sub_of_mem main_call5_cst rfl (by decide), writes_sub_of_mem main_call5_v0 rfl (by decide),
    writes_sub_of_mem main_v76 rfl (by decide), writes_sub_of_mem main_v77 rfl (by decide), writes_sub_of_mem main_v78 rfl (by decide),
    writes_sub_of_mem main_v79 rfl (by decide), writes_sub_of_mem main_v80 rfl (by decide), writes_sub_of_mem main_v81 rfl (by decide),
    writes_sub_of_mem main_call6_cst rfl (by decide), writes_sub_of_mem main_call6_v0 rfl (by decide), writes_sub_of_mem main_v82 rfl (by decide),
    writes_sub_of_mem main_cst_9 rfl (by decide), writes_sub_of_mem main_v83 rfl (by decide), writes_sub_of_mem main_v84 rfl (by decide),
    writes_sub_of_mem main_v85 rfl (by decide), writes_sub_of_mem main_c_10 rfl (by decide), writes_sub_of_mem main_v86 rfl (by decide),
    writes_sub_of_mem main_v87 rfl (by decide), writes_sub_of_mem main_c_11 rfl (by decide), writes_sub_of_mem main_v88 rfl (by decide),
    writes_sub_of_mem main_v89 rfl (by decide), writes_sub_of_mem main_v90 rfl (by decide), writes_sub_of_mem main_v91 rfl (by decide),
    writes_sub_of_mem main_v92 rfl (by decide), writes_sub_of_mem main_v93 rfl (by decide), writes_sub_of_mem main_v94 rfl (by decide),
    writes_sub_of_mem main_v95 rfl (by decide), writes_sub_of_mem main_v96 rfl (by decide), writes_sub_of_mem main_v97 rfl (by decide),
    writes_sub_of_mem main_call7_cst rfl (by decide), writes_sub_of_mem main_call7_v0 rfl (by decide), writes_sub_of_mem main_v98 rfl (by decide),
    writes_sub_of_mem main_v99 rfl (by decide), writes_sub_of_mem main_v100 rfl (by decide), writes_sub_of_mem main_v101 rfl (by decide),
    writes_sub_of_mem main_v102 rfl (by decide), writes_sub_of_mem main_v103 rfl (by decide), writes_sub_of_mem main_call8_cst rfl (by decide),
    writes_sub_of_mem main_call8_v0 rfl (by decide), writes_sub_of_mem main_v104 rfl (by decide), writes_sub_of_mem main_cst_12 rfl (by decide)⟩

set_option maxRecDepth 16384 in
theorem ops2_sub : (ops2 : List (HloOp τ sig (Elt F))).Forall fun op => op.bufs ⊆ tcRefs τ sig :=
  ⟨unary_bufs_sub .., unary_bufs_sub .., ternary_bufs_sub .., binary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub ..⟩

set_option maxRecDepth 16384 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl⟩

set_option maxRecDepth 16384 in
set_option maxHeartbeats 1000000 in
theorem ops2_writes : (ops2 : List (HloOp τ sig (Elt F))).Forall fun op =>
    op.writes ⊆ (ops2_W.map (Proc.devRef (τ := τ) .tc)).toFinset :=
  ⟨writes_sub_of_mem main_v105 rfl (by decide), writes_sub_of_mem main_v106 rfl (by decide), writes_sub_of_mem main_v107 rfl (by decide),
    writes_sub_of_mem main_v108 rfl (by decide), writes_sub_of_mem main_v109 rfl (by decide), writes_sub_of_mem main_v110 rfl (by decide),
    writes_sub_of_mem main_v111 rfl (by decide), writes_sub_of_mem main_v112 rfl (by decide), writes_sub_of_mem main_call9_cst rfl (by decide),
    writes_sub_of_mem main_call9_v0 rfl (by decide), writes_sub_of_mem main_v113 rfl (by decide), writes_sub_of_mem main_cst_13 rfl (by decide),
    writes_sub_of_mem main_v114 rfl (by decide), writes_sub_of_mem main_v115 rfl (by decide), writes_sub_of_mem main_cst_14 rfl (by decide),
    writes_sub_of_mem main_v116 rfl (by decide), writes_sub_of_mem main_v117 rfl (by decide), writes_sub_of_mem main_c_15 rfl (by decide),
    writes_sub_of_mem main_call10_cst rfl (by decide), writes_sub_of_mem main_call10_v0 rfl (by decide), writes_sub_of_mem main_call10_v1 rfl (by decide),
    writes_sub_of_mem main_call10_cst_0 rfl (by decide), writes_sub_of_mem main_call10_v2 rfl (by decide), writes_sub_of_mem main_call10_v3 rfl (by decide),
    writes_sub_of_mem main_call10_v4 rfl (by decide), writes_sub_of_mem main_call10_v5 rfl (by decide), writes_sub_of_mem main_call10_v6 rfl (by decide),
    writes_sub_of_mem main_call10_v7 rfl (by decide), writes_sub_of_mem main_call10_cst_1 rfl (by decide), writes_sub_of_mem main_call10_v8 rfl (by decide),
    writes_sub_of_mem main_call10_cst_2 rfl (by decide), writes_sub_of_mem main_call10_v9 rfl (by decide), writes_sub_of_mem main_call10_v10 rfl (by decide),
    writes_sub_of_mem main_call10_v11 rfl (by decide), writes_sub_of_mem main_call10_v12 rfl (by decide), writes_sub_of_mem main_call10_cst_3 rfl (by decide),
    writes_sub_of_mem main_call10_v13 rfl (by decide), writes_sub_of_mem main_call10_cst_4 rfl (by decide), writes_sub_of_mem main_call10_call0_v0 rfl (by decide),
    writes_sub_of_mem main_call10_call0_v1 rfl (by decide), writes_sub_of_mem main_v118 rfl (by decide), writes_sub_of_mem main_v119 rfl (by decide),
    writes_sub_of_mem main_v120 rfl (by decide), writes_sub_of_mem main_cst_16 rfl (by decide), writes_sub_of_mem main_v121 rfl (by decide),
    writes_sub_of_mem main_v122 rfl (by decide), writes_sub_of_mem main_v123 rfl (by decide), writes_sub_of_mem main_v124 rfl (by decide),
    writes_sub_of_mem main_v125 rfl (by decide), writes_sub_of_mem main_v126 rfl (by decide), writes_sub_of_mem main_v127 rfl (by decide),
    writes_sub_of_mem main_v128 rfl (by decide), writes_sub_of_mem main_v129 rfl (by decide), writes_sub_of_mem main_v130 rfl (by decide),
    writes_sub_of_mem main_v131 rfl (by decide), writes_sub_of_mem main_call11_cst rfl (by decide), writes_sub_of_mem main_call11_v0 rfl (by decide),
    writes_sub_of_mem main_v132 rfl (by decide), writes_sub_of_mem main_cst_17 rfl (by decide), writes_sub_of_mem main_v133 rfl (by decide),
    writes_sub_of_mem main_v134 rfl (by decide), writes_sub_of_mem main_v135 rfl (by decide), writes_sub_of_mem main_cst_18 rfl (by decide),
    writes_sub_of_mem main_v136 rfl (by decide), writes_sub_of_mem main_cst_19 rfl (by decide), writes_sub_of_mem main_v137 rfl (by decide),
    writes_sub_of_mem main_v138 rfl (by decide), writes_sub_of_mem main_v139 rfl (by decide), writes_sub_of_mem main_cst_20 rfl (by decide),
    writes_sub_of_mem main_v140 rfl (by decide), writes_sub_of_mem main_v141 rfl (by decide), writes_sub_of_mem main_v142 rfl (by decide),
    writes_sub_of_mem main_v143 rfl (by decide), writes_sub_of_mem main_v144 rfl (by decide), writes_sub_of_mem main_v145 rfl (by decide)⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    · exact List.forall_iff_forall_mem.mp ops2_sub op h

theorem ops_fresh : ∀ op ∈ (ops : List (HloOp τ sig (Elt F))), op.fresh = ∅ := fun op h => by
  rcases List.mem_append.mp h with h | h
  · exact List.forall_iff_forall_mem.mp ops0_fresh op h
  rcases List.mem_append.mp h with h | h
  · exact List.forall_iff_forall_mem.mp ops1_fresh op h
  · exact List.forall_iff_forall_mem.mp ops2_fresh op h

/-- A buffer that no window writes holds after the whole line what it held before it. -/
theorem after_ops_keep (V : Valuation τ sig (Elt F)) (r : Ref sig .tc)
    (h0 : r ∉ ops0_W) (h1 : r ∉ ops1_W) (h2 : r ∉ ops2_W) :
    after ops V (Proc.devRef .tc r) = V (Proc.devRef .tc r) := by
  rw [show (ops : List (HloOp τ sig (Elt F))) = ops0 ++ (ops1 ++ ops2) from rfl, after_append, after_append,
    after_of_writes_sub ops2 _ ops2_writes h2, after_of_writes_sub ops1 _ ops1_writes h1,
    after_of_writes_sub ops0 _ ops0_writes h0]

end Cert.ReferenceIdeal.RefRun

end
-- ==== Proof.RefRun.lean ====
/- The reference program's run. @main is `seq ops` (`main_eq`), the signature scopes nothing and every operation stays on the
   TensorCore's buffers and determines its result, so the library's theorem on straight lines applies: from any memory
   with zero counters every weakly fair execution terminates without a fault, and each buffer ends at the fold of the
   operations' results over the launch contents (`after ops`). At the result buffer that is the statement; at an
   argument the fold is the launch contents, no operation writing an argument (`after_ops_keep`). The frame claim is the
   run with the result's conjunct dropped. -/
import proofs.«120260_j56453050139301_2_alg».proof.Proof.RefRun.Eq
import proofs.«120260_j56453050139301_2_alg».proof.Proof.RefRun.Sub
import proofs.«120260_j56453050139301_2_alg».proof.Defs
import proofs.«120260_j56453050139301_2_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result buffer at the operations' fold over the launch contents and every argument unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v145) = after ops (launchContents m c) (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨h c main_v145,
      (h c main_arg0).trans (after_ops_keep _ main_arg0 (by decide) (by decide) (by decide)),
      (h c main_arg1).trans (after_ops_keep _ main_arg1 (by decide) (by decide) (by decide)),
      (h c main_arg2).trans (after_ops_keep _ main_arg2 (by decide) (by decide) (by decide)),
      (h c main_arg3).trans (after_ops_keep _ main_arg3 (by decide) (by decide) (by decide)),
      (h c main_arg4).trans (after_ops_keep _ main_arg4 (by decide) (by decide) (by decide)),
      (h c main_arg5).trans (after_ops_keep _ main_arg5 (by decide) (by decide) (by decide)),
      (h c main_arg6).trans (after_ops_keep _ main_arg6 (by decide) (by decide) (by decide)),
      (h c main_arg7).trans (after_ops_keep _ main_arg7 (by decide) (by decide) (by decide)),
      (h c main_arg8).trans (after_ops_keep _ main_arg8 (by decide) (by decide) (by decide)),
      (h c main_arg9).trans (after_ops_keep _ main_arg9 (by decide) (by decide) (by decide)),
      (h c main_arg10).trans (after_ops_keep _ main_arg10 (by decide) (by decide) (by decide)),
      (h c main_arg11).trans (after_ops_keep _ main_arg11 (by decide) (by decide) (by decide)),
      (h c main_arg12).trans (after_ops_keep _ main_arg12 (by decide) (by decide) (by decide)),
      (h c main_arg13).trans (after_ops_keep _ main_arg13 (by decide) (by decide) (by decide)),
      (h c main_arg14).trans (after_ops_keep _ main_arg14 (by decide) (by decide) (by decide))⟩)
    (run_seq scopedRefs_eq scopedSems_eq defs main (fun _ => ops) main_eq (fun _ => ops_sub) m ρ (fun _ => ops_fresh))

/-- The reference runs and its arguments end unchanged: `run` at the ideal instance, the result's conjunct dropped. -/
theorem frame_ri : Cert.frame_ReferenceIdeal := fun m ρ _ =>
  (θ_run Cert.ReferenceIdeal.defs _ _).mono (fun _ h c => (h c).2) (run (F := Ideal) m ρ)

end Cert.ReferenceIdeal.RefRun

end
-- ==== Proof.RefRun.Segs.lean ====
/- @main's line cut in five parts — the first and the last window each cut once more, just before its
   concatenation — with a called function's operations written over the buffers themselves: at a literal buffer the
   conversion between a typed reference's contents and the buffer's is the identity, so these are the same operations
   as the windows' (the equations below hold by unfolding). For each part: what it writes, and that it keeps every
   buffer it does not write. -/
import proofs.«120260_j56453050139301_2_alg».proof.Proof.RefRun.Sub

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 1 of @main's operations. -/
abbrev seg1 : List (HloOp τ sig (Elt F)) :=
  [ StableHlo.unary main_v51 main_v52 (broadcastInDim S1000000x64 ![0, 1] bcast_S1x64_S1000000x64_0_1 : (⟨S1x64, .f32⟩ : BufTy).Contents (Elt F) → (⟨S1000000x64, .f32⟩ : BufTy).Contents (Elt F)),
    StableHlo.binary main_v50 main_v52 main_v53 (addf : (⟨S1000000x64, .f32⟩ : BufTy).Contents (Elt F) → (⟨S1000000x64, .f32⟩ : BufTy).Contents (Elt F) → (⟨S1000000x64, .f32⟩ : BufTy).Contents (Elt F)),
    StableHlo.nullary main_call3_cst (constant S_ .f32 0x00000000#32),
    StableHlo.unary main_call3_cst main_call3_v0 ((broadcastInDim S1000000x64 ![] bcast_S_S1000000x64) : (⟨S_, .f32⟩ : BufTy).Contents (Elt F) → (⟨S1000000x64, .f32⟩ : BufTy).Contents (Elt F)),
    StableHlo.binary main_v53 main_call3_v0 main_v54 (maximumf : (⟨S1000000x64, .f32⟩ : BufTy).Contents (Elt F) → (⟨S1000000x64, .f32⟩ : BufTy).Contents (Elt F) → (⟨S1000000x64, .f32⟩ : BufTy).Contents (Elt F)),
    StableHlo.binary main_v54 main_arg8 main_v55 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.binary main_v16 main_v55 main_v56 (addf : (⟨S1000000x64, .f32⟩ : BufTy).Contents (Elt F) → (⟨S1000000x64, .f32⟩ : BufTy).Contents (Elt F) → (⟨S1000000x64, .f32⟩ : BufTy).Contents (Elt F)),
    StableHlo.unary main_arg9 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S1000000x64 ![0, 1] bcast_S1x64_S1000000x64_0_1 : (⟨S1x64, .f32⟩ : BufTy).Contents (Elt F) → (⟨S1000000x64, .f32⟩ : BufTy).Contents (Elt F)),
    StableHlo.binary main_v56 main_v58 main_v59 (addf : (⟨S1000000x64, .f32⟩ : BufTy).Contents (Elt F) → (⟨S1000000x64, .f32⟩ : BufTy).Contents (Elt F) → (⟨S1000000x64, .f32⟩ : BufTy).Contents (Elt F)),
    StableHlo.nullary main_call4_cst (constant S_ .f32 0x00000000#32),
    StableHlo.unary main_call4_cst main_call4_v0 ((broadcastInDim S1000000x64 ![] bcast_S_S1000000x64) : (⟨S_, .f32⟩ : BufTy).Contents (Elt F) → (⟨S1000000x64, .f32⟩ : BufTy).Contents (Elt F)),
    StableHlo.binary main_v59 main_call4_v0 main_v60 (maximumf : (⟨S1000000x64, .f32⟩ : BufTy).Contents (Elt F) → (⟨S1000000x64, .f32⟩ : BufTy).Contents (Elt F) → (⟨S1000000x64, .f32⟩ : BufTy).Contents (Elt F)),
    StableHlo.nullary main_cst_6 (constant S_ .f32 0x00000000#32),
    StableHlo.unary main_cst_6 main_v61 (broadcastInDim S100000x64 ![] bcast_S_S100000x64 : (⟨S_, .f32⟩ : BufTy).Contents (Elt F) → (⟨S100000x64, .f32⟩ : BufTy).Contents (Elt F)),
    StableHlo.unary main_v3 main_v62 (broadcastInDim S1000000x1 ![0] bcast_S1000000_S1000000x1_0 : (⟨S1000000, .i32⟩ : BufTy).Contents (Elt F) → (⟨S1000000x1, .i32⟩ : BufTy).Contents (Elt F)),
    StableHlo.ternary main_v61 main_v62 main_v60 main_v63 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_c_7 (constantI S_ 32 0#32),
    StableHlo.unary main_c_7 main_v64 (broadcastInDim S1000000 ![] bcast_S_S1000000 : (⟨S_, .i32⟩ : BufTy).Contents (Elt F) → (⟨S1000000, .i32⟩ : BufTy).Contents (Elt F)),
    StableHlo.binary main_v3 main_v64 main_v65 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 100000#32),
    StableHlo.unary main_c_8 main_v66 (broadcastInDim S1000000 ![] bcast_S_S1000000 : (⟨S_, .i32⟩ : BufTy).Contents (Elt F) → (⟨S1000000, .i32⟩ : BufTy).Contents (Elt F)),
    StableHlo.binary main_v3 main_v66 main_v67 (addi : (⟨S1000000, .i32⟩ : BufTy).Contents (Elt F) → (⟨S1000000, .i32⟩ : BufTy).Contents (Elt F) → (⟨S1000000, .i32⟩ : BufTy).Contents (Elt F)),
    StableHlo.ternary main_v65 main_v67 main_v3 main_v68 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v68 main_v69 (broadcastInDim S1000000x1 ![0] bcast_S1000000_S1000000x1_0 : (⟨S1000000, .i32⟩ : BufTy).Contents (Elt F) → (⟨S1000000x1, .i32⟩ : BufTy).Contents (Elt F)),
    StableHlo.binary main_v63 main_v69 main_v70 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v70 main_v60 main_v71 (subf : (⟨S1000000x64, .f32⟩ : BufTy).Contents (Elt F) → (⟨S1000000x64, .f32⟩ : BufTy).Contents (Elt F) → (⟨S1000000x64, .f32⟩ : BufTy).Contents (Elt F)),
    StableHlo.binary main_v71 main_arg6 main_v72 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S1000000x64 ![0, 1] bcast_S1x64_S1000000x64_0_1 : (⟨S1x64, .f32⟩ : BufTy).Contents (Elt F) → (⟨S1000000x64, .f32⟩ : BufTy).Contents (Elt F)),
    StableHlo.binary main_v72 main_v74 main_v75 (addf : (⟨S1000000x64, .f32⟩ : BufTy).Contents (Elt F) → (⟨S1000000x64, .f32⟩ : BufTy).Contents (Elt F) → (⟨S1000000x64, .f32⟩ : BufTy).Contents (Elt F)),
    StableHlo.nullary main_call5_cst (constant S_ .f32 0x00000000#32),
    StableHlo.unary main_call5_cst main_call5_v0 ((broadcastInDim S1000000x64 ![] bcast_S_S1000000x64) : (⟨S_, .f32⟩ : BufTy).Contents (Elt F) → (⟨S1000000x64, .f32⟩ : BufTy).Contents (Elt F)),
    StableHlo.binary main_v75 main_call5_v0 main_v76 (maximumf : (⟨S1000000x64, .f32⟩ : BufTy).Contents (Elt F) → (⟨S1000000x64, .f32⟩ : BufTy).Contents (Elt F) → (⟨S1000000x64, .f32⟩ : BufTy).Contents (Elt F)),
    StableHlo.binary main_v76 main_arg8 main_v77 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.binary main_v16 main_v77 main_v78 (addf : (⟨S1000000x64, .f32⟩ : BufTy).Contents (Elt F) → (⟨S1000000x64, .f32⟩ : BufTy).Contents (Elt F) → (⟨S1000000x64, .f32⟩ : BufTy).Contents (Elt F)),
    StableHlo.unary main_arg9 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S1000000x64 ![0, 1] bcast_S1x64_S1000000x64_0_1 : (⟨S1x64, .f32⟩ : BufTy).Contents (Elt F) → (⟨S1000000x64, .f32⟩ : BufTy).Contents (Elt F)),
    StableHlo.binary main_v78 main_v80 main_v81 (addf : (⟨S1000000x64, .f32⟩ : BufTy).Contents (Elt F) → (⟨S1000000x64, .f32⟩ : BufTy).Contents (Elt F) → (⟨S1000000x64, .f32⟩ : BufTy).Contents (Elt F)),
    StableHlo.nullary main_call6_cst (constant S_ .f32 0x00000000#32),
    StableHlo.unary main_call6_cst main_call6_v0 ((broadcastInDim S1000000x64 ![] bcast_S_S1000000x64) : (⟨S_, .f32⟩ : BufTy).Contents (Elt F) → (⟨S1000000x64, .f32⟩ : BufTy).Contents (Elt F)),
    StableHlo.binary main_v81 main_call6_v0 main_v82 (maximumf : (⟨S1000000x64, .f32⟩ : BufTy).Contents (Elt F) → (⟨S1000000x64, .f32⟩ : BufTy).Contents (Elt F) → (⟨S1000000x64, .f32⟩ : BufTy).Contents (Elt F)),
    StableHlo.nullary main_cst_9 (constant S_ .f32 0x00000000#32),
    StableHlo.unary main_cst_9 main_v83 (broadcastInDim S100000x64 ![] bcast_S_S100000x64 : (⟨S_, .f32⟩ : BufTy).Contents (Elt F) → (⟨S100000x64, .f32⟩ : BufTy).Contents (Elt F)),
    StableHlo.unary main_v3 main_v84 (broadcastInDim S1000000x1 ![0] bcast_S1000000_S1000000x1_0 : (⟨S1000000, .i32⟩ : BufTy).Contents (Elt F) → (⟨S1000000x1, .i32⟩ : BufTy).Contents (Elt F)),
    StableHlo.ternary main_v83 main_v84 main_v82 main_v85 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_c_10 (constantI S_ 32 0#32),
    StableHlo.unary main_c_10 main_v86 (broadcastInDim S1000000 ![] bcast_S_S1000000 : (⟨S_, .i32⟩ : BufTy).Contents (Elt F) → (⟨S1000000, .i32⟩ : BufTy).Contents (Elt F)),
    StableHlo.binary main_v3 main_v86 main_v87 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 100000#32),
    StableHlo.unary main_c_11 main_v88 (broadcastInDim S1000000 ![] bcast_S_S1000000 : (⟨S_, .i32⟩ : BufTy).Contents (Elt F) → (⟨S1000000, .i32⟩ : BufTy).Contents (Elt F)),
    StableHlo.binary main_v3 main_v88 main_v89 (addi : (⟨S1000000, .i32⟩ : BufTy).Contents (Elt F) → (⟨S1000000, .i32⟩ : BufTy).Contents (Elt F) → (⟨S1000000, .i32⟩ : BufTy).Contents (Elt F)),
    StableHlo.ternary main_v87 main_v89 main_v3 main_v90 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v90 main_v91 (broadcastInDim S1000000x1 ![0] bcast_S1000000_S1000000x1_0 : (⟨S1000000, .i32⟩ : BufTy).Contents (Elt F) → (⟨S1000000x1, .i32⟩ : BufTy).Contents (Elt F)),
    StableHlo.binary main_v85 main_v91 main_v92 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v92 main_v82 main_v93 (subf : (⟨S1000000x64, .f32⟩ : BufTy).Contents (Elt F) → (⟨S1000000x64, .f32⟩ : BufTy).Contents (Elt F) → (⟨S1000000x64, .f32⟩ : BufTy).Contents (Elt F)),
    StableHlo.binary main_v93 main_arg6 main_v94 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S1000000x64 ![0, 1] bcast_S1x64_S1000000x64_0_1 : (⟨S1x64, .f32⟩ : BufTy).Contents (Elt F) → (⟨S1000000x64, .f32⟩ : BufTy).Contents (Elt F)),
    StableHlo.binary main_v94 main_v96 main_v97 (addf : (⟨S1000000x64, .f32⟩ : BufTy).Contents (Elt F) → (⟨S1000000x64, .f32⟩ : BufTy).Contents (Elt F) → (⟨S1000000x64, .f32⟩ : BufTy).Contents (Elt F)),
    StableHlo.nullary main_call7_cst (constant S_ .f32 0x00000000#32),
    StableHlo.unary main_call7_cst main_call7_v0 ((broadcastInDim S1000000x64 ![] bcast_S_S1000000x64) : (⟨S_, .f32⟩ : BufTy).Contents (Elt F) → (⟨S1000000x64, .f32⟩ : BufTy).Contents (Elt F)),
    StableHlo.binary main_v97 main_call7_v0 main_v98 (maximumf : (⟨S1000000x64, .f32⟩ : BufTy).Contents (Elt F) → (⟨S1000000x64, .f32⟩ : BufTy).Contents (Elt F) → (⟨S1000000x64, .f32⟩ : BufTy).Contents (Elt F)),
    StableHlo.binary main_v98 main_arg8 main_v99 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.binary main_v16 main_v99 main_v100 (addf : (⟨S1000000x64, .f32⟩ : BufTy).Contents (Elt F) → (⟨S1000000x64, .f32⟩ : BufTy).Contents (Elt F) → (⟨S1000000x64, .f32⟩ : BufTy).Contents (Elt F)),
    StableHlo.unary main_arg9 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S1000000x64 ![0, 1] bcast_S1x64_S1000000x64_0_1 : (⟨S1x64, .f32⟩ : BufTy).Contents (Elt F) → (⟨S1000000x64, .f32⟩ : BufTy).Contents (Elt F)),
    StableHlo.binary main_v100 main_v102 main_v103 (addf : (⟨S1000000x64, .f32⟩ : BufTy).Contents (Elt F) → (⟨S1000000x64, .f32⟩ : BufTy).Contents (Elt F) → (⟨S1000000x64, .f32⟩ : BufTy).Contents (Elt F)),
    StableHlo.nullary main_call8_cst (constant S_ .f32 0x00000000#32),
    StableHlo.unary main_call8_cst main_call8_v0 ((broadcastInDim S1000000x64 ![] bcast_S_S1000000x64) : (⟨S_, .f32⟩ : BufTy).Contents (Elt F) → (⟨S1000000x64, .f32⟩ : BufTy).Contents (Elt F)),
    StableHlo.binary main_v103 main_call8_v0 main_v104 (maximumf : (⟨S1000000x64, .f32⟩ : BufTy).Contents (Elt F) → (⟨S1000000x64, .f32⟩ : BufTy).Contents (Elt F) → (⟨S1000000x64, .f32⟩ : BufTy).Contents (Elt F)),
    StableHlo.nullary main_cst_12 (constant S_ .f32 0x00000000#32) ]

/-- The buffers part 1 writes. -/
abbrev seg1_W : List (Ref sig .tc) :=
  [main_v52, main_v53, main_call3_cst, main_call3_v0, main_v54, main_v55, main_v56, main_v57, main_v58, main_v59, main_call4_cst, main_call4_v0, main_v60, main_cst_6, main_v61, main_v62, main_v63, main_c_7, main_v64, main_v65, main_c_8, main_v66, main_v67, main_v68, main_v69, main_v70, main_v71, main_v72, main_v73, main_v74, main_v75, main_call5_cst, main_call5_v0, main_v76, main_v77, main_v78, main_v79, main_v80, main_v81, main_call6_cst, main_call6_v0, main_v82, main_cst_9, main_v83, main_v84, main_v85, main_c_10, main_v86, main_v87, main_c_11, main_v88, main_v89, main_v90, main_v91, main_v92, main_v93, main_v94, main_v95, main_v96, main_v97, main_call7_cst, main_call7_v0, main_v98, main_v99, main_v100, main_v101, main_v102, main_v103, main_call8_cst, main_call8_v0, main_v104, main_cst_12]

set_option maxRecDepth 16384 in
set_option maxHeartbeats 1000000 in
theorem seg1_writes : (seg1 : List (HloOp τ sig (Elt F))).Forall fun op =>
    op.writes ⊆ (seg1_W.map (Proc.devRef (τ := τ) .tc)).toFinset :=
  ⟨writes_sub_of_mem main_v52 rfl (by decide), writes_sub_of_mem main_v53 rfl (by decide), writes_sub_of_mem main_call3_cst rfl (by decide),
    writes_sub_of_mem main_call3_v0 rfl (by decide), writes_sub_of_mem main_v54 rfl (by decide), writes_sub_of_mem main_v55 rfl (by decide),
    writes_sub_of_mem main_v56 rfl (by decide), writes_sub_of_mem main_v57 rfl (by decide), writes_sub_of_mem main_v58 rfl (by decide),
    writes_sub_of_mem main_v59 rfl (by decide), writes_sub_of_mem main_call4_cst rfl (by decide), writes_sub_of_mem main_call4_v0 rfl (by decide),
    writes_sub_of_mem main_v60 rfl (by decide), writes_sub_of_mem main_cst_6 rfl (by decide), writes_sub_of_mem main_v61 rfl (by decide),
    writes_sub_of_mem main_v62 rfl (by decide), writes_sub_of_mem main_v63 rfl (by decide), writes_sub_of_mem main_c_7 rfl (by decide),
    writes_sub_of_mem main_v64 rfl (by decide), writes_sub_of_mem main_v65 rfl (by decide), writes_sub_of_mem main_c_8 rfl (by decide),
    writes_sub_of_mem main_v66 rfl (by decide), writes_sub_of_mem main_v67 rfl (by decide), writes_sub_of_mem main_v68 rfl (by decide),
    writes_sub_of_mem main_v69 rfl (by decide), writes_sub_of_mem main_v70 rfl (by decide), writes_sub_of_mem main_v71 rfl (by decide),
    writes_sub_of_mem main_v72 rfl (by decide), writes_sub_of_mem main_v73 rfl (by decide), writes_sub_of_mem main_v74 rfl (by decide),
    writes_sub_of_mem main_v75 rfl (by decide), writes_sub_of_mem main_call5_cst rfl (by decide), writes_sub_of_mem main_call5_v0 rfl (by decide),
    writes_sub_of_mem main_v76 rfl (by decide), writes_sub_of_mem main_v77 rfl (by decide), writes_sub_of_mem main_v78 rfl (by decide),
    writes_sub_of_mem main_v79 rfl (by decide), writes_sub_of_mem main_v80 rfl (by decide), writes_sub_of_mem main_v81 rfl (by decide),
    writes_sub_of_mem main_call6_cst rfl (by decide), writes_sub_of_mem main_call6_v0 rfl (by decide), writes_sub_of_mem main_v82 rfl (by decide),
    writes_sub_of_mem main_cst_9 rfl (by decide), writes_sub_of_mem main_v83 rfl (by decide), writes_sub_of_mem main_v84 rfl (by decide),
    writes_sub_of_mem main_v85 rfl (by decide), writes_sub_of_mem main_c_10 rfl (by decide), writes_sub_of_mem main_v86 rfl (by decide),
    writes_sub_of_mem main_v87 rfl (by decide), writes_sub_of_mem main_c_11 rfl (by decide), writes_sub_of_mem main_v88 rfl (by decide),
    writes_sub_of_mem main_v89 rfl (by decide), writes_sub_of_mem main_v90 rfl (by decide), writes_sub_of_mem main_v91 rfl (by decide),
    writes_sub_of_mem main_v92 rfl (by decide), writes_sub_of_mem main_v93 rfl (by decide), writes_sub_of_mem main_v94 rfl (by decide),
    writes_sub_of_mem main_v95 rfl (by decide), writes_sub_of_mem main_v96 rfl (by decide), writes_sub_of_mem main_v97 rfl (by decide),
    writes_sub_of_mem main_call7_cst rfl (by decide), writes_sub_of_mem main_call7_v0 rfl (by decide), writes_sub_of_mem main_v98 rfl (by decide),
    writes_sub_of_mem main_v99 rfl (by decide), writes_sub_of_mem main_v100 rfl (by decide), writes_sub_of_mem main_v101 rfl (by decide),
    writes_sub_of_mem main_v102 rfl (by decide), writes_sub_of_mem main_v103 rfl (by decide), writes_sub_of_mem main_call8_cst rfl (by decide),
    writes_sub_of_mem main_call8_v0 rfl (by decide), writes_sub_of_mem main_v104 rfl (by decide), writes_sub_of_mem main_cst_12 rfl (by decide)⟩

/-- Part 1 keeps every buffer it does not write. -/
theorem keep1 (W : Valuation τ sig (Elt F)) (r : Ref sig .tc) (h : r ∉ seg1_W) :
    after seg1 W (Proc.devRef .tc r) = W (Proc.devRef .tc r) :=
  after_of_writes_sub seg1 W seg1_writes h

/-- Part 0a of @main's operations. -/
abbrev seg0a : List (HloOp τ sig (Elt F)) :=
  [ StableHlo.unary main_arg2 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg2 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_v1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v6 (broadcastInDim S1000000 ![] bcast_S_S1000000 : (⟨S_, .i32⟩ : BufTy).Contents (Elt F) → (⟨S1000000, .i32⟩ : BufTy).Contents (Elt F)),
    StableHlo.binary main_v1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]

/-- The buffers part 0a writes. -/
abbrev seg0a_W : List (Ref sig .tc) :=
  [main_v0, main_v1, main_v2, main_v3, main_c, main_v4, main_v5, main_c_0, main_v6, main_v7, main_v8, main_v9, main_v10]

set_option maxRecDepth 16384 in
set_option maxHeartbeats 1000000 in
theorem seg0a_writes : (seg0a : List (HloOp τ sig (Elt F))).Forall fun op =>
    op.writes ⊆ (seg0a_W.map (Proc.devRef (τ := τ) .tc)).toFinset :=
  ⟨writes_sub_of_mem main_v0 rfl (by decide), writes_sub_of_mem main_v1 rfl (by decide), writes_sub_of_mem main_v2 rfl (by decide),
    writes_sub_of_mem main_v3 rfl (by decide), writes_sub_of_mem main_c rfl (by decide), writes_sub_of_mem main_v4 rfl (by decide),
    writes_sub_of_mem main_v5 rfl (by decide), writes_sub_of_mem main_c_0 rfl (by decide), writes_sub_of_mem main_v6 rfl (by decide),
    writes_sub_of_mem main_v7 rfl (by decide), writes_sub_of_mem main_v8 rfl (by decide), writes_sub_of_mem main_v9 rfl (by decide),
    writes_sub_of_mem main_v10 rfl (by decide)⟩

/-- Part 0a keeps every buffer it does not write. -/
theorem keep0a (W : Valuation τ sig (Elt F)) (r : Ref sig .tc) (h : r ∉ seg0a_W) :
    after seg0a W (Proc.devRef .tc r) = W (Proc.devRef .tc r) :=
  after_of_writes_sub seg0a W seg0a_writes h

/-- Part 0b of @main's operations. -/
abbrev seg0b : List (HloOp τ sig (Elt F)) :=
  [ StableHlo.binary main_v10 main_arg1 main_v11 ((fun a b => concatenate S1000000x80 1 [⟨S1000000x64, a⟩, ⟨S1000000x16, b⟩] concatenates_S1000000x64_S1000000x16_S1000000x80_d1) : (⟨S1000000x64, .f32⟩ : BufTy).Contents (Elt F) → (⟨S1000000x16, .f32⟩ : BufTy).Contents (Elt F) → (⟨S1000000x80, .f32⟩ : BufTy).Contents (Elt F)),
    StableHlo.binary main_v11 main_arg4 main_v12 ((fun l r => Host.dotGeneral dot_S1000000x80_S80x64_S1000000x64_1_0_0_1_n_n none l r) : (⟨S1000000x80, .f32⟩ : BufTy).Contents (Elt F) → (⟨S80x64, .f32⟩ : BufTy).Contents (Elt F) → (⟨S1000000x64, .f32⟩ : BufTy).Contents (Elt F)),
    StableHlo.unary main_arg5 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S1000000x64 ![0, 1] bcast_S1x64_S1000000x64_0_1 : (⟨S1x64, .f32⟩ : BufTy).Contents (Elt F) → (⟨S1000000x64, .f32⟩ : BufTy).Contents (Elt F)),
    StableHlo.binary main_v12 main_v14 main_v15 (addf : (⟨S1000000x64, .f32⟩ : BufTy).Contents (Elt F) → (⟨S1000000x64, .f32⟩ : BufTy).Contents (Elt F) → (⟨S1000000x64, .f32⟩ : BufTy).Contents (Elt F)),
    StableHlo.nullary main_call0_cst (constant S_ .f32 0x00000000#32),
    StableHlo.unary main_call0_cst main_call0_v0 ((broadcastInDim S1000000x64 ![] bcast_S_S1000000x64) : (⟨S_, .f32⟩ : BufTy).Contents (Elt F) → (⟨S1000000x64, .f32⟩ : BufTy).Contents (Elt F)),
    StableHlo.binary main_v15 main_call0_v0 main_v16 (maximumf : (⟨S1000000x64, .f32⟩ : BufTy).Contents (Elt F) → (⟨S1000000x64, .f32⟩ : BufTy).Contents (Elt F) → (⟨S1000000x64, .f32⟩ : BufTy).Contents (Elt F)),
    StableHlo.nullary main_cst (constant S_ .f32 0x00000000#32),
    StableHlo.unary main_cst main_v17 (broadcastInDim S100000x64 ![] bcast_S_S100000x64 : (⟨S_, .f32⟩ : BufTy).Contents (Elt F) → (⟨S100000x64, .f32⟩ : BufTy).Contents (Elt F)),
    StableHlo.unary main_v3 main_v18 (broadcastInDim S1000000x1 ![0] bcast_S1000000_S1000000x1_0 : (⟨S1000000, .i32⟩ : BufTy).Contents (Elt F) → (⟨S1000000x1, .i32⟩ : BufTy).Contents (Elt F)),
    StableHlo.ternary main_v17 main_v18 main_v16 main_v19 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_c_1 (constantI S_ 32 0#32),
    StableHlo.unary main_c_1 main_v20 (broadcastInDim S1000000 ![] bcast_S_S1000000 : (⟨S_, .i32⟩ : BufTy).Contents (Elt F) → (⟨S1000000, .i32⟩ : BufTy).Contents (Elt F)),
    StableHlo.binary main_v3 main_v20 main_v21 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 100000#32),
    StableHlo.unary main_c_2 main_v22 (broadcastInDim S1000000 ![] bcast_S_S1000000 : (⟨S_, .i32⟩ : BufTy).Contents (Elt F) → (⟨S1000000, .i32⟩ : BufTy).Contents (Elt F)),
    StableHlo.binary main_v3 main_v22 main_v23 (addi : (⟨S1000000, .i32⟩ : BufTy).Contents (Elt F) → (⟨S1000000, .i32⟩ : BufTy).Contents (Elt F) → (⟨S1000000, .i32⟩ : BufTy).Contents (Elt F)),
    StableHlo.ternary main_v21 main_v23 main_v3 main_v24 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v24 main_v25 (broadcastInDim S1000000x1 ![0] bcast_S1000000_S1000000x1_0 : (⟨S1000000, .i32⟩ : BufTy).Contents (Elt F) → (⟨S1000000x1, .i32⟩ : BufTy).Contents (Elt F)),
    StableHlo.binary main_v19 main_v25 main_v26 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v26 main_v16 main_v27 (subf : (⟨S1000000x64, .f32⟩ : BufTy).Contents (Elt F) → (⟨S1000000x64, .f32⟩ : BufTy).Contents (Elt F) → (⟨S1000000x64, .f32⟩ : BufTy).Contents (Elt F)),
    StableHlo.binary main_v27 main_arg6 main_v28 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S1000000x64 ![0, 1] bcast_S1x64_S1000000x64_0_1 : (⟨S1x64, .f32⟩ : BufTy).Contents (Elt F) → (⟨S1000000x64, .f32⟩ : BufTy).Contents (Elt F)),
    StableHlo.binary main_v28 main_v30 main_v31 (addf : (⟨S1000000x64, .f32⟩ : BufTy).Contents (Elt F) → (⟨S1000000x64, .f32⟩ : BufTy).Contents (Elt F) → (⟨S1000000x64, .f32⟩ : BufTy).Contents (Elt F)),
    StableHlo.nullary main_call1_cst (constant S_ .f32 0x00000000#32),
    StableHlo.unary main_call1_cst main_call1_v0 ((broadcastInDim S1000000x64 ![] bcast_S_S1000000x64) : (⟨S_, .f32⟩ : BufTy).Contents (Elt F) → (⟨S1000000x64, .f32⟩ : BufTy).Contents (Elt F)),
    StableHlo.binary main_v31 main_call1_v0 main_v32 (maximumf : (⟨S1000000x64, .f32⟩ : BufTy).Contents (Elt F) → (⟨S1000000x64, .f32⟩ : BufTy).Contents (Elt F) → (⟨S1000000x64, .f32⟩ : BufTy).Contents (Elt F)),
    StableHlo.binary main_v32 main_arg8 main_v33 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.binary main_v16 main_v33 main_v34 (addf : (⟨S1000000x64, .f32⟩ : BufTy).Contents (Elt F) → (⟨S1000000x64, .f32⟩ : BufTy).Contents (Elt F) → (⟨S1000000x64, .f32⟩ : BufTy).Contents (Elt F)),
    StableHlo.unary main_arg9 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S1000000x64 ![0, 1] bcast_S1x64_S1000000x64_0_1 : (⟨S1x64, .f32⟩ : BufTy).Contents (Elt F) → (⟨S1000000x64, .f32⟩ : BufTy).Contents (Elt F)),
    StableHlo.binary main_v34 main_v36 main_v37 (addf : (⟨S1000000x64, .f32⟩ : BufTy).Contents (Elt F) → (⟨S1000000x64, .f32⟩ : BufTy).Contents (Elt F) → (⟨S1000000x64, .f32⟩ : BufTy).Contents (Elt F)),
    StableHlo.nullary main_call2_cst (constant S_ .f32 0x00000000#32),
    StableHlo.unary main_call2_cst main_call2_v0 ((broadcastInDim S1000000x64 ![] bcast_S_S1000000x64) : (⟨S_, .f32⟩ : BufTy).Contents (Elt F) → (⟨S1000000x64, .f32⟩ : BufTy).Contents (Elt F)),
    StableHlo.binary main_v37 main_call2_v0 main_v38 (maximumf : (⟨S1000000x64, .f32⟩ : BufTy).Contents (Elt F) → (⟨S1000000x64, .f32⟩ : BufTy).Contents (Elt F) → (⟨S1000000x64, .f32⟩ : BufTy).Contents (Elt F)),
    StableHlo.nullary main_cst_3 (constant S_ .f32 0x00000000#32),
    StableHlo.unary main_cst_3 main_v39 (broadcastInDim S100000x64 ![] bcast_S_S100000x64 : (⟨S_, .f32⟩ : BufTy).Contents (Elt F) → (⟨S100000x64, .f32⟩ : BufTy).Contents (Elt F)),
    StableHlo.unary main_v3 main_v40 (broadcastInDim S1000000x1 ![0] bcast_S1000000_S1000000x1_0 : (⟨S1000000, .i32⟩ : BufTy).Contents (Elt F) → (⟨S1000000x1, .i32⟩ : BufTy).Contents (Elt F)),
    StableHlo.ternary main_v39 main_v40 main_v38 main_v41 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_c_4 (constantI S_ 32 0#32),
    StableHlo.unary main_c_4 main_v42 (broadcastInDim S1000000 ![] bcast_S_S1000000 : (⟨S_, .i32⟩ : BufTy).Contents (Elt F) → (⟨S1000000, .i32⟩ : BufTy).Contents (Elt F)),
    StableHlo.binary main_v3 main_v42 main_v43 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 100000#32),
    StableHlo.unary main_c_5 main_v44 (broadcastInDim S1000000 ![] bcast_S_S1000000 : (⟨S_, .i32⟩ : BufTy).Contents (Elt F) → (⟨S1000000, .i32⟩ : BufTy).Contents (Elt F)),
    StableHlo.binary main_v3 main_v44 main_v45 (addi : (⟨S1000000, .i32⟩ : BufTy).Contents (Elt F) → (⟨S1000000, .i32⟩ : BufTy).Contents (Elt F) → (⟨S1000000, .i32⟩ : BufTy).Contents (Elt F)),
    StableHlo.ternary main_v43 main_v45 main_v3 main_v46 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v46 main_v47 (broadcastInDim S1000000x1 ![0] bcast_S1000000_S1000000x1_0 : (⟨S1000000, .i32⟩ : BufTy).Contents (Elt F) → (⟨S1000000x1, .i32⟩ : BufTy).Contents (Elt F)),
    StableHlo.binary main_v41 main_v47 main_v48 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v48 main_v38 main_v49 (subf : (⟨S1000000x64, .f32⟩ : BufTy).Contents (Elt F) → (⟨S1000000x64, .f32⟩ : BufTy).Contents (Elt F) → (⟨S1000000x64, .f32⟩ : BufTy).Contents (Elt F)),
    StableHlo.binary main_v49 main_arg6 main_v50 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v51 (broadcastInDim S1x64 ![1] bcast_S64_S1x64_1 : (⟨S64, .f32⟩ : BufTy).Contents (Elt F) → (⟨S1x64, .f32⟩ : BufTy).Contents (Elt F)) ]

/-- The buffers part 0b writes. -/
abbrev seg0b_W : List (Ref sig .tc) :=
  [main_v11, main_v12, main_v13, main_v14, main_v15, main_call0_cst, main_call0_v0, main_v16, main_cst, main_v17, main_v18, main_v19, main_c_1, main_v20, main_v21, main_c_2, main_v22, main_v23, main_v24, main_v25, main_v26, main_v27, main_v28, main_v29, main_v30, main_v31, main_call1_cst, main_call1_v0, main_v32, main_v33, main_v34, main_v35, main_v36, main_v37, main_call2_cst, main_call2_v0, main_v38, main_cst_3, main_v39, main_v40, main_v41, main_c_4, main_v42, main_v43, main_c_5, main_v44, main_v45, main_v46, main_v47, main_v48, main_v49, main_v50, main_v51]

set_option maxRecDepth 16384 in
set_option maxHeartbeats 1000000 in
theorem seg0b_writes : (seg0b : List (HloOp τ sig (Elt F))).Forall fun op =>
    op.writes ⊆ (seg0b_W.map (Proc.devRef (τ := τ) .tc)).toFinset :=
  ⟨writes_sub_of_mem main_v11 rfl (by decide), writes_sub_of_mem main_v12 rfl (by decide), writes_sub_of_mem main_v13 rfl (by decide),
    writes_sub_of_mem main_v14 rfl (by decide), writes_sub_of_mem main_v15 rfl (by decide), writes_sub_of_mem main_call0_cst rfl (by decide),
    writes_sub_of_mem main_call0_v0 rfl (by decide), writes_sub_of_mem main_v16 rfl (by decide), writes_sub_of_mem main_cst rfl (by decide),
    writes_sub_of_mem main_v17 rfl (by decide), writes_sub_of_mem main_v18 rfl (by decide), writes_sub_of_mem main_v19 rfl (by decide),
    writes_sub_of_mem main_c_1 rfl (by decide), writes_sub_of_mem main_v20 rfl (by decide), writes_sub_of_mem main_v21 rfl (by decide),
    writes_sub_of_mem main_c_2 rfl (by decide), writes_sub_of_mem main_v22 rfl (by decide), writes_sub_of_mem main_v23 rfl (by decide),
    writes_sub_of_mem main_v24 rfl (by decide), writes_sub_of_mem main_v25 rfl (by decide), writes_sub_of_mem main_v26 rfl (by decide),
    writes_sub_of_mem main_v27 rfl (by decide), writes_sub_of_mem main_v28 rfl (by decide), writes_sub_of_mem main_v29 rfl (by decide),
    writes_sub_of_mem main_v30 rfl (by decide), writes_sub_of_mem main_v31 rfl (by decide), writes_sub_of_mem main_call1_cst rfl (by decide),
    writes_sub_of_mem main_call1_v0 rfl (by decide), writes_sub_of_mem main_v32 rfl (by decide), writes_sub_of_mem main_v33 rfl (by decide),
    writes_sub_of_mem main_v34 rfl (by decide), writes_sub_of_mem main_v35 rfl (by decide), writes_sub_of_mem main_v36 rfl (by decide),
    writes_sub_of_mem main_v37 rfl (by decide), writes_sub_of_mem main_call2_cst rfl (by decide), writes_sub_of_mem main_call2_v0 rfl (by decide),
    writes_sub_of_mem main_v38 rfl (by decide), writes_sub_of_mem main_cst_3 rfl (by decide), writes_sub_of_mem main_v39 rfl (by decide),
    writes_sub_of_mem main_v40 rfl (by decide), writes_sub_of_mem main_v41 rfl (by decide), writes_sub_of_mem main_c_4 rfl (by decide),
    writes_sub_of_mem main_v42 rfl (by decide), writes_sub_of_mem main_v43 rfl (by decide), writes_sub_of_mem main_c_5 rfl (by decide),
    writes_sub_of_mem main_v44 rfl (by decide), writes_sub_of_mem main_v45 rfl (by decide), writes_sub_of_mem main_v46 rfl (by decide),
    writes_sub_of_mem main_v47 rfl (by decide), writes_sub_of_mem main_v48 rfl (by decide), writes_sub_of_mem main_v49 rfl (by decide),
    writes_sub_of_mem main_v50 rfl (by decide), writes_sub_of_mem main_v51 rfl (by decide)⟩

/-- Part 0b keeps every buffer it does not write. -/
theorem keep0b (W : Valuation τ sig (Elt F)) (r : Ref sig .tc) (h : r ∉ seg0b_W) :
    after seg0b W (Proc.devRef .tc r) = W (Proc.devRef .tc r) :=
  after_of_writes_sub seg0b W seg0b_writes h

/-- Part 2a of @main's operations. -/
abbrev seg2a : List (HloOp τ sig (Elt F)) :=
  [ StableHlo.unary main_cst_12 main_v105 (broadcastInDim S100000x64 ![] bcast_S_S100000x64 : (⟨S_, .f32⟩ : BufTy).Contents (Elt F) → (⟨S100000x64, .f32⟩ : BufTy).Contents (Elt F)),
    StableHlo.unary main_v1 main_v106 (broadcastInDim S1000000x1 ![0] bcast_S1000000_S1000000x1_0 : (⟨S1000000, .i32⟩ : BufTy).Contents (Elt F) → (⟨S1000000x1, .i32⟩ : BufTy).Contents (Elt F)),
    StableHlo.ternary main_v105 main_v106 main_v104 main_v107 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]

/-- The buffers part 2a writes. -/
abbrev seg2a_W : List (Ref sig .tc) :=
  [main_v105, main_v106, main_v107]

set_option maxRecDepth 16384 in
set_option maxHeartbeats 1000000 in
theorem seg2a_writes : (seg2a : List (HloOp τ sig (Elt F))).Forall fun op =>
    op.writes ⊆ (seg2a_W.map (Proc.devRef (τ := τ) .tc)).toFinset :=
  ⟨writes_sub_of_mem main_v105 rfl (by decide), writes_sub_of_mem main_v106 rfl (by decide), writes_sub_of_mem main_v107 rfl (by decide)⟩

/-- Part 2a keeps every buffer it does not write. -/
theorem keep2a (W : Valuation τ sig (Elt F)) (r : Ref sig .tc) (h : r ∉ seg2a_W) :
    after seg2a W (Proc.devRef .tc r) = W (Proc.devRef .tc r) :=
  after_of_writes_sub seg2a W seg2a_writes h

/-- Part 2b of @main's operations. -/
abbrev seg2b : List (HloOp τ sig (Elt F)) :=
  [ StableHlo.binary main_arg0 main_v107 main_v108 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v108 main_arg10 main_v109 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg11 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S100000x64 ![0, 1] bcast_S1x64_S100000x64_0_1 : (⟨S1x64, .f32⟩ : BufTy).Contents (Elt F) → (⟨S100000x64, .f32⟩ : BufTy).Contents (Elt F)),
    StableHlo.binary main_v109 main_v111 main_v112 (addf : (⟨S100000x64, .f32⟩ : BufTy).Contents (Elt F) → (⟨S100000x64, .f32⟩ : BufTy).Contents (Elt F) → (⟨S100000x64, .f32⟩ : BufTy).Contents (Elt F)),
    StableHlo.nullary main_call9_cst (constant S_ .f32 0x00000000#32),
    StableHlo.unary main_call9_cst main_call9_v0 ((broadcastInDim S100000x64 ![] bcast_S_S100000x64) : (⟨S_, .f32⟩ : BufTy).Contents (Elt F) → (⟨S100000x64, .f32⟩ : BufTy).Contents (Elt F)),
    StableHlo.binary main_v112 main_call9_v0 main_v113 (maximumf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x00000000#32),
    StableHlo.binary main_v113 main_cst_13 main_v114 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v114 main_v115 (broadcastInDim S100000x1 ![0] bcast_S100000_S100000x1_0 : (⟨S100000, .f32⟩ : BufTy).Contents (Elt F) → (⟨S100000x1, .f32⟩ : BufTy).Contents (Elt F)),
    StableHlo.nullary main_cst_14 (constant S_ .f32 0x42800000#32),
    StableHlo.unary main_cst_14 main_v116 (broadcastInDim S100000x1 ![] bcast_S_S100000x1 : (⟨S_, .f32⟩ : BufTy).Contents (Elt F) → (⟨S100000x1, .f32⟩ : BufTy).Contents (Elt F)),
    StableHlo.binary main_v115 main_v116 main_v117 (Host.divf : (⟨S100000x1, .f32⟩ : BufTy).Contents (Elt F) → (⟨S100000x1, .f32⟩ : BufTy).Contents (Elt F) → (⟨S100000x1, .f32⟩ : BufTy).Contents (Elt F)),
    StableHlo.nullary main_c_15 (constantI S_ 32 0#32),
    StableHlo.nullary main_call10_cst (constant S_ .f32 0x00000000#32),
    StableHlo.binary main_v113 main_call10_cst main_call10_v0 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call10_v0 main_call10_v1 ((broadcastInDim S100000x1 ![0] bcast_S100000_S100000x1_0) : (⟨S100000, .f32⟩ : BufTy).Contents (Elt F) → (⟨S100000x1, .f32⟩ : BufTy).Contents (Elt F)),
    StableHlo.nullary main_call10_cst_0 (constant S_ .f32 0x42800000#32),
    StableHlo.unary main_call10_cst_0 main_call10_v2 ((broadcastInDim S100000x1 ![] bcast_S_S100000x1) : (⟨S_, .f32⟩ : BufTy).Contents (Elt F) → (⟨S100000x1, .f32⟩ : BufTy).Contents (Elt F)),
    StableHlo.binary main_call10_v1 main_call10_v2 main_call10_v3 (Host.divf : (⟨S100000x1, .f32⟩ : BufTy).Contents (Elt F) → (⟨S100000x1, .f32⟩ : BufTy).Contents (Elt F) → (⟨S100000x1, .f32⟩ : BufTy).Contents (Elt F)),
    StableHlo.unary main_call10_v3 main_call10_v4 ((broadcastInDim S100000x64 ![0, 1] bcast_S100000x1_S100000x64_0_1) : (⟨S100000x1, .f32⟩ : BufTy).Contents (Elt F) → (⟨S100000x64, .f32⟩ : BufTy).Contents (Elt F)),
    StableHlo.binary main_v113 main_call10_v4 main_call10_v5 (subf : (⟨S100000x64, .f32⟩ : BufTy).Contents (Elt F) → (⟨S100000x64, .f32⟩ : BufTy).Contents (Elt F) → (⟨S100000x64, .f32⟩ : BufTy).Contents (Elt F)),
    StableHlo.binary main_call10_v5 main_call10_v5 main_call10_v6 (mulf : (⟨S100000x64, .f32⟩ : BufTy).Contents (Elt F) → (⟨S100000x64, .f32⟩ : BufTy).Contents (Elt F) → (⟨S100000x64, .f32⟩ : BufTy).Contents (Elt F)),
    StableHlo.unary main_c_15 main_call10_v7 ((sitofp .f32) : (⟨S_, .i32⟩ : BufTy).Contents (Elt F) → (⟨S_, .f32⟩ : BufTy).Contents (Elt F)),
    StableHlo.nullary main_call10_cst_1 (constant S_ .f32 0x42800000#32),
    StableHlo.binary main_call10_cst_1 main_call10_v7 main_call10_v8 (subf : (⟨S_, .f32⟩ : BufTy).Contents (Elt F) → (⟨S_, .f32⟩ : BufTy).Contents (Elt F) → (⟨S_, .f32⟩ : BufTy).Contents (Elt F)),
    StableHlo.nullary main_call10_cst_2 (constant S_ .f32 0x00000000#32),
    StableHlo.binary main_call10_v6 main_call10_cst_2 main_call10_v9 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call10_v9 main_call10_v10 ((broadcastInDim S100000x1 ![0] bcast_S100000_S100000x1_0) : (⟨S100000, .f32⟩ : BufTy).Contents (Elt F) → (⟨S100000x1, .f32⟩ : BufTy).Contents (Elt F)),
    StableHlo.unary main_call10_v8 main_call10_v11 ((broadcastInDim S100000x1 ![] bcast_S_S100000x1) : (⟨S_, .f32⟩ : BufTy).Contents (Elt F) → (⟨S100000x1, .f32⟩ : BufTy).Contents (Elt F)),
    StableHlo.binary main_call10_v10 main_call10_v11 main_call10_v12 (Host.divf : (⟨S100000x1, .f32⟩ : BufTy).Contents (Elt F) → (⟨S100000x1, .f32⟩ : BufTy).Contents (Elt F) → (⟨S100000x1, .f32⟩ : BufTy).Contents (Elt F)),
    StableHlo.nullary main_call10_cst_3 (constant S_ .f32 0x00000000#32),
    StableHlo.binary main_call10_v8 main_call10_cst_3 main_call10_v13 ((cmpf .ogt) : (⟨S_, .f32⟩ : BufTy).Contents (Elt F) → (⟨S_, .f32⟩ : BufTy).Contents (Elt F) → (⟨S_, .i1⟩ : BufTy).Contents (Elt F)),
    StableHlo.nullary main_call10_cst_4 (constant S_ .f32 0x7FC00000#32),
    StableHlo.unary main_call10_cst_4 main_call10_call0_v0 (id : (⟨S_, .f32⟩ : BufTy).Contents (Elt F) → (⟨S_, .f32⟩ : BufTy).Contents (Elt F)),
    StableHlo.unary main_call10_call0_v0 main_call10_call0_v1 ((broadcastInDim S100000x1 ![] bcast_S_S100000x1) : (⟨S_, .f32⟩ : BufTy).Contents (Elt F) → (⟨S100000x1, .f32⟩ : BufTy).Contents (Elt F)),
    StableHlo.ternary main_call10_v13 main_call10_v12 main_call10_call0_v1 main_v118 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    StableHlo.unary main_v117 main_v119 (broadcastInDim S100000x64 ![0, 1] bcast_S100000x1_S100000x64_0_1 : (⟨S100000x1, .f32⟩ : BufTy).Contents (Elt F) → (⟨S100000x64, .f32⟩ : BufTy).Contents (Elt F)),
    StableHlo.binary main_v113 main_v119 main_v120 (subf : (⟨S100000x64, .f32⟩ : BufTy).Contents (Elt F) → (⟨S100000x64, .f32⟩ : BufTy).Contents (Elt F) → (⟨S100000x64, .f32⟩ : BufTy).Contents (Elt F)),
    StableHlo.nullary main_cst_16 (constant S_ .f32 0x3727C5AC#32),
    StableHlo.unary main_cst_16 main_v121 (broadcastInDim S100000x1 ![] bcast_S_S100000x1 : (⟨S_, .f32⟩ : BufTy).Contents (Elt F) → (⟨S100000x1, .f32⟩ : BufTy).Contents (Elt F)),
    StableHlo.binary main_v118 main_v121 main_v122 (addf : (⟨S100000x1, .f32⟩ : BufTy).Contents (Elt F) → (⟨S100000x1, .f32⟩ : BufTy).Contents (Elt F) → (⟨S100000x1, .f32⟩ : BufTy).Contents (Elt F)),
    StableHlo.unary main_v122 main_v123 (Host.rsqrt : (⟨S100000x1, .f32⟩ : BufTy).Contents (Elt F) → (⟨S100000x1, .f32⟩ : BufTy).Contents (Elt F)),
    StableHlo.unary main_v123 main_v124 (broadcastInDim S100000x64 ![0, 1] bcast_S100000x1_S100000x64_0_1 : (⟨S100000x1, .f32⟩ : BufTy).Contents (Elt F) → (⟨S100000x64, .f32⟩ : BufTy).Contents (Elt F)),
    StableHlo.binary main_v120 main_v124 main_v125 (mulf : (⟨S100000x64, .f32⟩ : BufTy).Contents (Elt F) → (⟨S100000x64, .f32⟩ : BufTy).Contents (Elt F) → (⟨S100000x64, .f32⟩ : BufTy).Contents (Elt F)),
    StableHlo.unary main_arg12 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S100000x64 ![0, 1] bcast_S1x64_S100000x64_0_1 : (⟨S1x64, .f32⟩ : BufTy).Contents (Elt F) → (⟨S100000x64, .f32⟩ : BufTy).Contents (Elt F)),
    StableHlo.binary main_v125 main_v127 main_v128 (mulf : (⟨S100000x64, .f32⟩ : BufTy).Contents (Elt F) → (⟨S100000x64, .f32⟩ : BufTy).Contents (Elt F) → (⟨S100000x64, .f32⟩ : BufTy).Contents (Elt F)),
    StableHlo.unary main_arg13 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S100000x64 ![0, 1] bcast_S1x64_S100000x64_0_1 : (⟨S1x64, .f32⟩ : BufTy).Contents (Elt F) → (⟨S100000x64, .f32⟩ : BufTy).Contents (Elt F)),
    StableHlo.binary main_v128 main_v130 main_v131 (addf : (⟨S100000x64, .f32⟩ : BufTy).Contents (Elt F) → (⟨S100000x64, .f32⟩ : BufTy).Contents (Elt F) → (⟨S100000x64, .f32⟩ : BufTy).Contents (Elt F)),
    StableHlo.nullary main_call11_cst (constant S_ .f32 0x00000000#32),
    StableHlo.unary main_call11_cst main_call11_v0 ((broadcastInDim S100000x64 ![] bcast_S_S100000x64) : (⟨S_, .f32⟩ : BufTy).Contents (Elt F) → (⟨S100000x64, .f32⟩ : BufTy).Contents (Elt F)),
    StableHlo.binary main_v131 main_call11_v0 main_v132 (maximumf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x00000000#32),
    StableHlo.unary main_cst_17 main_v133 (broadcastInDim S1024x64 ![] bcast_S_S1024x64 : (⟨S_, .f32⟩ : BufTy).Contents (Elt F) → (⟨S1024x64, .f32⟩ : BufTy).Contents (Elt F)),
    StableHlo.unary main_arg3 main_v134 (broadcastInDim S100000x1 ![0] bcast_S100000_S100000x1_0 : (⟨S100000, .i32⟩ : BufTy).Contents (Elt F) → (⟨S100000x1, .i32⟩ : BufTy).Contents (Elt F)),
    StableHlo.ternary main_v133 main_v134 main_v132 main_v135 ((fun x i u => Host.scatterAdd scatter_S1024x64_S100000x1_S100000x64_1_0_0_1 x i u) : (⟨S1024x64, .f32⟩ : BufTy).Contents (Elt F) → (⟨S100000x1, .i32⟩ : BufTy).Contents (Elt F) → (⟨S100000x64, .f32⟩ : BufTy).Contents (Elt F) → (⟨S1024x64, .f32⟩ : BufTy).Contents (Elt F)),
    StableHlo.nullary main_cst_18 (constant S_ .f32 0x3F800000#32),
    StableHlo.unary main_cst_18 main_v136 (broadcastInDim S100000 ![] bcast_S_S100000 : (⟨S_, .f32⟩ : BufTy).Contents (Elt F) → (⟨S100000, .f32⟩ : BufTy).Contents (Elt F)),
    StableHlo.nullary main_cst_19 (constant S_ .f32 0x00000000#32),
    StableHlo.unary main_cst_19 main_v137 (broadcastInDim S1024 ![] bcast_S_S1024 : (⟨S_, .f32⟩ : BufTy).Contents (Elt F) → (⟨S1024, .f32⟩ : BufTy).Contents (Elt F)),
    StableHlo.unary main_arg3 main_v138 (broadcastInDim S100000x1 ![0] bcast_S100000_S100000x1_0 : (⟨S100000, .i32⟩ : BufTy).Contents (Elt F) → (⟨S100000x1, .i32⟩ : BufTy).Contents (Elt F)),
    StableHlo.ternary main_v137 main_v138 main_v136 main_v139 ((fun x i u => Host.scatterAdd scatter_S1024_S100000x1_S100000_n_0_0_1 x i u) : (⟨S1024, .f32⟩ : BufTy).Contents (Elt F) → (⟨S100000x1, .i32⟩ : BufTy).Contents (Elt F) → (⟨S100000, .f32⟩ : BufTy).Contents (Elt F) → (⟨S1024, .f32⟩ : BufTy).Contents (Elt F)),
    StableHlo.nullary main_cst_20 (constant S_ .f32 0x3F800000#32),
    StableHlo.unary main_cst_20 main_v140 (broadcastInDim S1024 ![] bcast_S_S1024 : (⟨S_, .f32⟩ : BufTy).Contents (Elt F) → (⟨S1024, .f32⟩ : BufTy).Contents (Elt F)),
    StableHlo.binary main_v139 main_v140 main_v141 (maximumf : (⟨S1024, .f32⟩ : BufTy).Contents (Elt F) → (⟨S1024, .f32⟩ : BufTy).Contents (Elt F) → (⟨S1024, .f32⟩ : BufTy).Contents (Elt F)),
    StableHlo.unary main_v141 main_v142 (broadcastInDim S1024x1 ![0] bcast_S1024_S1024x1_0 : (⟨S1024, .f32⟩ : BufTy).Contents (Elt F) → (⟨S1024x1, .f32⟩ : BufTy).Contents (Elt F)),
    StableHlo.unary main_v142 main_v143 (broadcastInDim S1024x64 ![0, 1] bcast_S1024x1_S1024x64_0_1 : (⟨S1024x1, .f32⟩ : BufTy).Contents (Elt F) → (⟨S1024x64, .f32⟩ : BufTy).Contents (Elt F)),
    StableHlo.binary main_v135 main_v143 main_v144 (Host.divf : (⟨S1024x64, .f32⟩ : BufTy).Contents (Elt F) → (⟨S1024x64, .f32⟩ : BufTy).Contents (Elt F) → (⟨S1024x64, .f32⟩ : BufTy).Contents (Elt F)),
    StableHlo.binary main_v144 main_arg14 main_v145 ((fun l r => Host.dotGeneral dot_S1024x64_S64x8_S1024x8_1_0_0_1_n_n none l r) : (⟨S1024x64, .f32⟩ : BufTy).Contents (Elt F) → (⟨S64x8, .f32⟩ : BufTy).Contents (Elt F) → (⟨S1024x8, .f32⟩ : BufTy).Contents (Elt F)) ]

/-- The buffers part 2b writes. -/
abbrev seg2b_W : List (Ref sig .tc) :=
  [main_v108, main_v109, main_v110, main_v111, main_v112, main_call9_cst, main_call9_v0, main_v113, main_cst_13, main_v114, main_v115, main_cst_14, main_v116, main_v117, main_c_15, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_v12, main_call10_cst_3, main_call10_v13, main_call10_cst_4, main_call10_call0_v0, main_call10_call0_v1, main_v118, main_v119, main_v120, main_cst_16, main_v121, main_v122, main_v123, main_v124, main_v125, main_v126, main_v127, main_v128, main_v129, main_v130, main_v131, main_call11_cst, main_call11_v0, main_v132, main_cst_17, main_v133, main_v134, main_v135, main_cst_18, main_v136, main_cst_19, main_v137, main_v138, main_v139, main_cst_20, main_v140, main_v141, main_v142, main_v143, main_v144, main_v145]

set_option maxRecDepth 16384 in
set_option maxHeartbeats 1000000 in
theorem seg2b_writes : (seg2b : List (HloOp τ sig (Elt F))).Forall fun op =>
    op.writes ⊆ (seg2b_W.map (Proc.devRef (τ := τ) .tc)).toFinset :=
  ⟨writes_sub_of_mem main_v108 rfl (by decide), writes_sub_of_mem main_v109 rfl (by decide), writes_sub_of_mem main_v110 rfl (by decide),
    writes_sub_of_mem main_v111 rfl (by decide), writes_sub_of_mem main_v112 rfl (by decide), writes_sub_of_mem main_call9_cst rfl (by decide),
    writes_sub_of_mem main_call9_v0 rfl (by decide), writes_sub_of_mem main_v113 rfl (by decide), writes_sub_of_mem main_cst_13 rfl (by decide),
    writes_sub_of_mem main_v114 rfl (by decide), writes_sub_of_mem main_v115 rfl (by decide), writes_sub_of_mem main_cst_14 rfl (by decide),
    writes_sub_of_mem main_v116 rfl (by decide), writes_sub_of_mem main_v117 rfl (by decide), writes_sub_of_mem main_c_15 rfl (by decide),
    writes_sub_of_mem main_call10_cst rfl (by decide), writes_sub_of_mem main_call10_v0 rfl (by decide), writes_sub_of_mem main_call10_v1 rfl (by decide),
    writes_sub_of_mem main_call10_cst_0 rfl (by decide), writes_sub_of_mem main_call10_v2 rfl (by decide), writes_sub_of_mem main_call10_v3 rfl (by decide),
    writes_sub_of_mem main_call10_v4 rfl (by decide), writes_sub_of_mem main_call10_v5 rfl (by decide), writes_sub_of_mem main_call10_v6 rfl (by decide),
    writes_sub_of_mem main_call10_v7 rfl (by decide), writes_sub_of_mem main_call10_cst_1 rfl (by decide), writes_sub_of_mem main_call10_v8 rfl (by decide),
    writes_sub_of_mem main_call10_cst_2 rfl (by decide), writes_sub_of_mem main_call10_v9 rfl (by decide), writes_sub_of_mem main_call10_v10 rfl (by decide),
    writes_sub_of_mem main_call10_v11 rfl (by decide), writes_sub_of_mem main_call10_v12 rfl (by decide), writes_sub_of_mem main_call10_cst_3 rfl (by decide),
    writes_sub_of_mem main_call10_v13 rfl (by decide), writes_sub_of_mem main_call10_cst_4 rfl (by decide), writes_sub_of_mem main_call10_call0_v0 rfl (by decide),
    writes_sub_of_mem main_call10_call0_v1 rfl (by decide), writes_sub_of_mem main_v118 rfl (by decide), writes_sub_of_mem main_v119 rfl (by decide),
    writes_sub_of_mem main_v120 rfl (by decide), writes_sub_of_mem main_cst_16 rfl (by decide), writes_sub_of_mem main_v121 rfl (by decide),
    writes_sub_of_mem main_v122 rfl (by decide), writes_sub_of_mem main_v123 rfl (by decide), writes_sub_of_mem main_v124 rfl (by decide),
    writes_sub_of_mem main_v125 rfl (by decide), writes_sub_of_mem main_v126 rfl (by decide), writes_sub_of_mem main_v127 rfl (by decide),
    writes_sub_of_mem main_v128 rfl (by decide), writes_sub_of_mem main_v129 rfl (by decide), writes_sub_of_mem main_v130 rfl (by decide),
    writes_sub_of_mem main_v131 rfl (by decide), writes_sub_of_mem main_call11_cst rfl (by decide), writes_sub_of_mem main_call11_v0 rfl (by decide),
    writes_sub_of_mem main_v132 rfl (by decide), writes_sub_of_mem main_cst_17 rfl (by decide), writes_sub_of_mem main_v133 rfl (by decide),
    writes_sub_of_mem main_v134 rfl (by decide), writes_sub_of_mem main_v135 rfl (by decide), writes_sub_of_mem main_cst_18 rfl (by decide),
    writes_sub_of_mem main_v136 rfl (by decide), writes_sub_of_mem main_cst_19 rfl (by decide), writes_sub_of_mem main_v137 rfl (by decide),
    writes_sub_of_mem main_v138 rfl (by decide), writes_sub_of_mem main_v139 rfl (by decide), writes_sub_of_mem main_cst_20 rfl (by decide),
    writes_sub_of_mem main_v140 rfl (by decide), writes_sub_of_mem main_v141 rfl (by decide), writes_sub_of_mem main_v142 rfl (by decide),
    writes_sub_of_mem main_v143 rfl (by decide), writes_sub_of_mem main_v144 rfl (by decide), writes_sub_of_mem main_v145 rfl (by decide)⟩

/-- Part 2b keeps every buffer it does not write. -/
theorem keep2b (W : Valuation τ sig (Elt F)) (r : Ref sig .tc) (h : r ∉ seg2b_W) :
    after seg2b W (Proc.devRef .tc r) = W (Proc.devRef .tc r) :=
  after_of_writes_sub seg2b W seg2b_writes h

set_option maxRecDepth 16384 in
set_option maxHeartbeats 2000000 in
theorem ops0_split : (ops0 : List (HloOp τ sig (Elt F))) = seg0a ++ seg0b := rfl

set_option maxRecDepth 16384 in
set_option maxHeartbeats 2000000 in
theorem ops1_split : (ops1 : List (HloOp τ sig (Elt F))) = seg1 := rfl

set_option maxRecDepth 16384 in
set_option maxHeartbeats 2000000 in
theorem ops2_split : (ops2 : List (HloOp τ sig (Elt F))) = seg2a ++ seg2b := rfl

/-- The whole line's fold is the five parts' folds in order. -/
theorem after_ops_parts (V : Valuation τ sig (Elt F)) :
    after ops V = after seg2b (after seg2a (after seg1 (after seg0b (after seg0a V)))) := by
  rw [show (ops : List (HloOp τ sig (Elt F))) = ops0 ++ (ops1 ++ ops2) from rfl, ops0_split, ops1_split, ops2_split,
    after_append, after_append, after_append, after_append]

end Cert.ReferenceIdeal.RefRun

end
-- ==== Proof.RefRun.Windows.lean ====
/- The five parts of the reference's line read one at a time, at the ideal values: from any contents `W` of the buffers
   before a part, each buffer the later parts read holds, after the part, the named stage function of `W` at the buffers
   the part reads. Each is the part's fold computed: every operation's result at its own buffer is its function of its
   operands' contents, at any other buffer what was there; what remains are the stage functions unfolded. -/
import proofs.«120260_j56453050139301_2_alg».proof.Proof.RefRun.Segs
import proofs.«120260_j56453050139301_2_alg».proof.Proof.Terms

noncomputable section

namespace Cert.ReferenceIdeal.RefRun

open Cert.ReferenceIdeal Cert.ReferenceIdeal.Facts₀ Idealize.ShloMosaic Idealize.ShloMosaic.TcCoe Idealize.SL.Sem Idealize.ShloMosaic.StableHlo
open Cert.ReferenceIdeal.Chain Cert.ReferenceIdeal.Stage

set_option Elab.async false

/-! ### Part 0a: the edge endpoints and the gathered source rows -/

set_option maxRecDepth 16384 in
set_option maxHeartbeats 2000000 in
theorem w0a_v1 (W : Valuation τ sig (Elt Ideal)) :
    after seg0a W (Proc.devRef .tc main_v1) =
      srcIdx (W (Proc.devRef .tc main_arg2)) := by
  simp only [seg0a]
  after_results_simp
  all_goals rfl

set_option maxRecDepth 16384 in
set_option maxHeartbeats 2000000 in
theorem w0a_v3 (W : Valuation τ sig (Elt Ideal)) :
    after seg0a W (Proc.devRef .tc main_v3) =
      dstIdx (W (Proc.devRef .tc main_arg2)) := by
  simp only [seg0a]
  after_results_simp
  all_goals rfl

set_option maxRecDepth 16384 in
set_option maxHeartbeats 2000000 in
theorem w0a_v10 (W : Valuation τ sig (Elt Ideal)) :
    after seg0a W (Proc.devRef .tc main_v10) =
      gatherRows (W (Proc.devRef .tc main_arg0)) (srcIdx (W (Proc.devRef .tc main_arg2))) := by
  simp only [seg0a]
  after_results_simp
  all_goals rfl

/-! ### Part 0b: the initial messages, the first step, and the second step's first product -/

set_option maxRecDepth 16384 in
set_option maxHeartbeats 2000000 in
theorem w0b_v16 (W : Valuation τ sig (Elt Ideal)) :
    after seg0b W (Proc.devRef .tc main_v16) =
      (edge (W (Proc.devRef .tc main_v10)) (W (Proc.devRef .tc main_arg1)) (W (Proc.devRef .tc main_arg4)) (W (Proc.devRef .tc main_arg5))) := by
  simp only [seg0b]
  after_results_simp
  simp only [edge]

set_option maxRecDepth 16384 in
set_option maxHeartbeats 2000000 in
theorem w0b_v38 (W : Valuation τ sig (Elt Ideal)) :
    after seg0b W (Proc.devRef .tc main_v38) =
      (step (edge (W (Proc.devRef .tc main_v10)) (W (Proc.devRef .tc main_arg1)) (W (Proc.devRef .tc main_arg4)) (W (Proc.devRef .tc main_arg5))) (edge (W (Proc.devRef .tc main_v10)) (W (Proc.devRef .tc main_arg1)) (W (Proc.devRef .tc main_arg4)) (W (Proc.devRef .tc main_arg5))) (gatherRows (segSum (W (Proc.devRef .tc main_v3)) (edge (W (Proc.devRef .tc main_v10)) (W (Proc.devRef .tc main_arg1)) (W (Proc.devRef .tc main_arg4)) (W (Proc.devRef .tc main_arg5)))) (W (Proc.devRef .tc main_v3))) (W (Proc.devRef .tc main_arg6)) (W (Proc.devRef .tc main_arg7)) (W (Proc.devRef .tc main_arg8)) (W (Proc.devRef .tc main_arg9))) := by
  simp only [seg0b]
  after_results_simp
  simp only [step, edge, gatherRows, segSum, col, wrap, reluE, biasE]

set_option maxRecDepth 16384 in
set_option maxHeartbeats 2000000 in
theorem w0b_v50 (W : Valuation τ sig (Elt Ideal)) :
    after seg0b W (Proc.devRef .tc main_v50) =
      Host.dotGeneral (φ₂ := .f32) dot_S1000000x64_S64x64_S1000000x64_1_0_0_1_n_n none (subf (gatherRows (segSum (W (Proc.devRef .tc main_v3)) (step (edge (W (Proc.devRef .tc main_v10)) (W (Proc.devRef .tc main_arg1)) (W (Proc.devRef .tc main_arg4)) (W (Proc.devRef .tc main_arg5))) (edge (W (Proc.devRef .tc main_v10)) (W (Proc.devRef .tc main_arg1)) (W (Proc.devRef .tc main_arg4)) (W (Proc.devRef .tc main_arg5))) (gatherRows (segSum (W (Proc.devRef .tc main_v3)) (edge (W (Proc.devRef .tc main_v10)) (W (Proc.devRef .tc main_arg1)) (W (Proc.devRef .tc main_arg4)) (W (Proc.devRef .tc main_arg5)))) (W (Proc.devRef .tc main_v3))) (W (Proc.devRef .tc main_arg6)) (W (Proc.devRef .tc main_arg7)) (W (Proc.devRef .tc main_arg8)) (W (Proc.devRef .tc main_arg9)))) (W (Proc.devRef .tc main_v3))) (step (edge (W (Proc.devRef .tc main_v10)) (W (Proc.devRef .tc main_arg1)) (W (Proc.devRef .tc main_arg4)) (W (Proc.devRef .tc main_arg5))) (edge (W (Proc.devRef .tc main_v10)) (W (Proc.devRef .tc main_arg1)) (W (Proc.devRef .tc main_arg4)) (W (Proc.devRef .tc main_arg5))) (gatherRows (segSum (W (Proc.devRef .tc main_v3)) (edge (W (Proc.devRef .tc main_v10)) (W (Proc.devRef .tc main_arg1)) (W (Proc.devRef .tc main_arg4)) (W (Proc.devRef .tc main_arg5)))) (W (Proc.devRef .tc main_v3))) (W (Proc.devRef .tc main_arg6)) (W (Proc.devRef .tc main_arg7)) (W (Proc.devRef .tc main_arg8)) (W (Proc.devRef .tc main_arg9)))) (W (Proc.devRef .tc main_arg6)) := by
  simp only [seg0b]
  after_results_simp
  simp only [step, edge, gatherRows, segSum, col, wrap, reluE, biasE]

set_option maxRecDepth 16384 in
set_option maxHeartbeats 2000000 in
theorem w0b_v51 (W : Valuation τ sig (Elt Ideal)) :
    after seg0b W (Proc.devRef .tc main_v51) =
      broadcastInDim S1x64 ![1] bcast_S64_S1x64_1 (W (Proc.devRef .tc main_arg7)) := by
  simp only [seg0b]
  after_results_simp
  all_goals rfl

/-! ### Part 1: the rest of the second step, the third and the fourth -/

set_option maxRecDepth 16384 in
set_option maxHeartbeats 2000000 in
theorem w1_v104 (W : Valuation τ sig (Elt Ideal)) :
    after seg1 W (Proc.devRef .tc main_v104) =
      (step (W (Proc.devRef .tc main_v16)) (step (W (Proc.devRef .tc main_v16)) (reluE (addf (addf (W (Proc.devRef .tc main_v16)) (Host.dotGeneral (φ₂ := .f32) dot_S1000000x64_S64x64_S1000000x64_1_0_0_1_n_n none (reluE (addf (W (Proc.devRef .tc main_v50)) (broadcastInDim S1000000x64 ![0, 1] bcast_S1x64_S1000000x64_0_1 (W (Proc.devRef .tc main_v51))))) (W (Proc.devRef .tc main_arg8)))) (biasE (W (Proc.devRef .tc main_arg9))))) (gatherRows (segSum (W (Proc.devRef .tc main_v3)) (reluE (addf (addf (W (Proc.devRef .tc main_v16)) (Host.dotGeneral (φ₂ := .f32) dot_S1000000x64_S64x64_S1000000x64_1_0_0_1_n_n none (reluE (addf (W (Proc.devRef .tc main_v50)) (broadcastInDim S1000000x64 ![0, 1] bcast_S1x64_S1000000x64_0_1 (W (Proc.devRef .tc main_v51))))) (W (Proc.devRef .tc main_arg8)))) (biasE (W (Proc.devRef .tc main_arg9)))))) (W (Proc.devRef .tc main_v3))) (W (Proc.devRef .tc main_arg6)) (W (Proc.devRef .tc main_arg7)) (W (Proc.devRef .tc main_arg8)) (W (Proc.devRef .tc main_arg9))) (gatherRows (segSum (W (Proc.devRef .tc main_v3)) (step (W (Proc.devRef .tc main_v16)) (reluE (addf (addf (W (Proc.devRef .tc main_v16)) (Host.dotGeneral (φ₂ := .f32) dot_S1000000x64_S64x64_S1000000x64_1_0_0_1_n_n none (reluE (addf (W (Proc.devRef .tc main_v50)) (broadcastInDim S1000000x64 ![0, 1] bcast_S1x64_S1000000x64_0_1 (W (Proc.devRef .tc main_v51))))) (W (Proc.devRef .tc main_arg8)))) (biasE (W (Proc.devRef .tc main_arg9))))) (gatherRows (segSum (W (Proc.devRef .tc main_v3)) (reluE (addf (addf (W (Proc.devRef .tc main_v16)) (Host.dotGeneral (φ₂ := .f32) dot_S1000000x64_S64x64_S1000000x64_1_0_0_1_n_n none (reluE (addf (W (Proc.devRef .tc main_v50)) (broadcastInDim S1000000x64 ![0, 1] bcast_S1x64_S1000000x64_0_1 (W (Proc.devRef .tc main_v51))))) (W (Proc.devRef .tc main_arg8)))) (biasE (W (Proc.devRef .tc main_arg9)))))) (W (Proc.devRef .tc main_v3))) (W (Proc.devRef .tc main_arg6)) (W (Proc.devRef .tc main_arg7)) (W (Proc.devRef .tc main_arg8)) (W (Proc.devRef .tc main_arg9)))) (W (Proc.devRef .tc main_v3))) (W (Proc.devRef .tc main_arg6)) (W (Proc.devRef .tc main_arg7)) (W (Proc.devRef .tc main_arg8)) (W (Proc.devRef .tc main_arg9))) := by
  simp only [seg1]
  after_results_simp
  simp only [step, edge, gatherRows, segSum, col, wrap, reluE, biasE]

set_option maxRecDepth 16384 in
set_option maxHeartbeats 2000000 in
theorem w1_cst_12 (W : Valuation τ sig (Elt Ideal)) :
    after seg1 W (Proc.devRef .tc main_cst_12) =
      constant (F := Ideal) S_ .f32 0x00000000#32 := by
  simp only [seg1]
  after_results_simp
  all_goals rfl

/-! ### Part 2a: the node sums by source -/

set_option maxRecDepth 16384 in
set_option maxHeartbeats 2000000 in
theorem w2a_v107 (W : Valuation τ sig (Elt Ideal)) :
    after seg2a W (Proc.devRef .tc main_v107) =
      (Host.scatterAdd scatter_S100000x64_S1000000x1_S1000000x64_1_0_0_1 (broadcastInDim S100000x64 ![] bcast_S_S100000x64 ((W (Proc.devRef .tc main_cst_12)) : FVec Ideal S_ .f32)) (col (W (Proc.devRef .tc main_v1))) ((W (Proc.devRef .tc main_v104)) : FVec Ideal S1000000x64 .f32) : FVec Ideal S100000x64 .f32) := by
  simp only [seg2a]
  after_results_simp
  simp only [Cert.ReferenceIdeal.Chain.col]

/-! ### Part 2b: the node update and the read-out -/

set_option maxRecDepth 16384 in
set_option maxHeartbeats 2000000 in
theorem w2b_v145 (W : Valuation τ sig (Elt Ideal)) :
    after seg2b W (Proc.devRef .tc main_v145) =
      pool (final (W (Proc.devRef .tc main_arg0)) (W (Proc.devRef .tc main_v107)) (W (Proc.devRef .tc main_arg10)) (W (Proc.devRef .tc main_arg11)) (W (Proc.devRef .tc main_arg12)) (W (Proc.devRef .tc main_arg13))) (W (Proc.devRef .tc main_arg3)) (W (Proc.devRef .tc main_arg14)) := by
  simp only [seg2b]
  after_results_simp
  simp only [Cert.ReferenceIdeal.Chain.pool, Cert.ReferenceIdeal.Stage.final, Cert.ReferenceIdeal.Stage.normed, Cert.ReferenceIdeal.Stage.finalRow, Cert.ReferenceIdeal.Stage.rowVar, Cert.ReferenceIdeal.Stage.varDen, Cert.ReferenceIdeal.Stage.rowMean, Cert.ReferenceIdeal.Stage.rowSum, Cert.ReferenceIdeal.Stage.across, Cert.ReferenceIdeal.Stage.reluN, Cert.ReferenceIdeal.Stage.biasN]

end Cert.ReferenceIdeal.RefRun

end
-- ==== Proof.RefRun.Res.lean ====
/- The reference's result as one function of its fifteen arguments. The whole line's fold at the result buffer is the last
   part's read-out of the contents before it; those are the earlier parts' stage functions of the contents before them, an
   argument passing through every part unchanged; substituted back to the launch contents, the stages compose to the
   reference's term: four message-passing steps from the initial messages, the node sums by source, the node update and
   the graph read-out. -/
import proofs.«120260_j56453050139301_2_alg».proof.Proof.RefRun.Windows
import proofs.«120260_j56453050139301_2_alg».proof.Proof.RefRun

noncomputable section

namespace Cert.ReferenceIdeal.RefRun

open Cert.ReferenceIdeal Cert.ReferenceIdeal.Facts₀ Idealize.ShloMosaic Idealize.ShloMosaic.TcCoe Idealize.SL.Sem Idealize.ShloMosaic.StableHlo
open Cert.ReferenceIdeal.Chain Cert.ReferenceIdeal.Stage

set_option maxRecDepth 16384 in
set_option maxHeartbeats 2000000 in
theorem res_eq (V : Valuation τ sig (Elt Ideal)) :
    after ops V (Proc.devRef .tc main_v145) =
      Cert.Bridge.refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_ops_parts, w2b_v145]
  rw [keep2a _ main_arg0 (by decide), keep2a _ main_arg3 (by decide), keep2a _ main_arg10 (by decide), keep2a _ main_arg11 (by decide), keep2a _ main_arg12 (by decide), keep2a _ main_arg13 (by decide), keep2a _ main_arg14 (by decide), w2a_v107]
  rw [keep1 _ main_arg0 (by decide), keep1 _ main_arg3 (by decide), keep1 _ main_arg10 (by decide), keep1 _ main_arg11 (by decide), keep1 _ main_arg12 (by decide), keep1 _ main_arg13 (by decide), keep1 _ main_arg14 (by decide), keep1 _ main_v1 (by decide), w1_cst_12, w1_v104]
  rw [keep0b _ main_arg0 (by decide), keep0b _ main_arg3 (by decide), keep0b _ main_arg6 (by decide), keep0b _ main_arg7 (by decide), keep0b _ main_arg8 (by decide), keep0b _ main_arg9 (by decide), keep0b _ main_arg10 (by decide), keep0b _ main_arg11 (by decide), keep0b _ main_arg12 (by decide), keep0b _ main_arg13 (by decide), keep0b _ main_arg14 (by decide), keep0b _ main_v1 (by decide), keep0b _ main_v3 (by decide), w0b_v16, w0b_v50, w0b_v51]
  rw [keep0a _ main_arg0 (by decide), keep0a _ main_arg1 (by decide), keep0a _ main_arg3 (by decide), keep0a _ main_arg4 (by decide), keep0a _ main_arg5 (by decide), keep0a _ main_arg6 (by decide), keep0a _ main_arg7 (by decide), keep0a _ main_arg8 (by decide), keep0a _ main_arg9 (by decide), keep0a _ main_arg10 (by decide), keep0a _ main_arg11 (by decide), keep0a _ main_arg12 (by decide), keep0a _ main_arg13 (by decide), keep0a _ main_arg14 (by decide), w0a_v1, w0a_v3, w0a_v10]
  simp only [Cert.Bridge.refTerm, step, biasE, segSum]

/-- At the ideal instance, from any memory with zero counters: every weakly fair execution of the reference terminates
    with its result at the reference's term of the argument arrays, and the arguments unchanged. -/
theorem run_term (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v145) =
        Cert.Bridge.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1.trans (res_eq (launchContents m c)), (h c).2⟩) (run (F := Ideal) m ρ)

end Cert.ReferenceIdeal.RefRun

end
-- ==== Proof.StageStep.lean ====
/-
  The reference's message-passing step against the specification. Entry `(e, j)` of the reference's step is
  `max ((h⁰ (e, j) + ∑ₖ a (e, k) · W₂ (k, j)) + b₂ j) 0` with the hidden row `a (e, k) = max (∑ₗ (g (e, l) - h (e, l)) · W₁ (l, k) + b₁ k) 0`;
  the specification adds the bias to the product first: `h⁰ + (∑ + b₂)`. Addition of extended reals is associative, so
  the two are one number. Each bias is read through its two broadcasts on one side and through its recast as a
  one-row matrix on the other.
-/
import proofs.«120260_j56453050139301_2_alg».proof.Proof.Terms

noncomputable section

namespace Cert.Bridge
open Idealize.ShloMosaic Idealize.ShloMosaic.ValueIdx
open Cert.ReferenceIdeal.Stage Cert.KernelIdeal.Prep

/-- A bias vector read down the edge rows, at `(e, j)`, is the vector at `j`. -/
theorem biasE_apply (b : (⟨1, ![64]⟩ : Shape).Idx → EReal) (e : Fin 1000000) (j : Fin 64) : biasE b (ix2 e j) = b (ix1 j) := by
  unfold biasE
  rw [broadcastInDim_oneRow_apply, bcastRow_apply]

/-- `relu` over the edge rows, entry by entry. -/
theorem reluE_apply (v : Cert.Spec.Mat 1000000 64) (i : (⟨2, ![1000000, 64]⟩ : Shape).Idx) : reluE v i = max (v i) 0 := by
  unfold reluE
  rw [maximumf_apply, bcastScalar_apply, constant_apply, Ideal.ofBits_zero_f32]

/-- The plain product of the edge rows with a 64×64 matrix, entry by entry. -/
theorem dotE_apply (a : FVec Ideal Cert.ReferenceIdeal.S1000000x64 .f32) (w : FVec Ideal Cert.ReferenceIdeal.S64x64 .f32) (e : Fin 1000000) (j : Fin 64) :
    Host.dotGeneral (F := Ideal) Cert.ReferenceIdeal.dot_S1000000x64_S64x64_S1000000x64_1_0_0_1_n_n none a w (ix2 e j)
      = ∑ k : Fin 64, a (ix2 e k) * w (ix2 k j) := by
  have hd : Cert.ReferenceIdeal.dot_S1000000x64_S64x64_S1000000x64_1_0_0_1_n_n = DotDims.plain 1000000 64 64 := rfl
  rw [hd, StackMember.dotGeneral_plain_apply]

/-- The reference's step IS the specification's step of the same arrays, the biases as one-row matrices. -/
theorem step_eq (h0 h g : Cert.Spec.Mat 1000000 64) (w1 : Cert.Spec.Mat 64 64) (b1 : (⟨1, ![64]⟩ : Shape).Idx → EReal)
    (w2 : Cert.Spec.Mat 64 64) (b2 : (⟨1, ![64]⟩ : Shape).Idx → EReal) :
    step h0 h g w1 b1 w2 b2 = Cert.Spec.step h0 h g w1 (row b1) w2 (row b2) := by
  funext i
  obtain ⟨e, j, rfl⟩ : ∃ (e : Fin 1000000) (j : Fin 64), i = ix2 e j := ⟨i 0, i 1, eq_ix2 i⟩
  show step h0 h g w1 b1 w2 b2 (ix2 e j) = Cert.Spec.stepAt h0 h g w1 (row b1) w2 (row b2) e j
  unfold step Cert.Spec.stepAt
  rw [reluE_apply, addf_apply, addf_apply, dotE_apply, biasE_apply, add_assoc]
  have hr2 : row b2 (ix2 (0 : Fin 1) j) = b2 (ix1 j) := castRow_apply _ b2 j
  rw [hr2]
  refine congrArg (fun s => max (h0 (ix2 e j) + (s + b2 (ix1 j))) 0) (Finset.sum_congr rfl fun k _ => ?_)
  refine congrArg (· * w2 (ix2 k j)) ?_
  unfold Cert.Spec.stepHiddenAt
  rw [reluE_apply, addf_apply, dotE_apply, biasE_apply]
  have hr1 : row b1 (ix2 (0 : Fin 1) k) = b1 (ix1 k) := castRow_apply _ b1 k
  rw [hr1]
  rfl

end Cert.Bridge

end
-- ==== Proof.StageFinal.lean ====
/-
  The reference's node update with layer normalisation against the specification. Entry `(n, j)` of the reference's
  row before normalisation is `max (∑ over the 128 coordinates of [x_n | s_n] against the whole weight matrix + b j) 0`;
  a sum over 128 = 64 + 64 coordinates splits into the sum over the first 64 and the sum over the last 64, and on each
  half the concatenated row reads its own piece, so it is the specification's `relu (x_n · W_top + s_n · W_bot + b)`.
  The row sum is the host's reduction from the zero word, the row mean its quotient by the word of 64; the variance's
  divisor `64 - 0` is that same word, the guard `64 - 0 > 0` holds because the word denotes sixty-four, so the guarded
  variance is the mean of the squared deviations; the reciprocal square root and the stabiliser are the same on both
  sides. The scale and the shift are read through their two broadcasts on one side and through their recast as one-row
  matrices on the other.
-/
import proofs.«120260_j56453050139301_2_alg».proof.Proof.StageStep

noncomputable section

namespace Cert.Bridge
open Idealize.ShloMosaic Idealize.ShloMosaic.ValueIdx
open Cert.ReferenceIdeal.Stage Cert.KernelIdeal.Prep

/-- A vector of 64 entries read down the node rows, at `(n, j)`, is the vector at `j`. -/
theorem biasN_apply (b : (⟨1, ![64]⟩ : Shape).Idx → EReal) (n : Fin 100000) (j : Fin 64) : biasN b (ix2 n j) = b (ix1 j) := by
  unfold biasN
  rw [broadcastInDim_oneRow_apply, bcastRow_apply]

/-- `relu` over the node rows, entry by entry. -/
theorem reluN_apply (v : Cert.Spec.Mat 100000 64) (i : (⟨2, ![100000, 64]⟩ : Shape).Idx) : reluN v i = max (v i) 0 := by
  unfold reluN
  rw [maximumf_apply, bcastScalar_apply, constant_apply, Ideal.ofBits_zero_f32]

/-- A column of row values read across the columns, at `(n, j)`, is the column at row `n`. -/
theorem across_apply (v : (⟨2, ![100000, 1]⟩ : Shape).Idx → EReal) (n : Fin 100000) (j : Fin 64) :
    across v (ix2 n j) = v (ix2 n (0 : Fin 1)) := by
  unfold across
  refine broadcastInDim_apply ![0, 1] _ v (ix2 n j) (ix2 n (0 : Fin 1)) ?_
  intro a
  match a with
  | ⟨0, _⟩ => show n.val = if (100000 : ℕ) = 1 then 0 else n.val; simp
  | ⟨1, _⟩ => show (0 : ℕ) = if (1 : ℕ) = 1 then 0 else j.val; simp

/-- A scalar broadcast down a column, read anywhere, is the scalar. -/
theorem colScalar_apply (h : (⟨0, ![]⟩ : Shape).BroadcastsInDim ⟨2, ![100000, 1]⟩ ![]) (x : (⟨0, ![]⟩ : Shape).Idx → EReal) (n : Fin 100000) :
    broadcastInDim ⟨2, ![100000, 1]⟩ ![] h x (ix2 n (0 : Fin 1)) = x ix0 := bcastScalar_apply h x _

/-- The row sums: the column's entry at row `n` is the sum of the row's 64 entries. -/
theorem rowSum_apply (r : Cert.Spec.Mat 100000 64) (n : Fin 100000) :
    rowSum r (ix2 n (0 : Fin 1)) = ∑ j : Fin 64, r (ix2 n j) := by
  unfold rowSum
  have hk : ∀ a : Fin 1, ((ix1 n : (⟨1, ![100000]⟩ : Shape).Idx) a).val
      = if (⟨1, ![100000]⟩ : Shape).size a = 1 then 0 else ((ix2 n (0 : Fin 1) : (⟨2, ![100000, 1]⟩ : Shape).Idx) ((![0] : Fin 1 → Fin 2) a)).val := by
    intro a
    match a with
    | ⟨0, _⟩ => show n.val = if (100000 : ℕ) = 1 then 0 else n.val; simp
  rw [broadcastInDim_apply ![0] _ _ (ix2 n (0 : Fin 1)) (ix1 n) hk, hostReduceAdd_apply]
  have hred : Shape.Reduces ⟨2, ![100000, 64]⟩ [1] ⟨1, ![100000]⟩ := by decide
  rw [Ideal.hostReduceAdd_single _ hred, constant_apply, Ideal.ofBits_zero_f32, zero_add]
  show (∑ k : Fin 64, r (hred.lift (ix1 n) k)) = _
  refine Finset.sum_congr rfl fun k _ => congrArg r ?_
  funext a
  match a with
  | ⟨0, _⟩ => exact Fin.ext rfl
  | ⟨1, _⟩ => exact Fin.ext rfl

/-- The row means: the column's entry at row `n` is the row sum over the word of 64. -/
theorem rowMean_apply (r : Cert.Spec.Mat 100000 64) (n : Fin 100000) :
    rowMean r (ix2 n (0 : Fin 1)) = Ideal.div (∑ j : Fin 64, r (ix2 n j)) Cert.Spec.c64 := by
  unfold rowMean
  rw [hostDivf_apply, rowSum_apply, colScalar_apply, constant_apply]

/-- The word `0x42800000` denotes sixty-four. -/
theorem c64_eq : Cert.Spec.c64 = ((64 : ℝ) : EReal) := by
  show Ideal.ofBits .f32 0x42800000#32 = _
  simp [Ideal.ofBits, Ideal.ieee, -EReal.coe_mul]; norm_num

/-- With no degrees of freedom given up the variance's divisor is the word of 64: the integer word zero converts to
    the real zero. -/
theorem varDen_zero : varDen (constantI Cert.ReferenceIdeal.S_ 32 0#32) ix0 = Cert.Spec.c64 := by
  unfold varDen
  rw [subf_apply, constant_apply, sitofp_apply]
  show Cert.Spec.c64 - ((((0#32 : BitVec 32).toInt : ℝ)) : EReal) = Cert.Spec.c64
  simp

/-- The guard `64 - 0 > 0` holds. -/
theorem guard_one : cmpf .ogt (varDen (constantI Cert.ReferenceIdeal.S_ 32 0#32)) (constant (F := Ideal) Cert.ReferenceIdeal.S_ .f32 0x00000000#32) ix0 = 1#1 := by
  rw [cmpf_apply, varDen_zero, constant_apply, Ideal.ofBits_zero_f32, Ideal.cmpf_def, c64_eq]
  have h : (0 : EReal) < ((64 : ℝ) : EReal) := EReal.coe_pos.mpr (by norm_num)
  simp [Ideal.cmp, h]

/-- The reference's row variance with no degrees of freedom given up: the guard holds, so the column's entry at row
    `n` is the mean of the squared deviations from the row mean. -/
theorem rowVar_apply (r : Cert.Spec.Mat 100000 64) (n : Fin 100000) :
    rowVar r (constantI Cert.ReferenceIdeal.S_ 32 0#32) (ix2 n (0 : Fin 1))
      = Ideal.div (∑ j : Fin 64, (r (ix2 n j) - Ideal.div (∑ l : Fin 64, r (ix2 n l)) Cert.Spec.c64) * (r (ix2 n j) - Ideal.div (∑ l : Fin 64, r (ix2 n l)) Cert.Spec.c64)) Cert.Spec.c64 := by
  unfold rowVar
  rw [select_apply, broadcastInDim_scalar_apply, guard_one, select_one, hostDivf_apply, rowSum_apply, colScalar_apply, varDen_zero]
  refine congrArg (fun t => Ideal.div t Cert.Spec.c64) (Finset.sum_congr rfl fun j _ => ?_)
  rw [mulf_apply, subf_apply, across_apply, rowMean_apply]

/-- The host's reciprocal square root, entry by entry. -/
theorem hostRsqrt_apply {T : Shape} (v : FVec Ideal T .f32) (i : T.Idx) : Host.rsqrt v i = Ideal.rsqrt (v i) := rfl

/-- The reference's layer normalisation of a row array `r`, entry by entry: the deviation from the row mean times the
    reciprocal root of the stabilised row variance, scaled and shifted, then `relu`. -/
theorem normed_apply (r : Cert.Spec.Mat 100000 64) (g b : (⟨1, ![64]⟩ : Shape).Idx → EReal) (n : Fin 100000) (j : Fin 64) :
    normed r g b (ix2 n j)
      = max (((r (ix2 n j) - Ideal.div (∑ l : Fin 64, r (ix2 n l)) Cert.Spec.c64)
          * Ideal.rsqrt (Ideal.div (∑ k : Fin 64, (r (ix2 n k) - Ideal.div (∑ l : Fin 64, r (ix2 n l)) Cert.Spec.c64) * (r (ix2 n k) - Ideal.div (∑ l : Fin 64, r (ix2 n l)) Cert.Spec.c64)) Cert.Spec.c64 + Cert.Spec.cEps))
          * g (ix1 j) + b (ix1 j)) 0 := by
  unfold normed
  rw [reluN_apply, addf_apply, mulf_apply, mulf_apply, subf_apply, across_apply, across_apply, rowMean_apply, biasN_apply, biasN_apply,
    hostRsqrt_apply, addf_apply, rowVar_apply, colScalar_apply, constant_apply]

/-- The node's row before normalisation, entry by entry, is the specification's: the sum over the 128 = 64 + 64
    coordinates of the concatenated row splits into the sum over `x`'s against the top half of the weight matrix and the
    sum over `s`'s against its bottom half. -/
theorem finalRow_apply (x s : Cert.Spec.Mat 100000 64) (wf : Cert.Spec.Mat 128 64) (bf : (⟨1, ![64]⟩ : Shape).Idx → EReal)
    (n : Fin 100000) (j : Fin 64) :
    finalRow x s wf bf (ix2 n j) = Cert.Spec.finalRowAt x s (wfTop wf) (wfBot wf) (row bf) n j := by
  unfold finalRow Cert.Spec.finalRowAt
  rw [reluN_apply, addf_apply, biasN_apply]
  have hd : Cert.ReferenceIdeal.dot_S100000x128_S128x64_S100000x64_1_0_0_1_n_n = DotDims.plain 100000 128 64 := rfl
  rw [hd, StackMember.dotGeneral_plain_apply]
  have hsplit : ∀ f : Fin 128 → EReal, ∑ c, f c = (∑ k : Fin 64, f (Fin.castAdd 64 k)) + ∑ k : Fin 64, f (Fin.natAdd 64 k) :=
    fun f => Fin.sum_univ_add (a := 64) (b := 64) (f := f)
  rw [hsplit]
  have hx : ∀ k : Fin 64, concatenate Cert.ReferenceIdeal.S100000x128 1 [⟨Cert.ReferenceIdeal.S100000x64, x⟩, ⟨Cert.ReferenceIdeal.S100000x64, s⟩]
      Cert.ReferenceIdeal.Facts₀.concatenates_S100000x64_S100000x64_S100000x128_d1 (ix2 n (Fin.castAdd 64 k)) = x (ix2 n k) :=
    fun k => Cert.LibGatherRows.cat2_apply_fst (R := 100000) (W1 := 64) (W2 := 64) _ x s n k
  have hs : ∀ k : Fin 64, concatenate Cert.ReferenceIdeal.S100000x128 1 [⟨Cert.ReferenceIdeal.S100000x64, x⟩, ⟨Cert.ReferenceIdeal.S100000x64, s⟩]
      Cert.ReferenceIdeal.Facts₀.concatenates_S100000x64_S100000x64_S100000x128_d1 (ix2 n (Fin.natAdd 64 k)) = s (ix2 n k) :=
    fun k => Cert.LibGatherRows.cat2_apply_snd (R := 100000) (W1 := 64) (W2 := 64) _ x s n k
  have ht : ∀ k : Fin 64, wfTop wf (ix2 k j) = wf (ix2 (Fin.castAdd 64 k) j) := fun k => by
    unfold wfTop
    refine extractStridedSlice_apply ![0, 0] wf _ (ix2 k j) (ix2 (Fin.castAdd 64 k) j) ?_
    intro a
    match a with
    | ⟨0, _⟩ => show k.val = 0 + k.val; omega
    | ⟨1, _⟩ => show j.val = 0 + j.val; omega
  have hb : ∀ k : Fin 64, wfBot wf (ix2 k j) = wf (ix2 (Fin.natAdd 64 k) j) := fun k => by
    unfold wfBot
    refine extractStridedSlice_apply ![64, 0] wf _ (ix2 k j) (ix2 (Fin.natAdd 64 k) j) ?_
    intro a
    match a with
    | ⟨0, _⟩ => show 64 + k.val = 64 + k.val; rfl
    | ⟨1, _⟩ => show j.val = 0 + j.val; omega
  have hr : row bf (ix2 (0 : Fin 1) j) = bf (ix1 j) := castRow_apply _ bf j
  rw [hr]
  simp only [hx, hs, ht, hb]

/-- The reference's node update with layer normalisation IS the specification's of the same arrays, with the weight
    matrix cut into its top and bottom 64 rows and the bias, scale and shift as one-row matrices. -/
theorem final_eq (x s : Cert.Spec.Mat 100000 64) (wf : Cert.Spec.Mat 128 64) (bf g b : (⟨1, ![64]⟩ : Shape).Idx → EReal) :
    Cert.ReferenceIdeal.Stage.final x s wf bf g b = Cert.Spec.final x s (wfTop wf) (wfBot wf) (row bf) (row g) (row b) := by
  funext i
  obtain ⟨n, j, rfl⟩ : ∃ (n : Fin 100000) (j : Fin 64), i = ix2 n j := ⟨i 0, i 1, eq_ix2 i⟩
  show normed (finalRow x s wf bf) g b (ix2 n j) = Cert.Spec.finalAt x s (wfTop wf) (wfBot wf) (row bf) (row g) (row b) n j
  rw [normed_apply]
  simp only [finalRow_apply]
  unfold Cert.Spec.finalAt Cert.Spec.finalVarAt Cert.Spec.finalMeanAt
  have hg : row g (ix2 (0 : Fin 1) j) = g (ix1 j) := castRow_apply _ g j
  have hb : row b (ix2 (0 : Fin 1) j) = b (ix1 j) := castRow_apply _ b j
  rw [hg, hb]

end Cert.Bridge

end
-- ==== Proof.Bridge.lean ====
/-
  The two programs' results are one function of the arguments.

  `refTerm` and `kernelTerm` apply the same host operations around three dense stages. Each of the reference's stages
  is the specification's function of the same arrays (`edge_eq`: a sum over 80 = 64 + 16 coordinates split in two;
  `step_eq`: the bias added before or after the skip connection, addition being associative; `final_eq`: the same split
  over 128 = 64 + 64 and the variance's divisor `64 - 0`), and the shared host operations are the same functions in the
  two programs' vocabularies (their dimension numbers are the same literals). Rewriting the three stages and the shared
  names turns one term into the other.
-/
import proofs.«120260_j56453050139301_2_alg».proof.Proof.StageFinal

noncomputable section

namespace Cert.Bridge
open Idealize.ShloMosaic

/-! The shared host operations, named in each program's vocabulary, are the same functions. -/
theorem srcIdx_eq : @Cert.ReferenceIdeal.Chain.srcIdx = @Cert.KernelIdeal.Chain.srcIdx := rfl
theorem dstIdx_eq : @Cert.ReferenceIdeal.Chain.dstIdx = @Cert.KernelIdeal.Chain.dstIdx := rfl
theorem gatherRows_eq : @Cert.ReferenceIdeal.Chain.gatherRows = @Cert.KernelIdeal.Chain.gatherRows := rfl
theorem segSum_eq : @Cert.ReferenceIdeal.Chain.segSum = @Cert.KernelIdeal.Chain.segSum := rfl
theorem pool_eq : @Cert.ReferenceIdeal.Chain.pool = @Cert.KernelIdeal.Chain.pool := rfl

/-- The reference's result term is the kernel's program's, at the same arguments. -/
theorem terms_eq
    (a0 : FVec Ideal Cert.KernelIdeal.S100000x64 .f32) (a1 : FVec Ideal Cert.KernelIdeal.S1000000x16 .f32)
    (a2 : IVec Cert.KernelIdeal.S2x1000000 32) (a3 : IVec Cert.KernelIdeal.S100000 32) (a4 : FVec Ideal Cert.KernelIdeal.S80x64 .f32)
    (a5 : FVec Ideal Cert.KernelIdeal.S64 .f32) (a6 : FVec Ideal Cert.KernelIdeal.S64x64 .f32) (a7 : FVec Ideal Cert.KernelIdeal.S64 .f32)
    (a8 : FVec Ideal Cert.KernelIdeal.S64x64 .f32) (a9 : FVec Ideal Cert.KernelIdeal.S64 .f32) (a10 : FVec Ideal Cert.KernelIdeal.S128x64 .f32)
    (a11 a12 a13 : FVec Ideal Cert.KernelIdeal.S64 .f32) (a14 : FVec Ideal Cert.KernelIdeal.S64x8 .f32) :
    refTerm a0 a1 a2 a3 a4 a5 a6 a7 a8 a9 a10 a11 a12 a13 a14 = kernelTerm a0 a1 a2 a3 a4 a5 a6 a7 a8 a9 a10 a11 a12 a13 a14 := by
  unfold refTerm kernelTerm
  simp only [edge_eq, step_eq, final_eq, srcIdx_eq, dstIdx_eq, gatherRows_eq, segSum_eq, pool_eq]

end Cert.Bridge

end
-- ==== Proof.lean ====
/-
  The kernel's program and the reference compute the same graph read-out, as extended reals.

  The network: the initial edge messages `h⁰ = relu ([x_src | f] · Wᵢ + bᵢ)`; four message-passing steps
  `h ← relu (h⁰ + relu ((S h)[dst] - h) · W₁ + b₁) · W₂ + b₂)`, `S h` the sum of the messages into each node; the node update
  `relu (LayerNorm (relu ([x | S' h] · W_f + b_f)))`, `S' h` the sum of the messages out of each node; and the mean over each
  graph's nodes times the output matrix. The kernel's program runs the three dense stages as tiled kernels over row
  blocks (the first and last with the weight matrix cut in two, every matrix product accumulated into zero); the
  reference runs them as whole-array host operations. Gathers, segment sums and the read-out are the same host
  operations in both.

  * The frames of the kernel's program, as printed and idealized: each of its six kernel regions runs its body at every
    grid point (the body's triple by symbolic execution), the regions and the host stretches between them chain from the
    launch to the return, and no item writes an argument array. In the second region two input windows stage the same
    array; each holds half of its ownership.
  * The reference's frame: its host operations in order, none writing an argument.
  * Nothing was rewritten by the idealization, so it preserves the program trivially.
  * The values: each region leaves in its output array the specification's function of the arrays its windows stage
    (each block is that function's restriction; the blocks cover the array), so the kernel's program ends at
    `kernelTerm` of the arguments; the reference ends at `refTerm`; and the two terms are equal: a sum over
    80 = 64 + 16 (and 128 = 64 + 64) coordinates splits in two, addition is associative, the variance's divisor
    `64 - 0` is `64`. No step needs the inputs finite.
-/
import proofs.«120260_j56453050139301_2_alg».proof.Defs
import proofs.«120260_j56453050139301_2_alg».proof.Proof.K.Frame
import proofs.«120260_j56453050139301_2_alg».proof.Proof.KI.Frame
import proofs.«120260_j56453050139301_2_alg».proof.Proof.KI.RunTerm
import proofs.«120260_j56453050139301_2_alg».proof.Proof.RefRun
import proofs.«120260_j56453050139301_2_alg».proof.Proof.RefRun.Res
import proofs.«120260_j56453050139301_2_alg».proof.Proof.Bridge
import proofs.«120260_j56453050139301_2_alg».proof.Proof.Gen.Pre_finite_inputs

noncomputable section

namespace Cert.Proof

open Idealize.ShloMosaic Idealize.SL.Sem

/-- From memories agreeing on the arguments both programs run and end at one result: the kernel's program at
    `kernelTerm` of its arguments, the reference at `refTerm` of its own, which are the same arrays. -/
theorem algebraic : Cert.algebraic_KernelIdeal_ReferenceIdeal := by
  intro m g m' g' _ hagree
  refine ⟨_, Cert.KernelIdeal.HandValue.run_term m g, ?_⟩
  refine (θ_run Cert.ReferenceIdeal.defs _ _).mono (fun r h c => ⟨(h c).1.trans ?_, (h c).2⟩)
    (Cert.ReferenceIdeal.RefRun.run_term m' g')
  obtain ⟨e0, e1, e2, e3, e4, e5, e6, e7, e8, e9, e10, e11, e12, e13, e14⟩ := hagree c
  rw [e0, e1, e2, e3, e4, e5, e6, e7, e8, e9, e10, e11, e12, e13, e14]
  exact Cert.Bridge.terms_eq _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    Cert.Kernel.Hand.frame_Kernel, Cert.KernelIdeal.Hand.frame_KernelIdeal, Cert.ReferenceIdeal.RefRun.frame_ri, trivial, algebraic⟩

end Cert.Proof

end
